-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v261)) (v1 : (c : Dev Cert.KernelIdeal.nD) → Buf (Elt Ideal) ((c.tc : Thread Cert.KernelIdeal.nD Cert.KernelIdeal.τ).loc Cert.KernelIdeal.main_v262)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v261) = v0 c
          ∧ r.2.mem ((c.tc : Thread Cert.KernelIdeal.nD Cert.KernelIdeal.τ).loc Cert.KernelIdeal.main_v262) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_v327) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x400000 : Shape := ⟨2, ![4, 400000]⟩
abbrev S4x128x256 : Shape := ⟨3, ![4, 128, 256]⟩
abbrev S4x256 : Shape := ⟨2, ![4, 256]⟩
abbrev S4x256x256 : Shape := ⟨3, ![4, 256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S4x256 .f32) (main_arg7 : FVec F S256x128 .f32) (main_arg8 : FVec F S128 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S4x400000 32) (main_arg2 : IVec S4x400000 32) (main_arg3 : FVec F S4x128x256 .f32) (main_arg4 : FVec F S4x256 .f32) (main_arg5 : FVec F S4x256x256 .f32) (main_arg6 : FVec F S4x256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x256 .f32 := Host.absf main_arg3
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S4x256 .f32 := Host.absf main_arg4
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg6 main_arg7 main_arg8 main_v13 main_v16
-- ==== Kernel.lean ====
abbrev S100000x128 : Shape := ⟨2, ![100000, 128]⟩
abbrev S4x400000 : Shape := ⟨2, ![4, 400000]⟩
abbrev S4x128x256 : Shape := ⟨3, ![4, 128, 256]⟩
abbrev S4x256 : Shape := ⟨2, ![4, 256]⟩
abbrev S4x256x256 : Shape := ⟨3, ![4, 256, 256]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S400000x128 : Shape := ⟨2, ![400000, 128]⟩
abbrev S1x100000x128 : Shape := ⟨3, ![1, 100000, 128]⟩
abbrev S4x100000x128 : Shape := ⟨3, ![4, 100000, 128]⟩
abbrev S4x1x256 : Shape := ⟨3, ![4, 1, 256]⟩
abbrev S100000x256 : Shape := ⟨2, ![100000, 256]⟩
abbrev S1x2000x128 : Shape := ⟨3, ![1, 2000, 128]⟩
abbrev S1x128x256 : Shape := ⟨3, ![1, 128, 256]⟩
abbrev S1x1x256 : Shape := ⟨3, ![1, 1, 256]⟩
abbrev S2000x256 : Shape := ⟨2, ![2000, 256]⟩
abbrev S2000x128 : Shape := ⟨2, ![2000, 128]⟩
abbrev S128x256 : Shape := ⟨2, ![128, 256]⟩
abbrev S1x256 : Shape := ⟨2, ![1, 256]⟩
abbrev S400000x256 : Shape := ⟨2, ![400000, 256]⟩
abbrev S1x100000x256 : Shape := ⟨3, ![1, 100000, 256]⟩
abbrev S4x100000x256 : Shape := ⟨3, ![4, 100000, 256]⟩
abbrev S1x2000x256 : Shape := ⟨3, ![1, 2000, 256]⟩
abbrev S1x256x256 : Shape := ⟨3, ![1, 256, 256]⟩
abbrev S256x256 : Shape := ⟨2, ![256, 256]⟩
abbrev S5000x256 : Shape := ⟨2, ![5000, 256]⟩
abbrev S5000x128 : Shape := ⟨2, ![5000, 128]⟩
abbrev S1x128 : Shape := ⟨2, ![1, 128]⟩

abbrev nBuf : Space → Nat
  | .hbm => 368
  | .vmem => 24
  | .smem => 0
  | _ => 0

abbrev hbmTy0_0 (i : Nat) : BufTy := match i % 128 with
  | 0 => ⟨S100000x128, .f32⟩
  | 1 => ⟨S4x400000, .i32⟩
  | 2 => ⟨S4x400000, .i32⟩
  | 3 => ⟨S4x128x256, .f32⟩
  | 4 => ⟨S4x256, .f32⟩
  | 5 => ⟨S4x256x256, .f32⟩
  | 6 => ⟨S4x256, .f32⟩
  | 7 => ⟨S256x128, .f32⟩
  | 8 => ⟨S128, .f32⟩
  | 9 => ⟨S1x400000, .i32⟩
  | 10 => ⟨S400000, .i32⟩
  | 11 => ⟨S1x400000, .i32⟩
  | 12 => ⟨S400000, .i32⟩
  | 13 => ⟨S_, .f32⟩
  | 14 => ⟨S400000, .f32⟩
  | 15 => ⟨S_, .f32⟩
  | 16 => ⟨S100000, .f32⟩
  | 17 => ⟨S400000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S400000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .f32⟩
  | 45 => ⟨S100000x128, .f32⟩
  | 46 => ⟨S400000x1, .i32⟩
  | 47 => ⟨S100000x128, .f32⟩
  | 48 => ⟨S100000, .f32⟩
  | 49 => ⟨S100000x1, .f32⟩
  | 50 => ⟨S100000x128, .f32⟩
  | 51 => ⟨S100000x128, .f32⟩
  | 52 => ⟨S1x400000, .i32⟩
  | 53 => ⟨S400000, .i32⟩
  | 54 => ⟨S1x400000, .i32⟩
  | 55 => ⟨S400000, .i32⟩
  | 56 => ⟨S_, .f32⟩
  | 57 => ⟨S400000, .f32⟩
  | 58 => ⟨S_, .f32⟩
  | 59 => ⟨S100000, .f32⟩
  | 60 => ⟨S400000x1, .i32⟩
  | 61 => ⟨S100000, .f32⟩
  | 62 => ⟨S_, .f32⟩
  | 63 => ⟨S_, .f32⟩
  | 64 => ⟨S100000, .f32⟩
  | 65 => ⟨S100000, .f32⟩
  | 66 => ⟨S_, .f32⟩
  | 67 => ⟨S100000, .f32⟩
  | 68 => ⟨S400000x1, .i32⟩
  | 69 => ⟨S100000, .f32⟩
  | 70 => ⟨S_, .f32⟩
  | 71 => ⟨S_, .f32⟩
  | 72 => ⟨S100000, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .f32⟩
  | 87 => ⟨S_, .f32⟩
  | 88 => ⟨S100000x128, .f32⟩
  | 89 => ⟨S400000x1, .i32⟩
  | 90 => ⟨S100000x128, .f32⟩
  | 91 => ⟨S100000, .f32⟩
  | 92 => ⟨S100000x1, .f32⟩
  | 93 => ⟨S100000x128, .f32⟩
  | 94 => ⟨S100000x128, .f32⟩
  | 95 => ⟨S1x400000, .i32⟩
  | 96 => ⟨S400000, .i32⟩
  | 97 => ⟨S1x400000, .i32⟩
  | 98 => ⟨S400000, .i32⟩
  | 99 => ⟨S_, .f32⟩
  | 100 => ⟨S400000, .f32⟩
  | 101 => ⟨S_, .f32⟩
  | 102 => ⟨S100000, .f32⟩
  | 103 => ⟨S400000x1, .i32⟩
  | 104 => ⟨S100000, .f32⟩
  | 105 => ⟨S_, .f32⟩
  | 106 => ⟨S_, .f32⟩
  | 107 => ⟨S100000, .f32⟩
  | 108 => ⟨S100000, .f32⟩
  | 109 => ⟨S_, .f32⟩
  | 110 => ⟨S100000, .f32⟩
  | 111 => ⟨S400000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S100000x128, .f32⟩

abbrev hbmTy0_1 (i : Nat) : BufTy := match i % 128 with
  | 0 => ⟨S400000x1, .i32⟩
  | 1 => ⟨S400000x128, .f32⟩
  | 2 => ⟨S_, .f32⟩
  | 3 => ⟨S100000x128, .f32⟩
  | 4 => ⟨S400000x1, .i32⟩
  | 5 => ⟨S100000x128, .f32⟩
  | 6 => ⟨S100000, .f32⟩
  | 7 => ⟨S100000x1, .f32⟩
  | 8 => ⟨S100000x128, .f32⟩
  | 9 => ⟨S100000x128, .f32⟩
  | 10 => ⟨S1x400000, .i32⟩
  | 11 => ⟨S400000, .i32⟩
  | 12 => ⟨S1x400000, .i32⟩
  | 13 => ⟨S400000, .i32⟩
  | 14 => ⟨S_, .f32⟩
  | 15 => ⟨S400000, .f32⟩
  | 16 => ⟨S_, .f32⟩
  | 17 => ⟨S100000, .f32⟩
  | 18 => ⟨S400000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S_, .f32⟩
  | 46 => ⟨S100000x128, .f32⟩
  | 47 => ⟨S400000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S1x100000x128, .f32⟩
  | 54 => ⟨S1x100000x128, .f32⟩
  | 55 => ⟨S1x100000x128, .f32⟩
  | 56 => ⟨S1x100000x128, .f32⟩
  | 57 => ⟨S4x100000x128, .f32⟩
  | 58 => ⟨S4x1x256, .f32⟩
  | 59 => ⟨S100000x256, .f32⟩
  | 60 => ⟨S1x400000, .i32⟩
  | 61 => ⟨S400000, .i32⟩
  | 62 => ⟨S1x400000, .i32⟩
  | 63 => ⟨S400000, .i32⟩
  | 64 => ⟨S_, .f32⟩
  | 65 => ⟨S400000, .f32⟩
  | 66 => ⟨S_, .f32⟩
  | 67 => ⟨S100000, .f32⟩
  | 68 => ⟨S400000x1, .i32⟩
  | 69 => ⟨S100000, .f32⟩
  | 70 => ⟨S_, .f32⟩
  | 71 => ⟨S_, .f32⟩
  | 72 => ⟨S100000, .f32⟩
  | 73 => ⟨S100000, .f32⟩
  | 74 => ⟨S_, .f32⟩
  | 75 => ⟨S100000, .f32⟩
  | 76 => ⟨S400000x1, .i32⟩
  | 77 => ⟨S100000, .f32⟩
  | 78 => ⟨S_, .f32⟩
  | 79 => ⟨S_, .f32⟩
  | 80 => ⟨S100000, .f32⟩
  | 81 => ⟨S100000, .f32⟩
  | 82 => ⟨S100000, .f32⟩
  | 83 => ⟨S100000x1, .f32⟩
  | 84 => ⟨S100000x256, .f32⟩
  | 85 => ⟨S100000x256, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x256, .f32⟩
  | 95 => ⟨S_, .f32⟩
  | 96 => ⟨S100000x256, .f32⟩
  | 97 => ⟨S400000x1, .i32⟩
  | 98 => ⟨S100000x256, .f32⟩
  | 99 => ⟨S100000, .f32⟩
  | 100 => ⟨S100000x1, .f32⟩
  | 101 => ⟨S100000x256, .f32⟩
  | 102 => ⟨S100000x256, .f32⟩
  | 103 => ⟨S1x400000, .i32⟩
  | 104 => ⟨S400000, .i32⟩
  | 105 => ⟨S1x400000, .i32⟩
  | 106 => ⟨S400000, .i32⟩
  | 107 => ⟨S_, .f32⟩
  | 108 => ⟨S400000, .f32⟩
  | 109 => ⟨S_, .f32⟩
  | 110 => ⟨S100000, .f32⟩
  | 111 => ⟨S400000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S_, .f32⟩
  | 118 => ⟨S100000, .f32⟩
  | 119 => ⟨S400000x1, .i32⟩
  | 120 => ⟨S100000, .f32⟩
  | 121 => ⟨S_, .f32⟩
  | 122 => ⟨S_, .f32⟩
  | 123 => ⟨S100000, .f32⟩
  | 124 => ⟨S100000, .f32⟩
  | 125 => ⟨S100000, .f32⟩
  | 126 => ⟨S100000x1, .f32⟩
  | 127 => ⟨S100000x256, .f32⟩
  | _ => ⟨S100000x128, .f32⟩

abbrev hbmTy0_2 (i : Nat) : BufTy := match i % 128 with
  | 0 => ⟨S100000x256, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x256, .f32⟩
  | 10 => ⟨S_, .f32⟩
  | 11 => ⟨S100000x256, .f32⟩
  | 12 => ⟨S400000x1, .i32⟩
  | 13 => ⟨S100000x256, .f32⟩
  | 14 => ⟨S100000, .f32⟩
  | 15 => ⟨S100000x1, .f32⟩
  | 16 => ⟨S100000x256, .f32⟩
  | 17 => ⟨S100000x256, .f32⟩
  | 18 => ⟨S1x400000, .i32⟩
  | 19 => ⟨S400000, .i32⟩
  | 20 => ⟨S1x400000, .i32⟩
  | 21 => ⟨S400000, .i32⟩
  | 22 => ⟨S_, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S400000x1, .i32⟩
  | 35 => ⟨S100000, .f32⟩
  | 36 => ⟨S_, .f32⟩
  | 37 => ⟨S_, .f32⟩
  | 38 => ⟨S100000, .f32⟩
  | 39 => ⟨S100000, .f32⟩
  | 40 => ⟨S100000, .f32⟩
  | 41 => ⟨S100000x1, .f32⟩
  | 42 => ⟨S100000x256, .f32⟩
  | 43 => ⟨S100000x256, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x256, .f32⟩
  | 53 => ⟨S_, .f32⟩
  | 54 => ⟨S100000x256, .f32⟩
  | 55 => ⟨S400000x1, .i32⟩
  | 56 => ⟨S100000x256, .f32⟩
  | 57 => ⟨S100000, .f32⟩
  | 58 => ⟨S100000x1, .f32⟩
  | 59 => ⟨S100000x256, .f32⟩
  | 60 => ⟨S100000x256, .f32⟩
  | 61 => ⟨S1x400000, .i32⟩
  | 62 => ⟨S400000, .i32⟩
  | 63 => ⟨S1x400000, .i32⟩
  | 64 => ⟨S400000, .i32⟩
  | 65 => ⟨S_, .f32⟩
  | 66 => ⟨S400000, .f32⟩
  | 67 => ⟨S_, .f32⟩
  | 68 => ⟨S100000, .f32⟩
  | 69 => ⟨S400000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S100000, .f32⟩
  | 77 => ⟨S400000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S100000, .f32⟩
  | 84 => ⟨S100000x1, .f32⟩
  | 85 => ⟨S100000x256, .f32⟩
  | 86 => ⟨S100000x256, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x256, .f32⟩
  | 96 => ⟨S_, .f32⟩
  | 97 => ⟨S100000x256, .f32⟩
  | 98 => ⟨S400000x1, .i32⟩
  | 99 => ⟨S100000x256, .f32⟩
  | 100 => ⟨S100000, .f32⟩
  | 101 => ⟨S100000x1, .f32⟩
  | 102 => ⟨S100000x256, .f32⟩
  | 103 => ⟨S100000x256, .f32⟩
  | 104 => ⟨S1x100000x256, .f32⟩
  | 105 => ⟨S1x100000x256, .f32⟩
  | 106 => ⟨S1x100000x256, .f32⟩
  | 107 => ⟨S1x100000x256, .f32⟩
  | 108 => ⟨S4x100000x256, .f32⟩
  | 109 => ⟨S4x1x256, .f32⟩
  | 110 => ⟨S100000x256, .f32⟩
  | 111 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S1x2000x128, .f32⟩
  | .local _ .vmem, ⟨1, _⟩ => ⟨S1x2000x128, .f32⟩
  | .local _ .vmem, ⟨2, _⟩ => ⟨S1x128x256, .f32⟩
  | .local _ .vmem, ⟨3, _⟩ => ⟨S1x128x256, .f32⟩
  | .local _ .vmem, ⟨4, _⟩ => ⟨S1x1x256, .f32⟩
  | .local _ .vmem, ⟨5, _⟩ => ⟨S1x1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S1x2000x256, .f32⟩
  | .local _ .vmem, ⟨10, _⟩ => ⟨S1x2000x256, .f32⟩
  | .local _ .vmem, ⟨11, _⟩ => ⟨S1x256x256, .f32⟩
  | .local _ .vmem, ⟨12, _⟩ => ⟨S1x256x256, .f32⟩
  | .local _ .vmem, ⟨13, _⟩ => ⟨S1x1x256, .f32⟩
  | .local _ .vmem, ⟨14, _⟩ => ⟨S1x1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_call2_v0 : Ref sig .tc := ⟨.hbm, 63, rfl⟩
abbrev main_call2_v1 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_call3_v0 : Ref sig .tc := ⟨.hbm, 71, rfl⟩
abbrev main_call3_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_call4_v0 : Ref sig .tc := ⟨.hbm, 106, rfl⟩
abbrev main_call4_v1 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_call5_v0 : Ref sig .tc := ⟨.hbm, 114, rfl⟩
abbrev main_call5_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_19 : Ref sig .tc := ⟨.hbm, 121, rfl⟩
abbrev main_v79 : Ref sig .tc := ⟨.hbm, 122, rfl⟩
abbrev main_v80 : Ref sig .tc := ⟨.hbm, 123, rfl⟩
abbrev main_c_20 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_cst_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_24 : Ref sig .tc := ⟨.hbm, 148, rfl⟩
abbrev main_call6_v0 : Ref sig .tc := ⟨.hbm, 149, rfl⟩
abbrev main_call6_v1 : Ref sig .tc := ⟨.hbm, 150, rfl⟩
abbrev main_v101 : Ref sig .tc := ⟨.hbm, 151, rfl⟩
abbrev main_cst_25 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_26 : Ref sig .tc := ⟨.hbm, 156, rfl⟩
abbrev main_call7_v0 : Ref sig .tc := ⟨.hbm, 157, rfl⟩
abbrev main_call7_v1 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_27 : Ref sig .tc := ⟨.hbm, 164, rfl⟩
abbrev main_v110 : Ref sig .tc := ⟨.hbm, 165, rfl⟩
abbrev main_v111 : Ref sig .tc := ⟨.hbm, 166, rfl⟩
abbrev main_c_28 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_29 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_30 : Ref sig .tc := ⟨.hbm, 192, rfl⟩
abbrev main_v135 : Ref sig .tc := ⟨.hbm, 193, rfl⟩
abbrev main_cst_31 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_32 : Ref sig .tc := ⟨.hbm, 198, rfl⟩
abbrev main_call8_v0 : Ref sig .tc := ⟨.hbm, 199, rfl⟩
abbrev main_call8_v1 : Ref sig .tc := ⟨.hbm, 200, rfl⟩
abbrev main_v139 : Ref sig .tc := ⟨.hbm, 201, rfl⟩
abbrev main_cst_33 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_34 : Ref sig .tc := ⟨.hbm, 206, rfl⟩
abbrev main_call9_v0 : Ref sig .tc := ⟨.hbm, 207, rfl⟩
abbrev main_call9_v1 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_c_35 : Ref sig .tc := ⟨.hbm, 214, rfl⟩
abbrev main_v148 : Ref sig .tc := ⟨.hbm, 215, rfl⟩
abbrev main_v149 : Ref sig .tc := ⟨.hbm, 216, rfl⟩
abbrev main_c_36 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_37 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_38 : Ref sig .tc := ⟨.hbm, 235, rfl⟩
abbrev main_v166 : Ref sig .tc := ⟨.hbm, 236, rfl⟩
abbrev main_cst_39 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_cst_40 : Ref sig .tc := ⟨.hbm, 241, rfl⟩
abbrev main_call10_v0 : Ref sig .tc := ⟨.hbm, 242, rfl⟩
abbrev main_call10_v1 : Ref sig .tc := ⟨.hbm, 243, rfl⟩
abbrev main_v170 : Ref sig .tc := ⟨.hbm, 244, rfl⟩
abbrev main_cst_41 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_cst_42 : Ref sig .tc := ⟨.hbm, 249, rfl⟩
abbrev main_call11_v0 : Ref sig .tc := ⟨.hbm, 250, rfl⟩
abbrev main_call11_v1 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_c_43 : Ref sig .tc := ⟨.hbm, 257, rfl⟩
abbrev main_v179 : Ref sig .tc := ⟨.hbm, 258, rfl⟩
abbrev main_v180 : Ref sig .tc := ⟨.hbm, 259, rfl⟩
abbrev main_c_44 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_cst_45 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_cst_46 : Ref sig .tc := ⟨.hbm, 278, rfl⟩
abbrev main_v197 : Ref sig .tc := ⟨.hbm, 279, rfl⟩
abbrev main_cst_47 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_48 : Ref sig .tc := ⟨.hbm, 284, rfl⟩
abbrev main_call12_v0 : Ref sig .tc := ⟨.hbm, 285, rfl⟩
abbrev main_call12_v1 : Ref sig .tc := ⟨.hbm, 286, rfl⟩
abbrev main_v201 : Ref sig .tc := ⟨.hbm, 287, rfl⟩
abbrev main_cst_49 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_cst_50 : Ref sig .tc := ⟨.hbm, 292, rfl⟩
abbrev main_call13_v0 : Ref sig .tc := ⟨.hbm, 293, rfl⟩
abbrev main_call13_v1 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_c_51 : Ref sig .tc := ⟨.hbm, 300, rfl⟩
abbrev main_v210 : Ref sig .tc := ⟨.hbm, 301, rfl⟩
abbrev main_v211 : Ref sig .tc := ⟨.hbm, 302, rfl⟩
abbrev main_c_52 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_cst_53 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_cst_54 : Ref sig .tc := ⟨.hbm, 321, rfl⟩
abbrev main_v228 : Ref sig .tc := ⟨.hbm, 322, rfl⟩
abbrev main_cst_55 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_cst_56 : Ref sig .tc := ⟨.hbm, 327, rfl⟩
abbrev main_call14_v0 : Ref sig .tc := ⟨.hbm, 328, rfl⟩
abbrev main_call14_v1 : Ref sig .tc := ⟨.hbm, 329, rfl⟩
abbrev main_v232 : Ref sig .tc := ⟨.hbm, 330, rfl⟩
abbrev main_cst_57 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_cst_58 : Ref sig .tc := ⟨.hbm, 335, rfl⟩
abbrev main_call15_v0 : Ref sig .tc := ⟨.hbm, 336, rfl⟩
abbrev main_call15_v1 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_c_59 : Ref sig .tc := ⟨.hbm, 343, rfl⟩
abbrev main_v241 : Ref sig .tc := ⟨.hbm, 344, rfl⟩
abbrev main_v242 : Ref sig .tc := ⟨.hbm, 345, rfl⟩
abbrev main_c_60 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_cst_61 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![50, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![50, 4], ![false, false]⟩

def k1_cond2 (i : grid1.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S4x400000_S1x400000_0_0 : S4x400000.Slices ![0, 0] S1x400000
  shapeCasts_S1x400000_S400000 : S1x400000.ShapeCasts S400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x400000_S1x400000_1_0 : S4x400000.Slices ![1, 0] S1x400000
  slices_S4x400000_S1x400000_2_0 : S4x400000.Slices ![2, 0] S1x400000
  slices_S4x400000_S1x400000_3_0 : S4x400000.Slices ![3, 0] S1x400000
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  bcast_S4x256_S4x1x256_0_2 : S4x256.BroadcastsInDim S4x1x256 (![0, 2] : Fin 2 → Fin S4x1x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2000x256 : S1x256.Broadcasts S2000x256
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  bcast_S100000x256_S1x100000x256_1_2 : S100000x256.BroadcastsInDim S1x100000x256 (![1, 2] : Fin 2 → Fin S1x100000x256.rank)
  concatenates_S1x100000x256_S1x100000x256_S1x100000x256_S1x100000x256_S4x100000x256_d0 : Shape.Concatenates [S1x100000x256, S1x100000x256, S1x100000x256, S1x100000x256] S4x100000x256 0
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x256_S2000x256_1_0_0_1_n_n_wf : DotDims.WF S2000x128 S128x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x256_S2000x256_1_0_0_1_n_n_wf : DotDims.WF S2000x256 S256x256 S2000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S4x100000x128.size a
  hwx0_0 : ∀ i : grid0.Coords, EltTy.bits .f32 = 32 ∨ (Rect.block (s := S4x100000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x256.size a
  hwx0_1 : ∀ i : grid0.Coords, EltTy.bits .f32 = 32 ∨ (Rect.block (s := S4x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S4x100000x256.size a
  hwx1_0 : ∀ i : grid1.Coords, EltTy.bits .f32 = 32 ∨ (Rect.block (s := S4x100000x256) S1x2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x256x256.size a
  hwx1_1 : ∀ i : grid1.Coords, EltTy.bits .f32 = 32 ∨ (Rect.block (s := S4x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S4x1x256.size a
  hwx1_2 : ∀ i : grid1.Coords, EltTy.bits .f32 = 32 ∨ (Rect.block (s := S4x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v128) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v129) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v130) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v259) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v260) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v261) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v261) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v262) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S4x400000 : Shape := ⟨2, ![4, 400000]⟩
abbrev S4x128x256 : Shape := ⟨3, ![4, 128, 256]⟩
abbrev S4x256 : Shape := ⟨2, ![4, 256]⟩
abbrev S4x256x256 : Shape := ⟨3, ![4, 256, 256]⟩
abbrev S256x128 : Shape := ⟨2, ![256, 128]⟩
abbrev S128 : Shape := ⟨1, ![128]⟩
abbrev S_ : Shape := ⟨0, ![]⟩
abbrev S100000x256 : Shape := ⟨2, ![100000, 256]⟩
abbrev S1x400000 : Shape := ⟨2, ![1, 400000]⟩
abbrev S400000 : Shape := ⟨1, ![400000]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S100000 : Shape := ⟨1, ![100000]⟩
abbrev S400000x1 : Shape := ⟨2, ![400000, 1]⟩
abbrev S100000x1 : Shape := ⟨2, ![100000, 1]⟩
abbrev S400000x128 : Shape := ⟨2, ![400000, 128]⟩
abbrev S1x256x256 : Shape := ⟨3, ![1, 256, 256]⟩
abbrev S256x256 : Shape := ⟨2, ![256, 256]⟩
abbrev S400000x256 : Shape := ⟨2, ![400000, 256]⟩
abbrev S1x128 : Shape := ⟨2, ![1, 128]⟩

abbrev nBuf : Space → Nat
  | .hbm => 439
  | .vmem => 0
  | .smem => 0
  | _ => 0

abbrev hbmTy0_0 (i : Nat) : BufTy := match i % 128 with
  | 0 => ⟨S100000x128, .f32⟩
  | 1 => ⟨S4x400000, .i32⟩
  | 2 => ⟨S4x400000, .i32⟩
  | 3 => ⟨S4x128x256, .f32⟩
  | 4 => ⟨S4x256, .f32⟩
  | 5 => ⟨S4x256x256, .f32⟩
  | 6 => ⟨S4x256, .f32⟩
  | 7 => ⟨S256x128, .f32⟩
  | 8 => ⟨S128, .f32⟩
  | 9 => ⟨S_, .f32⟩
  | 10 => ⟨S100000x256, .f32⟩
  | 11 => ⟨S1x400000, .i32⟩
  | 12 => ⟨S400000, .i32⟩
  | 13 => ⟨S1x400000, .i32⟩
  | 14 => ⟨S400000, .i32⟩
  | 15 => ⟨S1x128x256, .f32⟩
  | 16 => ⟨S128x256, .f32⟩
  | 17 => ⟨S1x256, .f32⟩
  | 18 => ⟨S256, .f32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S400000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S_, .f32⟩
  | 51 => ⟨S100000x128, .f32⟩
  | 52 => ⟨S400000x1, .i32⟩
  | 53 => ⟨S100000x128, .f32⟩
  | 54 => ⟨S100000, .f32⟩
  | 55 => ⟨S100000x1, .f32⟩
  | 56 => ⟨S100000x128, .f32⟩
  | 57 => ⟨S100000x128, .f32⟩
  | 58 => ⟨S100000x256, .f32⟩
  | 59 => ⟨S1x256, .f32⟩
  | 60 => ⟨S100000x256, .f32⟩
  | 61 => ⟨S100000x256, .f32⟩
  | 62 => ⟨S100000x256, .f32⟩
  | 63 => ⟨S1x400000, .i32⟩
  | 64 => ⟨S400000, .i32⟩
  | 65 => ⟨S1x400000, .i32⟩
  | 66 => ⟨S400000, .i32⟩
  | 67 => ⟨S1x128x256, .f32⟩
  | 68 => ⟨S128x256, .f32⟩
  | 69 => ⟨S1x256, .f32⟩
  | 70 => ⟨S256, .f32⟩
  | 71 => ⟨S_, .f32⟩
  | 72 => ⟨S400000, .f32⟩
  | 73 => ⟨S_, .f32⟩
  | 74 => ⟨S100000, .f32⟩
  | 75 => ⟨S400000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S100000, .f32⟩
  | 83 => ⟨S400000x1, .i32⟩
  | 84 => ⟨S100000, .f32⟩
  | 85 => ⟨S_, .f32⟩
  | 86 => ⟨S_, .f32⟩
  | 87 => ⟨S100000, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S_, .f32⟩
  | 103 => ⟨S100000x128, .f32⟩
  | 104 => ⟨S400000x1, .i32⟩
  | 105 => ⟨S100000x128, .f32⟩
  | 106 => ⟨S100000, .f32⟩
  | 107 => ⟨S100000x1, .f32⟩
  | 108 => ⟨S100000x128, .f32⟩
  | 109 => ⟨S100000x128, .f32⟩
  | 110 => ⟨S100000x256, .f32⟩
  | 111 => ⟨S1x256, .f32⟩
  | 112 => ⟨S100000x256, .f32⟩
  | 113 => ⟨S100000x256, .f32⟩
  | 114 => ⟨S100000x256, .f32⟩
  | 115 => ⟨S1x400000, .i32⟩
  | 116 => ⟨S400000, .i32⟩
  | 117 => ⟨S1x400000, .i32⟩
  | 118 => ⟨S400000, .i32⟩
  | 119 => ⟨S1x128x256, .f32⟩
  | 120 => ⟨S128x256, .f32⟩
  | 121 => ⟨S1x256, .f32⟩
  | 122 => ⟨S256, .f32⟩
  | 123 => ⟨S_, .f32⟩
  | 124 => ⟨S400000, .f32⟩
  | 125 => ⟨S_, .f32⟩
  | 126 => ⟨S100000, .f32⟩
  | 127 => ⟨S400000x1, .i32⟩
  | _ => ⟨S100000x128, .f32⟩

abbrev hbmTy0_1 (i : Nat) : BufTy := match i % 128 with
  | 0 => ⟨S100000, .f32⟩
  | 1 => ⟨S_, .f32⟩
  | 2 => ⟨S_, .f32⟩
  | 3 => ⟨S100000, .f32⟩
  | 4 => ⟨S100000, .f32⟩
  | 5 => ⟨S_, .f32⟩
  | 6 => ⟨S100000, .f32⟩
  | 7 => ⟨S400000x1, .i32⟩
  | 8 => ⟨S100000, .f32⟩
  | 9 => ⟨S_, .f32⟩
  | 10 => ⟨S_, .f32⟩
  | 11 => ⟨S100000, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x128, .f32⟩
  | 26 => ⟨S_, .f32⟩
  | 27 => ⟨S100000x128, .f32⟩
  | 28 => ⟨S400000x1, .i32⟩
  | 29 => ⟨S100000x128, .f32⟩
  | 30 => ⟨S100000, .f32⟩
  | 31 => ⟨S100000x1, .f32⟩
  | 32 => ⟨S100000x128, .f32⟩
  | 33 => ⟨S100000x128, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S1x400000, .i32⟩
  | 40 => ⟨S400000, .i32⟩
  | 41 => ⟨S1x400000, .i32⟩
  | 42 => ⟨S400000, .i32⟩
  | 43 => ⟨S1x128x256, .f32⟩
  | 44 => ⟨S128x256, .f32⟩
  | 45 => ⟨S1x256, .f32⟩
  | 46 => ⟨S256, .f32⟩
  | 47 => ⟨S_, .f32⟩
  | 48 => ⟨S400000, .f32⟩
  | 49 => ⟨S_, .f32⟩
  | 50 => ⟨S100000, .f32⟩
  | 51 => ⟨S400000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S_, .f32⟩
  | 58 => ⟨S100000, .f32⟩
  | 59 => ⟨S400000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x128, .f32⟩
  | 78 => ⟨S_, .f32⟩
  | 79 => ⟨S100000x128, .f32⟩
  | 80 => ⟨S400000x1, .i32⟩
  | 81 => ⟨S100000x128, .f32⟩
  | 82 => ⟨S100000, .f32⟩
  | 83 => ⟨S100000x1, .f32⟩
  | 84 => ⟨S100000x128, .f32⟩
  | 85 => ⟨S100000x128, .f32⟩
  | 86 => ⟨S100000x256, .f32⟩
  | 87 => ⟨S1x256, .f32⟩
  | 88 => ⟨S100000x256, .f32⟩
  | 89 => ⟨S100000x256, .f32⟩
  | 90 => ⟨S100000x256, .f32⟩
  | 91 => ⟨S_, .f32⟩
  | 92 => ⟨S100000x256, .f32⟩
  | 93 => ⟨S100000x256, .f32⟩
  | 94 => ⟨S_, .f32⟩
  | 95 => ⟨S100000x256, .f32⟩
  | 96 => ⟨S1x400000, .i32⟩
  | 97 => ⟨S400000, .i32⟩
  | 98 => ⟨S1x400000, .i32⟩
  | 99 => ⟨S400000, .i32⟩
  | 100 => ⟨S1x256x256, .f32⟩
  | 101 => ⟨S256x256, .f32⟩
  | 102 => ⟨S1x256, .f32⟩
  | 103 => ⟨S256, .f32⟩
  | 104 => ⟨S_, .f32⟩
  | 105 => ⟨S400000, .f32⟩
  | 106 => ⟨S_, .f32⟩
  | 107 => ⟨S100000, .f32⟩
  | 108 => ⟨S400000x1, .i32⟩
  | 109 => ⟨S100000, .f32⟩
  | 110 => ⟨S_, .f32⟩
  | 111 => ⟨S_, .f32⟩
  | 112 => ⟨S100000, .f32⟩
  | 113 => ⟨S100000, .f32⟩
  | 114 => ⟨S_, .f32⟩
  | 115 => ⟨S100000, .f32⟩
  | 116 => ⟨S400000x1, .i32⟩
  | 117 => ⟨S100000, .f32⟩
  | 118 => ⟨S_, .f32⟩
  | 119 => ⟨S_, .f32⟩
  | 120 => ⟨S100000, .f32⟩
  | 121 => ⟨S100000, .f32⟩
  | 122 => ⟨S100000, .f32⟩
  | 123 => ⟨S100000x1, .f32⟩
  | 124 => ⟨S100000x256, .f32⟩
  | 125 => ⟨S100000x256, .f32⟩
  | 126 => ⟨S_, .i32⟩
  | 127 => ⟨S400000, .i32⟩
  | _ => ⟨S100000x128, .f32⟩

abbrev hbmTy0_2 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x256, .f32⟩
  | 7 => ⟨S_, .f32⟩
  | 8 => ⟨S100000x256, .f32⟩
  | 9 => ⟨S400000x1, .i32⟩
  | 10 => ⟨S100000x256, .f32⟩
  | 11 => ⟨S100000, .f32⟩
  | 12 => ⟨S100000x1, .f32⟩
  | 13 => ⟨S100000x256, .f32⟩
  | 14 => ⟨S100000x256, .f32⟩
  | 15 => ⟨S100000x256, .f32⟩
  | 16 => ⟨S1x256, .f32⟩
  | 17 => ⟨S100000x256, .f32⟩
  | 18 => ⟨S100000x256, .f32⟩
  | 19 => ⟨S100000x256, .f32⟩
  | 20 => ⟨S1x400000, .i32⟩
  | 21 => ⟨S400000, .i32⟩
  | 22 => ⟨S1x400000, .i32⟩
  | 23 => ⟨S400000, .i32⟩
  | 24 => ⟨S1x256x256, .f32⟩
  | 25 => ⟨S256x256, .f32⟩
  | 26 => ⟨S1x256, .f32⟩
  | 27 => ⟨S256, .f32⟩
  | 28 => ⟨S_, .f32⟩
  | 29 => ⟨S400000, .f32⟩
  | 30 => ⟨S_, .f32⟩
  | 31 => ⟨S100000, .f32⟩
  | 32 => ⟨S400000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S400000x1, .i32⟩
  | 41 => ⟨S100000, .f32⟩
  | 42 => ⟨S_, .f32⟩
  | 43 => ⟨S_, .f32⟩
  | 44 => ⟨S100000, .f32⟩
  | 45 => ⟨S100000, .f32⟩
  | 46 => ⟨S100000, .f32⟩
  | 47 => ⟨S100000x1, .f32⟩
  | 48 => ⟨S100000x256, .f32⟩
  | 49 => ⟨S100000x256, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x256, .f32⟩
  | 59 => ⟨S_, .f32⟩
  | 60 => ⟨S100000x256, .f32⟩
  | 61 => ⟨S400000x1, .i32⟩
  | 62 => ⟨S100000x256, .f32⟩
  | 63 => ⟨S100000, .f32⟩
  | 64 => ⟨S100000x1, .f32⟩
  | 65 => ⟨S100000x256, .f32⟩
  | 66 => ⟨S100000x256, .f32⟩
  | 67 => ⟨S100000x256, .f32⟩
  | 68 => ⟨S1x256, .f32⟩
  | 69 => ⟨S100000x256, .f32⟩
  | 70 => ⟨S100000x256, .f32⟩
  | 71 => ⟨S100000x256, .f32⟩
  | 72 => ⟨S1x400000, .i32⟩
  | 73 => ⟨S400000, .i32⟩
  | 74 => ⟨S1x400000, .i32⟩
  | 75 => ⟨S400000, .i32⟩
  | 76 => ⟨S1x256x256, .f32⟩
  | 77 => ⟨S256x256, .f32⟩
  | 78 => ⟨S1x256, .f32⟩
  | 79 => ⟨S256, .f32⟩
  | 80 => ⟨S_, .f32⟩
  | 81 => ⟨S400000, .f32⟩
  | 82 => ⟨S_, .f32⟩
  | 83 => ⟨S100000, .f32⟩
  | 84 => ⟨S400000x1, .i32⟩
  | 85 => ⟨S100000, .f32⟩
  | 86 => ⟨S_, .f32⟩
  | 87 => ⟨S_, .f32⟩
  | 88 => ⟨S100000, .f32⟩
  | 89 => ⟨S100000, .f32⟩
  | 90 => ⟨S_, .f32⟩
  | 91 => ⟨S100000, .f32⟩
  | 92 => ⟨S400000x1, .i32⟩
  | 93 => ⟨S100000, .f32⟩
  | 94 => ⟨S_, .f32⟩
  | 95 => ⟨S_, .f32⟩
  | 96 => ⟨S100000, .f32⟩
  | 97 => ⟨S100000, .f32⟩
  | 98 => ⟨S100000, .f32⟩
  | 99 => ⟨S100000x1, .f32⟩
  | 100 => ⟨S100000x256, .f32⟩
  | 101 => ⟨S100000x256, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x256, .f32⟩
  | 111 => ⟨S_, .f32⟩
  | 112 => ⟨S100000x256, .f32⟩
  | 113 => ⟨S400000x1, .i32⟩
  | 114 => ⟨S100000x256, .f32⟩
  | 115 => ⟨S100000, .f32⟩
  | 116 => ⟨S100000x1, .f32⟩
  | 117 => ⟨S100000x256, .f32⟩
  | 118 => ⟨S100000x256, .f32⟩
  | 119 => ⟨S100000x256, .f32⟩
  | 120 => ⟨S1x256, .f32⟩
  | 121 => ⟨S100000x256, .f32⟩
  | 122 => ⟨S100000x256, .f32⟩
  | 123 => ⟨S100000x256, .f32⟩
  | 124 => ⟨S1x400000, .i32⟩
  | 125 => ⟨S400000, .i32⟩
  | 126 => ⟨S1x400000, .i32⟩
  | 127 => ⟨S400000, .i32⟩
  | _ => ⟨S100000x128, .f32⟩

abbrev hbmTy0_3 (i : Nat) : BufTy := match i % 128 with
  | 0 => ⟨S1x256x256, .f32⟩
  | 1 => ⟨S256x256, .f32⟩
  | 2 => ⟨S1x256, .f32⟩
  | 3 => ⟨S256, .f32⟩
  | 4 => ⟨S_, .f32⟩
  | 5 => ⟨S400000, .f32⟩
  | 6 => ⟨S_, .f32⟩
  | 7 => ⟨S100000, .f32⟩
  | 8 => ⟨S400000x1, .i32⟩
  | 9 => ⟨S100000, .f32⟩
  | 10 => ⟨S_, .f32⟩
  | 11 => ⟨S_, .f32⟩
  | 12 => ⟨S100000, .f32⟩
  | 13 => ⟨S100000, .f32⟩
  | 14 => ⟨S_, .f32⟩
  | 15 => ⟨S100000, .f32⟩
  | 16 => ⟨S400000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S100000, .f32⟩
  | 23 => ⟨S100000x1, .f32⟩
  | 24 => ⟨S100000x256, .f32⟩
  | 25 => ⟨S100000x256, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x256, .f32⟩
  | 35 => ⟨S_, .f32⟩
  | 36 => ⟨S100000x256, .f32⟩
  | 37 => ⟨S400000x1, .i32⟩
  | 38 => ⟨S100000x256, .f32⟩
  | 39 => ⟨S100000, .f32⟩
  | 40 => ⟨S100000x1, .f32⟩
  | 41 => ⟨S100000x256, .f32⟩
  | 42 => ⟨S100000x256, .f32⟩
  | 43 => ⟨S100000x256, .f32⟩
  | 44 => ⟨S1x256, .f32⟩
  | 45 => ⟨S100000x256, .f32⟩
  | 46 => ⟨S100000x256, .f32⟩
  | 47 => ⟨S100000x256, .f32⟩
  | 48 => ⟨S_, .f32⟩
  | 49 => ⟨S100000x256, .f32⟩
  | 50 => ⟨S100000x256, .f32⟩
  | 51 => ⟨S100000x128, .f32⟩
  | 52 => ⟨S1x128, .f32⟩
  | 53 => ⟨S100000x128, .f32⟩
  | 54 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_call3_v0 : Ref sig .tc := ⟨.hbm, 86, rfl⟩
abbrev main_call3_v1 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_15 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_17 : Ref sig .tc := ⟨.hbm, 129, rfl⟩
abbrev main_call4_v0 : Ref sig .tc := ⟨.hbm, 130, rfl⟩
abbrev main_call4_v1 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_call5_v0 : Ref sig .tc := ⟨.hbm, 138, rfl⟩
abbrev main_call5_v1 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_20 : Ref sig .tc := ⟨.hbm, 145, rfl⟩
abbrev main_v102 : Ref sig .tc := ⟨.hbm, 146, rfl⟩
abbrev main_v103 : Ref sig .tc := ⟨.hbm, 147, rfl⟩
abbrev main_c_21 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_23 : Ref sig .tc := ⟨.hbm, 175, rfl⟩
abbrev main_v129 : Ref sig .tc := ⟨.hbm, 176, rfl⟩
abbrev main_cst_24 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_25 : Ref sig .tc := ⟨.hbm, 181, rfl⟩
abbrev main_call6_v0 : Ref sig .tc := ⟨.hbm, 182, rfl⟩
abbrev main_call6_v1 : Ref sig .tc := ⟨.hbm, 183, rfl⟩
abbrev main_v133 : Ref sig .tc := ⟨.hbm, 184, rfl⟩
abbrev main_cst_26 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_27 : Ref sig .tc := ⟨.hbm, 189, rfl⟩
abbrev main_call7_v0 : Ref sig .tc := ⟨.hbm, 190, rfl⟩
abbrev main_call7_v1 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_c_28 : Ref sig .tc := ⟨.hbm, 197, rfl⟩
abbrev main_v142 : Ref sig .tc := ⟨.hbm, 198, rfl⟩
abbrev main_v143 : Ref sig .tc := ⟨.hbm, 199, rfl⟩
abbrev main_c_29 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_30 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_call8_cst : Ref sig .tc := ⟨.hbm, 219, rfl⟩
abbrev main_call8_v0 : Ref sig .tc := ⟨.hbm, 220, rfl⟩
abbrev main_v161 : Ref sig .tc := ⟨.hbm, 221, rfl⟩
abbrev main_cst_31 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_32 : Ref sig .tc := ⟨.hbm, 232, rfl⟩
abbrev main_v171 : Ref sig .tc := ⟨.hbm, 233, rfl⟩
abbrev main_cst_33 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_34 : Ref sig .tc := ⟨.hbm, 238, rfl⟩
abbrev main_call9_v0 : Ref sig .tc := ⟨.hbm, 239, rfl⟩
abbrev main_call9_v1 : Ref sig .tc := ⟨.hbm, 240, rfl⟩
abbrev main_v175 : Ref sig .tc := ⟨.hbm, 241, rfl⟩
abbrev main_cst_35 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_36 : Ref sig .tc := ⟨.hbm, 246, rfl⟩
abbrev main_call10_v0 : Ref sig .tc := ⟨.hbm, 247, rfl⟩
abbrev main_call10_v1 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_c_37 : Ref sig .tc := ⟨.hbm, 254, rfl⟩
abbrev main_v184 : Ref sig .tc := ⟨.hbm, 255, rfl⟩
abbrev main_v185 : Ref sig .tc := ⟨.hbm, 256, rfl⟩
abbrev main_c_38 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_cst_39 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_40 : Ref sig .tc := ⟨.hbm, 284, rfl⟩
abbrev main_v211 : Ref sig .tc := ⟨.hbm, 285, rfl⟩
abbrev main_cst_41 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_cst_42 : Ref sig .tc := ⟨.hbm, 290, rfl⟩
abbrev main_call11_v0 : Ref sig .tc := ⟨.hbm, 291, rfl⟩
abbrev main_call11_v1 : Ref sig .tc := ⟨.hbm, 292, rfl⟩
abbrev main_v215 : Ref sig .tc := ⟨.hbm, 293, rfl⟩
abbrev main_cst_43 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_44 : Ref sig .tc := ⟨.hbm, 298, rfl⟩
abbrev main_call12_v0 : Ref sig .tc := ⟨.hbm, 299, rfl⟩
abbrev main_call12_v1 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_c_45 : Ref sig .tc := ⟨.hbm, 306, rfl⟩
abbrev main_v224 : Ref sig .tc := ⟨.hbm, 307, rfl⟩
abbrev main_v225 : Ref sig .tc := ⟨.hbm, 308, rfl⟩
abbrev main_c_46 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_cst_47 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_cst_48 : Ref sig .tc := ⟨.hbm, 336, rfl⟩
abbrev main_v251 : Ref sig .tc := ⟨.hbm, 337, rfl⟩
abbrev main_cst_49 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_cst_50 : Ref sig .tc := ⟨.hbm, 342, rfl⟩
abbrev main_call13_v0 : Ref sig .tc := ⟨.hbm, 343, rfl⟩
abbrev main_call13_v1 : Ref sig .tc := ⟨.hbm, 344, rfl⟩
abbrev main_v255 : Ref sig .tc := ⟨.hbm, 345, rfl⟩
abbrev main_cst_51 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_cst_52 : Ref sig .tc := ⟨.hbm, 350, rfl⟩
abbrev main_call14_v0 : Ref sig .tc := ⟨.hbm, 351, rfl⟩
abbrev main_call14_v1 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_c_53 : Ref sig .tc := ⟨.hbm, 358, rfl⟩
abbrev main_v264 : Ref sig .tc := ⟨.hbm, 359, rfl⟩
abbrev main_v265 : Ref sig .tc := ⟨.hbm, 360, rfl⟩
abbrev main_c_54 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_cst_55 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_cst_56 : Ref sig .tc := ⟨.hbm, 388, rfl⟩
abbrev main_v291 : Ref sig .tc := ⟨.hbm, 389, rfl⟩
abbrev main_cst_57 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_cst_58 : Ref sig .tc := ⟨.hbm, 394, rfl⟩
abbrev main_call15_v0 : Ref sig .tc := ⟨.hbm, 395, rfl⟩
abbrev main_call15_v1 : Ref sig .tc := ⟨.hbm, 396, rfl⟩
abbrev main_v295 : Ref sig .tc := ⟨.hbm, 397, rfl⟩
abbrev main_cst_59 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_cst_60 : Ref sig .tc := ⟨.hbm, 402, rfl⟩
abbrev main_call16_v0 : Ref sig .tc := ⟨.hbm, 403, rfl⟩
abbrev main_call16_v1 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_v303 : Ref sig .tc := ⟨.hbm, 409, rfl⟩
abbrev main_c_61 : Ref sig .tc := ⟨.hbm, 410, rfl⟩
abbrev main_v304 : Ref sig .tc := ⟨.hbm, 411, rfl⟩
abbrev main_v305 : Ref sig .tc := ⟨.hbm, 412, rfl⟩
abbrev main_c_62 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_v310 : Ref sig .tc := ⟨.hbm, 418, rfl⟩
abbrev main_cst_63 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_v315 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_call17_cst : Ref sig .tc := ⟨.hbm, 432, rfl⟩
abbrev main_call17_v0 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  slices_S4x400000_S1x400000_0_0 : S4x400000.Slices ![0, 0] S1x400000
  shapeCasts_S1x400000_S400000 : S1x400000.ShapeCasts S400000
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S4x400000_S1x400000_1_0 : S4x400000.Slices ![1, 0] S1x400000
  slices_S4x128x256_S1x128x256_1_0_0 : S4x128x256.Slices ![1, 0, 0] S1x128x256
  slices_S4x256_S1x256_1_0 : S4x256.Slices ![1, 0] S1x256
  slices_S4x400000_S1x400000_2_0 : S4x400000.Slices ![2, 0] S1x400000
  slices_S4x128x256_S1x128x256_2_0_0 : S4x128x256.Slices ![2, 0, 0] S1x128x256
  slices_S4x256_S1x256_2_0 : S4x256.Slices ![2, 0] S1x256
  slices_S4x400000_S1x400000_3_0 : S4x400000.Slices ![3, 0] S1x400000
  slices_S4x128x256_S1x128x256_3_0_0 : S4x128x256.Slices ![3, 0, 0] S1x128x256
  slices_S4x256_S1x256_3_0 : S4x256.Slices ![3, 0] S1x256
  slices_S4x256x256_S1x256x256_0_0_0 : S4x256x256.Slices ![0, 0, 0] S1x256x256
  shapeCasts_S1x256x256_S256x256 : S1x256x256.ShapeCasts S256x256
  bcast_S100000x1_S100000x256_0_1 : S100000x1.BroadcastsInDim S100000x256 (![0, 1] : Fin 2 → Fin S100000x256.rank)
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LayerOnePointsBits.lean ====
/-
  The first relational layer's kernel on its grid of 50 row blocks × 4 relations (the relation index runs fastest,
  so point t is row block t / 4 at relation t % 4). The body clears its accumulator when the relation index is 0,
  adds  agg_r · W_r + b_r  to it at every point, and when the relation index is 3 stores  max(accumulator, 0)  into the
  output block. So every point is of one of three kinds — FIRST (clear, then add), MIDDLE (add), LAST (add, then
  store) — decided here over the grid in closed form, together with where the output window is idle (everywhere but
  at the LAST points, where alone its block is written back).
-/
import proofs.«127058_j2791728742679_2_alg».proof.Proof.Gen.Kernel.Launch
import proofs.«127058_j2791728742679_2_alg».proof.Proof.Gen.Kernel.Skeleton
import proofs.«127058_j2791728742679_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional: the relation index is 0 (the scalar chain the kernel computes, substituted). -/
abbrev atFirst (i : grid0.Coords) : Prop :=
  (Scalar.cmpi .ne (Scalar.extui (Scalar.cmpi .eq (BitVec.ofNat 32 (i 1).val) 0#32)) 0#32) = 1#1
/-- It holds exactly at the points t with t % 4 = 0. -/
theorem atFirst_iff : ∀ t : Fin cfg0.N, atFirst (grid0.coords t) ↔ t.val % 4 = 0 :=
  (by decide +kernel : ∀ t : Fin grid0.N, atFirst (grid0.coords t) ↔ t.val % 4 = 0)

/-- The body's second conditional: the relation index is 3, the last relation. -/
abbrev atLast (i : grid0.Coords) : Prop := k0_cond2 i = 1#1
/-- It holds exactly at the points t with t % 4 = 3. -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The three input windows are never idle. -/
theorem agg_live : ∀ t : Fin cfg0.N, cfg0.idle 0 (grid0.coords t) = false := by decide +kernel
theorem weight_live : ∀ t : Fin cfg0.N, cfg0.idle 1 (grid0.coords t) = false := by decide +kernel
theorem bias_live : ∀ t : Fin cfg0.N, cfg0.idle 2 (grid0.coords t) = false := by decide +kernel
/-- Away from the LAST points the output window is idle: the body stores nothing into it there, -/
theorem out_idle : ∀ t : Fin cfg0.N, ¬atLast (grid0.coords t) → cfg0.idle 3 (grid0.coords t) = true := by decide +kernel
/-- and its block is not written back there. -/
theorem out_kept : ∀ t : Fin cfg0.N, ¬atLast (grid0.coords t) → (cfg0.win 3).flush t = false := by decide +kernel
/-- At the LAST points it is live. -/
theorem out_live : ∀ t : Fin cfg0.N, atLast (grid0.coords t) → cfg0.idle 3 (grid0.coords t) = false := by decide +kernel

/-! ## The memrefs the body is called with -/

/-- The aggregated-features block's, the weight slab's, the bias row's and the output block's current staging memref at
    point t, as the pipeline passes them, each a whole buffer. -/
abbrev aggBuf (t : Fin cfg0.N) : Memref sig .tc .vmem S1x2000x128 .f32 := win0_0.stage (cfg0.slots t 0)
abbrev aggBuf_whole (t : Fin cfg0.N) : (aggBuf t).IsWhole := hstage0_0 ((cfg0.slots t 0).cast nbuf0_0)
abbrev weightBuf (t : Fin cfg0.N) : Memref sig .tc .vmem S1x128x256 .f32 := win0_1.stage (cfg0.slots t 1)
abbrev weightBuf_whole (t : Fin cfg0.N) : (weightBuf t).IsWhole := hstage0_1 ((cfg0.slots t 1).cast nbuf0_1)
abbrev biasBuf (t : Fin cfg0.N) : Memref sig .tc .vmem S1x1x256 .f32 := win0_2.stage (cfg0.slots t 2)
abbrev biasBuf_whole (t : Fin cfg0.N) : (biasBuf t).IsWhole := hstage0_2 ((cfg0.slots t 2).cast nbuf0_2)
abbrev outBuf (t : Fin cfg0.N) : Memref sig .tc .vmem S2000x256 .f32 := win0_3.stage (cfg0.slots t 3)
abbrev outBuf_whole (t : Fin cfg0.N) : (outBuf t).IsWhole := hstage0_3 ((cfg0.slots t 3).cast nbuf0_3)
/-- The accumulator: a whole scoped buffer of the kernel's own, carried from point to point. -/
abbrev accBuf : Memref sig .tc .vmem S2000x256 .f32 := Memref.whole cc0_scratch0
/-- The accumulator and one staging buffer of the output window as views: contents are stated through them. -/
abbrev accView : View sig .tc .vmem S2000x256 .f32 := accBuf.view
abbrev outView : View sig .tc .vmem S2000x256 .f32 := (Memref.whole cc0_stg3_0 : Memref sig .tc .vmem S2000x256 .f32).view

/-! ## The region's invariant when nothing is known of the accumulator -/

/-- The core's other scoped buffers — the staging buffers and the accumulator of the two later regions —, each whole at
    some contents: they ride through this region untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant the launch hands the region: the accumulator at some contents, the other scoped buffers, and the
    generator register at some state. -/
theorem launchInv_eq (c : Dev nD) :
    (Pipeline.ΦA spec0 c : sProp 𝕄)
      = iprop(iprop((∃ d, owns (c : Thread nD τ) accBuf fullShare d) ∗ otherScoped (F := F) c) ∗ (∃ r, prngReg c r)) := by
  unfold Pipeline.ΦA; rw [scopedRest0_eq]; unfold otherScoped; simp only [accBuf, owns_whole]; try rfl

end Cert.Kernel.LayerOne

end
-- ==== Proof.LayerOneRunFirstBits.lean ====
/-
  The first relational layer's body at a FIRST point (relation index 0): the accumulator is cleared, then
  agg_0 · W_0 + b_0  is added to it; the output block is not touched. Run here once, on any whole staging memrefs: the
  inputs' at their contents, the output's at contents handed back as they were, the accumulator at anything; what is found
  is the list of pieces the accumulator ends with (last store first).
-/
import proofs.«127058_j2791728742679_2_alg».proof.Proof.LayerOnePointsBits

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: the pieces the accumulator ends with, with the proof that the body runs to its continuation
    holding every input and the output as they were and the accumulator with those pieces written. -/
noncomputable def runFirst (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : atFirst i) (hl : ¬atLast i) (x0 : Vec F S1x2000x128 .f32) (x1 : Vec F S1x128x256 .f32) (x2 : Vec F S1x1x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨[], ?_, fun xo E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.LayerOne

end
-- ==== Proof.LayerOneRunMiddleBits.lean ====
/-
  The first relational layer's body at a MIDDLE point (relation index 1 or 2):  agg_r · W_r + b_r  is added to the
  accumulator, which comes in at what the point before left; the output block is not touched.
-/
import proofs.«127058_j2791728742679_2_alg».proof.Proof.LayerOnePointsBits

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: the pieces the accumulator ends with, over its contents `acc` on entry. -/
noncomputable def runMiddle (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : ¬atLast i) (x0 : Vec F S1x2000x128 .f32) (x1 : Vec F S1x128x256 .f32) (x2 : Vec F S1x1x256 .f32) (acc : Vec F S2000x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare acc
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨[], ?_, fun xo E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.LayerOne

end
-- ==== Proof.LayerOneRunLastBits.lean ====
/-
  The first relational layer's body at a LAST point (relation index 3):  agg_3 · W_3 + b_3  is added to the accumulator,
  which comes in at what the point before left, and  max(accumulator, 0)  is stored into the output block.
-/
import proofs.«127058_j2791728742679_2_alg».proof.Proof.LayerOnePointsBits

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: the pieces the output block and the accumulator end with, over the accumulator's contents
    `acc` on entry; the output's buffer comes in at anything. -/
noncomputable def runLast (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : atLast i) (x0 : Vec F S1x2000x128 .f32) (x1 : Vec F S1x128x256 .f32) (x2 : Vec F S1x1x256 .f32) (acc : Vec F S2000x256 .f32) :
    Σ' (Lout : List (View.Piece (Elt F) S2000x256 .f32)), { Lacc : List (View.Piece (Elt F) S2000x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare acc
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f Lout) ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨?_, ?_, fun E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.Kernel.LayerOne

end
-- ==== Proof.LayerOneDataBits.lean ====
/-
  The first relational layer's region, point by point. After point t the accumulator holds, for the row block t / 4,
  the partial sum  Σ_{r ≤ t % 4} (agg_r · W_r + b_r)  over that block's rows — cleared and restarted at every FIRST point —,
  and after a LAST point the output block holds its  max(·, 0).  This module names those contents by recursion on the
  point (`heldAfter`), states the region's invariant (the accumulator at the contents the point before left, the other
  scoped buffers and the generator register riding along), the pipeline's proof data over ANY contents `V` of the
  buffers on entry, and the body obligation at every point, by the kind of the point.
-/
import proofs.«127058_j2791728742679_2_alg».proof.Proof.LayerOneRunFirstBits
import proofs.«127058_j2791728742679_2_alg».proof.Proof.LayerOneRunMiddleBits
import proofs.«127058_j2791728742679_2_alg».proof.Proof.LayerOneRunLastBits

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_agg_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What each kind of point leaves -/

section Kinds
variable (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x128 .f32) (x1 : Vec F S1x128x256 .f32) (x2 : Vec F S1x1x256 .f32)

/-- The accumulator after a FIRST point: its pieces read back. -/
def accFirst (hf : atFirst i) (hl : ¬atLast i) : Vec F S2000x256 .f32 :=
  accView.read (Elt F) (accView.writes (Elt F) accView.junk (runFirst c i a2 h2 a3 h3 a4 h4 a5 h5 a6 h6 hf hl x0 x1 x2).2.1)
/-- Those pieces cover the accumulator. -/
theorem accFirst_cover (hf : atFirst i) (hl : ¬atLast i) (y : S2000x256.Idx) :
    ∃ pc ∈ (runFirst c i a2 h2 a3 h3 a4 h4 a5 h5 a6 h6 hf hl x0 x1 x2).2.1, y ∈ pc.1.set :=
  View.cover_of_tiledL (runFirst c i a2 h2 a3 h3 a4 h4 a5 h5 a6 h6 hf hl x0 x1 x2).2.1 S2000x256.size (by sl_kernel_rfl) y

/-- The accumulator after a MIDDLE point, over its contents on entry. -/
def accMiddle (hf : ¬atFirst i) (hl : ¬atLast i) (acc : Vec F S2000x256 .f32) : Vec F S2000x256 .f32 :=
  accView.read (Elt F) (accView.writes (Elt F) accView.junk (runMiddle c i a2 h2 a3 h3 a4 h4 a5 h5 a6 h6 hf hl x0 x1 x2 acc).2.1)
theorem accMiddle_cover (hf : ¬atFirst i) (hl : ¬atLast i) (acc : Vec F S2000x256 .f32) (y : S2000x256.Idx) :
    ∃ pc ∈ (runMiddle c i a2 h2 a3 h3 a4 h4 a5 h5 a6 h6 hf hl x0 x1 x2 acc).2.1, y ∈ pc.1.set :=
  View.cover_of_tiledL (runMiddle c i a2 h2 a3 h3 a4 h4 a5 h5 a6 h6 hf hl x0 x1 x2 acc).2.1 S2000x256.size (by sl_kernel_rfl) y

/-- The accumulator and the output block after a LAST point, over the accumulator's contents on entry. -/
def accLast (hf : ¬atFirst i) (hl : atLast i) (acc : Vec F S2000x256 .f32) : Vec F S2000x256 .f32 :=
  accView.read (Elt F) (accView.writes (Elt F) accView.junk (runLast c i a2 h2 a3 h3 a4 h4 a5 h5 a6 h6 hf hl x0 x1 x2 acc).2.1)
theorem accLast_cover (hf : ¬atFirst i) (hl : atLast i) (acc : Vec F S2000x256 .f32) (y : S2000x256.Idx) :
    ∃ pc ∈ (runLast c i a2 h2 a3 h3 a4 h4 a5 h5 a6 h6 hf hl x0 x1 x2 acc).2.1, y ∈ pc.1.set :=
  View.cover_of_tiledL (runLast c i a2 h2 a3 h3 a4 h4 a5 h5 a6 h6 hf hl x0 x1 x2 acc).2.1 S2000x256.size (by sl_kernel_rfl) y
def outLast (hf : ¬atFirst i) (hl : atLast i) (acc : Vec F S2000x256 .f32) : Vec F S2000x256 .f32 :=
  outView.read (Elt F) (outView.writes (Elt F) outView.junk (runLast c i a2 h2 a3 h3 a4 h4 a5 h5 a6 h6 hf hl x0 x1 x2 acc).1)
theorem outLast_cover (hf : ¬atFirst i) (hl : atLast i) (acc : Vec F S2000x256 .f32) (y : S2000x256.Idx) :
    ∃ pc ∈ (runLast c i a2 h2 a3 h3 a4 h4 a5 h5 a6 h6 hf hl x0 x1 x2 acc).1, y ∈ pc.1.set :=
  View.cover_of_tiledL (runLast c i a2 h2 a3 h3 a4 h4 a5 h5 a6 h6 hf hl x0 x1 x2 acc).1 S2000x256.size (by sl_kernel_rfl) y

end Kinds

/-- Where the output window is idle its buffer's named contents are a placeholder nothing consults. -/
def idleOut : Vec F S2000x256 .f32 := outView.read (Elt F) outView.junk

/-! ## The accumulation over the grid -/

theorem notLast_of_first {n : ℕ} (h : n % 4 = 0) : ¬ n % 4 = 3 := by omega

/-- What the output's staging buffer and the accumulator hold after the body at point n (output first): the kind of the
    point decides, a MIDDLE or LAST point over the accumulator as the point before left it. -/
def heldAfter (c : Dev nD) : (n : ℕ) → n < cfg0.N → Vec F S2000x256 .f32 × Vec F S2000x256 .f32
  | 0, hn =>
    let t : Fin cfg0.N := ⟨0, hn⟩
    (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr (Nat.zero_mod _)) (fun h => notLast_of_first (Nat.zero_mod 4) ((atLast_iff t).mp h)))
  | n + 1, hn =>
    let t : Fin cfg0.N := ⟨n + 1, hn⟩
    if h0 : (n + 1) % 4 = 0 then
      (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        ((atFirst_iff t).mpr h0) (fun h => notLast_of_first h0 ((atLast_iff t).mp h)))
    else if h1 : (n + 1) % 4 = 3 then
      (outLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2,
        accLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2)
    else
      (idleOut, accMiddle c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) (fun h => h1 ((atLast_iff t).mp h)) (heldAfter c n (Nat.lt_of_succ_lt hn)).2)

/-- `heldAfter` at a FIRST point. -/
theorem heldAfter_first (c : Dev nD) (t : Fin cfg0.N) (h0 : t.val % 4 = 0) :
    heldAfter V c t.val t.isLt = (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr h0) (fun h => notLast_of_first h0 ((atLast_iff t).mp h))) := by
  obtain ⟨n, hn⟩ := t
  cases n with
  | zero => rfl
  | succ n => exact (dif_pos h0).trans rfl

/-- `heldAfter` at a MIDDLE point: over what the point before left in the accumulator. -/
theorem heldAfter_middle (c : Dev nD) (t : Fin cfg0.N) (h0 : ¬t.val % 4 = 0) (h1 : ¬t.val % 4 = 3) :
    heldAfter V c t.val t.isLt = (idleOut, accMiddle c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      (fun h => h0 ((atFirst_iff t).mp h)) (fun h => h1 ((atLast_iff t).mp h))
      (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `heldAfter` at a LAST point. -/
theorem heldAfter_last (c : Dev nD) (t : Fin cfg0.N) (h0 : ¬t.val % 4 = 0) (h1 : t.val % 4 = 3) :
    heldAfter V c t.val t.isLt = (outLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2,
      accLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before point n: at the region's entry what the launch hands over (the accumulator at anything); afterwards the
    accumulator at what point n - 1 left, the other scoped buffers, and the generator register at some state. -/
def invBefore (c : Dev nD) : (n : ℕ) → n ≤ cfg0.N → sProp 𝕄
  | 0, _ => Pipeline.ΦA spec0 c
  | n + 1, hn => iprop(iprop(owns (c : Thread nD τ) accBuf fullShare ((heldAfter V c n hn).2) ∗ otherScoped (F := F) c) ∗ (∃ r, prngReg c r))

theorem invBefore_zero (c : Dev nD) (n : ℕ) (h : n ≤ cfg0.N) (hz : n = 0) : invBefore V c n h = Pipeline.ΦA spec0 c := by
  subst hz; rfl
theorem invBefore_succ (c : Dev nD) (n : ℕ) (hn : n < cfg0.N) :
    invBefore V c (n + 1) hn = iprop(iprop(owns (c : Thread nD τ) accBuf fullShare ((heldAfter V c n hn).2) ∗ otherScoped (F := F) c) ∗ (∃ r, prngReg c r)) := rfl
theorem invBefore_pos (c : Dev nD) (n : ℕ) (h : n ≤ cfg0.N) (hz : n ≠ 0) :
    invBefore V c n h = iprop(iprop(owns (c : Thread nD τ) accBuf fullShare ((heldAfter V c (n - 1) (by omega)).2) ∗ otherScoped (F := F) c) ∗ (∃ r, prngReg c r)) := by
  cases n with
  | zero => exact absurd rfl hz
  | succ n => rfl

/-! ## The pipeline's proof data -/

/-- The region's proof data on core c: the arrays as the region finds them; after the body at point t each input's
    buffer at its block and the output's at `heldAfter`'s first component; the invariant above; nothing owed; full shares. -/
def layerData (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => (heldAfter V c t.val t.isLt).1
  Φ t := invBefore V c t.val (Nat.le_of_lt_succ t.isLt)
  q _ := fullShare
  owed _ := 0

theorem layerData_A (c : Dev nD) (w : Fin cfg0.W) : (layerData V c).A w = V c (Pipeline.arrRef spec0 w) := by
  dsimp only [layerData]
theorem inv_castSucc (c : Dev nD) (t : Fin cfg0.N) :
    (layerData V c).Φ t.castSucc = invBefore V c t.val (Nat.le_of_lt t.isLt) := by
  dsimp only [layerData]; simp only [Fin.coe_castSucc]
theorem after_agg (c : Dev nD) (t : Fin cfg0.N) : (layerData V c).after 0 t = blockAt V c 0 t := by dsimp only [layerData]
theorem after_weight (c : Dev nD) (t : Fin cfg0.N) : (layerData V c).after 1 t = blockAt V c 1 t := by dsimp only [layerData]
theorem after_bias (c : Dev nD) (t : Fin cfg0.N) : (layerData V c).after 2 t = blockAt V c 2 t := by dsimp only [layerData]
theorem after_out (c : Dev nD) (t : Fin cfg0.N) : (layerData V c).after 3 t = (heldAfter V c t.val t.isLt).1 := by dsimp only [layerData]
theorem before_agg (c : Dev nD) (t : Fin cfg0.N) (d) : (layerData V c).before 0 t d = blockAt V c 0 t :=
  before_agg_of V (layerData V c) (layerData_A V c 0) (after_agg V c) t d
theorem before_weight (c : Dev nD) (t : Fin cfg0.N) (d) : (layerData V c).before 1 t d = blockAt V c 1 t :=
  before_weight_of V (layerData V c) (layerData_A V c 1) (after_weight V c) t d
theorem before_bias (c : Dev nD) (t : Fin cfg0.N) (d) : (layerData V c).before 2 t d = blockAt V c 2 t :=
  before_bias_of V (layerData V c) (layerData_A V c 2) (after_bias V c) t d

end Cert.Kernel.LayerOne

end
-- ==== Proof.LayerOneBodyBits.lean ====
/-
  The first relational layer's body obligation: at every point of the grid the body, called on the windows' current
  staging buffers under the region's invariant, runs to the invariant at the next point with every window's buffer at
  what the proof data says. By the kind of the point: at a FIRST point the accumulator is taken at anything, at a
  MIDDLE or LAST point at what the point before left; away from the LAST points the output's buffer is handed back as
  it was found.
-/
import proofs.«127058_j2791728742679_2_alg».proof.Proof.LayerOneDataBits

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((layerData V c).Φ t.castSucc ∗ (layerData V c).owesAt () t.castSucc
    ∗ (∃ d, owns (c : Thread nD τ) (aggBuf t) fullShare ((layerData V c).before 0 t d))
    ∗ (∃ d, owns (c : Thread nD τ) (weightBuf t) fullShare ((layerData V c).before 1 t d))
    ∗ (∃ d, owns (c : Thread nD τ) (biasBuf t) fullShare ((layerData V c).before 2 t d))
    ∗ (∃ d, owns (c : Thread nD τ) (outBuf t) fullShare ((layerData V c).before 3 t d)))

/-- and what it returns. -/
def bodyPost (c : Dev nD) (t : Fin cfg0.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_agg, before_weight, before_bias]
  rw [show (layerData V c).owesAt () t.succ = (layerData V c).owesAt () t.castSucc from rfl]
  rw [show (layerData V c).Φ t.succ = invBefore V c (t.val + 1) t.isLt from rfl, invBefore_succ]
  rw [show (layerData V c).leavesExact 0 t = owns (c : Thread nD τ) (aggBuf t) fullShare ((layerData V c).after 0 t) from by
    unfold Dat.leavesExact; rw [agg_live t], after_agg]
  rw [show (layerData V c).leavesExact 1 t = owns (c : Thread nD τ) (weightBuf t) fullShare ((layerData V c).after 1 t) from by
    unfold Dat.leavesExact; rw [weight_live t], after_weight]
  rw [show (layerData V c).leavesExact 2 t = owns (c : Thread nD τ) (biasBuf t) fullShare ((layerData V c).after 2 t) from by
    unfold Dat.leavesExact; rw [bias_live t], after_bias]
  by_cases h0 : t.val % 4 = 0
  · -- a FIRST point
    have hnl : ¬atLast (grid0.coords t) := fun h => notLast_of_first h0 ((atLast_iff t).mp h)
    rw [Dat.leavesExact_idle (layerData V c) 3 t (out_idle t hnl) (out_kept t hnl)]
    rw [heldAfter_first V c t h0]
    unfold accFirst; (try dsimp only)
    by_cases hz : t.val = 0
    · rw [inv_castSucc V c t, invBefore_zero V c _ _ hz, launchInv_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · -- a LAST point
      have hl : atLast (grid0.coords t) := (atLast_iff t).mpr h1
      rw [show (layerData V c).leavesExact 3 t = owns (c : Thread nD τ) (outBuf t) fullShare ((layerData V c).after 3 t) from by
        unfold Dat.leavesExact; rw [out_live t hl], after_out]
      rw [heldAfter_last V c t h0 h1]
      unfold outLast accLast; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((atFirst_iff t).mp h)) hl (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- a MIDDLE point
      have hnl : ¬atLast (grid0.coords t) := fun h => h1 ((atLast_iff t).mp h)
      rw [Dat.leavesExact_idle (layerData V c) 3 t (out_idle t hnl) (out_kept t hnl)]
      rw [heldAfter_middle V c t h0 h1]
      unfold accMiddle; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runMiddle c (grid0.coords t) _ _ _ _ _ _ _ _ _ _ (fun h => h0 ((atFirst_iff t).mp h)) hnl (blockAt V c 0 t) (blockAt V c 1 t) (blockAt V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W0, bigSep_W0]
  exact body_at V c t

/-- What the launch hands the region is the invariant before the first point. -/
theorem inv_in (c : Dev nD) : Pipeline.ΦA spec0 c ⊢ (layerData V c).Φ 0 := by
  rw [show (layerData V c).Φ 0 = invBefore V c 0 (Nat.zero_le _) from rfl, invBefore_zero V c 0 _ rfl]
  try exact Idealize.SL.BI.Entails.refl _

/-- After any point but none the invariant gives the launch's back: the accumulator's named contents are forgotten. -/
theorem inv_forget (c : Dev nD) (t : Fin (cfg0.N + 1)) (ht : t.val ≠ 0) : (layerData V c).Φ t ⊢ Pipeline.ΦA spec0 c := by
  rw [show (layerData V c).Φ t = invBefore V c t.val (Nat.le_of_lt_succ t.isLt) from rfl, invBefore_pos V c _ _ ht, launchInv_eq]
  iintro ⟨⟨HS, Hoth⟩, Hg⟩
  isplitl [HS Hoth]
  · isplitl [HS]
    · iexists _; iexact HS
    iexact Hoth
  iexact Hg

/-- The same after the last point. -/
theorem inv_out (c : Dev nD) : (layerData V c).Φ (Fin.last cfg0.N) ⊢ Pipeline.ΦA spec0 c :=
  inv_forget V c _ (by rw [Fin.val_last]; have : cfg0.N = 200 := N_0; omega)

end Cert.Kernel.LayerOne

end
-- ==== Proof.FamilyBits.lean ====
/-
  The proof data of the three kernel regions as one family over the pipeline index: a literal match, so that the
  family at a numeral reduces to that region's own data. Each region's record is stated over the family with
  its own data fixed and the other two regions' data arbitrary.
-/
import proofs.«127058_j2791728742679_2_alg».proof.Proof.Gen.Kernel.Launch

noncomputable section

namespace Cert.Kernel.Hand

open Cert.Kernel Cert.Kernel.Gen
open Idealize.ShloMosaic Idealize.ShloMosaic.TcCoe
open Idealize.SL Idealize.SL.RA Idealize.SL.BI
open Idealize.ShloMosaic.Pipeline (Dat)

variable {F : FTy → Type} [FloatOps F]

/-- No region has a prefetched table: the admissible table contents are the trivial ones. -/
abbrev noTables : (p : Fin 3) → (pcfgs (F := F) p).Adm := fun p => (cfgs p).toPCfg_adm

/-- One region's proof data on every core, over the unit index type, the pipeline library's own algebra and
    natural-number levels. -/
abbrev RegionData (p : Fin 3) : Type := (c : Dev nD) → Dat τ (Elt F) Unit ℕ (UR sig nD τ) ℕ (cfgs p) c

/-- The three regions' proof data as a family. -/
def family (d0 : RegionData (F := F) 0) (d1 : RegionData (F := F) 1) (d2 : RegionData (F := F) 2) :
    (p : Fin 3) → (c : Dev nD) → Dat τ (Elt F) Unit ℕ (UR sig nD τ) ℕ (cfgs p) c
  | ⟨0, _⟩ => d0
  | ⟨1, _⟩ => d1
  | ⟨2, _⟩ => d2

end Cert.Kernel.Hand

end
-- ==== Proof.LayerOneSegBits.lean ====
/-
  The first relational layer's region as a segment of @main: entered with every unscoped buffer whole at a valuation
  `Vin`, the generator register at some state and nothing owed; left at any valuation that holds, at the region's
  four arrays, what the pipeline leaves there — the three operands as entered, the output with the fifty written blocks
  folded in — and agrees with `Vin` elsewhere. The arrays are split out of the unscoped buffers at entry and put back at
  exit; the generator register and the scoped buffers pass through the region's invariant; the kernel has no semaphore
  of its own and owes nothing.
-/
import proofs.«127058_j2791728742679_2_alg».proof.Proof.LayerOneBodyBits
import proofs.«127058_j2791728742679_2_alg».proof.Proof.FamilyBits
import Idealize.ShloMosaic.Lib.Pipeline.Frame
import Idealize.ShloMosaic.Lib.Pipeline.FrameSuffix
import Idealize.ShloMosaic.Lib.Pipeline.RegionsLoop

set_option maxRecDepth 16384

noncomputable section

namespace Cert.Kernel.LayerOne

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, and the core owing nothing. -/
abbrev Rst (c : Dev nD) : sProp 𝕄 :=
  iprop((∃ r, prngReg c r) ∗ ∃ W, owes (c : Thread nD τ) (0 : CellTallies nD τ sig Unit) W)

set_option backward.isDefEq.respectTransparency.types false in
def layerSeg (d1 : RegionData (F := F) 1) (d2 : RegionData (F := F) 2)
    (Vin Vout : Dev nD → Valuation τ sig (Elt F))
    (hF : ∀ c w, (layerData (fun c b => Vin c b) c).arrAt w cfg0.N = Vout c (Pipeline.arrRef spec0 w))
    (hrest : ∀ c (b : Ref sig .tc), b ∉ Finset.univ.image (Pipeline.arrRef spec0) → Vout c b = Vin c b) :
    Pipeline.RegionSeg (pcfgs (F := F)) noTables (family (fun c => layerData (fun c b => Vin c b) c) d1 d2) () defs₀ Variants.none
      (fun _ => ∅) (fun _ _ => 0) 0 where
  win := launch0.win.to₀
  block_pos := launch0.block_pos
  stage_whole := launch0.stage_whole
  K := PEmpty
  osem k := k.elim
  ho := Pipeline.OwnSemFacts.none _
  hbody c := (body_obligation (fun c b => Vin c b) c).loose
  hwaits := Pipeline.hwaits_of_owed_zero _ _ _ _ (fun _ => ∅) (fun _ _ => 0) 0 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) noTables
      (family (fun c => layerData (fun c b => Vin c b) c) d1 d2) launch0.win launch0.arr_whole c
      (((family (fun c => layerData (fun c b => Vin c b) c) d1 d2) 0 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((family (fun c => layerData (fun c b => Vin c b) c) d1 d2) 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show ((family (fun c => layerData (fun c b => Vin c b) c) d1 d2) 0 c).Φ (Fin.last _) ⊢ Pipeline.ΦA spec0 c from inv_out (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ)
      (U := UR sig nD τ) (Lvl := ℕ) launch0.win launch0.arr_whole c (family (fun c => layerData (fun c b => Vin c b) c) d1 d2)
      (((family (fun c => layerData (fun c b => Vin c b) c) d1 d2) 0 c).share_full fun _ => rfl)
      (fun b => Vin c b) (fun b => Vout c b)
      (((family (fun c => layerData (fun c b => Vin c b) c) d1 d2) 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation -/

/-- The four arrays after the region, read off the entry valuation with the output array replaced: the three operands as
    entered (an operand is never written back), the output at its replacement. -/
theorem exit_arrays (Vin : Dev nD → Valuation τ sig (Elt F)) (c : Dev nD)
    (out : Buf (Elt F) ((c : Thread nD τ).loc main_v130))
    (hout : out = (layerData (fun c b => Vin c b) c).arrAt 3 cfg0.N) :
    ∀ w, (layerData (fun c b => Vin c b) c).arrAt w cfg0.N
      = Function.update (Vin c) (Proc.devRef .tc main_v130) out (Proc.devRef .tc (Pipeline.arrRef spec0 w))
  | ⟨0, _⟩ => ((layerData (fun c b => Vin c b) c).arrAt_in 0 rfl _).trans
      ((layerData_A (fun c b => Vin c b) c 0).trans (Function.update_of_ne (StableHlo.devRef_ne_of_ne (by decide)) _ _).symm)
  | ⟨1, _⟩ => ((layerData (fun c b => Vin c b) c).arrAt_in 1 rfl _).trans
      ((layerData_A (fun c b => Vin c b) c 1).trans (Function.update_of_ne (StableHlo.devRef_ne_of_ne (by decide)) _ _).symm)
  | ⟨2, _⟩ => ((layerData (fun c b => Vin c b) c).arrAt_in 2 rfl _).trans
      ((layerData_A (fun c b => Vin c b) c 2).trans (Function.update_of_ne (StableHlo.devRef_ne_of_ne (by decide)) _ _).symm)
  | ⟨3, _⟩ => hout.symm.trans
      (show out = Function.update (Vin c) (Proc.devRef .tc main_v130) out (Proc.devRef .tc main_v130) from
        (Function.update_self (f := Vin c) (Proc.devRef .tc main_v130) out).symm)

/-- Every buffer that is none of the region's four arrays is as entered. -/
theorem exit_rest (Vin : Dev nD → Valuation τ sig (Elt F)) (c : Dev nD)
    (out : Buf (Elt F) ((c : Thread nD τ).loc main_v130)) (b : Ref sig .tc)
    (hb : b ∉ Finset.univ.image (Pipeline.arrRef spec0)) :
    Function.update (Vin c) (Proc.devRef .tc main_v130) out (Proc.devRef .tc b) = Vin c (Proc.devRef .tc b) :=
  Function.update_of_ne (StableHlo.devRef_ne_of_ne fun e =>
    hb (Finset.mem_image.mpr ⟨3, Finset.mem_univ _, e.symm⟩)) _ _

/-- The region entered at `Vin` and left at `Vin` with the output array replaced by what the pipeline leaves in it. -/
def layerSegUpdate (d1 : RegionData (F := F) 1) (d2 : RegionData (F := F) 2)
    (Vin : Dev nD → Valuation τ sig (Elt F))
    (out : (c : Dev nD) → Buf (Elt F) ((c : Thread nD τ).loc main_v130))
    (hout : ∀ c, out c = (layerData (fun c b => Vin c b) c).arrAt 3 cfg0.N) :
    Pipeline.RegionSeg (pcfgs (F := F)) noTables (family (fun c => layerData (fun c b => Vin c b) c) d1 d2) () defs₀ Variants.none
      (fun _ => ∅) (fun _ _ => 0) 0 :=
  layerSeg d1 d2 Vin (fun c => Function.update (Vin c) (Proc.devRef .tc main_v130) (out c))
    (fun c w => exit_arrays Vin c (out c) (hout c) w) (fun c b hb => exit_rest Vin c (out c) b hb)

end Cert.Kernel.LayerOne

end
-- ==== Proof.LayerTwoPointsBits.lean ====
/-
  The second relational layer's kernel on its grid of 50 row blocks × 4 relations (the relation index runs fastest,
  so point t is row block t / 4 at relation t % 4). The body clears its accumulator when the relation index is 0,
  adds  agg_r · W_r + b_r  to it at every point, and when the relation index is 3 stores  max(accumulator, 0)  into the
  output block. So every point is of one of three kinds — FIRST (clear, then add), MIDDLE (add), LAST (add, then
  store) — decided here over the grid in closed form, together with where the output window is idle (everywhere but
  at the LAST points, where alone its block is written back).
-/
import proofs.«127058_j2791728742679_2_alg».proof.Proof.Gen.Kernel.Launch
import proofs.«127058_j2791728742679_2_alg».proof.Proof.Gen.Kernel.Skeleton
import proofs.«127058_j2791728742679_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional: the relation index is 0 (the scalar chain the kernel computes, substituted). -/
abbrev atFirst (i : grid1.Coords) : Prop :=
  (Scalar.cmpi .ne (Scalar.extui (Scalar.cmpi .eq (BitVec.ofNat 32 (i 1).val) 0#32)) 0#32) = 1#1
/-- It holds exactly at the points t with t % 4 = 0. -/
theorem atFirst_iff : ∀ t : Fin cfg1.N, atFirst (grid1.coords t) ↔ t.val % 4 = 0 :=
  (by decide +kernel : ∀ t : Fin grid1.N, atFirst (grid1.coords t) ↔ t.val % 4 = 0)

/-- The body's second conditional: the relation index is 3, the last relation. -/
abbrev atLast (i : grid1.Coords) : Prop := k1_cond2 i = 1#1
/-- It holds exactly at the points t with t % 4 = 3. -/
theorem atLast_iff : ∀ t : Fin cfg1.N, atLast (grid1.coords t) ↔ t.val % 4 = 3 :=
  (by decide +kernel : ∀ t : Fin grid1.N, atLast (grid1.coords t) ↔ t.val % 4 = 3)

/-! ## Where the windows are idle -/

/-- The three input windows are never idle. -/
theorem agg_live : ∀ t : Fin cfg1.N, cfg1.idle 0 (grid1.coords t) = false := by decide +kernel
theorem weight_live : ∀ t : Fin cfg1.N, cfg1.idle 1 (grid1.coords t) = false := by decide +kernel
theorem bias_live : ∀ t : Fin cfg1.N, cfg1.idle 2 (grid1.coords t) = false := by decide +kernel
/-- Away from the LAST points the output window is idle: the body stores nothing into it there, -/
theorem out_idle : ∀ t : Fin cfg1.N, ¬atLast (grid1.coords t) → cfg1.idle 3 (grid1.coords t) = true := by decide +kernel
/-- and its block is not written back there. -/
theorem out_kept : ∀ t : Fin cfg1.N, ¬atLast (grid1.coords t) → (cfg1.win 3).flush t = false := by decide +kernel
/-- At the LAST points it is live. -/
theorem out_live : ∀ t : Fin cfg1.N, atLast (grid1.coords t) → cfg1.idle 3 (grid1.coords t) = false := by decide +kernel

/-! ## The memrefs the body is called with -/

/-- The aggregated-features block's, the weight slab's, the bias row's and the output block's current staging memref at
    point t, as the pipeline passes them, each a whole buffer. -/
abbrev aggBuf (t : Fin cfg1.N) : Memref sig .tc .vmem S1x2000x256 .f32 := win1_0.stage (cfg1.slots t 0)
abbrev aggBuf_whole (t : Fin cfg1.N) : (aggBuf t).IsWhole := hstage1_0 ((cfg1.slots t 0).cast nbuf1_0)
abbrev weightBuf (t : Fin cfg1.N) : Memref sig .tc .vmem S1x256x256 .f32 := win1_1.stage (cfg1.slots t 1)
abbrev weightBuf_whole (t : Fin cfg1.N) : (weightBuf t).IsWhole := hstage1_1 ((cfg1.slots t 1).cast nbuf1_1)
abbrev biasBuf (t : Fin cfg1.N) : Memref sig .tc .vmem S1x1x256 .f32 := win1_2.stage (cfg1.slots t 2)
abbrev biasBuf_whole (t : Fin cfg1.N) : (biasBuf t).IsWhole := hstage1_2 ((cfg1.slots t 2).cast nbuf1_2)
abbrev outBuf (t : Fin cfg1.N) : Memref sig .tc .vmem S2000x256 .f32 := win1_3.stage (cfg1.slots t 3)
abbrev outBuf_whole (t : Fin cfg1.N) : (outBuf t).IsWhole := hstage1_3 ((cfg1.slots t 3).cast nbuf1_3)
/-- The accumulator: a whole scoped buffer of the kernel's own, carried from point to point. -/
abbrev accBuf : Memref sig .tc .vmem S2000x256 .f32 := Memref.whole cc1_scratch0
/-- The accumulator and one staging buffer of the output window as views: contents are stated through them. -/
abbrev accView : View sig .tc .vmem S2000x256 .f32 := accBuf.view
abbrev outView : View sig .tc .vmem S2000x256 .f32 := (Memref.whole cc1_stg3_0 : Memref sig .tc .vmem S2000x256 .f32).view

/-! ## The region's invariant when nothing is known of the accumulator -/

/-- The core's other scoped buffers — the staging buffers and the accumulator of the first region and the staging buffers of the last —, each whole at
    some contents: they ride through this region untouched. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant the launch hands the region: the accumulator at some contents, the other scoped buffers, and the
    generator register at some state. -/
theorem launchInv_eq (c : Dev nD) :
    (Pipeline.ΦA spec1 c : sProp 𝕄)
      = iprop(iprop((∃ d, owns (c : Thread nD τ) accBuf fullShare d) ∗ otherScoped (F := F) c) ∗ (∃ r, prngReg c r)) := by
  unfold Pipeline.ΦA; rw [scopedRest1_eq]; unfold otherScoped; simp only [accBuf, owns_whole]
  refine BI.Entails.antisymm (show (_ : sProp 𝕄) ⊢ _ from ?_) (show (_ : sProp 𝕄) ⊢ _ from ?_)
  ·
    iintro ⟨⟨H0, H1, H2, H3, H4, H5, H6, H7, H8, H9, H10, H11, H12, H13, H14, H15⟩, Hg⟩
    isplitr [Hg]
    · isplitl [H9]; · iexact H9
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      isplitl [H14]; · iexact H14
      iexact H15
    iexact Hg
  ·
    iintro ⟨⟨H9, H0, H1, H2, H3, H4, H5, H6, H7, H8, H10, H11, H12, H13, H14, H15⟩, Hg⟩
    isplitr [Hg]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact Hg

end Cert.Kernel.LayerTwo

end
-- ==== Proof.LayerTwoRunFirstBits.lean ====
/-
  The second relational layer's body at a FIRST point (relation index 0): the accumulator is cleared, then
  agg_0 · W_0 + b_0  is added to it; the output block is not touched. Run here once, on any whole staging memrefs: the
  inputs' at their contents, the output's at contents handed back as they were, the accumulator at anything; what is found
  is the list of pieces the accumulator ends with (last store first).
-/
import proofs.«127058_j2791728742679_2_alg».proof.Proof.LayerTwoPointsBits

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: the pieces the accumulator ends with, with the proof that the body runs to its continuation
    holding every input and the output as they were and the accumulator with those pieces written. -/
noncomputable def runFirst (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : atFirst i) (hl : ¬atLast i) (x0 : Vec F S1x2000x256 .f32) (x1 : Vec F S1x256x256 .f32) (x2 : Vec F S1x1x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨[], ?_, fun xo E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.LayerTwo

end
-- ==== Proof.LayerTwoRunMiddleBits.lean ====
/-
  The second relational layer's body at a MIDDLE point (relation index 1 or 2):  agg_r · W_r + b_r  is added to the
  accumulator, which comes in at what the point before left; the output block is not touched.
-/
import proofs.«127058_j2791728742679_2_alg».proof.Proof.LayerTwoPointsBits

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: the pieces the accumulator ends with, over its contents `acc` on entry. -/
noncomputable def runMiddle (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : ¬atLast i) (x0 : Vec F S1x2000x256 .f32) (x1 : Vec F S1x256x256 .f32) (x2 : Vec F S1x1x256 .f32) (acc : Vec F S2000x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare acc
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨[], ?_, fun xo E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.LayerTwo

end
-- ==== Proof.LayerTwoRunLastBits.lean ====
/-
  The second relational layer's body at a LAST point (relation index 3):  agg_3 · W_3 + b_3  is added to the accumulator,
  which comes in at what the point before left, and  max(accumulator, 0)  is stored into the output block.
-/
import proofs.«127058_j2791728742679_2_alg».proof.Proof.LayerTwoPointsBits

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: the pieces the output block and the accumulator end with, over the accumulator's contents
    `acc` on entry; the output's buffer comes in at anything. -/
noncomputable def runLast (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : atLast i) (x0 : Vec F S1x2000x256 .f32) (x1 : Vec F S1x256x256 .f32) (x2 : Vec F S1x1x256 .f32) (acc : Vec F S2000x256 .f32) :
    Σ' (Lout : List (View.Piece (Elt F) S2000x256 .f32)), { Lacc : List (View.Piece (Elt F) S2000x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare acc
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f Lout) ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨?_, ?_, fun E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.Kernel.LayerTwo

end
-- ==== Proof.LayerTwoDataBits.lean ====
/-
  The second relational layer's region, point by point. After point t the accumulator holds, for the row block t / 4,
  the partial sum  Σ_{r ≤ t % 4} (agg_r · W_r + b_r)  over that block's rows — cleared and restarted at every FIRST point —,
  and after a LAST point the output block holds its  max(·, 0).  This module names those contents by recursion on the
  point (`heldAfter`), states the region's invariant (the accumulator at the contents the point before left, the other
  scoped buffers and the generator register riding along), the pipeline's proof data over ANY contents `V` of the
  buffers on entry, and the body obligation at every point, by the kind of the point.
-/
import proofs.«127058_j2791728742679_2_alg».proof.Proof.LayerTwoRunFirstBits
import proofs.«127058_j2791728742679_2_alg».proof.Proof.LayerTwoRunMiddleBits
import proofs.«127058_j2791728742679_2_alg».proof.Proof.LayerTwoRunLastBits

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before_agg_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_weight_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What each kind of point leaves -/

section Kinds
variable (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x256 .f32) (x1 : Vec F S1x256x256 .f32) (x2 : Vec F S1x1x256 .f32)

/-- The accumulator after a FIRST point: its pieces read back. -/
def accFirst (hf : atFirst i) (hl : ¬atLast i) : Vec F S2000x256 .f32 :=
  accView.read (Elt F) (accView.writes (Elt F) accView.junk (runFirst c i a2 h2 a3 h3 a4 h4 a5 h5 a6 h6 hf hl x0 x1 x2).2.1)
/-- Those pieces cover the accumulator. -/
theorem accFirst_cover (hf : atFirst i) (hl : ¬atLast i) (y : S2000x256.Idx) :
    ∃ pc ∈ (runFirst c i a2 h2 a3 h3 a4 h4 a5 h5 a6 h6 hf hl x0 x1 x2).2.1, y ∈ pc.1.set :=
  View.cover_of_tiledL (runFirst c i a2 h2 a3 h3 a4 h4 a5 h5 a6 h6 hf hl x0 x1 x2).2.1 S2000x256.size (by sl_kernel_rfl) y

/-- The accumulator after a MIDDLE point, over its contents on entry. -/
def accMiddle (hf : ¬atFirst i) (hl : ¬atLast i) (acc : Vec F S2000x256 .f32) : Vec F S2000x256 .f32 :=
  accView.read (Elt F) (accView.writes (Elt F) accView.junk (runMiddle c i a2 h2 a3 h3 a4 h4 a5 h5 a6 h6 hf hl x0 x1 x2 acc).2.1)
theorem accMiddle_cover (hf : ¬atFirst i) (hl : ¬atLast i) (acc : Vec F S2000x256 .f32) (y : S2000x256.Idx) :
    ∃ pc ∈ (runMiddle c i a2 h2 a3 h3 a4 h4 a5 h5 a6 h6 hf hl x0 x1 x2 acc).2.1, y ∈ pc.1.set :=
  View.cover_of_tiledL (runMiddle c i a2 h2 a3 h3 a4 h4 a5 h5 a6 h6 hf hl x0 x1 x2 acc).2.1 S2000x256.size (by sl_kernel_rfl) y

/-- The accumulator and the output block after a LAST point, over the accumulator's contents on entry. -/
def accLast (hf : ¬atFirst i) (hl : atLast i) (acc : Vec F S2000x256 .f32) : Vec F S2000x256 .f32 :=
  accView.read (Elt F) (accView.writes (Elt F) accView.junk (runLast c i a2 h2 a3 h3 a4 h4 a5 h5 a6 h6 hf hl x0 x1 x2 acc).2.1)
theorem accLast_cover (hf : ¬atFirst i) (hl : atLast i) (acc : Vec F S2000x256 .f32) (y : S2000x256.Idx) :
    ∃ pc ∈ (runLast c i a2 h2 a3 h3 a4 h4 a5 h5 a6 h6 hf hl x0 x1 x2 acc).2.1, y ∈ pc.1.set :=
  View.cover_of_tiledL (runLast c i a2 h2 a3 h3 a4 h4 a5 h5 a6 h6 hf hl x0 x1 x2 acc).2.1 S2000x256.size (by sl_kernel_rfl) y
def outLast (hf : ¬atFirst i) (hl : atLast i) (acc : Vec F S2000x256 .f32) : Vec F S2000x256 .f32 :=
  outView.read (Elt F) (outView.writes (Elt F) outView.junk (runLast c i a2 h2 a3 h3 a4 h4 a5 h5 a6 h6 hf hl x0 x1 x2 acc).1)
theorem outLast_cover (hf : ¬atFirst i) (hl : atLast i) (acc : Vec F S2000x256 .f32) (y : S2000x256.Idx) :
    ∃ pc ∈ (runLast c i a2 h2 a3 h3 a4 h4 a5 h5 a6 h6 hf hl x0 x1 x2 acc).1, y ∈ pc.1.set :=
  View.cover_of_tiledL (runLast c i a2 h2 a3 h3 a4 h4 a5 h5 a6 h6 hf hl x0 x1 x2 acc).1 S2000x256.size (by sl_kernel_rfl) y

end Kinds

/-- Where the output window is idle its buffer's named contents are a placeholder nothing consults. -/
def idleOut : Vec F S2000x256 .f32 := outView.read (Elt F) outView.junk

/-! ## The accumulation over the grid -/

theorem notLast_of_first {n : ℕ} (h : n % 4 = 0) : ¬ n % 4 = 3 := by omega

/-- What the output's staging buffer and the accumulator hold after the body at point n (output first): the kind of the
    point decides, a MIDDLE or LAST point over the accumulator as the point before left it. -/
def heldAfter (c : Dev nD) : (n : ℕ) → n < cfg1.N → Vec F S2000x256 .f32 × Vec F S2000x256 .f32
  | 0, hn =>
    let t : Fin cfg1.N := ⟨0, hn⟩
    (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr (Nat.zero_mod _)) (fun h => notLast_of_first (Nat.zero_mod 4) ((atLast_iff t).mp h)))
  | n + 1, hn =>
    let t : Fin cfg1.N := ⟨n + 1, hn⟩
    if h0 : (n + 1) % 4 = 0 then
      (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        ((atFirst_iff t).mpr h0) (fun h => notLast_of_first h0 ((atLast_iff t).mp h)))
    else if h1 : (n + 1) % 4 = 3 then
      (outLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2,
        accLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2)
    else
      (idleOut, accMiddle c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) (fun h => h1 ((atLast_iff t).mp h)) (heldAfter c n (Nat.lt_of_succ_lt hn)).2)

/-- `heldAfter` at a FIRST point. -/
theorem heldAfter_first (c : Dev nD) (t : Fin cfg1.N) (h0 : t.val % 4 = 0) :
    heldAfter V c t.val t.isLt = (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr h0) (fun h => notLast_of_first h0 ((atLast_iff t).mp h))) := by
  obtain ⟨n, hn⟩ := t
  cases n with
  | zero => rfl
  | succ n => exact (dif_pos h0).trans rfl

/-- `heldAfter` at a MIDDLE point: over what the point before left in the accumulator. -/
theorem heldAfter_middle (c : Dev nD) (t : Fin cfg1.N) (h0 : ¬t.val % 4 = 0) (h1 : ¬t.val % 4 = 3) :
    heldAfter V c t.val t.isLt = (idleOut, accMiddle c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      (fun h => h0 ((atFirst_iff t).mp h)) (fun h => h1 ((atLast_iff t).mp h))
      (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `heldAfter` at a LAST point. -/
theorem heldAfter_last (c : Dev nD) (t : Fin cfg1.N) (h0 : ¬t.val % 4 = 0) (h1 : t.val % 4 = 3) :
    heldAfter V c t.val t.isLt = (outLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2,
      accLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before point n: at the region's entry what the launch hands over (the accumulator at anything); afterwards the
    accumulator at what point n - 1 left, the other scoped buffers, and the generator register at some state. -/
def invBefore (c : Dev nD) : (n : ℕ) → n ≤ cfg1.N → sProp 𝕄
  | 0, _ => Pipeline.ΦA spec1 c
  | n + 1, hn => iprop(iprop(owns (c : Thread nD τ) accBuf fullShare ((heldAfter V c n hn).2) ∗ otherScoped (F := F) c) ∗ (∃ r, prngReg c r))

theorem invBefore_zero (c : Dev nD) (n : ℕ) (h : n ≤ cfg1.N) (hz : n = 0) : invBefore V c n h = Pipeline.ΦA spec1 c := by
  subst hz; rfl
theorem invBefore_succ (c : Dev nD) (n : ℕ) (hn : n < cfg1.N) :
    invBefore V c (n + 1) hn = iprop(iprop(owns (c : Thread nD τ) accBuf fullShare ((heldAfter V c n hn).2) ∗ otherScoped (F := F) c) ∗ (∃ r, prngReg c r)) := rfl
theorem invBefore_pos (c : Dev nD) (n : ℕ) (h : n ≤ cfg1.N) (hz : n ≠ 0) :
    invBefore V c n h = iprop(iprop(owns (c : Thread nD τ) accBuf fullShare ((heldAfter V c (n - 1) (by omega)).2) ∗ otherScoped (F := F) c) ∗ (∃ r, prngReg c r)) := by
  cases n with
  | zero => exact absurd rfl hz
  | succ n => rfl

/-! ## The pipeline's proof data -/

/-- The region's proof data on core c: the arrays as the region finds them; after the body at point t each input's
    buffer at its block and the output's at `heldAfter`'s first component; the invariant above; nothing owed; full shares. -/
def layerData (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (heldAfter V c t.val t.isLt).1
  Φ t := invBefore V c t.val (Nat.le_of_lt_succ t.isLt)
  q _ := fullShare
  owed _ := 0

theorem layerData_A (c : Dev nD) (w : Fin cfg1.W) : (layerData V c).A w = V c (Pipeline.arrRef spec1 w) := by
  dsimp only [layerData]
theorem inv_castSucc (c : Dev nD) (t : Fin cfg1.N) :
    (layerData V c).Φ t.castSucc = invBefore V c t.val (Nat.le_of_lt t.isLt) := by
  dsimp only [layerData]; simp only [Fin.coe_castSucc]
theorem after_agg (c : Dev nD) (t : Fin cfg1.N) : (layerData V c).after 0 t = blockAt V c 0 t := by dsimp only [layerData]
theorem after_weight (c : Dev nD) (t : Fin cfg1.N) : (layerData V c).after 1 t = blockAt V c 1 t := by dsimp only [layerData]
theorem after_bias (c : Dev nD) (t : Fin cfg1.N) : (layerData V c).after 2 t = blockAt V c 2 t := by dsimp only [layerData]
theorem after_out (c : Dev nD) (t : Fin cfg1.N) : (layerData V c).after 3 t = (heldAfter V c t.val t.isLt).1 := by dsimp only [layerData]
theorem before_agg (c : Dev nD) (t : Fin cfg1.N) (d) : (layerData V c).before 0 t d = blockAt V c 0 t :=
  before_agg_of V (layerData V c) (layerData_A V c 0) (after_agg V c) t d
theorem before_weight (c : Dev nD) (t : Fin cfg1.N) (d) : (layerData V c).before 1 t d = blockAt V c 1 t :=
  before_weight_of V (layerData V c) (layerData_A V c 1) (after_weight V c) t d
theorem before_bias (c : Dev nD) (t : Fin cfg1.N) (d) : (layerData V c).before 2 t d = blockAt V c 2 t :=
  before_bias_of V (layerData V c) (layerData_A V c 2) (after_bias V c) t d

end Cert.Kernel.LayerTwo

end
-- ==== Proof.LayerTwoBodyBits.lean ====
/-
  The second relational layer's body obligation: at every point of the grid the body, called on the windows' current
  staging buffers under the region's invariant, runs to the invariant at the next point with every window's buffer at
  what the proof data says. By the kind of the point: at a FIRST point the accumulator is taken at anything, at a
  MIDDLE or LAST point at what the point before left; away from the LAST points the output's buffer is handed back as
  it was found.
-/
import proofs.«127058_j2791728742679_2_alg».proof.Proof.LayerTwoDataBits

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg1.N) : sProp 𝕄 :=
  iprop((layerData V c).Φ t.castSucc ∗ (layerData V c).owesAt () t.castSucc
    ∗ (∃ d, owns (c : Thread nD τ) (aggBuf t) fullShare ((layerData V c).before 0 t d))
    ∗ (∃ d, owns (c : Thread nD τ) (weightBuf t) fullShare ((layerData V c).before 1 t d))
    ∗ (∃ d, owns (c : Thread nD τ) (biasBuf t) fullShare ((layerData V c).before 2 t d))
    ∗ (∃ d, owns (c : Thread nD τ) (outBuf t) fullShare ((layerData V c).before 3 t d)))

/-- and what it returns. -/
def bodyPost (c : Dev nD) (t : Fin cfg1.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_weight, before_bias]
  rw [show (layerData V c).owesAt () t.succ = (layerData V c).owesAt () t.castSucc from rfl]
  rw [show (layerData V c).Φ t.succ = invBefore V c (t.val + 1) t.isLt from rfl, invBefore_succ]
  rw [show (layerData V c).leavesExact 0 t = owns (c : Thread nD τ) (aggBuf t) fullShare ((layerData V c).after 0 t) from by
    unfold Dat.leavesExact; rw [agg_live t], after_agg]
  rw [show (layerData V c).leavesExact 1 t = owns (c : Thread nD τ) (weightBuf t) fullShare ((layerData V c).after 1 t) from by
    unfold Dat.leavesExact; rw [weight_live t], after_weight]
  rw [show (layerData V c).leavesExact 2 t = owns (c : Thread nD τ) (biasBuf t) fullShare ((layerData V c).after 2 t) from by
    unfold Dat.leavesExact; rw [bias_live t], after_bias]
  by_cases h0 : t.val % 4 = 0
  · -- a FIRST point
    have hnl : ¬atLast (grid1.coords t) := fun h => notLast_of_first h0 ((atLast_iff t).mp h)
    rw [Dat.leavesExact_idle (layerData V c) 3 t (out_idle t hnl) (out_kept t hnl)]
    rw [heldAfter_first V c t h0]
    unfold accFirst; (try dsimp only)
    by_cases hz : t.val = 0
    · rw [inv_castSucc V c t, invBefore_zero V c _ _ hz, launchInv_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · -- a LAST point
      have hl : atLast (grid1.coords t) := (atLast_iff t).mpr h1
      rw [show (layerData V c).leavesExact 3 t = owns (c : Thread nD τ) (outBuf t) fullShare ((layerData V c).after 3 t) from by
        unfold Dat.leavesExact; rw [out_live t hl], after_out]
      rw [heldAfter_last V c t h0 h1]
      unfold outLast accLast; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ (fun h => h0 ((atFirst_iff t).mp h)) hl (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- a MIDDLE point
      have hnl : ¬atLast (grid1.coords t) := fun h => h1 ((atLast_iff t).mp h)
      rw [Dat.leavesExact_idle (layerData V c) 3 t (out_idle t hnl) (out_kept t hnl)]
      rw [heldAfter_middle V c t h0 h1]
      unfold accMiddle; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((atFirst_iff t).mp h)) hnl (blockAt V c 0 t) (blockAt V c 1 t) (blockAt V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W1, bigSep_W1]
  exact body_at V c t

/-- What the launch hands the region is the invariant before the first point. -/
theorem inv_in (c : Dev nD) : Pipeline.ΦA spec1 c ⊢ (layerData V c).Φ 0 := by
  rw [show (layerData V c).Φ 0 = invBefore V c 0 (Nat.zero_le _) from rfl, invBefore_zero V c 0 _ rfl]
  try exact Idealize.SL.BI.Entails.refl _

/-- After any point but none the invariant gives the launch's back: the accumulator's named contents are forgotten. -/
theorem inv_forget (c : Dev nD) (t : Fin (cfg1.N + 1)) (ht : t.val ≠ 0) : (layerData V c).Φ t ⊢ Pipeline.ΦA spec1 c := by
  rw [show (layerData V c).Φ t = invBefore V c t.val (Nat.le_of_lt_succ t.isLt) from rfl, invBefore_pos V c _ _ ht, launchInv_eq]
  iintro ⟨⟨HS, Hoth⟩, Hg⟩
  isplitl [HS Hoth]
  · isplitl [HS]
    · iexists _; iexact HS
    iexact Hoth
  iexact Hg

/-- The same after the last point. -/
theorem inv_out (c : Dev nD) : (layerData V c).Φ (Fin.last cfg1.N) ⊢ Pipeline.ΦA spec1 c :=
  inv_forget V c _ (by rw [Fin.val_last]; have : cfg1.N = 200 := N_1; omega)

end Cert.Kernel.LayerTwo

end
-- ==== Proof.LayerTwoSegBits.lean ====
/-
  The second relational layer's region as a segment of @main: entered with every unscoped buffer whole at a valuation
  `Vin`, the generator register at some state and nothing owed; left at any valuation that holds, at the region's
  four arrays, what the pipeline leaves there — the three operands as entered, the output with the fifty written blocks
  folded in — and agrees with `Vin` elsewhere. The arrays are split out of the unscoped buffers at entry and put back at
  exit; the generator register and the scoped buffers pass through the region's invariant; the kernel has no semaphore
  of its own and owes nothing.
-/
import proofs.«127058_j2791728742679_2_alg».proof.Proof.LayerTwoBodyBits
import proofs.«127058_j2791728742679_2_alg».proof.Proof.FamilyBits
import Idealize.ShloMosaic.Lib.Pipeline.Frame
import Idealize.ShloMosaic.Lib.Pipeline.FrameSuffix
import Idealize.ShloMosaic.Lib.Pipeline.RegionsLoop

set_option maxRecDepth 16384

noncomputable section

namespace Cert.Kernel.LayerTwo

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, and the core owing nothing. -/
abbrev Rst (c : Dev nD) : sProp 𝕄 :=
  iprop((∃ r, prngReg c r) ∗ ∃ W, owes (c : Thread nD τ) (0 : CellTallies nD τ sig Unit) W)

set_option backward.isDefEq.respectTransparency.types false in
def layerSeg (d0 : RegionData (F := F) 0) (d2 : RegionData (F := F) 2)
    (Vin Vout : Dev nD → Valuation τ sig (Elt F))
    (hF : ∀ c w, (layerData (fun c b => Vin c b) c).arrAt w cfg1.N = Vout c (Pipeline.arrRef spec1 w))
    (hrest : ∀ c (b : Ref sig .tc), b ∉ Finset.univ.image (Pipeline.arrRef spec1) → Vout c b = Vin c b) :
    Pipeline.RegionSeg (pcfgs (F := F)) noTables (family d0 (fun c => layerData (fun c b => Vin c b) c) d2) () defs₀ Variants.none
      (fun _ => ∅) (fun _ _ => 0) 1 where
  win := launch1.win.to₀
  block_pos := launch1.block_pos
  stage_whole := launch1.stage_whole
  K := PEmpty
  osem k := k.elim
  ho := Pipeline.OwnSemFacts.none _
  hbody c := (body_obligation (fun c b => Vin c b) c).loose
  hwaits := Pipeline.hwaits_of_owed_zero _ _ _ _ (fun _ => ∅) (fun _ _ => 0) 1 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) noTables
      (family d0 (fun c => layerData (fun c b => Vin c b) c) d2) launch1.win launch1.arr_whole c
      (((family d0 (fun c => layerData (fun c b => Vin c b) c) d2) 1 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((family d0 (fun c => layerData (fun c b => Vin c b) c) d2) 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show ((family d0 (fun c => layerData (fun c b => Vin c b) c) d2) 1 c).Φ (Fin.last _) ⊢ Pipeline.ΦA spec1 c from inv_out (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ)
      (U := UR sig nD τ) (Lvl := ℕ) launch1.win launch1.arr_whole c (family d0 (fun c => layerData (fun c b => Vin c b) c) d2)
      (((family d0 (fun c => layerData (fun c b => Vin c b) c) d2) 1 c).share_full fun _ => rfl)
      (fun b => Vin c b) (fun b => Vout c b)
      (((family d0 (fun c => layerData (fun c b => Vin c b) c) d2) 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation -/

/-- The four arrays after the region, read off the entry valuation with the output array replaced: the three operands as
    entered (an operand is never written back), the output at its replacement. -/
theorem exit_arrays (Vin : Dev nD → Valuation τ sig (Elt F)) (c : Dev nD)
    (out : Buf (Elt F) ((c : Thread nD τ).loc main_v261))
    (hout : out = (layerData (fun c b => Vin c b) c).arrAt 3 cfg1.N) :
    ∀ w, (layerData (fun c b => Vin c b) c).arrAt w cfg1.N
      = Function.update (Vin c) (Proc.devRef .tc main_v261) out (Proc.devRef .tc (Pipeline.arrRef spec1 w))
  | ⟨0, _⟩ => ((layerData (fun c b => Vin c b) c).arrAt_in 0 rfl _).trans
      ((layerData_A (fun c b => Vin c b) c 0).trans (Function.update_of_ne (StableHlo.devRef_ne_of_ne (by decide)) _ _).symm)
  | ⟨1, _⟩ => ((layerData (fun c b => Vin c b) c).arrAt_in 1 rfl _).trans
      ((layerData_A (fun c b => Vin c b) c 1).trans (Function.update_of_ne (StableHlo.devRef_ne_of_ne (by decide)) _ _).symm)
  | ⟨2, _⟩ => ((layerData (fun c b => Vin c b) c).arrAt_in 2 rfl _).trans
      ((layerData_A (fun c b => Vin c b) c 2).trans (Function.update_of_ne (StableHlo.devRef_ne_of_ne (by decide)) _ _).symm)
  | ⟨3, _⟩ => hout.symm.trans
      (show out = Function.update (Vin c) (Proc.devRef .tc main_v261) out (Proc.devRef .tc main_v261) from
        (Function.update_self (f := Vin c) (Proc.devRef .tc main_v261) out).symm)

/-- Every buffer that is none of the region's four arrays is as entered. -/
theorem exit_rest (Vin : Dev nD → Valuation τ sig (Elt F)) (c : Dev nD)
    (out : Buf (Elt F) ((c : Thread nD τ).loc main_v261)) (b : Ref sig .tc)
    (hb : b ∉ Finset.univ.image (Pipeline.arrRef spec1)) :
    Function.update (Vin c) (Proc.devRef .tc main_v261) out (Proc.devRef .tc b) = Vin c (Proc.devRef .tc b) :=
  Function.update_of_ne (StableHlo.devRef_ne_of_ne fun e =>
    hb (Finset.mem_image.mpr ⟨3, Finset.mem_univ _, e.symm⟩)) _ _

/-- The region entered at `Vin` and left at `Vin` with the output array replaced by what the pipeline leaves in it. -/
def layerSegUpdate (d0 : RegionData (F := F) 0) (d2 : RegionData (F := F) 2)
    (Vin : Dev nD → Valuation τ sig (Elt F))
    (out : (c : Dev nD) → Buf (Elt F) ((c : Thread nD τ).loc main_v261))
    (hout : ∀ c, out c = (layerData (fun c b => Vin c b) c).arrAt 3 cfg1.N) :
    Pipeline.RegionSeg (pcfgs (F := F)) noTables (family d0 (fun c => layerData (fun c b => Vin c b) c) d2) () defs₀ Variants.none
      (fun _ => ∅) (fun _ _ => 0) 1 :=
  layerSeg d0 d2 Vin (fun c => Function.update (Vin c) (Proc.devRef .tc main_v261) (out c))
    (fun c w => exit_arrays Vin c (out c) (hout c) w) (fun c b hb => exit_rest Vin c (out c) b hb)

end Cert.Kernel.LayerTwo

end
-- ==== Proof.HeadRegion.lean ====
/-
  The linear head  out = x · W + b  as one kernel region of the program: the frame-side record of the region.

  The region walks twenty points. At point t it stages rows 5000·t … 5000·t + 4999 of the hidden features
  (a 5000 × 256 block), the whole 256 × 128 weight and the whole bias of length 128, and the body stores one
  5000 × 128 block: the product of the staged rows with the weight plus the bias along every row. The stored
  block is a function of the three staged blocks alone, so what the region leaves in the output array is fixed
  by the arrays as the region finds them, and the three operand arrays are left as found.

  Everything is stated at an arbitrary valuation of the core's buffers at the region's entry and for every
  float instance.
-/
import proofs.«127058_j2791728742679_2_alg».proof.Proof.FamilyBits
import proofs.«127058_j2791728742679_2_alg».proof.Proof.Gen.Kernel.Launch
import proofs.«127058_j2791728742679_2_alg».proof.Proof.Gen.Kernel.Skeleton
import proofs.«127058_j2791728742679_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Head

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the head's region is entered
variable (V : (c : Dev nD) → (b : Ref sig .tc) → Buf (Elt F) ((c : Thread nD τ).loc b))

/-! ## The staged blocks -/

/-- Operand w's block at point t, cut out of its array as the region finds it: rows 5000·t onward of the
    hidden features or of the output, the whole weight, the whole bias. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The staged rows of the hidden features are the block of the point, whatever buffer of the pair is current:
    for any proof data over the entry contents whose body leaves that block in place. -/
theorem features_found {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The staged weight is the whole weight at every point: it is fetched once, its block index never moves, and
    the body leaves it in place. -/
theorem weight_found {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The staged bias is the whole bias at every point, for the same reason. -/
theorem bias_found {c : Dev nD} (dat : Dat τ (Elt F) Unit ℕ (UR sig nD τ) ℕ cfg2 c)
    (hA : dat.A 2 = V c (Pipeline.arrRef spec2 2)) (hafter : ∀ t, dat.after 2 t = blockAt V c 2 t)
    (t : Fin cfg2.N) (d) : dat.before 2 t d = blockAt V c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body reads and writes: each staged buffer whole -/

abbrev featuresRect : Rect S5000x256 := Rect.unit (s := S5000x256) ![0, 0] S5000x256.size inb_S5000x256_S5000x256_0_0
abbrev weightRect : Rect S256x128 := Rect.unit (s := S256x128) ![0, 0] S256x128.size inb_S256x128_S256x128_0_0
abbrev biasRect : Rect S128 := Rect.unit (s := S128) ![0] S128.size inb_S128_S128_0
abbrev storedRect : Rect S5000x128 := Rect.unit (s := S5000x128) ![0, 0] S5000x128.size inb_S5000x128_S5000x128_0_0

/-- The output's staging buffer after the body, from the three staged operands: the one store, of the rows times
    the weight plus the bias, laid over the whole buffer. -/
def storedBlock (x : Vec F S5000x256 .f32) (W : Vec F S256x128 .f32) (b : Vec F S128 .f32) : Vec F S5000x128 .f32 :=
  View.canon [⟨storedRect, k2_pay1 (View.ld x featuresRect) (View.ld W weightRect) (View.ld b biasRect)⟩]

/-- The one store covers the buffer: its rectangle is the whole 5000 × 128 shape. -/
theorem stored_covers (p : Vec F S5000x128 .f32) (y : S5000x128.Idx) :
    ∃ pc ∈ ([⟨storedRect, p⟩] : List (View.Piece (Elt F) S5000x128 .f32)), y ∈ pc.1.set :=
  View.cover_of_tiled [⟨storedRect, p⟩] S5000x128.size (by rfl) y

/-! ## The body's triple -/

set_option maxHeartbeats 1000000 in
/-- The head's body on whole staging buffers — the three operands' at read contents x, W, b, the output's at
    anything — runs to the continuation with the operands' buffers as they were and the output's holding
    `storedBlock x W b`. -/
theorem head_body (c : Dev nD) (E : Set ℕ) (i : grid2.Coords)
    (arg1 : Memref sig .tc .vmem S5000x256 .f32) (harg1 : arg1.IsWhole)
    (arg2 : Memref sig .tc .vmem S256x128 .f32) (harg2 : arg2.IsWhole)
    (arg3 : Memref sig .tc .vmem S128 .f32) (harg3 : arg3.IsWhole)
    (arg4 : Memref sig .tc .vmem S5000x128 .f32) (harg4 : arg4.IsWhole)
    (x : Vec F S5000x256 .f32) (W : Vec F S256x128 .f32) (b : Vec F S128 .f32) (K : PUnit → sProp 𝕄) :
    iprop(owns (c : Thread nD τ) arg1 fullShare x ∗ owns (c : Thread nD τ) arg2 fullShare W
        ∗ owns (c : Thread nD τ) arg3 fullShare b ∗ (∃ d, owns (c : Thread nD τ) arg4 fullShare d)
        ∗ (iprop(owns (c : Thread nD τ) arg1 fullShare x ∗ owns (c : Thread nD τ) arg2 fullShare W
            ∗ owns (c : Thread nD τ) arg3 fullShare b ∗ owns (c : Thread nD τ) arg4 fullShare (storedBlock x W b)) -∗ K ⟨⟩))
      ⊢ wp frame (wpE (defs₀ (F := F)) Variants.none c none) E
          (cc2__dense_kernel i arg1 harg1 arg2 harg2 arg3 harg3 arg4 harg4) K := by
  simp only [cc2__dense_kernel_eq_skeleton]; unfold cc2__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The region's proof data -/

/-- The head's proof data on core c: the four arrays as the region finds them; after the body at point t each
    operand's buffer still at its block and the output's at `storedBlock` of the three blocks; the invariant the
    scoped buffers no window stages and the generator register, untouched; full shares; nothing owed. -/
def headDat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => storedBlock (blockAt V c 0 t) (blockAt V c 1 t) (blockAt V c 2 t)
  Φ _ := Pipeline.ΦA spec2 c
  q _ := fullShare
  owed _ := 0

/-- The proof data's arrays are the entry contents. -/
theorem headDat_A (c : Dev nD) (w : Fin cfg2.W) : (headDat V c).A w = V c (Pipeline.arrRef spec2 w) := by
  dsimp only [headDat]

/-- What the body leaves, buffer by buffer. -/
theorem headDat_after_features (c : Dev nD) (t : Fin cfg2.N) : (headDat V c).after 0 t = blockAt V c 0 t := by
  dsimp only [headDat]
theorem headDat_after_weight (c : Dev nD) (t : Fin cfg2.N) : (headDat V c).after 1 t = blockAt V c 1 t := by
  dsimp only [headDat]
theorem headDat_after_bias (c : Dev nD) (t : Fin cfg2.N) : (headDat V c).after 2 t = blockAt V c 2 t := by
  dsimp only [headDat]
theorem headDat_after_out (c : Dev nD) (t : Fin cfg2.N) :
    (headDat V c).after 3 t = storedBlock (blockAt V c 0 t) (blockAt V c 1 t) (blockAt V c 2 t) := by
  dsimp only [headDat]

/-- What the body finds in each operand's current buffer: the operand's block at the point. -/
theorem headDat_before_features (c : Dev nD) (t : Fin cfg2.N) (d) : (headDat V c).before 0 t d = blockAt V c 0 t :=
  features_found V (headDat V c) (headDat_A V c 0) (headDat_after_features V c) t d
theorem headDat_before_weight (c : Dev nD) (t : Fin cfg2.N) (d) : (headDat V c).before 1 t d = blockAt V c 1 t :=
  weight_found V (headDat V c) (headDat_A V c 1) (headDat_after_weight V c) t d
theorem headDat_before_bias (c : Dev nD) (t : Fin cfg2.N) (d) : (headDat V c).before 2 t d = blockAt V c 2 t :=
  bias_found V (headDat V c) (headDat_A V c 2) (headDat_after_bias V c) t d

/-! ## The body obligation -/

/-- What the body is called with at point t: the invariant, the core's dues, and the four current staging buffers. -/
def headPre (c : Dev nD) (t : Fin cfg2.N) : sProp 𝕄 :=
  iprop((headDat V c).Φ t.castSucc ∗ (headDat V c).owesAt () t.castSucc
    ∗ (∃ d, owns (c : Thread nD τ) (st2_0 t) fullShare ((headDat V c).before 0 t d))
    ∗ (∃ d, owns (c : Thread nD τ) (st2_1 t) fullShare ((headDat V c).before 1 t d))
    ∗ (∃ d, owns (c : Thread nD τ) (st2_2 t) fullShare ((headDat V c).before 2 t d))
    ∗ (∃ d, owns (c : Thread nD τ) (st2_3 t) fullShare ((headDat V c).before 3 t d)))

/-- What it returns: the same, the buffers at what the proof data say the body leaves. -/
def headPost (c : Dev nD) (t : Fin cfg2.N) : sProp 𝕄 :=
  iprop((headDat V c).Φ t.succ ∗ (headDat V c).owesAt () t.succ
    ∗ owns (c : Thread nD τ) (st2_0 t) fullShare ((headDat V c).after 0 t)
    ∗ owns (c : Thread nD τ) (st2_1 t) fullShare ((headDat V c).after 1 t)
    ∗ owns (c : Thread nD τ) (st2_2 t) fullShare ((headDat V c).after 2 t)
    ∗ owns (c : Thread nD τ) (st2_3 t) fullShare ((headDat V c).after 3 t))

/-- The body at any point: the operands' buffers hold their blocks, so `head_body` applies; the invariant and the
    core's dues pass through unread. -/
theorem head_body_at (c : Dev nD) (t : Fin cfg2.N) :
    headPre V c t ⊢ wp frame (wpE (defs₀ (F := F)) Variants.none c none) Set.univ (bodyAt2 t) (fun _ => headPost V c t) := by
  unfold headPre headPost bodyAt2
  simp only [headDat_before_features, headDat_before_weight, headDat_before_bias]
  rw [show (headDat V c).Φ t.succ = (headDat V c).Φ t.castSucc from rfl,
    show (headDat V c).owesAt () t.succ = (headDat V c).owesAt () t.castSucc from rfl,
    headDat_after_features, headDat_after_weight, headDat_after_bias, headDat_after_out]
  iintro ⟨HΦ, Ho, ⟨%d0, H0⟩, ⟨%d1, H1⟩, ⟨%d2, H2⟩, ⟨%d3, H3⟩⟩
  iapply (head_body c Set.univ (grid2.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head's region, at every point. -/
theorem head_obligation (c : Dev nD) :
    BodyObligation (headDat (F := F) V c) (defs₀ (F := F)) Variants.none () Set.univ := fun t => by
  rw [bigSep_W2, bigSep_W2]
  exact head_body_at V c t

/-! ## The region as a segment of the program -/

/-- The head's proof data on every core, as the third member of the program's family of proof data. -/
def headData : RegionData (F := F) 2 := fun c => headDat V c

/-- What rides beside the buffers through the region: the core's generator register at some state, and its dues,
    at nothing. -/
abbrev Rst (c : Dev nD) : sProp 𝕄 :=
  iprop((∃ r, prngReg c r) ∗ ∃ W, owes (c : Thread nD τ) (0 : CellTallies nD τ sig Unit) W)

omit V in
set_option backward.isDefEq.respectTransparency.types false in
/-- The head's region over the thread state "every unscoped buffer whole at a valuation, the generator register at
    some state, nothing owed": entered at `Vin`, left at any `Vout` that holds, at the region's four arrays, what
    the pipeline leaves there (the three operands as entered, the output's twenty written blocks folded in) and
    agrees with `Vin` everywhere else. The arrays are split out of the unscoped buffers at entry and put back at
    exit; the generator register goes into the invariant and comes back; the kernel has no semaphore of its own. -/
def headSeg (d0 : RegionData (F := F) 0) (d1 : RegionData (F := F) 1)
    (Vin Vout : Dev nD → Valuation τ sig (Elt F))
    (hF : ∀ c w, (headDat (fun c b => Vin c b) c).arrAt w cfg2.N = Vout c (Pipeline.arrRef spec2 w))
    (hrest : ∀ c (b : Ref sig .tc), b ∉ Finset.univ.image (Pipeline.arrRef spec2) → Vout c b = Vin c b) :
    Pipeline.RegionSeg (pcfgs (F := F)) noTables (family d0 d1 (headData (fun c b => Vin c b))) () defs₀ Variants.none
      (fun _ => ∅) (fun _ _ => 0) 2 where
  win := launch2.win.to₀
  block_pos := launch2.block_pos
  stage_whole := launch2.stage_whole
  K := PEmpty
  osem k := k.elim
  ho := Pipeline.OwnSemFacts.none _
  hbody c := (head_obligation (fun c b => Vin c b) c).loose
  hwaits := Pipeline.hwaits_of_owed_zero _ _ _ _ (fun _ => ∅) (fun _ _ => 0) 2 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) noTables
      (family d0 d1 (headData (fun c b => Vin c b))) launch2.win launch2.arr_whole c
      ((family d0 d1 (headData (fun c b => Vin c b)) 2 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family d0 d1 (headData (fun c b => Vin c b)) 2 c).Φ 0 = Pipeline.ΦA spec2 c from rfl]; unfold Pipeline.ΦA
    iintro ⟨Hp, -, Hr⟩
    isplitl [Hr]; · iexact Hr
    iexact Hp
  hout c := by
    rw [Pipeline.ownSems0_none,
      show (family d0 d1 (headData (fun c b => Vin c b)) 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ)
      (U := UR sig nD τ) (Lvl := ℕ) launch2.win launch2.arr_whole c (family d0 d1 (headData (fun c b => Vin c b)))
      ((family d0 d1 (headData (fun c b => Vin c b)) 2 c).share_full fun _ => rfl)
      (fun b => Vin c b) (fun b => Vout c b)
      ((family d0 d1 (headData (fun c b => Vin c b)) 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation

The region writes one array, the head's output. A valuation that is the entry valuation with that one buffer
replaced by what the pipeline leaves there meets the two exit conditions of `headSeg`. -/

omit V in
/-- The four arrays after the region, read off the updated valuation: the three operands as entered (an operand
    is never written back), the output at its replacement. -/
theorem exit_arrays (Vin : Dev nD → Valuation τ sig (Elt F)) (c : Dev nD)
    (out : Buf (Elt F) ((c : Thread nD τ).loc main_v262))
    (hout : out = (headDat (fun c b => Vin c b) c).arrAt 3 cfg2.N) :
    ∀ w, (headDat (fun c b => Vin c b) c).arrAt w cfg2.N
      = Function.update (Vin c) (Proc.devRef .tc main_v262) out (Proc.devRef .tc (Pipeline.arrRef spec2 w))
  | ⟨0, _⟩ => ((headDat (fun c b => Vin c b) c).arrAt_in 0 rfl _).trans
      ((headDat_A (fun c b => Vin c b) c 0).trans
        (Function.update_of_ne (StableHlo.devRef_ne_of_ne (by decide)) _ _).symm)
  | ⟨1, _⟩ => ((headDat (fun c b => Vin c b) c).arrAt_in 1 rfl _).trans
      ((headDat_A (fun c b => Vin c b) c 1).trans
        (Function.update_of_ne (StableHlo.devRef_ne_of_ne (by decide)) _ _).symm)
  | ⟨2, _⟩ => ((headDat (fun c b => Vin c b) c).arrAt_in 2 rfl _).trans
      ((headDat_A (fun c b => Vin c b) c 2).trans
        (Function.update_of_ne (StableHlo.devRef_ne_of_ne (by decide)) _ _).symm)
  | ⟨3, _⟩ => hout.symm.trans
      (show out = Function.update (Vin c) (Proc.devRef .tc main_v262) out (Proc.devRef .tc main_v262) from
        (Function.update_self (f := Vin c) (Proc.devRef .tc main_v262) out).symm)

omit V in
/-- Every buffer that is none of the region's four arrays is as entered. -/
theorem exit_rest (Vin : Dev nD → Valuation τ sig (Elt F)) (c : Dev nD)
    (out : Buf (Elt F) ((c : Thread nD τ).loc main_v262)) (b : Ref sig .tc)
    (hb : b ∉ Finset.univ.image (Pipeline.arrRef spec2)) :
    Function.update (Vin c) (Proc.devRef .tc main_v262) out (Proc.devRef .tc b) = Vin c (Proc.devRef .tc b) :=
  Function.update_of_ne (StableHlo.devRef_ne_of_ne fun e =>
    hb (Finset.mem_image.mpr ⟨3, Finset.mem_univ _, e.symm⟩)) _ _

omit V in
/-- The head's region entered at `Vin` and left at `Vin` with the output array replaced by what the pipeline
    leaves in it. -/
def headSegUpdate (d0 : RegionData (F := F) 0) (d1 : RegionData (F := F) 1)
    (Vin : Dev nD → Valuation τ sig (Elt F))
    (out : (c : Dev nD) → Buf (Elt F) ((c : Thread nD τ).loc main_v262))
    (hout : ∀ c, out c = (headDat (fun c b => Vin c b) c).arrAt 3 cfg2.N) :
    Pipeline.RegionSeg (pcfgs (F := F)) noTables (family d0 d1 (headData (fun c b => Vin c b))) () defs₀ Variants.none
      (fun _ => ∅) (fun _ _ => 0) 2 :=
  headSeg d0 d1 Vin (fun c => Function.update (Vin c) (Proc.devRef .tc main_v262) (out c))
    (fun c w => exit_arrays Vin c (out c) (hout c) w) (fun c b hb => exit_rest Vin c (out c) b hb)

end Cert.Kernel.Head

end
-- ==== Proof.RegionOutputsBits.lean ====
/-
  What the three kernel regions leave in the arrays they write, as the one function of a buffer reference that the
  conditional frame's valuations are stated over. Region 0 writes the first hidden layer into one array; region 1, entered
  from what the host makes of that, writes the second hidden layer; region 2, entered with the second hidden layer in
  place, writes the output. Each is named here by the region's proof data at the valuation the region is entered from,
  in that order, and a reference that no region writes keeps its launch contents.
-/
import proofs.«127058_j2791728742679_2_alg».proof.Proof.RegionsBitsPatched
import proofs.«127058_j2791728742679_2_alg».proof.Proof.LayerOneSegBits
import proofs.«127058_j2791728742679_2_alg».proof.Proof.LayerTwoSegBits
import proofs.«127058_j2791728742679_2_alg».proof.Proof.HeadRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Contents for reference r: x if r is r₀, otherwise d. -/
def pick (r₀ r : Ref sig .tc) (c : Dev nD) (x : Buf (Elt F) ((c : Thread nD τ).loc r₀)) (d : Buf (Elt F) ((c : Thread nD τ).loc r)) :
    Buf (Elt F) ((c : Thread nD τ).loc r) :=
  if h : r = r₀ then h ▸ x else d

theorem pick_self (r₀ : Ref sig .tc) (c : Dev nD) (x d : Buf (Elt F) ((c : Thread nD τ).loc r₀)) : pick r₀ r₀ c x d = x := by
  unfold pick; rw [dif_pos rfl]
theorem pick_ne (r₀ r : Ref sig .tc) (c : Dev nD) (x : Buf (Elt F) ((c : Thread nD τ).loc r₀)) (d : Buf (Elt F) ((c : Thread nD τ).loc r)) (h : r ≠ r₀) :
    pick r₀ r c x d = d := by
  unfold pick; rw [dif_neg h]

/-- The first hidden layer: what region 0 leaves in its output array, entered from the valuation after the first
    seventeen host stretches. -/
def hiddenOne (c : Dev nD) : Buf (Elt F) ((c : Thread nD τ).loc main_v130) :=
  (LayerOne.layerData (fun c b => V17 m c b) c).arrAt 3 cfg0.N

/-- The regions' unknowns with only region 0's known. -/
def outsOne : Outs (F := F) := fun _ r c => pick main_v130 r c (hiddenOne m c) (m ((c : Thread nD τ).loc r))

/-- The second hidden layer: what region 1 leaves, entered from what the host makes of the first. -/
def hiddenTwo (c : Dev nD) : Buf (Elt F) ((c : Thread nD τ).loc main_v261) :=
  (LayerTwo.layerData (fun c b => V35 m (outsOne m) c b) c).arrAt 3 cfg1.N

/-- The regions' unknowns with regions 0 and 1 known. -/
def outsTwo : Outs (F := F) := fun _ r c =>
  pick main_v130 r c (hiddenOne m c) (pick main_v261 r c (hiddenTwo m c) (m ((c : Thread nD τ).loc r)))

/-- The output: what region 2 leaves, entered with the second hidden layer in place. -/
def outputArr (c : Dev nD) : Buf (Elt F) ((c : Thread nD τ).loc main_v262) :=
  (Head.headDat (fun c b => V36 m (outsTwo m) c b) c).arrAt 3 cfg2.N

/-- What every region leaves. -/
def outsAll : Outs (F := F) := fun _ r c =>
  pick main_v130 r c (hiddenOne m c) (pick main_v261 r c (hiddenTwo m c) (pick main_v262 r c (outputArr m c) (m ((c : Thread nD τ).loc r))))

theorem outsOne_hidden (J : ℕ) (c : Dev nD) : outsOne m J main_v130 c = hiddenOne m c := pick_self _ _ _ _
theorem outsTwo_hidden (J : ℕ) (c : Dev nD) : outsTwo m J main_v130 c = hiddenOne m c := pick_self _ _ _ _
theorem outsAll_hidden (J : ℕ) (c : Dev nD) : outsAll m J main_v130 c = hiddenOne m c := pick_self _ _ _ _
theorem outsTwo_hiddenTwo (J : ℕ) (c : Dev nD) : outsTwo m J main_v261 c = hiddenTwo m c :=
  (pick_ne _ _ _ _ _ (by decide)).trans (pick_self _ _ _ _)
theorem outsAll_hiddenTwo (J : ℕ) (c : Dev nD) : outsAll m J main_v261 c = hiddenTwo m c :=
  (pick_ne _ _ _ _ _ (by decide)).trans (pick_self _ _ _ _)
theorem outsAll_output (J : ℕ) (c : Dev nD) : outsAll m J main_v262 c = outputArr m c :=
  (pick_ne _ _ _ _ _ (by decide)).trans ((pick_ne _ _ _ _ _ (by decide)).trans (pick_self _ _ _ _))

/-- The valuation region 1 is entered from reads the unknowns only at region 0's array. -/
theorem V35_congr (o o' : Outs (F := F)) (c : Dev nD) (h : o 18 main_v130 c = o' 18 main_v130 c) : V35 m o c = V35 m o' c := by
  show (fun x => StableHlo.after hostOps1_16 (StableHlo.after hostOps1_15 (StableHlo.after hostOps1_14 (StableHlo.after hostOps1_13
      (StableHlo.after hostOps1_12 (StableHlo.after hostOps1_11 (StableHlo.after hostOps1_10 (StableHlo.after hostOps1_9
      (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
      (StableHlo.after hostOps1 (Function.update (V17 m c) main_v130 x)))))))))))))))))) (o 18 main_v130 c) = _
  rw [h]

/-- The valuation region 2 is entered from reads them only at the arrays of regions 0 and 1. -/
theorem V36_congr (o o' : Outs (F := F)) (c : Dev nD) (h : o 18 main_v130 c = o' 18 main_v130 c) (h' : o 36 main_v261 c = o' 36 main_v261 c) :
    V36 m o c = V36 m o' c := by
  show Function.update (V35 m o c) main_v261 (o 36 main_v261 c) = Function.update (V35 m o' c) main_v261 (o' 36 main_v261 c)
  rw [V35_congr m o o' c h, h']

theorem V35_all (c : Dev nD) : V35 m (outsAll m) c = V35 m (outsOne m) c :=
  V35_congr m _ _ c ((outsAll_hidden m 18 c).trans (outsOne_hidden m 18 c).symm)
theorem V36_all (c : Dev nD) : V36 m (outsAll m) c = V36 m (outsTwo m) c :=
  V36_congr m _ _ c ((outsAll_hidden m 18 c).trans (outsTwo_hidden m 18 c).symm) ((outsAll_hiddenTwo m 36 c).trans (outsTwo_hiddenTwo m 36 c).symm)

end Cert.Kernel.Hand

end
-- ==== Proof.SegmentsRunBits.lean ====
/-
  The whole program as a run of its thirty-seven segments, with everything the final memory holds.

  The program is seventeen stretches of host operations, the first relational layer's kernel region, seventeen more
  stretches, the second layer's region and the head's region. Between two segments a core holds every unscoped
  buffer whole at a valuation: the launch memory, then each host stretch's operations applied in turn, then, after a
  region, the same valuation with the one array the region writes replaced. Given one record per region, entered from
  the valuation before it and left at the one after it, every weakly fair execution from a memory with zero counters
  terminates without a fault, and in every final memory EVERY unscoped buffer holds what the last valuation says:
  the arguments, and also the arrays the three regions wrote.
-/
import proofs.«127058_j2791728742679_2_alg».proof.Proof.RegionsBitsPatched

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the list of thirty-seven segments is compared with the program's chain by unfolding both; that takes more depth
-- and more steps than the defaults allow
set_option maxRecDepth 131072 in
set_option maxHeartbeats 4000000 in
set_option backward.isDefEq.respectTransparency.types false in
/-- The run of the whole program from one record per kernel region. For any rest states `E` beside the buffers —
    made on every core at the launch (`hE0`), ending with nothing owed (`hE3`) —, any contents `outs` for the arrays
    the regions write and any proof data: if region K's record is entered from the valuation before it and left at
    the one after it (`hpreK`, `hpostK`), then every weakly fair execution terminates and every final memory holds
    each unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V17 m c) ∗ E 0 c) ⊢ R0.pre c)
    (hpost0 : ∀ c : Dev nD, R0.post c ⊢ iprop(StableHlo.held (c : Thread nD τ) (Pipeline.ucRefs τ sig) (V18 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V35 m outs c) ∗ E 1 c) ⊢ R1.pre c)
    (hpost1 : ∀ c : Dev nD, R1.post c ⊢ iprop(StableHlo.held (c : Thread nD τ) (Pipeline.ucRefs τ sig) (V36 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V36 m outs c) ∗ E 2 c) ⊢ R2.pre c)
    (hpost2 : ∀ c : Dev nD, R2.post c ⊢ iprop(StableHlo.held (c : Thread nD τ) (Pipeline.ucRefs τ sig) (V37 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V37 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, .rfl, .rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, .rfl, .rfl, .rfl, .rfl, hpre1 c, (hpost1 c).trans (hpre2 c), (hpost2 c).trans (sep_mono .rfl (hE3 c))⟩)
    (hinit := ?_) (QY := fun c s => ∀ b ∈ Pipeline.ucRefs τ sig, s.mem ((c : Thread nD τ).1, b) = V37 m outs c b)
    (hfin := fun c s' => ?_) (hQ := fun _ h => h)
  · -- the launch: every unscoped buffer is held at its launch contents; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact h
    · iexact HSI

end Cert.Kernel.Hand

end
-- ==== Proof.KernelRunBits.lean ====
/-
  The whole program run with the three kernel regions' records in place.

  Each region is entered from the valuation the segments before it produce and leaves that valuation with the one
  array it writes replaced: the first hidden layer, then (after the host has aggregated it again) the second hidden
  layer, then the head's output. With those three records the run of the thirty-seven segments ends, in every weakly
  fair execution, in a memory where every unscoped buffer holds what the last valuation says. Read at the arguments
  this is the frame claim (no host operation and no region writes an argument); read at the two result arrays it
  says what the program returns: the second hidden layer as region 1 leaves it and the output as region 2 leaves it.
-/
import proofs.«127058_j2791728742679_2_alg».proof.Proof.RegionOutputsBits
import proofs.«127058_j2791728742679_2_alg».proof.Proof.SegmentsRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The regions' records at the valuations of the run -/

/-- What rides beside the buffers from segment to segment: the core's generator register at some state, and its
    dues, at nothing. -/
abbrev Rst (c : Dev nD) : sProp 𝕄 :=
  iprop((∃ r, prngReg c r) ∗ ∃ W, owes (c : Thread nD τ) (0 : CellTallies nD τ sig Unit) W)

/-- Each region's proof data at the valuation the region is entered from. -/
abbrev dataOne : RegionData (F := F) 0 := fun c => LayerOne.layerData (fun c b => V17 m c b) c
abbrev dataTwo : RegionData (F := F) 1 := fun c => LayerTwo.layerData (fun c b => V35 m (outsOne m) c b) c
abbrev dataHead : RegionData (F := F) 2 := Head.headData (fun c b => V36 m (outsTwo m) c b)
/-- The three together. -/
abbrev allData : (p : Fin 3) → (c : Dev nD) → Dat τ (Elt F) Unit ℕ (UR sig nD τ) ℕ (cfgs p) c :=
  family (dataOne m) (dataTwo m) (dataHead m)

/-- The first layer's region: entered after the first seventeen host stretches, it replaces its output array by the
    first hidden layer. -/
def regionOne : RegionSeg (pcfgs (F := F)) noTables (allData m) () defs₀ Variants.none (fun _ => ∅) (fun _ _ => 0) 0 :=
  LayerOne.layerSegUpdate (dataTwo m) (dataHead m) (V17 m) (fun c => outsAll m 18 main_v130 c)
    (fun c => outsAll_hidden m 18 c)

/-- The second layer's region: entered after the next seventeen host stretches. -/
def regionTwo : RegionSeg (pcfgs (F := F)) noTables (allData m) () defs₀ Variants.none (fun _ => ∅) (fun _ _ => 0) 1 :=
  LayerTwo.layerSegUpdate (dataOne m) (dataHead m) (V35 m (outsOne m)) (fun c => outsAll m 36 main_v261 c)
    (fun c => outsAll_hiddenTwo m 36 c)

/-- The head's region: entered with the second hidden layer in place. -/
def regionHead : RegionSeg (pcfgs (F := F)) noTables (allData m) () defs₀ Variants.none (fun _ => ∅) (fun _ _ => 0) 2 :=
  Head.headSegUpdate (dataOne m) (dataTwo m) (V36 m (outsTwo m)) (fun c => outsAll m 37 main_v262 c)
    (fun c => outsAll_output m 37 c)

/-! ## The valuations around regions 1 and 2, spelt over the valuations the records are stated at -/

theorem V36_all_update (c : Dev nD) : V36 m (outsAll m) c
    = Function.update (V35 m (outsOne m) c) (Proc.devRef .tc main_v261) (outsAll m 36 main_v261 c) := by
  rw [← V35_all m c]

theorem V37_all_update (c : Dev nD) : V37 m (outsAll m) c
    = Function.update (V36 m (outsTwo m) c) (Proc.devRef .tc main_v262) (outsAll m 37 main_v262 c) := by
  rw [← V36_all m c]

theorem enter_regionTwo (c : Dev nD) :
    iprop(StableHlo.held (c : Thread nD τ) (Pipeline.ucRefs τ sig) (V35 m (outsAll m) c) ∗ Rst c) ⊢ (regionTwo m).pre c := by
  show iprop(StableHlo.held (c : Thread nD τ) (Pipeline.ucRefs τ sig) (V35 m (outsAll m) c) ∗ Rst c) ⊢ iprop(StableHlo.held (c : Thread nD τ) (Pipeline.ucRefs τ sig) (V35 m (outsOne m) c) ∗ Rst c)
  rw [V35_all m c]

theorem leave_regionTwo (c : Dev nD) :
    (regionTwo m).post c ⊢ iprop(StableHlo.held (c : Thread nD τ) (Pipeline.ucRefs τ sig) (V36 m (outsAll m) c) ∗ Rst c) := by
  show iprop(StableHlo.held (c : Thread nD τ) (Pipeline.ucRefs τ sig) (Function.update (V35 m (outsOne m) c) (Proc.devRef .tc main_v261) (outsAll m 36 main_v261 c)) ∗ Rst c)
    ⊢ iprop(StableHlo.held (c : Thread nD τ) (Pipeline.ucRefs τ sig) (V36 m (outsAll m) c) ∗ Rst c)
  rw [V36_all_update m c]

theorem enter_regionHead (c : Dev nD) :
    iprop(StableHlo.held (c : Thread nD τ) (Pipeline.ucRefs τ sig) (V36 m (outsAll m) c) ∗ Rst c) ⊢ (regionHead m).pre c := by
  show iprop(StableHlo.held (c : Thread nD τ) (Pipeline.ucRefs τ sig) (V36 m (outsAll m) c) ∗ Rst c) ⊢ iprop(StableHlo.held (c : Thread nD τ) (Pipeline.ucRefs τ sig) (V36 m (outsTwo m) c) ∗ Rst c)
  rw [V36_all m c]

theorem leave_regionHead (c : Dev nD) :
    (regionHead m).post c ⊢ iprop(StableHlo.held (c : Thread nD τ) (Pipeline.ucRefs τ sig) (V37 m (outsAll m) c) ∗ Rst c) := by
  show iprop(StableHlo.held (c : Thread nD τ) (Pipeline.ucRefs τ sig) (Function.update (V36 m (outsTwo m) c) (Proc.devRef .tc main_v262) (outsAll m 37 main_v262 c)) ∗ Rst c)
    ⊢ iprop(StableHlo.held (c : Thread nD τ) (Pipeline.ucRefs τ sig) (V37 m (outsAll m) c) ∗ Rst c)
  rw [V37_all_update m c]

/-! ## The run -/

set_option backward.isDefEq.respectTransparency.types false in
/-- Every weakly fair execution of the program from memory m with zero counters terminates without a fault, and every
    final memory holds each unscoped buffer at the last valuation of the run. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V37 m (outsAll m) c b) :=
  run_cond m emb₁ () Variants.none (fun _ => ∅) (fun _ _ => 0) (fun _ _ => rfl) ρ (outsAll m) (allData m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE3 := fun c => by iintro ⟨-, H⟩; iexact H)
    (regionOne m) (fun c => .rfl) (fun c => .rfl)
    (regionTwo m) (enter_regionTwo m) (leave_regionTwo m)
    (regionHead m) (enter_regionHead m) (leave_regionHead m)

/-! ## Read at the arguments: the frame claim -/

/-- An unscoped reference of the core is among those the run's post speaks of. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates and leaves each of the nine argument arrays as launched: no host
    operation writes one and no region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (unscoped_mem main_arg0 (by decide))).trans (V37_main_arg0 m (outsAll m) c),
      (h c _ (unscoped_mem main_arg1 (by decide))).trans (V37_main_arg1 m (outsAll m) c),
      (h c _ (unscoped_mem main_arg2 (by decide))).trans (V37_main_arg2 m (outsAll m) c),
      (h c _ (unscoped_mem main_arg3 (by decide))).trans (V37_main_arg3 m (outsAll m) c),
      (h c _ (unscoped_mem main_arg4 (by decide))).trans (V37_main_arg4 m (outsAll m) c),
      (h c _ (unscoped_mem main_arg5 (by decide))).trans (V37_main_arg5 m (outsAll m) c),
      (h c _ (unscoped_mem main_arg6 (by decide))).trans (V37_main_arg6 m (outsAll m) c),
      (h c _ (unscoped_mem main_arg7 (by decide))).trans (V37_main_arg7 m (outsAll m) c),
      (h c _ (unscoped_mem main_arg8 (by decide))).trans (V37_main_arg8 m (outsAll m) c)⟩) (run_all m ρ)

/-! ## Read at the result arrays: what the program returns -/

/-- The last valuation at the second hidden layer's array: what region 1 left (region 2 does not write it). -/
theorem last_hiddenTwo (c : Dev nD) : V37 m (outsAll m) c (Proc.devRef .tc main_v261) = hiddenTwo m c :=
  (V37_of m (outsAll m) c main_v261 (by decide)).trans
    ((Function.update_self (f := V35 m (outsAll m) c) (Proc.devRef .tc main_v261) (outsAll m 36 main_v261 c)).trans
      (outsAll_hiddenTwo m 36 c))

/-- The last valuation at the output array: what region 2 left. -/
theorem last_output (c : Dev nD) : V37 m (outsAll m) c (Proc.devRef .tc main_v262) = outputArr m c :=
  (Function.update_self (f := V36 m (outsAll m) c) (Proc.devRef .tc main_v262) (outsAll m 37 main_v262 c)).trans
    (outsAll_output m 37 c)

/-- Every weakly fair execution terminates with the second hidden layer and the output in the two result arrays,
    and the nine arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v261) = hiddenTwo m c
      ∧ r.2.mem ((c.tc : Thread nD τ).loc main_v262) = outputArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (unscoped_mem main_v261 (by decide))).trans (last_hiddenTwo m c),
      (h c _ (unscoped_mem main_v262 (by decide))).trans (last_output m c),
      (h c _ (unscoped_mem main_arg0 (by decide))).trans (V37_main_arg0 m (outsAll m) c),
      (h c _ (unscoped_mem main_arg1 (by decide))).trans (V37_main_arg1 m (outsAll m) c),
      (h c _ (unscoped_mem main_arg2 (by decide))).trans (V37_main_arg2 m (outsAll m) c),
      (h c _ (unscoped_mem main_arg3 (by decide))).trans (V37_main_arg3 m (outsAll m) c),
      (h c _ (unscoped_mem main_arg4 (by decide))).trans (V37_main_arg4 m (outsAll m) c),
      (h c _ (unscoped_mem main_arg5 (by decide))).trans (V37_main_arg5 m (outsAll m) c),
      (h c _ (unscoped_mem main_arg6 (by decide))).trans (V37_main_arg6 m (outsAll m) c),
      (h c _ (unscoped_mem main_arg7 (by decide))).trans (V37_main_arg7 m (outsAll m) c),
      (h c _ (unscoped_mem main_arg8 (by decide))).trans (V37_main_arg8 m (outsAll m) c)⟩) (run_all m ρ)

end Cert.Kernel.Hand

end
-- ==== Proof.LayerOnePoints.lean ====
/-
  The first relational layer's kernel on its grid of 50 row blocks × 4 relations (the relation index runs fastest,
  so point t is row block t / 4 at relation t % 4). The body clears its accumulator when the relation index is 0,
  adds  agg_r · W_r + b_r  to it at every point, and when the relation index is 3 stores  max(accumulator, 0)  into the
  output block. So every point is of one of three kinds — FIRST (clear, then add), MIDDLE (add), LAST (add, then
  store) — decided here over the grid in closed form, together with where the output window is idle (everywhere but
  at the LAST points, where alone its block is written back).
-/
import proofs.«127058_j2791728742679_2_alg».proof.Proof.Gen.KernelIdeal.Launch
import proofs.«127058_j2791728742679_2_alg».proof.Proof.Gen.KernelIdeal.Skeleton
import proofs.«127058_j2791728742679_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional: the relation index is 0 (the scalar chain the kernel computes, substituted). -/
abbrev atFirst (i : grid0.Coords) : Prop :=
  (Scalar.cmpi .ne (Scalar.extui (Scalar.cmpi .eq (BitVec.ofNat 32 (i 1).val) 0#32)) 0#32) = 1#1
/-- It holds exactly at the points t with t % 4 = 0. -/
theorem atFirst_iff : ∀ t : Fin cfg0.N, atFirst (grid0.coords t) ↔ t.val % 4 = 0 :=
  (by decide +kernel : ∀ t : Fin grid0.N, atFirst (grid0.coords t) ↔ t.val % 4 = 0)

/-- The body's second conditional: the relation index is 3, the last relation. -/
abbrev atLast (i : grid0.Coords) : Prop := k0_cond2 i = 1#1
/-- It holds exactly at the points t with t % 4 = 3. -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The three input windows are never idle. -/
theorem agg_live : ∀ t : Fin cfg0.N, cfg0.idle 0 (grid0.coords t) = false := by decide +kernel
theorem weight_live : ∀ t : Fin cfg0.N, cfg0.idle 1 (grid0.coords t) = false := by decide +kernel
theorem bias_live : ∀ t : Fin cfg0.N, cfg0.idle 2 (grid0.coords t) = false := by decide +kernel
/-- Away from the LAST points the output window is idle: the body stores nothing into it there, -/
theorem out_idle : ∀ t : Fin cfg0.N, ¬atLast (grid0.coords t) → cfg0.idle 3 (grid0.coords t) = true := by decide +kernel
/-- and its block is not written back there. -/
theorem out_kept : ∀ t : Fin cfg0.N, ¬atLast (grid0.coords t) → (cfg0.win 3).flush t = false := by decide +kernel
/-- At the LAST points it is live. -/
theorem out_live : ∀ t : Fin cfg0.N, atLast (grid0.coords t) → cfg0.idle 3 (grid0.coords t) = false := by decide +kernel

/-! ## The memrefs the body is called with -/

/-- The aggregated-features block's, the weight slab's, the bias row's and the output block's current staging memref at
    point t, as the pipeline passes them, each a whole buffer. -/
abbrev aggBuf (t : Fin cfg0.N) : Memref sig .tc .vmem S1x2000x128 .f32 := win0_0.stage (cfg0.slots t 0)
abbrev aggBuf_whole (t : Fin cfg0.N) : (aggBuf t).IsWhole := hstage0_0 ((cfg0.slots t 0).cast nbuf0_0)
abbrev weightBuf (t : Fin cfg0.N) : Memref sig .tc .vmem S1x128x256 .f32 := win0_1.stage (cfg0.slots t 1)
abbrev weightBuf_whole (t : Fin cfg0.N) : (weightBuf t).IsWhole := hstage0_1 ((cfg0.slots t 1).cast nbuf0_1)
abbrev biasBuf (t : Fin cfg0.N) : Memref sig .tc .vmem S1x1x256 .f32 := win0_2.stage (cfg0.slots t 2)
abbrev biasBuf_whole (t : Fin cfg0.N) : (biasBuf t).IsWhole := hstage0_2 ((cfg0.slots t 2).cast nbuf0_2)
abbrev outBuf (t : Fin cfg0.N) : Memref sig .tc .vmem S2000x256 .f32 := win0_3.stage (cfg0.slots t 3)
abbrev outBuf_whole (t : Fin cfg0.N) : (outBuf t).IsWhole := hstage0_3 ((cfg0.slots t 3).cast nbuf0_3)
/-- The accumulator: a whole scoped buffer of the kernel's own, carried from point to point. -/
abbrev accBuf : Memref sig .tc .vmem S2000x256 .f32 := Memref.whole cc0_scratch0
/-- The accumulator and one staging buffer of the output window as views: contents are stated through them. -/
abbrev accView : View sig .tc .vmem S2000x256 .f32 := accBuf.view
abbrev outView : View sig .tc .vmem S2000x256 .f32 := (Memref.whole cc0_stg3_0 : Memref sig .tc .vmem S2000x256 .f32).view

/-! ## The region's invariant when nothing is known of the accumulator -/

/-- The core's other scoped buffers — the staging buffers and the accumulator of the two later regions —, each whole at
    some contents: they ride through this region untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant the launch hands the region: the accumulator at some contents, the other scoped buffers, and the
    generator register at some state. -/
theorem launchInv_eq (c : Dev nD) :
    (Pipeline.ΦA spec0 c : sProp 𝕄)
      = iprop(iprop((∃ d, owns (c : Thread nD τ) accBuf fullShare d) ∗ otherScoped (F := F) c) ∗ (∃ r, prngReg c r)) := by
  unfold Pipeline.ΦA; rw [scopedRest0_eq]; unfold otherScoped; simp only [accBuf, owns_whole]; try rfl

end Cert.KernelIdeal.LayerOne

end
-- ==== Proof.LayerOneRunFirst.lean ====
/-
  The first relational layer's body at a FIRST point (relation index 0): the accumulator is cleared, then
  agg_0 · W_0 + b_0  is added to it; the output block is not touched. Run here once, on any whole staging memrefs: the
  inputs' at their contents, the output's at contents handed back as they were, the accumulator at anything; what is found
  is the list of pieces the accumulator ends with (last store first).
-/
import proofs.«127058_j2791728742679_2_alg».proof.Proof.LayerOnePoints

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: the pieces the accumulator ends with, with the proof that the body runs to its continuation
    holding every input and the output as they were and the accumulator with those pieces written. -/
noncomputable def runFirst (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : atFirst i) (hl : ¬atLast i) (x0 : Vec F S1x2000x128 .f32) (x1 : Vec F S1x128x256 .f32) (x2 : Vec F S1x1x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨[], ?_, fun xo E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.LayerOne

end
-- ==== Proof.LayerOneRunMiddle.lean ====
/-
  The first relational layer's body at a MIDDLE point (relation index 1 or 2):  agg_r · W_r + b_r  is added to the
  accumulator, which comes in at what the point before left; the output block is not touched.
-/
import proofs.«127058_j2791728742679_2_alg».proof.Proof.LayerOnePoints

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: the pieces the accumulator ends with, over its contents `acc` on entry. -/
noncomputable def runMiddle (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : ¬atLast i) (x0 : Vec F S1x2000x128 .f32) (x1 : Vec F S1x128x256 .f32) (x2 : Vec F S1x1x256 .f32) (acc : Vec F S2000x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare acc
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨[], ?_, fun xo E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.LayerOne

end
-- ==== Proof.LayerOneRunLast.lean ====
/-
  The first relational layer's body at a LAST point (relation index 3):  agg_3 · W_3 + b_3  is added to the accumulator,
  which comes in at what the point before left, and  max(accumulator, 0)  is stored into the output block.
-/
import proofs.«127058_j2791728742679_2_alg».proof.Proof.LayerOnePoints

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: the pieces the output block and the accumulator end with, over the accumulator's contents
    `acc` on entry; the output's buffer comes in at anything. -/
noncomputable def runLast (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : atLast i) (x0 : Vec F S1x2000x128 .f32) (x1 : Vec F S1x128x256 .f32) (x2 : Vec F S1x1x256 .f32) (acc : Vec F S2000x256 .f32) :
    Σ' (Lout : List (View.Piece (Elt F) S2000x256 .f32)), { Lacc : List (View.Piece (Elt F) S2000x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare acc
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f Lout) ∗ (∃ f, a6.view.loc (c : Thread nD τ) ↦[a6.view.set]{fullShare} a6.view.writes (Elt F) f Lacc)) -∗ K ⟨⟩))
          ⊢ wp frame (wpE (defs₀ (F := F)) Variants.none c none) E (cc0__rel_layer_kernel i a2 h2 a3 h3 a4 h4 a5 h5 a6 h6) K } := by
  refine ⟨?_, ?_, fun E K => ?run⟩
  case run =>
    simp only [cc0__rel_layer_kernel_eq_skeleton]; unfold cc0__rel_layer_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.KernelIdeal.LayerOne

end
-- ==== Proof.LayerOneData.lean ====
/-
  The first relational layer's region, point by point. After point t the accumulator holds, for the row block t / 4,
  the partial sum  Σ_{r ≤ t % 4} (agg_r · W_r + b_r)  over that block's rows — cleared and restarted at every FIRST point —,
  and after a LAST point the output block holds its  max(·, 0).  This module names those contents by recursion on the
  point (`heldAfter`), states the region's invariant (the accumulator at the contents the point before left, the other
  scoped buffers and the generator register riding along), the pipeline's proof data over ANY contents `V` of the
  buffers on entry, and the body obligation at every point, by the kind of the point.
-/
import proofs.«127058_j2791728742679_2_alg».proof.Proof.LayerOneRunFirst
import proofs.«127058_j2791728742679_2_alg».proof.Proof.LayerOneRunMiddle
import proofs.«127058_j2791728742679_2_alg».proof.Proof.LayerOneRunLast

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_agg_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What each kind of point leaves -/

section Kinds
variable (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x128 .f32) (x1 : Vec F S1x128x256 .f32) (x2 : Vec F S1x1x256 .f32)

/-- The accumulator after a FIRST point: its pieces read back. -/
def accFirst (hf : atFirst i) (hl : ¬atLast i) : Vec F S2000x256 .f32 :=
  accView.read (Elt F) (accView.writes (Elt F) accView.junk (runFirst c i a2 h2 a3 h3 a4 h4 a5 h5 a6 h6 hf hl x0 x1 x2).2.1)
/-- Those pieces cover the accumulator. -/
theorem accFirst_cover (hf : atFirst i) (hl : ¬atLast i) (y : S2000x256.Idx) :
    ∃ pc ∈ (runFirst c i a2 h2 a3 h3 a4 h4 a5 h5 a6 h6 hf hl x0 x1 x2).2.1, y ∈ pc.1.set :=
  View.cover_of_tiledL (runFirst c i a2 h2 a3 h3 a4 h4 a5 h5 a6 h6 hf hl x0 x1 x2).2.1 S2000x256.size (by sl_kernel_rfl) y

/-- The accumulator after a MIDDLE point, over its contents on entry. -/
def accMiddle (hf : ¬atFirst i) (hl : ¬atLast i) (acc : Vec F S2000x256 .f32) : Vec F S2000x256 .f32 :=
  accView.read (Elt F) (accView.writes (Elt F) accView.junk (runMiddle c i a2 h2 a3 h3 a4 h4 a5 h5 a6 h6 hf hl x0 x1 x2 acc).2.1)
theorem accMiddle_cover (hf : ¬atFirst i) (hl : ¬atLast i) (acc : Vec F S2000x256 .f32) (y : S2000x256.Idx) :
    ∃ pc ∈ (runMiddle c i a2 h2 a3 h3 a4 h4 a5 h5 a6 h6 hf hl x0 x1 x2 acc).2.1, y ∈ pc.1.set :=
  View.cover_of_tiledL (runMiddle c i a2 h2 a3 h3 a4 h4 a5 h5 a6 h6 hf hl x0 x1 x2 acc).2.1 S2000x256.size (by sl_kernel_rfl) y

/-- The accumulator and the output block after a LAST point, over the accumulator's contents on entry. -/
def accLast (hf : ¬atFirst i) (hl : atLast i) (acc : Vec F S2000x256 .f32) : Vec F S2000x256 .f32 :=
  accView.read (Elt F) (accView.writes (Elt F) accView.junk (runLast c i a2 h2 a3 h3 a4 h4 a5 h5 a6 h6 hf hl x0 x1 x2 acc).2.1)
theorem accLast_cover (hf : ¬atFirst i) (hl : atLast i) (acc : Vec F S2000x256 .f32) (y : S2000x256.Idx) :
    ∃ pc ∈ (runLast c i a2 h2 a3 h3 a4 h4 a5 h5 a6 h6 hf hl x0 x1 x2 acc).2.1, y ∈ pc.1.set :=
  View.cover_of_tiledL (runLast c i a2 h2 a3 h3 a4 h4 a5 h5 a6 h6 hf hl x0 x1 x2 acc).2.1 S2000x256.size (by sl_kernel_rfl) y
def outLast (hf : ¬atFirst i) (hl : atLast i) (acc : Vec F S2000x256 .f32) : Vec F S2000x256 .f32 :=
  outView.read (Elt F) (outView.writes (Elt F) outView.junk (runLast c i a2 h2 a3 h3 a4 h4 a5 h5 a6 h6 hf hl x0 x1 x2 acc).1)
theorem outLast_cover (hf : ¬atFirst i) (hl : atLast i) (acc : Vec F S2000x256 .f32) (y : S2000x256.Idx) :
    ∃ pc ∈ (runLast c i a2 h2 a3 h3 a4 h4 a5 h5 a6 h6 hf hl x0 x1 x2 acc).1, y ∈ pc.1.set :=
  View.cover_of_tiledL (runLast c i a2 h2 a3 h3 a4 h4 a5 h5 a6 h6 hf hl x0 x1 x2 acc).1 S2000x256.size (by sl_kernel_rfl) y

end Kinds

/-- Where the output window is idle its buffer's named contents are a placeholder nothing consults. -/
def idleOut : Vec F S2000x256 .f32 := outView.read (Elt F) outView.junk

/-! ## The accumulation over the grid -/

theorem notLast_of_first {n : ℕ} (h : n % 4 = 0) : ¬ n % 4 = 3 := by omega

/-- What the output's staging buffer and the accumulator hold after the body at point n (output first): the kind of the
    point decides, a MIDDLE or LAST point over the accumulator as the point before left it. -/
def heldAfter (c : Dev nD) : (n : ℕ) → n < cfg0.N → Vec F S2000x256 .f32 × Vec F S2000x256 .f32
  | 0, hn =>
    let t : Fin cfg0.N := ⟨0, hn⟩
    (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr (Nat.zero_mod _)) (fun h => notLast_of_first (Nat.zero_mod 4) ((atLast_iff t).mp h)))
  | n + 1, hn =>
    let t : Fin cfg0.N := ⟨n + 1, hn⟩
    if h0 : (n + 1) % 4 = 0 then
      (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        ((atFirst_iff t).mpr h0) (fun h => notLast_of_first h0 ((atLast_iff t).mp h)))
    else if h1 : (n + 1) % 4 = 3 then
      (outLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2,
        accLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2)
    else
      (idleOut, accMiddle c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) (fun h => h1 ((atLast_iff t).mp h)) (heldAfter c n (Nat.lt_of_succ_lt hn)).2)

/-- `heldAfter` at a FIRST point. -/
theorem heldAfter_first (c : Dev nD) (t : Fin cfg0.N) (h0 : t.val % 4 = 0) :
    heldAfter V c t.val t.isLt = (idleOut, accFirst c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr h0) (fun h => notLast_of_first h0 ((atLast_iff t).mp h))) := by
  obtain ⟨n, hn⟩ := t
  cases n with
  | zero => rfl
  | succ n => exact (dif_pos h0).trans rfl

/-- `heldAfter` at a MIDDLE point: over what the point before left in the accumulator. -/
theorem heldAfter_middle (c : Dev nD) (t : Fin cfg0.N) (h0 : ¬t.val % 4 = 0) (h1 : ¬t.val % 4 = 3) :
    heldAfter V c t.val t.isLt = (idleOut, accMiddle c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      (fun h => h0 ((atFirst_iff t).mp h)) (fun h => h1 ((atLast_iff t).mp h))
      (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `heldAfter` at a LAST point. -/
theorem heldAfter_last (c : Dev nD) (t : Fin cfg0.N) (h0 : ¬t.val % 4 = 0) (h1 : t.val % 4 = 3) :
    heldAfter V c t.val t.isLt = (outLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2,
      accLast c (grid0.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before point n: at the region's entry what the launch hands over (the accumulator at anything); afterwards the
    accumulator at what point n - 1 left, the other scoped buffers, and the generator register at some state. -/
def invBefore (c : Dev nD) : (n : ℕ) → n ≤ cfg0.N → sProp 𝕄
  | 0, _ => Pipeline.ΦA spec0 c
  | n + 1, hn => iprop(iprop(owns (c : Thread nD τ) accBuf fullShare ((heldAfter V c n hn).2) ∗ otherScoped (F := F) c) ∗ (∃ r, prngReg c r))

theorem invBefore_zero (c : Dev nD) (n : ℕ) (h : n ≤ cfg0.N) (hz : n = 0) : invBefore V c n h = Pipeline.ΦA spec0 c := by
  subst hz; rfl
theorem invBefore_succ (c : Dev nD) (n : ℕ) (hn : n < cfg0.N) :
    invBefore V c (n + 1) hn = iprop(iprop(owns (c : Thread nD τ) accBuf fullShare ((heldAfter V c n hn).2) ∗ otherScoped (F := F) c) ∗ (∃ r, prngReg c r)) := rfl
theorem invBefore_pos (c : Dev nD) (n : ℕ) (h : n ≤ cfg0.N) (hz : n ≠ 0) :
    invBefore V c n h = iprop(iprop(owns (c : Thread nD τ) accBuf fullShare ((heldAfter V c (n - 1) (by omega)).2) ∗ otherScoped (F := F) c) ∗ (∃ r, prngReg c r)) := by
  cases n with
  | zero => exact absurd rfl hz
  | succ n => rfl

/-! ## The pipeline's proof data -/

/-- The region's proof data on core c: the arrays as the region finds them; after the body at point t each input's
    buffer at its block and the output's at `heldAfter`'s first component; the invariant above; nothing owed; full shares. -/
def layerData (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => (heldAfter V c t.val t.isLt).1
  Φ t := invBefore V c t.val (Nat.le_of_lt_succ t.isLt)
  q _ := fullShare
  owed _ := 0

theorem layerData_A (c : Dev nD) (w : Fin cfg0.W) : (layerData V c).A w = V c (Pipeline.arrRef spec0 w) := by
  dsimp only [layerData]
theorem inv_castSucc (c : Dev nD) (t : Fin cfg0.N) :
    (layerData V c).Φ t.castSucc = invBefore V c t.val (Nat.le_of_lt t.isLt) := by
  dsimp only [layerData]; simp only [Fin.coe_castSucc]
theorem after_agg (c : Dev nD) (t : Fin cfg0.N) : (layerData V c).after 0 t = blockAt V c 0 t := by dsimp only [layerData]
theorem after_weight (c : Dev nD) (t : Fin cfg0.N) : (layerData V c).after 1 t = blockAt V c 1 t := by dsimp only [layerData]
theorem after_bias (c : Dev nD) (t : Fin cfg0.N) : (layerData V c).after 2 t = blockAt V c 2 t := by dsimp only [layerData]
theorem after_out (c : Dev nD) (t : Fin cfg0.N) : (layerData V c).after 3 t = (heldAfter V c t.val t.isLt).1 := by dsimp only [layerData]
theorem before_agg (c : Dev nD) (t : Fin cfg0.N) (d) : (layerData V c).before 0 t d = blockAt V c 0 t :=
  before_agg_of V (layerData V c) (layerData_A V c 0) (after_agg V c) t d
theorem before_weight (c : Dev nD) (t : Fin cfg0.N) (d) : (layerData V c).before 1 t d = blockAt V c 1 t :=
  before_weight_of V (layerData V c) (layerData_A V c 1) (after_weight V c) t d
theorem before_bias (c : Dev nD) (t : Fin cfg0.N) (d) : (layerData V c).before 2 t d = blockAt V c 2 t :=
  before_bias_of V (layerData V c) (layerData_A V c 2) (after_bias V c) t d

end Cert.KernelIdeal.LayerOne

end
-- ==== Proof.LayerOneBody.lean ====
/-
  The first relational layer's body obligation: at every point of the grid the body, called on the windows' current
  staging buffers under the region's invariant, runs to the invariant at the next point with every window's buffer at
  what the proof data says. By the kind of the point: at a FIRST point the accumulator is taken at anything, at a
  MIDDLE or LAST point at what the point before left; away from the LAST points the output's buffer is handed back as
  it was found.
-/
import proofs.«127058_j2791728742679_2_alg».proof.Proof.LayerOneData

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg0.N) : sProp 𝕄 :=
  iprop((layerData V c).Φ t.castSucc ∗ (layerData V c).owesAt () t.castSucc
    ∗ (∃ d, owns (c : Thread nD τ) (aggBuf t) fullShare ((layerData V c).before 0 t d))
    ∗ (∃ d, owns (c : Thread nD τ) (weightBuf t) fullShare ((layerData V c).before 1 t d))
    ∗ (∃ d, owns (c : Thread nD τ) (biasBuf t) fullShare ((layerData V c).before 2 t d))
    ∗ (∃ d, owns (c : Thread nD τ) (outBuf t) fullShare ((layerData V c).before 3 t d)))

/-- and what it returns. -/
def bodyPost (c : Dev nD) (t : Fin cfg0.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_agg, before_weight, before_bias]
  rw [show (layerData V c).owesAt () t.succ = (layerData V c).owesAt () t.castSucc from rfl]
  rw [show (layerData V c).Φ t.succ = invBefore V c (t.val + 1) t.isLt from rfl, invBefore_succ]
  rw [show (layerData V c).leavesExact 0 t = owns (c : Thread nD τ) (aggBuf t) fullShare ((layerData V c).after 0 t) from by
    unfold Dat.leavesExact; rw [agg_live t], after_agg]
  rw [show (layerData V c).leavesExact 1 t = owns (c : Thread nD τ) (weightBuf t) fullShare ((layerData V c).after 1 t) from by
    unfold Dat.leavesExact; rw [weight_live t], after_weight]
  rw [show (layerData V c).leavesExact 2 t = owns (c : Thread nD τ) (biasBuf t) fullShare ((layerData V c).after 2 t) from by
    unfold Dat.leavesExact; rw [bias_live t], after_bias]
  by_cases h0 : t.val % 4 = 0
  · -- a FIRST point
    have hnl : ¬atLast (grid0.coords t) := fun h => notLast_of_first h0 ((atLast_iff t).mp h)
    rw [Dat.leavesExact_idle (layerData V c) 3 t (out_idle t hnl) (out_kept t hnl)]
    rw [heldAfter_first V c t h0]
    unfold accFirst; (try dsimp only)
    by_cases hz : t.val = 0
    · rw [inv_castSucc V c t, invBefore_zero V c _ _ hz, launchInv_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · -- a LAST point
      have hl : atLast (grid0.coords t) := (atLast_iff t).mpr h1
      rw [show (layerData V c).leavesExact 3 t = owns (c : Thread nD τ) (outBuf t) fullShare ((layerData V c).after 3 t) from by
        unfold Dat.leavesExact; rw [out_live t hl], after_out]
      rw [heldAfter_last V c t h0 h1]
      unfold outLast accLast; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((atFirst_iff t).mp h)) hl (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- a MIDDLE point
      have hnl : ¬atLast (grid0.coords t) := fun h => h1 ((atLast_iff t).mp h)
      rw [Dat.leavesExact_idle (layerData V c) 3 t (out_idle t hnl) (out_kept t hnl)]
      rw [heldAfter_middle V c t h0 h1]
      unfold accMiddle; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runMiddle c (grid0.coords t) _ _ _ _ _ _ _ _ _ _ (fun h => h0 ((atFirst_iff t).mp h)) hnl (blockAt V c 0 t) (blockAt V c 1 t) (blockAt V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W0, bigSep_W0]
  exact body_at V c t

/-- What the launch hands the region is the invariant before the first point. -/
theorem inv_in (c : Dev nD) : Pipeline.ΦA spec0 c ⊢ (layerData V c).Φ 0 := by
  rw [show (layerData V c).Φ 0 = invBefore V c 0 (Nat.zero_le _) from rfl, invBefore_zero V c 0 _ rfl]
  try exact Idealize.SL.BI.Entails.refl _

/-- After any point but none the invariant gives the launch's back: the accumulator's named contents are forgotten. -/
theorem inv_forget (c : Dev nD) (t : Fin (cfg0.N + 1)) (ht : t.val ≠ 0) : (layerData V c).Φ t ⊢ Pipeline.ΦA spec0 c := by
  rw [show (layerData V c).Φ t = invBefore V c t.val (Nat.le_of_lt_succ t.isLt) from rfl, invBefore_pos V c _ _ ht, launchInv_eq]
  iintro ⟨⟨HS, Hoth⟩, Hg⟩
  isplitl [HS Hoth]
  · isplitl [HS]
    · iexists _; iexact HS
    iexact Hoth
  iexact Hg

/-- The same after the last point. -/
theorem inv_out (c : Dev nD) : (layerData V c).Φ (Fin.last cfg0.N) ⊢ Pipeline.ΦA spec0 c :=
  inv_forget V c _ (by rw [Fin.val_last]; have : cfg0.N = 200 := N_0; omega)

end Cert.KernelIdeal.LayerOne

end
-- ==== Proof.FamilyIdeal.lean ====
/-
  The proof data of the three kernel regions as one family over the pipeline index: a literal match, so that the
  family at a numeral reduces to that region's own data. Each region's record is stated over the family with
  its own data fixed and the other two regions' data arbitrary.
-/
import proofs.«127058_j2791728742679_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.RA Idealize.SL.BI
open Idealize.ShloMosaic.Pipeline (Dat)

variable {F : FTy → Type} [FloatOps F]

/-- No region has a prefetched table: the admissible table contents are the trivial ones. -/
abbrev noTables : (p : Fin 3) → (pcfgs (F := F) p).Adm := fun p => (cfgs p).toPCfg_adm

/-- One region's proof data on every core, over the unit index type, the pipeline library's own algebra and
    natural-number levels. -/
abbrev RegionData (p : Fin 3) : Type := (c : Dev nD) → Dat τ (Elt F) Unit ℕ (UR sig nD τ) ℕ (cfgs p) c

/-- The three regions' proof data as a family. -/
def family (d0 : RegionData (F := F) 0) (d1 : RegionData (F := F) 1) (d2 : RegionData (F := F) 2) :
    (p : Fin 3) → (c : Dev nD) → Dat τ (Elt F) Unit ℕ (UR sig nD τ) ℕ (cfgs p) c
  | ⟨0, _⟩ => d0
  | ⟨1, _⟩ => d1
  | ⟨2, _⟩ => d2

end Cert.KernelIdeal.Hand

end
-- ==== Proof.LayerOneSeg.lean ====
/-
  The first relational layer's region as a segment of @main: entered with every unscoped buffer whole at a valuation
  `Vin`, the generator register at some state and nothing owed; left at any valuation that holds, at the region's
  four arrays, what the pipeline leaves there — the three operands as entered, the output with the fifty written blocks
  folded in — and agrees with `Vin` elsewhere. The arrays are split out of the unscoped buffers at entry and put back at
  exit; the generator register and the scoped buffers pass through the region's invariant; the kernel has no semaphore
  of its own and owes nothing.
-/
import proofs.«127058_j2791728742679_2_alg».proof.Proof.LayerOneBody
import proofs.«127058_j2791728742679_2_alg».proof.Proof.FamilyIdeal
import Idealize.ShloMosaic.Lib.Pipeline.Frame
import Idealize.ShloMosaic.Lib.Pipeline.FrameSuffix
import Idealize.ShloMosaic.Lib.Pipeline.RegionsLoop

set_option maxRecDepth 16384

noncomputable section

namespace Cert.KernelIdeal.LayerOne

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, and the core owing nothing. -/
abbrev Rst (c : Dev nD) : sProp 𝕄 :=
  iprop((∃ r, prngReg c r) ∗ ∃ W, owes (c : Thread nD τ) (0 : CellTallies nD τ sig Unit) W)

set_option backward.isDefEq.respectTransparency.types false in
def layerSeg (d1 : RegionData (F := F) 1) (d2 : RegionData (F := F) 2)
    (Vin Vout : Dev nD → Valuation τ sig (Elt F))
    (hF : ∀ c w, (layerData (fun c b => Vin c b) c).arrAt w cfg0.N = Vout c (Pipeline.arrRef spec0 w))
    (hrest : ∀ c (b : Ref sig .tc), b ∉ Finset.univ.image (Pipeline.arrRef spec0) → Vout c b = Vin c b) :
    Pipeline.RegionSeg (pcfgs (F := F)) noTables (family (fun c => layerData (fun c b => Vin c b) c) d1 d2) () defs₀ Variants.none
      (fun _ => ∅) (fun _ _ => 0) 0 where
  win := launch0.win.to₀
  block_pos := launch0.block_pos
  stage_whole := launch0.stage_whole
  K := PEmpty
  osem k := k.elim
  ho := Pipeline.OwnSemFacts.none _
  hbody c := (body_obligation (fun c b => Vin c b) c).loose
  hwaits := Pipeline.hwaits_of_owed_zero _ _ _ _ (fun _ => ∅) (fun _ _ => 0) 0 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) noTables
      (family (fun c => layerData (fun c b => Vin c b) c) d1 d2) launch0.win launch0.arr_whole c
      (((family (fun c => layerData (fun c b => Vin c b) c) d1 d2) 0 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((family (fun c => layerData (fun c b => Vin c b) c) d1 d2) 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show ((family (fun c => layerData (fun c b => Vin c b) c) d1 d2) 0 c).Φ (Fin.last _) ⊢ Pipeline.ΦA spec0 c from inv_out (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ)
      (U := UR sig nD τ) (Lvl := ℕ) launch0.win launch0.arr_whole c (family (fun c => layerData (fun c b => Vin c b) c) d1 d2)
      (((family (fun c => layerData (fun c b => Vin c b) c) d1 d2) 0 c).share_full fun _ => rfl)
      (fun b => Vin c b) (fun b => Vout c b)
      (((family (fun c => layerData (fun c b => Vin c b) c) d1 d2) 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation -/

/-- The four arrays after the region, read off the entry valuation with the output array replaced: the three operands as
    entered (an operand is never written back), the output at its replacement. -/
theorem exit_arrays (Vin : Dev nD → Valuation τ sig (Elt F)) (c : Dev nD)
    (out : Buf (Elt F) ((c : Thread nD τ).loc main_v130))
    (hout : out = (layerData (fun c b => Vin c b) c).arrAt 3 cfg0.N) :
    ∀ w, (layerData (fun c b => Vin c b) c).arrAt w cfg0.N
      = Function.update (Vin c) (Proc.devRef .tc main_v130) out (Proc.devRef .tc (Pipeline.arrRef spec0 w))
  | ⟨0, _⟩ => ((layerData (fun c b => Vin c b) c).arrAt_in 0 rfl _).trans
      ((layerData_A (fun c b => Vin c b) c 0).trans (Function.update_of_ne (StableHlo.devRef_ne_of_ne (by decide)) _ _).symm)
  | ⟨1, _⟩ => ((layerData (fun c b => Vin c b) c).arrAt_in 1 rfl _).trans
      ((layerData_A (fun c b => Vin c b) c 1).trans (Function.update_of_ne (StableHlo.devRef_ne_of_ne (by decide)) _ _).symm)
  | ⟨2, _⟩ => ((layerData (fun c b => Vin c b) c).arrAt_in 2 rfl _).trans
      ((layerData_A (fun c b => Vin c b) c 2).trans (Function.update_of_ne (StableHlo.devRef_ne_of_ne (by decide)) _ _).symm)
  | ⟨3, _⟩ => hout.symm.trans
      (show out = Function.update (Vin c) (Proc.devRef .tc main_v130) out (Proc.devRef .tc main_v130) from
        (Function.update_self (f := Vin c) (Proc.devRef .tc main_v130) out).symm)

/-- Every buffer that is none of the region's four arrays is as entered. -/
theorem exit_rest (Vin : Dev nD → Valuation τ sig (Elt F)) (c : Dev nD)
    (out : Buf (Elt F) ((c : Thread nD τ).loc main_v130)) (b : Ref sig .tc)
    (hb : b ∉ Finset.univ.image (Pipeline.arrRef spec0)) :
    Function.update (Vin c) (Proc.devRef .tc main_v130) out (Proc.devRef .tc b) = Vin c (Proc.devRef .tc b) :=
  Function.update_of_ne (StableHlo.devRef_ne_of_ne fun e =>
    hb (Finset.mem_image.mpr ⟨3, Finset.mem_univ _, e.symm⟩)) _ _

/-- The region entered at `Vin` and left at `Vin` with the output array replaced by what the pipeline leaves in it. -/
def layerSegUpdate (d1 : RegionData (F := F) 1) (d2 : RegionData (F := F) 2)
    (Vin : Dev nD → Valuation τ sig (Elt F))
    (out : (c : Dev nD) → Buf (Elt F) ((c : Thread nD τ).loc main_v130))
    (hout : ∀ c, out c = (layerData (fun c b => Vin c b) c).arrAt 3 cfg0.N) :
    Pipeline.RegionSeg (pcfgs (F := F)) noTables (family (fun c => layerData (fun c b => Vin c b) c) d1 d2) () defs₀ Variants.none
      (fun _ => ∅) (fun _ _ => 0) 0 :=
  layerSeg d1 d2 Vin (fun c => Function.update (Vin c) (Proc.devRef .tc main_v130) (out c))
    (fun c w => exit_arrays Vin c (out c) (hout c) w) (fun c b hb => exit_rest Vin c (out c) b hb)

end Cert.KernelIdeal.LayerOne

end
-- ==== Proof.LayerTwoPoints.lean ====
/-
  The second relational layer's kernel on its grid of 50 row blocks × 4 relations (the relation index runs fastest,
  so point t is row block t / 4 at relation t % 4). The body clears its accumulator when the relation index is 0,
  adds  agg_r · W_r + b_r  to it at every point, and when the relation index is 3 stores  max(accumulator, 0)  into the
  output block. So every point is of one of three kinds — FIRST (clear, then add), MIDDLE (add), LAST (add, then
  store) — decided here over the grid in closed form, together with where the output window is idle (everywhere but
  at the LAST points, where alone its block is written back).
-/
import proofs.«127058_j2791728742679_2_alg».proof.Proof.Gen.KernelIdeal.Launch
import proofs.«127058_j2791728742679_2_alg».proof.Proof.Gen.KernelIdeal.Skeleton
import proofs.«127058_j2791728742679_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional: the relation index is 0 (the scalar chain the kernel computes, substituted). -/
abbrev atFirst (i : grid1.Coords) : Prop :=
  (Scalar.cmpi .ne (Scalar.extui (Scalar.cmpi .eq (BitVec.ofNat 32 (i 1).val) 0#32)) 0#32) = 1#1
/-- It holds exactly at the points t with t % 4 = 0. -/
theorem atFirst_iff : ∀ t : Fin cfg1.N, atFirst (grid1.coords t) ↔ t.val % 4 = 0 :=
  (by decide +kernel : ∀ t : Fin grid1.N, atFirst (grid1.coords t) ↔ t.val % 4 = 0)

/-- The body's second conditional: the relation index is 3, the last relation. -/
abbrev atLast (i : grid1.Coords) : Prop := k1_cond2 i = 1#1
/-- It holds exactly at the points t with t % 4 = 3. -/
theorem atLast_iff : ∀ t : Fin cfg1.N, atLast (grid1.coords t) ↔ t.val % 4 = 3 :=
  (by decide +kernel : ∀ t : Fin grid1.N, atLast (grid1.coords t) ↔ t.val % 4 = 3)

/-! ## Where the windows are idle -/

/-- The three input windows are never idle. -/
theorem agg_live : ∀ t : Fin cfg1.N, cfg1.idle 0 (grid1.coords t) = false := by decide +kernel
theorem weight_live : ∀ t : Fin cfg1.N, cfg1.idle 1 (grid1.coords t) = false := by decide +kernel
theorem bias_live : ∀ t : Fin cfg1.N, cfg1.idle 2 (grid1.coords t) = false := by decide +kernel
/-- Away from the LAST points the output window is idle: the body stores nothing into it there, -/
theorem out_idle : ∀ t : Fin cfg1.N, ¬atLast (grid1.coords t) → cfg1.idle 3 (grid1.coords t) = true := by decide +kernel
/-- and its block is not written back there. -/
theorem out_kept : ∀ t : Fin cfg1.N, ¬atLast (grid1.coords t) → (cfg1.win 3).flush t = false := by decide +kernel
/-- At the LAST points it is live. -/
theorem out_live : ∀ t : Fin cfg1.N, atLast (grid1.coords t) → cfg1.idle 3 (grid1.coords t) = false := by decide +kernel

/-! ## The memrefs the body is called with -/

/-- The aggregated-features block's, the weight slab's, the bias row's and the output block's current staging memref at
    point t, as the pipeline passes them, each a whole buffer. -/
abbrev aggBuf (t : Fin cfg1.N) : Memref sig .tc .vmem S1x2000x256 .f32 := win1_0.stage (cfg1.slots t 0)
abbrev aggBuf_whole (t : Fin cfg1.N) : (aggBuf t).IsWhole := hstage1_0 ((cfg1.slots t 0).cast nbuf1_0)
abbrev weightBuf (t : Fin cfg1.N) : Memref sig .tc .vmem S1x256x256 .f32 := win1_1.stage (cfg1.slots t 1)
abbrev weightBuf_whole (t : Fin cfg1.N) : (weightBuf t).IsWhole := hstage1_1 ((cfg1.slots t 1).cast nbuf1_1)
abbrev biasBuf (t : Fin cfg1.N) : Memref sig .tc .vmem S1x1x256 .f32 := win1_2.stage (cfg1.slots t 2)
abbrev biasBuf_whole (t : Fin cfg1.N) : (biasBuf t).IsWhole := hstage1_2 ((cfg1.slots t 2).cast nbuf1_2)
abbrev outBuf (t : Fin cfg1.N) : Memref sig .tc .vmem S2000x256 .f32 := win1_3.stage (cfg1.slots t 3)
abbrev outBuf_whole (t : Fin cfg1.N) : (outBuf t).IsWhole := hstage1_3 ((cfg1.slots t 3).cast nbuf1_3)
/-- The accumulator: a whole scoped buffer of the kernel's own, carried from point to point. -/
abbrev accBuf : Memref sig .tc .vmem S2000x256 .f32 := Memref.whole cc1_scratch0
/-- The accumulator and one staging buffer of the output window as views: contents are stated through them. -/
abbrev accView : View sig .tc .vmem S2000x256 .f32 := accBuf.view
abbrev outView : View sig .tc .vmem S2000x256 .f32 := (Memref.whole cc1_stg3_0 : Memref sig .tc .vmem S2000x256 .f32).view

/-! ## The region's invariant when nothing is known of the accumulator -/

/-- The core's other scoped buffers — the staging buffers and the accumulator of the first region and the staging buffers of the last —, each whole at
    some contents: they ride through this region untouched. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant the launch hands the region: the accumulator at some contents, the other scoped buffers, and the
    generator register at some state. -/
theorem launchInv_eq (c : Dev nD) :
    (Pipeline.ΦA spec1 c : sProp 𝕄)
      = iprop(iprop((∃ d, owns (c : Thread nD τ) accBuf fullShare d) ∗ otherScoped (F := F) c) ∗ (∃ r, prngReg c r)) := by
  unfold Pipeline.ΦA; rw [scopedRest1_eq]; unfold otherScoped; simp only [accBuf, owns_whole]
  refine BI.Entails.antisymm (show (_ : sProp 𝕄) ⊢ _ from ?_) (show (_ : sProp 𝕄) ⊢ _ from ?_)
  ·
    iintro ⟨⟨H0, H1, H2, H3, H4, H5, H6, H7, H8, H9, H10, H11, H12, H13, H14, H15⟩, Hg⟩
    isplitr [Hg]
    · isplitl [H9]; · iexact H9
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      isplitl [H14]; · iexact H14
      iexact H15
    iexact Hg
  ·
    iintro ⟨⟨H9, H0, H1, H2, H3, H4, H5, H6, H7, H8, H10, H11, H12, H13, H14, H15⟩, Hg⟩
    isplitr [Hg]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact Hg

end Cert.KernelIdeal.LayerTwo

end
-- ==== Proof.LayerTwoRunFirst.lean ====
/-
  The second relational layer's body at a FIRST point (relation index 0): the accumulator is cleared, then
  agg_0 · W_0 + b_0  is added to it; the output block is not touched. Run here once, on any whole staging memrefs: the
  inputs' at their contents, the output's at contents handed back as they were, the accumulator at anything; what is found
  is the list of pieces the accumulator ends with (last store first).
-/
import proofs.«127058_j2791728742679_2_alg».proof.Proof.LayerTwoPoints

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: the pieces the accumulator ends with, with the proof that the body runs to its continuation
    holding every input and the output as they were and the accumulator with those pieces written. -/
noncomputable def runFirst (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : atFirst i) (hl : ¬atLast i) (x0 : Vec F S1x2000x256 .f32) (x1 : Vec F S1x256x256 .f32) (x2 : Vec F S1x1x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨[], ?_, fun xo E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.LayerTwo

end
-- ==== Proof.LayerTwoRunMiddle.lean ====
/-
  The second relational layer's body at a MIDDLE point (relation index 1 or 2):  agg_r · W_r + b_r  is added to the
  accumulator, which comes in at what the point before left; the output block is not touched.
-/
import proofs.«127058_j2791728742679_2_alg».proof.Proof.LayerTwoPoints

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: the pieces the accumulator ends with, over its contents `acc` on entry. -/
noncomputable def runMiddle (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : ¬atLast i) (x0 : Vec F S1x2000x256 .f32) (x1 : Vec F S1x256x256 .f32) (x2 : Vec F S1x1x256 .f32) (acc : Vec F S2000x256 .f32) :
    Σ' (Lout : List (View.Piece (Elt F) S2000x256 .f32)), { Lacc : List (View.Piece (Elt F) S2000x256 .f32) //
      ∀ (xo : Vec F S2000x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare acc
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨[], ?_, fun xo E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.LayerTwo

end
-- ==== Proof.LayerTwoRunLast.lean ====
/-
  The second relational layer's body at a LAST point (relation index 3):  agg_3 · W_3 + b_3  is added to the accumulator,
  which comes in at what the point before left, and  max(accumulator, 0)  is stored into the output block.
-/
import proofs.«127058_j2791728742679_2_alg».proof.Proof.LayerTwoPoints

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: the pieces the output block and the accumulator end with, over the accumulator's contents
    `acc` on entry; the output's buffer comes in at anything. -/
noncomputable def runLast (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole)
    (hf : ¬atFirst i) (hl : atLast i) (x0 : Vec F S1x2000x256 .f32) (x1 : Vec F S1x256x256 .f32) (x2 : Vec F S1x1x256 .f32) (acc : Vec F S2000x256 .f32) :
    Σ' (Lout : List (View.Piece (Elt F) S2000x256 .f32)), { Lacc : List (View.Piece (Elt F) S2000x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare acc
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f Lout) ∗ (∃ f, a6.view.loc (c : Thread nD τ) ↦[a6.view.set]{fullShare} a6.view.writes (Elt F) f Lacc)) -∗ K ⟨⟩))
          ⊢ wp frame (wpE (defs₀ (F := F)) Variants.none c none) E (cc1__rel_layer_kernel i a2 h2 a3 h3 a4 h4 a5 h5 a6 h6) K } := by
  refine ⟨?_, ?_, fun E K => ?run⟩
  case run =>
    simp only [cc1__rel_layer_kernel_eq_skeleton]; unfold cc1__rel_layer_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.KernelIdeal.LayerTwo

end
-- ==== Proof.LayerTwoData.lean ====
/-
  The second relational layer's region, point by point. After point t the accumulator holds, for the row block t / 4,
  the partial sum  Σ_{r ≤ t % 4} (agg_r · W_r + b_r)  over that block's rows — cleared and restarted at every FIRST point —,
  and after a LAST point the output block holds its  max(·, 0).  This module names those contents by recursion on the
  point (`heldAfter`), states the region's invariant (the accumulator at the contents the point before left, the other
  scoped buffers and the generator register riding along), the pipeline's proof data over ANY contents `V` of the
  buffers on entry, and the body obligation at every point, by the kind of the point.
-/
import proofs.«127058_j2791728742679_2_alg».proof.Proof.LayerTwoRunFirst
import proofs.«127058_j2791728742679_2_alg».proof.Proof.LayerTwoRunMiddle
import proofs.«127058_j2791728742679_2_alg».proof.Proof.LayerTwoRunLast

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before_agg_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_weight_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What each kind of point leaves -/

section Kinds
variable (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x256 .f32) (x1 : Vec F S1x256x256 .f32) (x2 : Vec F S1x1x256 .f32)

/-- The accumulator after a FIRST point: its pieces read back. -/
def accFirst (hf : atFirst i) (hl : ¬atLast i) : Vec F S2000x256 .f32 :=
  accView.read (Elt F) (accView.writes (Elt F) accView.junk (runFirst c i a2 h2 a3 h3 a4 h4 a5 h5 a6 h6 hf hl x0 x1 x2).2.1)
/-- Those pieces cover the accumulator. -/
theorem accFirst_cover (hf : atFirst i) (hl : ¬atLast i) (y : S2000x256.Idx) :
    ∃ pc ∈ (runFirst c i a2 h2 a3 h3 a4 h4 a5 h5 a6 h6 hf hl x0 x1 x2).2.1, y ∈ pc.1.set :=
  View.cover_of_tiledL (runFirst c i a2 h2 a3 h3 a4 h4 a5 h5 a6 h6 hf hl x0 x1 x2).2.1 S2000x256.size (by sl_kernel_rfl) y

/-- The accumulator after a MIDDLE point, over its contents on entry. -/
def accMiddle (hf : ¬atFirst i) (hl : ¬atLast i) (acc : Vec F S2000x256 .f32) : Vec F S2000x256 .f32 :=
  accView.read (Elt F) (accView.writes (Elt F) accView.junk (runMiddle c i a2 h2 a3 h3 a4 h4 a5 h5 a6 h6 hf hl x0 x1 x2 acc).2.1)
theorem accMiddle_cover (hf : ¬atFirst i) (hl : ¬atLast i) (acc : Vec F S2000x256 .f32) (y : S2000x256.Idx) :
    ∃ pc ∈ (runMiddle c i a2 h2 a3 h3 a4 h4 a5 h5 a6 h6 hf hl x0 x1 x2 acc).2.1, y ∈ pc.1.set :=
  View.cover_of_tiledL (runMiddle c i a2 h2 a3 h3 a4 h4 a5 h5 a6 h6 hf hl x0 x1 x2 acc).2.1 S2000x256.size (by sl_kernel_rfl) y

/-- The accumulator and the output block after a LAST point, over the accumulator's contents on entry. -/
def accLast (hf : ¬atFirst i) (hl : atLast i) (acc : Vec F S2000x256 .f32) : Vec F S2000x256 .f32 :=
  accView.read (Elt F) (accView.writes (Elt F) accView.junk (runLast c i a2 h2 a3 h3 a4 h4 a5 h5 a6 h6 hf hl x0 x1 x2 acc).2.1)
theorem accLast_cover (hf : ¬atFirst i) (hl : atLast i) (acc : Vec F S2000x256 .f32) (y : S2000x256.Idx) :
    ∃ pc ∈ (runLast c i a2 h2 a3 h3 a4 h4 a5 h5 a6 h6 hf hl x0 x1 x2 acc).2.1, y ∈ pc.1.set :=
  View.cover_of_tiledL (runLast c i a2 h2 a3 h3 a4 h4 a5 h5 a6 h6 hf hl x0 x1 x2 acc).2.1 S2000x256.size (by sl_kernel_rfl) y
def outLast (hf : ¬atFirst i) (hl : atLast i) (acc : Vec F S2000x256 .f32) : Vec F S2000x256 .f32 :=
  outView.read (Elt F) (outView.writes (Elt F) outView.junk (runLast c i a2 h2 a3 h3 a4 h4 a5 h5 a6 h6 hf hl x0 x1 x2 acc).1)
theorem outLast_cover (hf : ¬atFirst i) (hl : atLast i) (acc : Vec F S2000x256 .f32) (y : S2000x256.Idx) :
    ∃ pc ∈ (runLast c i a2 h2 a3 h3 a4 h4 a5 h5 a6 h6 hf hl x0 x1 x2 acc).1, y ∈ pc.1.set :=
  View.cover_of_tiledL (runLast c i a2 h2 a3 h3 a4 h4 a5 h5 a6 h6 hf hl x0 x1 x2 acc).1 S2000x256.size (by sl_kernel_rfl) y

end Kinds

/-- Where the output window is idle its buffer's named contents are a placeholder nothing consults. -/
def idleOut : Vec F S2000x256 .f32 := outView.read (Elt F) outView.junk

/-! ## The accumulation over the grid -/

theorem notLast_of_first {n : ℕ} (h : n % 4 = 0) : ¬ n % 4 = 3 := by omega

/-- What the output's staging buffer and the accumulator hold after the body at point n (output first): the kind of the
    point decides, a MIDDLE or LAST point over the accumulator as the point before left it. -/
def heldAfter (c : Dev nD) : (n : ℕ) → n < cfg1.N → Vec F S2000x256 .f32 × Vec F S2000x256 .f32
  | 0, hn =>
    let t : Fin cfg1.N := ⟨0, hn⟩
    (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr (Nat.zero_mod _)) (fun h => notLast_of_first (Nat.zero_mod 4) ((atLast_iff t).mp h)))
  | n + 1, hn =>
    let t : Fin cfg1.N := ⟨n + 1, hn⟩
    if h0 : (n + 1) % 4 = 0 then
      (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        ((atFirst_iff t).mpr h0) (fun h => notLast_of_first h0 ((atLast_iff t).mp h)))
    else if h1 : (n + 1) % 4 = 3 then
      (outLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2,
        accLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
          (fun h => h0 ((atFirst_iff t).mp h)) ((atLast_iff t).mpr h1) (heldAfter c n (Nat.lt_of_succ_lt hn)).2)
    else
      (idleOut, accMiddle c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) (fun h => h1 ((atLast_iff t).mp h)) (heldAfter c n (Nat.lt_of_succ_lt hn)).2)

/-- `heldAfter` at a FIRST point. -/
theorem heldAfter_first (c : Dev nD) (t : Fin cfg1.N) (h0 : t.val % 4 = 0) :
    heldAfter V c t.val t.isLt = (idleOut, accFirst c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      ((atFirst_iff t).mpr h0) (fun h => notLast_of_first h0 ((atLast_iff t).mp h))) := by
  obtain ⟨n, hn⟩ := t
  cases n with
  | zero => rfl
  | succ n => exact (dif_pos h0).trans rfl

/-- `heldAfter` at a MIDDLE point: over what the point before left in the accumulator. -/
theorem heldAfter_middle (c : Dev nD) (t : Fin cfg1.N) (h0 : ¬t.val % 4 = 0) (h1 : ¬t.val % 4 = 3) :
    heldAfter V c t.val t.isLt = (idleOut, accMiddle c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
      (fun h => h0 ((atFirst_iff t).mp h)) (fun h => h1 ((atLast_iff t).mp h))
      (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `heldAfter` at a LAST point. -/
theorem heldAfter_last (c : Dev nD) (t : Fin cfg1.N) (h0 : ¬t.val % 4 = 0) (h1 : t.val % 4 = 3) :
    heldAfter V c t.val t.isLt = (outLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2,
      accLast c (grid1.coords t) (aggBuf t) (aggBuf_whole t) (weightBuf t) (weightBuf_whole t) (biasBuf t) (biasBuf_whole t) (outBuf t) (outBuf_whole t) accBuf (Memref.isWhole_whole _) (blockAt V c 0 t) (blockAt V c 1 t) (blockAt V c 2 t)
        (fun h => h0 ((atFirst_iff t).mp h)) ((atLast_iff t).mpr h1) (heldAfter V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before point n: at the region's entry what the launch hands over (the accumulator at anything); afterwards the
    accumulator at what point n - 1 left, the other scoped buffers, and the generator register at some state. -/
def invBefore (c : Dev nD) : (n : ℕ) → n ≤ cfg1.N → sProp 𝕄
  | 0, _ => Pipeline.ΦA spec1 c
  | n + 1, hn => iprop(iprop(owns (c : Thread nD τ) accBuf fullShare ((heldAfter V c n hn).2) ∗ otherScoped (F := F) c) ∗ (∃ r, prngReg c r))

theorem invBefore_zero (c : Dev nD) (n : ℕ) (h : n ≤ cfg1.N) (hz : n = 0) : invBefore V c n h = Pipeline.ΦA spec1 c := by
  subst hz; rfl
theorem invBefore_succ (c : Dev nD) (n : ℕ) (hn : n < cfg1.N) :
    invBefore V c (n + 1) hn = iprop(iprop(owns (c : Thread nD τ) accBuf fullShare ((heldAfter V c n hn).2) ∗ otherScoped (F := F) c) ∗ (∃ r, prngReg c r)) := rfl
theorem invBefore_pos (c : Dev nD) (n : ℕ) (h : n ≤ cfg1.N) (hz : n ≠ 0) :
    invBefore V c n h = iprop(iprop(owns (c : Thread nD τ) accBuf fullShare ((heldAfter V c (n - 1) (by omega)).2) ∗ otherScoped (F := F) c) ∗ (∃ r, prngReg c r)) := by
  cases n with
  | zero => exact absurd rfl hz
  | succ n => rfl

/-! ## The pipeline's proof data -/

/-- The region's proof data on core c: the arrays as the region finds them; after the body at point t each input's
    buffer at its block and the output's at `heldAfter`'s first component; the invariant above; nothing owed; full shares. -/
def layerData (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (heldAfter V c t.val t.isLt).1
  Φ t := invBefore V c t.val (Nat.le_of_lt_succ t.isLt)
  q _ := fullShare
  owed _ := 0

theorem layerData_A (c : Dev nD) (w : Fin cfg1.W) : (layerData V c).A w = V c (Pipeline.arrRef spec1 w) := by
  dsimp only [layerData]
theorem inv_castSucc (c : Dev nD) (t : Fin cfg1.N) :
    (layerData V c).Φ t.castSucc = invBefore V c t.val (Nat.le_of_lt t.isLt) := by
  dsimp only [layerData]; simp only [Fin.coe_castSucc]
theorem after_agg (c : Dev nD) (t : Fin cfg1.N) : (layerData V c).after 0 t = blockAt V c 0 t := by dsimp only [layerData]
theorem after_weight (c : Dev nD) (t : Fin cfg1.N) : (layerData V c).after 1 t = blockAt V c 1 t := by dsimp only [layerData]
theorem after_bias (c : Dev nD) (t : Fin cfg1.N) : (layerData V c).after 2 t = blockAt V c 2 t := by dsimp only [layerData]
theorem after_out (c : Dev nD) (t : Fin cfg1.N) : (layerData V c).after 3 t = (heldAfter V c t.val t.isLt).1 := by dsimp only [layerData]
theorem before_agg (c : Dev nD) (t : Fin cfg1.N) (d) : (layerData V c).before 0 t d = blockAt V c 0 t :=
  before_agg_of V (layerData V c) (layerData_A V c 0) (after_agg V c) t d
theorem before_weight (c : Dev nD) (t : Fin cfg1.N) (d) : (layerData V c).before 1 t d = blockAt V c 1 t :=
  before_weight_of V (layerData V c) (layerData_A V c 1) (after_weight V c) t d
theorem before_bias (c : Dev nD) (t : Fin cfg1.N) (d) : (layerData V c).before 2 t d = blockAt V c 2 t :=
  before_bias_of V (layerData V c) (layerData_A V c 2) (after_bias V c) t d

end Cert.KernelIdeal.LayerTwo

end
-- ==== Proof.LayerTwoBody.lean ====
/-
  The second relational layer's body obligation: at every point of the grid the body, called on the windows' current
  staging buffers under the region's invariant, runs to the invariant at the next point with every window's buffer at
  what the proof data says. By the kind of the point: at a FIRST point the accumulator is taken at anything, at a
  MIDDLE or LAST point at what the point before left; away from the LAST points the output's buffer is handed back as
  it was found.
-/
import proofs.«127058_j2791728742679_2_alg».proof.Proof.LayerTwoData

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre (c : Dev nD) (t : Fin cfg1.N) : sProp 𝕄 :=
  iprop((layerData V c).Φ t.castSucc ∗ (layerData V c).owesAt () t.castSucc
    ∗ (∃ d, owns (c : Thread nD τ) (aggBuf t) fullShare ((layerData V c).before 0 t d))
    ∗ (∃ d, owns (c : Thread nD τ) (weightBuf t) fullShare ((layerData V c).before 1 t d))
    ∗ (∃ d, owns (c : Thread nD τ) (biasBuf t) fullShare ((layerData V c).before 2 t d))
    ∗ (∃ d, owns (c : Thread nD τ) (outBuf t) fullShare ((layerData V c).before 3 t d)))

/-- and what it returns. -/
def bodyPost (c : Dev nD) (t : Fin cfg1.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_weight, before_bias]
  rw [show (layerData V c).owesAt () t.succ = (layerData V c).owesAt () t.castSucc from rfl]
  rw [show (layerData V c).Φ t.succ = invBefore V c (t.val + 1) t.isLt from rfl, invBefore_succ]
  rw [show (layerData V c).leavesExact 0 t = owns (c : Thread nD τ) (aggBuf t) fullShare ((layerData V c).after 0 t) from by
    unfold Dat.leavesExact; rw [agg_live t], after_agg]
  rw [show (layerData V c).leavesExact 1 t = owns (c : Thread nD τ) (weightBuf t) fullShare ((layerData V c).after 1 t) from by
    unfold Dat.leavesExact; rw [weight_live t], after_weight]
  rw [show (layerData V c).leavesExact 2 t = owns (c : Thread nD τ) (biasBuf t) fullShare ((layerData V c).after 2 t) from by
    unfold Dat.leavesExact; rw [bias_live t], after_bias]
  by_cases h0 : t.val % 4 = 0
  · -- a FIRST point
    have hnl : ¬atLast (grid1.coords t) := fun h => notLast_of_first h0 ((atLast_iff t).mp h)
    rw [Dat.leavesExact_idle (layerData V c) 3 t (out_idle t hnl) (out_kept t hnl)]
    rw [heldAfter_first V c t h0]
    unfold accFirst; (try dsimp only)
    by_cases hz : t.val = 0
    · rw [inv_castSucc V c t, invBefore_zero V c _ _ hz, launchInv_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((atFirst_iff t).mpr h0) hnl (blockAt V c 0 t) (blockAt V c 1 t) (blockAt V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · -- a LAST point
      have hl : atLast (grid1.coords t) := (atLast_iff t).mpr h1
      rw [show (layerData V c).leavesExact 3 t = owns (c : Thread nD τ) (outBuf t) fullShare ((layerData V c).after 3 t) from by
        unfold Dat.leavesExact; rw [out_live t hl], after_out]
      rw [heldAfter_last V c t h0 h1]
      unfold outLast accLast; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ (fun h => h0 ((atFirst_iff t).mp h)) hl (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- a MIDDLE point
      have hnl : ¬atLast (grid1.coords t) := fun h => h1 ((atLast_iff t).mp h)
      rw [Dat.leavesExact_idle (layerData V c) 3 t (out_idle t hnl) (out_kept t hnl)]
      rw [heldAfter_middle V c t h0 h1]
      unfold accMiddle; (try dsimp only)
      rw [inv_castSucc V c t, invBefore_pos V c _ _ hz]
      iintro ⟨⟨⟨HS, Hoth⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((atFirst_iff t).mp h)) hnl (blockAt V c 0 t) (blockAt V c 1 t) (blockAt V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMiddle_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W1, bigSep_W1]
  exact body_at V c t

/-- What the launch hands the region is the invariant before the first point. -/
theorem inv_in (c : Dev nD) : Pipeline.ΦA spec1 c ⊢ (layerData V c).Φ 0 := by
  rw [show (layerData V c).Φ 0 = invBefore V c 0 (Nat.zero_le _) from rfl, invBefore_zero V c 0 _ rfl]
  try exact Idealize.SL.BI.Entails.refl _

/-- After any point but none the invariant gives the launch's back: the accumulator's named contents are forgotten. -/
theorem inv_forget (c : Dev nD) (t : Fin (cfg1.N + 1)) (ht : t.val ≠ 0) : (layerData V c).Φ t ⊢ Pipeline.ΦA spec1 c := by
  rw [show (layerData V c).Φ t = invBefore V c t.val (Nat.le_of_lt_succ t.isLt) from rfl, invBefore_pos V c _ _ ht, launchInv_eq]
  iintro ⟨⟨HS, Hoth⟩, Hg⟩
  isplitl [HS Hoth]
  · isplitl [HS]
    · iexists _; iexact HS
    iexact Hoth
  iexact Hg

/-- The same after the last point. -/
theorem inv_out (c : Dev nD) : (layerData V c).Φ (Fin.last cfg1.N) ⊢ Pipeline.ΦA spec1 c :=
  inv_forget V c _ (by rw [Fin.val_last]; have : cfg1.N = 200 := N_1; omega)

end Cert.KernelIdeal.LayerTwo

end
-- ==== Proof.LayerTwoSeg.lean ====
/-
  The second relational layer's region as a segment of @main: entered with every unscoped buffer whole at a valuation
  `Vin`, the generator register at some state and nothing owed; left at any valuation that holds, at the region's
  four arrays, what the pipeline leaves there — the three operands as entered, the output with the fifty written blocks
  folded in — and agrees with `Vin` elsewhere. The arrays are split out of the unscoped buffers at entry and put back at
  exit; the generator register and the scoped buffers pass through the region's invariant; the kernel has no semaphore
  of its own and owes nothing.
-/
import proofs.«127058_j2791728742679_2_alg».proof.Proof.LayerTwoBody
import proofs.«127058_j2791728742679_2_alg».proof.Proof.FamilyIdeal
import Idealize.ShloMosaic.Lib.Pipeline.Frame
import Idealize.ShloMosaic.Lib.Pipeline.FrameSuffix
import Idealize.ShloMosaic.Lib.Pipeline.RegionsLoop

set_option maxRecDepth 16384

noncomputable section

namespace Cert.KernelIdeal.LayerTwo

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, and the core owing nothing. -/
abbrev Rst (c : Dev nD) : sProp 𝕄 :=
  iprop((∃ r, prngReg c r) ∗ ∃ W, owes (c : Thread nD τ) (0 : CellTallies nD τ sig Unit) W)

set_option backward.isDefEq.respectTransparency.types false in
def layerSeg (d0 : RegionData (F := F) 0) (d2 : RegionData (F := F) 2)
    (Vin Vout : Dev nD → Valuation τ sig (Elt F))
    (hF : ∀ c w, (layerData (fun c b => Vin c b) c).arrAt w cfg1.N = Vout c (Pipeline.arrRef spec1 w))
    (hrest : ∀ c (b : Ref sig .tc), b ∉ Finset.univ.image (Pipeline.arrRef spec1) → Vout c b = Vin c b) :
    Pipeline.RegionSeg (pcfgs (F := F)) noTables (family d0 (fun c => layerData (fun c b => Vin c b) c) d2) () defs₀ Variants.none
      (fun _ => ∅) (fun _ _ => 0) 1 where
  win := launch1.win.to₀
  block_pos := launch1.block_pos
  stage_whole := launch1.stage_whole
  K := PEmpty
  osem k := k.elim
  ho := Pipeline.OwnSemFacts.none _
  hbody c := (body_obligation (fun c b => Vin c b) c).loose
  hwaits := Pipeline.hwaits_of_owed_zero _ _ _ _ (fun _ => ∅) (fun _ _ => 0) 1 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) noTables
      (family d0 (fun c => layerData (fun c b => Vin c b) c) d2) launch1.win launch1.arr_whole c
      (((family d0 (fun c => layerData (fun c b => Vin c b) c) d2) 1 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((family d0 (fun c => layerData (fun c b => Vin c b) c) d2) 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show ((family d0 (fun c => layerData (fun c b => Vin c b) c) d2) 1 c).Φ (Fin.last _) ⊢ Pipeline.ΦA spec1 c from inv_out (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ)
      (U := UR sig nD τ) (Lvl := ℕ) launch1.win launch1.arr_whole c (family d0 (fun c => layerData (fun c b => Vin c b) c) d2)
      (((family d0 (fun c => layerData (fun c b => Vin c b) c) d2) 1 c).share_full fun _ => rfl)
      (fun b => Vin c b) (fun b => Vout c b)
      (((family d0 (fun c => layerData (fun c b => Vin c b) c) d2) 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation -/

/-- The four arrays after the region, read off the entry valuation with the output array replaced: the three operands as
    entered (an operand is never written back), the output at its replacement. -/
theorem exit_arrays (Vin : Dev nD → Valuation τ sig (Elt F)) (c : Dev nD)
    (out : Buf (Elt F) ((c : Thread nD τ).loc main_v261))
    (hout : out = (layerData (fun c b => Vin c b) c).arrAt 3 cfg1.N) :
    ∀ w, (layerData (fun c b => Vin c b) c).arrAt w cfg1.N
      = Function.update (Vin c) (Proc.devRef .tc main_v261) out (Proc.devRef .tc (Pipeline.arrRef spec1 w))
  | ⟨0, _⟩ => ((layerData (fun c b => Vin c b) c).arrAt_in 0 rfl _).trans
      ((layerData_A (fun c b => Vin c b) c 0).trans (Function.update_of_ne (StableHlo.devRef_ne_of_ne (by decide)) _ _).symm)
  | ⟨1, _⟩ => ((layerData (fun c b => Vin c b) c).arrAt_in 1 rfl _).trans
      ((layerData_A (fun c b => Vin c b) c 1).trans (Function.update_of_ne (StableHlo.devRef_ne_of_ne (by decide)) _ _).symm)
  | ⟨2, _⟩ => ((layerData (fun c b => Vin c b) c).arrAt_in 2 rfl _).trans
      ((layerData_A (fun c b => Vin c b) c 2).trans (Function.update_of_ne (StableHlo.devRef_ne_of_ne (by decide)) _ _).symm)
  | ⟨3, _⟩ => hout.symm.trans
      (show out = Function.update (Vin c) (Proc.devRef .tc main_v261) out (Proc.devRef .tc main_v261) from
        (Function.update_self (f := Vin c) (Proc.devRef .tc main_v261) out).symm)

/-- Every buffer that is none of the region's four arrays is as entered. -/
theorem exit_rest (Vin : Dev nD → Valuation τ sig (Elt F)) (c : Dev nD)
    (out : Buf (Elt F) ((c : Thread nD τ).loc main_v261)) (b : Ref sig .tc)
    (hb : b ∉ Finset.univ.image (Pipeline.arrRef spec1)) :
    Function.update (Vin c) (Proc.devRef .tc main_v261) out (Proc.devRef .tc b) = Vin c (Proc.devRef .tc b) :=
  Function.update_of_ne (StableHlo.devRef_ne_of_ne fun e =>
    hb (Finset.mem_image.mpr ⟨3, Finset.mem_univ _, e.symm⟩)) _ _

/-- The region entered at `Vin` and left at `Vin` with the output array replaced by what the pipeline leaves in it. -/
def layerSegUpdate (d0 : RegionData (F := F) 0) (d2 : RegionData (F := F) 2)
    (Vin : Dev nD → Valuation τ sig (Elt F))
    (out : (c : Dev nD) → Buf (Elt F) ((c : Thread nD τ).loc main_v261))
    (hout : ∀ c, out c = (layerData (fun c b => Vin c b) c).arrAt 3 cfg1.N) :
    Pipeline.RegionSeg (pcfgs (F := F)) noTables (family d0 (fun c => layerData (fun c b => Vin c b) c) d2) () defs₀ Variants.none
      (fun _ => ∅) (fun _ _ => 0) 1 :=
  layerSeg d0 d2 Vin (fun c => Function.update (Vin c) (Proc.devRef .tc main_v261) (out c))
    (fun c w => exit_arrays Vin c (out c) (hout c) w) (fun c b hb => exit_rest Vin c (out c) b hb)

end Cert.KernelIdeal.LayerTwo

end
-- ==== Proof.HeadRegionIdeal.lean ====
/-
  The linear head  out = x · W + b  as one kernel region of the program: the frame-side record of the region.

  The region walks twenty points. At point t it stages rows 5000·t … 5000·t + 4999 of the hidden features
  (a 5000 × 256 block), the whole 256 × 128 weight and the whole bias of length 128, and the body stores one
  5000 × 128 block: the product of the staged rows with the weight plus the bias along every row. The stored
  block is a function of the three staged blocks alone, so what the region leaves in the output array is fixed
  by the arrays as the region finds them, and the three operand arrays are left as found.

  Everything is stated at an arbitrary valuation of the core's buffers at the region's entry and for every
  float instance.
-/
import proofs.«127058_j2791728742679_2_alg».proof.Proof.FamilyIdeal
import proofs.«127058_j2791728742679_2_alg».proof.Proof.Gen.KernelIdeal.Launch
import proofs.«127058_j2791728742679_2_alg».proof.Proof.Gen.KernelIdeal.Skeleton
import proofs.«127058_j2791728742679_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Head

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the head's region is entered
variable (V : (c : Dev nD) → (b : Ref sig .tc) → Buf (Elt F) ((c : Thread nD τ).loc b))

/-! ## The staged blocks -/

/-- Operand w's block at point t, cut out of its array as the region finds it: rows 5000·t onward of the
    hidden features or of the output, the whole weight, the whole bias. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The staged rows of the hidden features are the block of the point, whatever buffer of the pair is current:
    for any proof data over the entry contents whose body leaves that block in place. -/
theorem features_found {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The staged weight is the whole weight at every point: it is fetched once, its block index never moves, and
    the body leaves it in place. -/
theorem weight_found {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The staged bias is the whole bias at every point, for the same reason. -/
theorem bias_found {c : Dev nD} (dat : Dat τ (Elt F) Unit ℕ (UR sig nD τ) ℕ cfg2 c)
    (hA : dat.A 2 = V c (Pipeline.arrRef spec2 2)) (hafter : ∀ t, dat.after 2 t = blockAt V c 2 t)
    (t : Fin cfg2.N) (d) : dat.before 2 t d = blockAt V c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body reads and writes: each staged buffer whole -/

abbrev featuresRect : Rect S5000x256 := Rect.unit (s := S5000x256) ![0, 0] S5000x256.size inb_S5000x256_S5000x256_0_0
abbrev weightRect : Rect S256x128 := Rect.unit (s := S256x128) ![0, 0] S256x128.size inb_S256x128_S256x128_0_0
abbrev biasRect : Rect S128 := Rect.unit (s := S128) ![0] S128.size inb_S128_S128_0
abbrev storedRect : Rect S5000x128 := Rect.unit (s := S5000x128) ![0, 0] S5000x128.size inb_S5000x128_S5000x128_0_0

/-- The output's staging buffer after the body, from the three staged operands: the one store, of the rows times
    the weight plus the bias, laid over the whole buffer. -/
def storedBlock (x : Vec F S5000x256 .f32) (W : Vec F S256x128 .f32) (b : Vec F S128 .f32) : Vec F S5000x128 .f32 :=
  View.canon [⟨storedRect, k2_pay1 (View.ld x featuresRect) (View.ld W weightRect) (View.ld b biasRect)⟩]

/-- The one store covers the buffer: its rectangle is the whole 5000 × 128 shape. -/
theorem stored_covers (p : Vec F S5000x128 .f32) (y : S5000x128.Idx) :
    ∃ pc ∈ ([⟨storedRect, p⟩] : List (View.Piece (Elt F) S5000x128 .f32)), y ∈ pc.1.set :=
  View.cover_of_tiled [⟨storedRect, p⟩] S5000x128.size (by rfl) y

/-! ## The body's triple -/

set_option maxHeartbeats 1000000 in
/-- The head's body on whole staging buffers — the three operands' at read contents x, W, b, the output's at
    anything — runs to the continuation with the operands' buffers as they were and the output's holding
    `storedBlock x W b`. -/
theorem head_body (c : Dev nD) (E : Set ℕ) (i : grid2.Coords)
    (arg1 : Memref sig .tc .vmem S5000x256 .f32) (harg1 : arg1.IsWhole)
    (arg2 : Memref sig .tc .vmem S256x128 .f32) (harg2 : arg2.IsWhole)
    (arg3 : Memref sig .tc .vmem S128 .f32) (harg3 : arg3.IsWhole)
    (arg4 : Memref sig .tc .vmem S5000x128 .f32) (harg4 : arg4.IsWhole)
    (x : Vec F S5000x256 .f32) (W : Vec F S256x128 .f32) (b : Vec F S128 .f32) (K : PUnit → sProp 𝕄) :
    iprop(owns (c : Thread nD τ) arg1 fullShare x ∗ owns (c : Thread nD τ) arg2 fullShare W
        ∗ owns (c : Thread nD τ) arg3 fullShare b ∗ (∃ d, owns (c : Thread nD τ) arg4 fullShare d)
        ∗ (iprop(owns (c : Thread nD τ) arg1 fullShare x ∗ owns (c : Thread nD τ) arg2 fullShare W
            ∗ owns (c : Thread nD τ) arg3 fullShare b ∗ owns (c : Thread nD τ) arg4 fullShare (storedBlock x W b)) -∗ K ⟨⟩))
      ⊢ wp frame (wpE (defs₀ (F := F)) Variants.none c none) E
          (cc2__dense_kernel i arg1 harg1 arg2 harg2 arg3 harg3 arg4 harg4) K := by
  simp only [cc2__dense_kernel_eq_skeleton]; unfold cc2__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The region's proof data -/

/-- The head's proof data on core c: the four arrays as the region finds them; after the body at point t each
    operand's buffer still at its block and the output's at `storedBlock` of the three blocks; the invariant the
    scoped buffers no window stages and the generator register, untouched; full shares; nothing owed. -/
def headDat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => storedBlock (blockAt V c 0 t) (blockAt V c 1 t) (blockAt V c 2 t)
  Φ _ := Pipeline.ΦA spec2 c
  q _ := fullShare
  owed _ := 0

/-- The proof data's arrays are the entry contents. -/
theorem headDat_A (c : Dev nD) (w : Fin cfg2.W) : (headDat V c).A w = V c (Pipeline.arrRef spec2 w) := by
  dsimp only [headDat]

/-- What the body leaves, buffer by buffer. -/
theorem headDat_after_features (c : Dev nD) (t : Fin cfg2.N) : (headDat V c).after 0 t = blockAt V c 0 t := by
  dsimp only [headDat]
theorem headDat_after_weight (c : Dev nD) (t : Fin cfg2.N) : (headDat V c).after 1 t = blockAt V c 1 t := by
  dsimp only [headDat]
theorem headDat_after_bias (c : Dev nD) (t : Fin cfg2.N) : (headDat V c).after 2 t = blockAt V c 2 t := by
  dsimp only [headDat]
theorem headDat_after_out (c : Dev nD) (t : Fin cfg2.N) :
    (headDat V c).after 3 t = storedBlock (blockAt V c 0 t) (blockAt V c 1 t) (blockAt V c 2 t) := by
  dsimp only [headDat]

/-- What the body finds in each operand's current buffer: the operand's block at the point. -/
theorem headDat_before_features (c : Dev nD) (t : Fin cfg2.N) (d) : (headDat V c).before 0 t d = blockAt V c 0 t :=
  features_found V (headDat V c) (headDat_A V c 0) (headDat_after_features V c) t d
theorem headDat_before_weight (c : Dev nD) (t : Fin cfg2.N) (d) : (headDat V c).before 1 t d = blockAt V c 1 t :=
  weight_found V (headDat V c) (headDat_A V c 1) (headDat_after_weight V c) t d
theorem headDat_before_bias (c : Dev nD) (t : Fin cfg2.N) (d) : (headDat V c).before 2 t d = blockAt V c 2 t :=
  bias_found V (headDat V c) (headDat_A V c 2) (headDat_after_bias V c) t d

/-! ## The body obligation -/

/-- What the body is called with at point t: the invariant, the core's dues, and the four current staging buffers. -/
def headPre (c : Dev nD) (t : Fin cfg2.N) : sProp 𝕄 :=
  iprop((headDat V c).Φ t.castSucc ∗ (headDat V c).owesAt () t.castSucc
    ∗ (∃ d, owns (c : Thread nD τ) (st2_0 t) fullShare ((headDat V c).before 0 t d))
    ∗ (∃ d, owns (c : Thread nD τ) (st2_1 t) fullShare ((headDat V c).before 1 t d))
    ∗ (∃ d, owns (c : Thread nD τ) (st2_2 t) fullShare ((headDat V c).before 2 t d))
    ∗ (∃ d, owns (c : Thread nD τ) (st2_3 t) fullShare ((headDat V c).before 3 t d)))

/-- What it returns: the same, the buffers at what the proof data say the body leaves. -/
def headPost (c : Dev nD) (t : Fin cfg2.N) : sProp 𝕄 :=
  iprop((headDat V c).Φ t.succ ∗ (headDat V c).owesAt () t.succ
    ∗ owns (c : Thread nD τ) (st2_0 t) fullShare ((headDat V c).after 0 t)
    ∗ owns (c : Thread nD τ) (st2_1 t) fullShare ((headDat V c).after 1 t)
    ∗ owns (c : Thread nD τ) (st2_2 t) fullShare ((headDat V c).after 2 t)
    ∗ owns (c : Thread nD τ) (st2_3 t) fullShare ((headDat V c).after 3 t))

/-- The body at any point: the operands' buffers hold their blocks, so `head_body` applies; the invariant and the
    core's dues pass through unread. -/
theorem head_body_at (c : Dev nD) (t : Fin cfg2.N) :
    headPre V c t ⊢ wp frame (wpE (defs₀ (F := F)) Variants.none c none) Set.univ (bodyAt2 t) (fun _ => headPost V c t) := by
  unfold headPre headPost bodyAt2
  simp only [headDat_before_features, headDat_before_weight, headDat_before_bias]
  rw [show (headDat V c).Φ t.succ = (headDat V c).Φ t.castSucc from rfl,
    show (headDat V c).owesAt () t.succ = (headDat V c).owesAt () t.castSucc from rfl,
    headDat_after_features, headDat_after_weight, headDat_after_bias, headDat_after_out]
  iintro ⟨HΦ, Ho, ⟨%d0, H0⟩, ⟨%d1, H1⟩, ⟨%d2, H2⟩, ⟨%d3, H3⟩⟩
  iapply (head_body c Set.univ (grid2.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head's region, at every point. -/
theorem head_obligation (c : Dev nD) :
    BodyObligation (headDat (F := F) V c) (defs₀ (F := F)) Variants.none () Set.univ := fun t => by
  rw [bigSep_W2, bigSep_W2]
  exact head_body_at V c t

/-! ## The region as a segment of the program -/

/-- The head's proof data on every core, as the third member of the program's family of proof data. -/
def headData : RegionData (F := F) 2 := fun c => headDat V c

/-- What rides beside the buffers through the region: the core's generator register at some state, and its dues,
    at nothing. -/
abbrev Rst (c : Dev nD) : sProp 𝕄 :=
  iprop((∃ r, prngReg c r) ∗ ∃ W, owes (c : Thread nD τ) (0 : CellTallies nD τ sig Unit) W)

omit V in
set_option backward.isDefEq.respectTransparency.types false in
/-- The head's region over the thread state "every unscoped buffer whole at a valuation, the generator register at
    some state, nothing owed": entered at `Vin`, left at any `Vout` that holds, at the region's four arrays, what
    the pipeline leaves there (the three operands as entered, the output's twenty written blocks folded in) and
    agrees with `Vin` everywhere else. The arrays are split out of the unscoped buffers at entry and put back at
    exit; the generator register goes into the invariant and comes back; the kernel has no semaphore of its own. -/
def headSeg (d0 : RegionData (F := F) 0) (d1 : RegionData (F := F) 1)
    (Vin Vout : Dev nD → Valuation τ sig (Elt F))
    (hF : ∀ c w, (headDat (fun c b => Vin c b) c).arrAt w cfg2.N = Vout c (Pipeline.arrRef spec2 w))
    (hrest : ∀ c (b : Ref sig .tc), b ∉ Finset.univ.image (Pipeline.arrRef spec2) → Vout c b = Vin c b) :
    Pipeline.RegionSeg (pcfgs (F := F)) noTables (family d0 d1 (headData (fun c b => Vin c b))) () defs₀ Variants.none
      (fun _ => ∅) (fun _ _ => 0) 2 where
  win := launch2.win.to₀
  block_pos := launch2.block_pos
  stage_whole := launch2.stage_whole
  K := PEmpty
  osem k := k.elim
  ho := Pipeline.OwnSemFacts.none _
  hbody c := (head_obligation (fun c b => Vin c b) c).loose
  hwaits := Pipeline.hwaits_of_owed_zero _ _ _ _ (fun _ => ∅) (fun _ _ => 0) 2 fun _ _ => rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) noTables
      (family d0 d1 (headData (fun c b => Vin c b))) launch2.win launch2.arr_whole c
      ((family d0 d1 (headData (fun c b => Vin c b)) 2 c).share_full fun _ => rfl) (fun b => Vin c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family d0 d1 (headData (fun c b => Vin c b)) 2 c).Φ 0 = Pipeline.ΦA spec2 c from rfl]; unfold Pipeline.ΦA
    iintro ⟨Hp, -, Hr⟩
    isplitl [Hr]; · iexact Hr
    iexact Hp
  hout c := by
    rw [Pipeline.ownSems0_none,
      show (family d0 d1 (headData (fun c b => Vin c b)) 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ)
      (U := UR sig nD τ) (Lvl := ℕ) launch2.win launch2.arr_whole c (family d0 d1 (headData (fun c b => Vin c b)))
      ((family d0 d1 (headData (fun c b => Vin c b)) 2 c).share_full fun _ => rfl)
      (fun b => Vin c b) (fun b => Vout c b)
      ((family d0 d1 (headData (fun c b => Vin c b)) 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The exit valuation as an update of the entry valuation

The region writes one array, the head's output. A valuation that is the entry valuation with that one buffer
replaced by what the pipeline leaves there meets the two exit conditions of `headSeg`. -/

omit V in
/-- The four arrays after the region, read off the updated valuation: the three operands as entered (an operand
    is never written back), the output at its replacement. -/
theorem exit_arrays (Vin : Dev nD → Valuation τ sig (Elt F)) (c : Dev nD)
    (out : Buf (Elt F) ((c : Thread nD τ).loc main_v262))
    (hout : out = (headDat (fun c b => Vin c b) c).arrAt 3 cfg2.N) :
    ∀ w, (headDat (fun c b => Vin c b) c).arrAt w cfg2.N
      = Function.update (Vin c) (Proc.devRef .tc main_v262) out (Proc.devRef .tc (Pipeline.arrRef spec2 w))
  | ⟨0, _⟩ => ((headDat (fun c b => Vin c b) c).arrAt_in 0 rfl _).trans
      ((headDat_A (fun c b => Vin c b) c 0).trans
        (Function.update_of_ne (StableHlo.devRef_ne_of_ne (by decide)) _ _).symm)
  | ⟨1, _⟩ => ((headDat (fun c b => Vin c b) c).arrAt_in 1 rfl _).trans
      ((headDat_A (fun c b => Vin c b) c 1).trans
        (Function.update_of_ne (StableHlo.devRef_ne_of_ne (by decide)) _ _).symm)
  | ⟨2, _⟩ => ((headDat (fun c b => Vin c b) c).arrAt_in 2 rfl _).trans
      ((headDat_A (fun c b => Vin c b) c 2).trans
        (Function.update_of_ne (StableHlo.devRef_ne_of_ne (by decide)) _ _).symm)
  | ⟨3, _⟩ => hout.symm.trans
      (show out = Function.update (Vin c) (Proc.devRef .tc main_v262) out (Proc.devRef .tc main_v262) from
        (Function.update_self (f := Vin c) (Proc.devRef .tc main_v262) out).symm)

omit V in
/-- Every buffer that is none of the region's four arrays is as entered. -/
theorem exit_rest (Vin : Dev nD → Valuation τ sig (Elt F)) (c : Dev nD)
    (out : Buf (Elt F) ((c : Thread nD τ).loc main_v262)) (b : Ref sig .tc)
    (hb : b ∉ Finset.univ.image (Pipeline.arrRef spec2)) :
    Function.update (Vin c) (Proc.devRef .tc main_v262) out (Proc.devRef .tc b) = Vin c (Proc.devRef .tc b) :=
  Function.update_of_ne (StableHlo.devRef_ne_of_ne fun e =>
    hb (Finset.mem_image.mpr ⟨3, Finset.mem_univ _, e.symm⟩)) _ _

omit V in
/-- The head's region entered at `Vin` and left at `Vin` with the output array replaced by what the pipeline
    leaves in it. -/
def headSegUpdate (d0 : RegionData (F := F) 0) (d1 : RegionData (F := F) 1)
    (Vin : Dev nD → Valuation τ sig (Elt F))
    (out : (c : Dev nD) → Buf (Elt F) ((c : Thread nD τ).loc main_v262))
    (hout : ∀ c, out c = (headDat (fun c b => Vin c b) c).arrAt 3 cfg2.N) :
    Pipeline.RegionSeg (pcfgs (F := F)) noTables (family d0 d1 (headData (fun c b => Vin c b))) () defs₀ Variants.none
      (fun _ => ∅) (fun _ _ => 0) 2 :=
  headSeg d0 d1 Vin (fun c => Function.update (Vin c) (Proc.devRef .tc main_v262) (out c))
    (fun c w => exit_arrays Vin c (out c) (hout c) w) (fun c b hb => exit_rest Vin c (out c) b hb)

end Cert.KernelIdeal.Head

end
-- ==== Proof.RegionOutputsIdeal.lean ====
/-
  What the three kernel regions leave in the arrays they write, as the one function of a buffer reference that the
  conditional frame's valuations are stated over. Region 0 writes the first hidden layer into one array; region 1, entered
  from what the host makes of that, writes the second hidden layer; region 2, entered with the second hidden layer in
  place, writes the output. Each is named here by the region's proof data at the valuation the region is entered from,
  in that order, and a reference that no region writes keeps its launch contents.
-/
import proofs.«127058_j2791728742679_2_alg».proof.Proof.RegionsIdealPatched
import proofs.«127058_j2791728742679_2_alg».proof.Proof.LayerOneSeg
import proofs.«127058_j2791728742679_2_alg».proof.Proof.LayerTwoSeg
import proofs.«127058_j2791728742679_2_alg».proof.Proof.HeadRegionIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Contents for reference r: x if r is r₀, otherwise d. -/
def pick (r₀ r : Ref sig .tc) (c : Dev nD) (x : Buf (Elt F) ((c : Thread nD τ).loc r₀)) (d : Buf (Elt F) ((c : Thread nD τ).loc r)) :
    Buf (Elt F) ((c : Thread nD τ).loc r) :=
  if h : r = r₀ then h ▸ x else d

theorem pick_self (r₀ : Ref sig .tc) (c : Dev nD) (x d : Buf (Elt F) ((c : Thread nD τ).loc r₀)) : pick r₀ r₀ c x d = x := by
  unfold pick; rw [dif_pos rfl]
theorem pick_ne (r₀ r : Ref sig .tc) (c : Dev nD) (x : Buf (Elt F) ((c : Thread nD τ).loc r₀)) (d : Buf (Elt F) ((c : Thread nD τ).loc r)) (h : r ≠ r₀) :
    pick r₀ r c x d = d := by
  unfold pick; rw [dif_neg h]

/-- The first hidden layer: what region 0 leaves in its output array, entered from the valuation after the first
    seventeen host stretches. -/
def hiddenOne (c : Dev nD) : Buf (Elt F) ((c : Thread nD τ).loc main_v130) :=
  (LayerOne.layerData (fun c b => V17 m c b) c).arrAt 3 cfg0.N

/-- The regions' unknowns with only region 0's known. -/
def outsOne : Outs (F := F) := fun _ r c => pick main_v130 r c (hiddenOne m c) (m ((c : Thread nD τ).loc r))

/-- The second hidden layer: what region 1 leaves, entered from what the host makes of the first. -/
def hiddenTwo (c : Dev nD) : Buf (Elt F) ((c : Thread nD τ).loc main_v261) :=
  (LayerTwo.layerData (fun c b => V35 m (outsOne m) c b) c).arrAt 3 cfg1.N

/-- The regions' unknowns with regions 0 and 1 known. -/
def outsTwo : Outs (F := F) := fun _ r c =>
  pick main_v130 r c (hiddenOne m c) (pick main_v261 r c (hiddenTwo m c) (m ((c : Thread nD τ).loc r)))

/-- The output: what region 2 leaves, entered with the second hidden layer in place. -/
def outputArr (c : Dev nD) : Buf (Elt F) ((c : Thread nD τ).loc main_v262) :=
  (Head.headDat (fun c b => V36 m (outsTwo m) c b) c).arrAt 3 cfg2.N

/-- What every region leaves. -/
def outsAll : Outs (F := F) := fun _ r c =>
  pick main_v130 r c (hiddenOne m c) (pick main_v261 r c (hiddenTwo m c) (pick main_v262 r c (outputArr m c) (m ((c : Thread nD τ).loc r))))

theorem outsOne_hidden (J : ℕ) (c : Dev nD) : outsOne m J main_v130 c = hiddenOne m c := pick_self _ _ _ _
theorem outsTwo_hidden (J : ℕ) (c : Dev nD) : outsTwo m J main_v130 c = hiddenOne m c := pick_self _ _ _ _
theorem outsAll_hidden (J : ℕ) (c : Dev nD) : outsAll m J main_v130 c = hiddenOne m c := pick_self _ _ _ _
theorem outsTwo_hiddenTwo (J : ℕ) (c : Dev nD) : outsTwo m J main_v261 c = hiddenTwo m c :=
  (pick_ne _ _ _ _ _ (by decide)).trans (pick_self _ _ _ _)
theorem outsAll_hiddenTwo (J : ℕ) (c : Dev nD) : outsAll m J main_v261 c = hiddenTwo m c :=
  (pick_ne _ _ _ _ _ (by decide)).trans (pick_self _ _ _ _)
theorem outsAll_output (J : ℕ) (c : Dev nD) : outsAll m J main_v262 c = outputArr m c :=
  (pick_ne _ _ _ _ _ (by decide)).trans ((pick_ne _ _ _ _ _ (by decide)).trans (pick_self _ _ _ _))

/-- The valuation region 1 is entered from reads the unknowns only at region 0's array. -/
theorem V35_congr (o o' : Outs (F := F)) (c : Dev nD) (h : o 18 main_v130 c = o' 18 main_v130 c) : V35 m o c = V35 m o' c := by
  show (fun x => StableHlo.after hostOps1_16 (StableHlo.after hostOps1_15 (StableHlo.after hostOps1_14 (StableHlo.after hostOps1_13
      (StableHlo.after hostOps1_12 (StableHlo.after hostOps1_11 (StableHlo.after hostOps1_10 (StableHlo.after hostOps1_9
      (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
      (StableHlo.after hostOps1 (Function.update (V17 m c) main_v130 x)))))))))))))))))) (o 18 main_v130 c) = _
  rw [h]

/-- The valuation region 2 is entered from reads them only at the arrays of regions 0 and 1. -/
theorem V36_congr (o o' : Outs (F := F)) (c : Dev nD) (h : o 18 main_v130 c = o' 18 main_v130 c) (h' : o 36 main_v261 c = o' 36 main_v261 c) :
    V36 m o c = V36 m o' c := by
  show Function.update (V35 m o c) main_v261 (o 36 main_v261 c) = Function.update (V35 m o' c) main_v261 (o' 36 main_v261 c)
  rw [V35_congr m o o' c h, h']

theorem V35_all (c : Dev nD) : V35 m (outsAll m) c = V35 m (outsOne m) c :=
  V35_congr m _ _ c ((outsAll_hidden m 18 c).trans (outsOne_hidden m 18 c).symm)
theorem V36_all (c : Dev nD) : V36 m (outsAll m) c = V36 m (outsTwo m) c :=
  V36_congr m _ _ c ((outsAll_hidden m 18 c).trans (outsTwo_hidden m 18 c).symm) ((outsAll_hiddenTwo m 36 c).trans (outsTwo_hiddenTwo m 36 c).symm)

end Cert.KernelIdeal.Hand

end
-- ==== Proof.SegmentsRunIdeal.lean ====
/-
  The whole program as a run of its thirty-seven segments, with everything the final memory holds.

  The program is seventeen stretches of host operations, the first relational layer's kernel region, seventeen more
  stretches, the second layer's region and the head's region. Between two segments a core holds every unscoped
  buffer whole at a valuation: the launch memory, then each host stretch's operations applied in turn, then, after a
  region, the same valuation with the one array the region writes replaced. Given one record per region, entered from
  the valuation before it and left at the one after it, every weakly fair execution from a memory with zero counters
  terminates without a fault, and in every final memory EVERY unscoped buffer holds what the last valuation says:
  the arguments, and also the arrays the three regions wrote.
-/
import proofs.«127058_j2791728742679_2_alg».proof.Proof.RegionsIdealPatched

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the list of thirty-seven segments is compared with the program's chain by unfolding both; that takes more depth
-- and more steps than the defaults allow
set_option maxRecDepth 131072 in
set_option maxHeartbeats 4000000 in
set_option backward.isDefEq.respectTransparency.types false in
/-- The run of the whole program from one record per kernel region. For any rest states `E` beside the buffers —
    made on every core at the launch (`hE0`), ending with nothing owed (`hE3`) —, any contents `outs` for the arrays
    the regions write and any proof data: if region K's record is entered from the valuation before it and left at
    the one after it (`hpreK`, `hpostK`), then every weakly fair execution terminates and every final memory holds
    each unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V17 m c) ∗ E 0 c) ⊢ R0.pre c)
    (hpost0 : ∀ c : Dev nD, R0.post c ⊢ iprop(StableHlo.held (c : Thread nD τ) (Pipeline.ucRefs τ sig) (V18 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V35 m outs c) ∗ E 1 c) ⊢ R1.pre c)
    (hpost1 : ∀ c : Dev nD, R1.post c ⊢ iprop(StableHlo.held (c : Thread nD τ) (Pipeline.ucRefs τ sig) (V36 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V36 m outs c) ∗ E 2 c) ⊢ R2.pre c)
    (hpost2 : ∀ c : Dev nD, R2.post c ⊢ iprop(StableHlo.held (c : Thread nD τ) (Pipeline.ucRefs τ sig) (V37 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V37 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, .rfl, .rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, .rfl, .rfl, .rfl, .rfl, hpre1 c, (hpost1 c).trans (hpre2 c), (hpost2 c).trans (sep_mono .rfl (hE3 c))⟩)
    (hinit := ?_) (QY := fun c s => ∀ b ∈ Pipeline.ucRefs τ sig, s.mem ((c : Thread nD τ).1, b) = V37 m outs c b)
    (hfin := fun c s' => ?_) (hQ := fun _ h => h)
  · -- the launch: every unscoped buffer is held at its launch contents; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact h
    · iexact HSI

end Cert.KernelIdeal.Hand

end
-- ==== Proof.KernelRunIdeal.lean ====
/-
  The whole program run with the three kernel regions' records in place.

  Each region is entered from the valuation the segments before it produce and leaves that valuation with the one
  array it writes replaced: the first hidden layer, then (after the host has aggregated it again) the second hidden
  layer, then the head's output. With those three records the run of the thirty-seven segments ends, in every weakly
  fair execution, in a memory where every unscoped buffer holds what the last valuation says. Read at the arguments
  this is the frame claim (no host operation and no region writes an argument); read at the two result arrays it
  says what the program returns: the second hidden layer as region 1 leaves it and the output as region 2 leaves it.
-/
import proofs.«127058_j2791728742679_2_alg».proof.Proof.RegionOutputsIdeal
import proofs.«127058_j2791728742679_2_alg».proof.Proof.SegmentsRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The regions' records at the valuations of the run -/

/-- What rides beside the buffers from segment to segment: the core's generator register at some state, and its
    dues, at nothing. -/
abbrev Rst (c : Dev nD) : sProp 𝕄 :=
  iprop((∃ r, prngReg c r) ∗ ∃ W, owes (c : Thread nD τ) (0 : CellTallies nD τ sig Unit) W)

/-- Each region's proof data at the valuation the region is entered from. -/
abbrev dataOne : RegionData (F := F) 0 := fun c => LayerOne.layerData (fun c b => V17 m c b) c
abbrev dataTwo : RegionData (F := F) 1 := fun c => LayerTwo.layerData (fun c b => V35 m (outsOne m) c b) c
abbrev dataHead : RegionData (F := F) 2 := Head.headData (fun c b => V36 m (outsTwo m) c b)
/-- The three together. -/
abbrev allData : (p : Fin 3) → (c : Dev nD) → Dat τ (Elt F) Unit ℕ (UR sig nD τ) ℕ (cfgs p) c :=
  family (dataOne m) (dataTwo m) (dataHead m)

/-- The first layer's region: entered after the first seventeen host stretches, it replaces its output array by the
    first hidden layer. -/
def regionOne : RegionSeg (pcfgs (F := F)) noTables (allData m) () defs₀ Variants.none (fun _ => ∅) (fun _ _ => 0) 0 :=
  LayerOne.layerSegUpdate (dataTwo m) (dataHead m) (V17 m) (fun c => outsAll m 18 main_v130 c)
    (fun c => outsAll_hidden m 18 c)

/-- The second layer's region: entered after the next seventeen host stretches. -/
def regionTwo : RegionSeg (pcfgs (F := F)) noTables (allData m) () defs₀ Variants.none (fun _ => ∅) (fun _ _ => 0) 1 :=
  LayerTwo.layerSegUpdate (dataOne m) (dataHead m) (V35 m (outsOne m)) (fun c => outsAll m 36 main_v261 c)
    (fun c => outsAll_hiddenTwo m 36 c)

/-- The head's region: entered with the second hidden layer in place. -/
def regionHead : RegionSeg (pcfgs (F := F)) noTables (allData m) () defs₀ Variants.none (fun _ => ∅) (fun _ _ => 0) 2 :=
  Head.headSegUpdate (dataOne m) (dataTwo m) (V36 m (outsTwo m)) (fun c => outsAll m 37 main_v262 c)
    (fun c => outsAll_output m 37 c)

/-! ## The valuations around regions 1 and 2, spelt over the valuations the records are stated at -/

theorem V36_all_update (c : Dev nD) : V36 m (outsAll m) c
    = Function.update (V35 m (outsOne m) c) (Proc.devRef .tc main_v261) (outsAll m 36 main_v261 c) := by
  rw [← V35_all m c]

theorem V37_all_update (c : Dev nD) : V37 m (outsAll m) c
    = Function.update (V36 m (outsTwo m) c) (Proc.devRef .tc main_v262) (outsAll m 37 main_v262 c) := by
  rw [← V36_all m c]

theorem enter_regionTwo (c : Dev nD) :
    iprop(StableHlo.held (c : Thread nD τ) (Pipeline.ucRefs τ sig) (V35 m (outsAll m) c) ∗ Rst c) ⊢ (regionTwo m).pre c := by
  show iprop(StableHlo.held (c : Thread nD τ) (Pipeline.ucRefs τ sig) (V35 m (outsAll m) c) ∗ Rst c) ⊢ iprop(StableHlo.held (c : Thread nD τ) (Pipeline.ucRefs τ sig) (V35 m (outsOne m) c) ∗ Rst c)
  rw [V35_all m c]

theorem leave_regionTwo (c : Dev nD) :
    (regionTwo m).post c ⊢ iprop(StableHlo.held (c : Thread nD τ) (Pipeline.ucRefs τ sig) (V36 m (outsAll m) c) ∗ Rst c) := by
  show iprop(StableHlo.held (c : Thread nD τ) (Pipeline.ucRefs τ sig) (Function.update (V35 m (outsOne m) c) (Proc.devRef .tc main_v261) (outsAll m 36 main_v261 c)) ∗ Rst c)
    ⊢ iprop(StableHlo.held (c : Thread nD τ) (Pipeline.ucRefs τ sig) (V36 m (outsAll m) c) ∗ Rst c)
  rw [V36_all_update m c]

theorem enter_regionHead (c : Dev nD) :
    iprop(StableHlo.held (c : Thread nD τ) (Pipeline.ucRefs τ sig) (V36 m (outsAll m) c) ∗ Rst c) ⊢ (regionHead m).pre c := by
  show iprop(StableHlo.held (c : Thread nD τ) (Pipeline.ucRefs τ sig) (V36 m (outsAll m) c) ∗ Rst c) ⊢ iprop(StableHlo.held (c : Thread nD τ) (Pipeline.ucRefs τ sig) (V36 m (outsTwo m) c) ∗ Rst c)
  rw [V36_all m c]

theorem leave_regionHead (c : Dev nD) :
    (regionHead m).post c ⊢ iprop(StableHlo.held (c : Thread nD τ) (Pipeline.ucRefs τ sig) (V37 m (outsAll m) c) ∗ Rst c) := by
  show iprop(StableHlo.held (c : Thread nD τ) (Pipeline.ucRefs τ sig) (Function.update (V36 m (outsTwo m) c) (Proc.devRef .tc main_v262) (outsAll m 37 main_v262 c)) ∗ Rst c)
    ⊢ iprop(StableHlo.held (c : Thread nD τ) (Pipeline.ucRefs τ sig) (V37 m (outsAll m) c) ∗ Rst c)
  rw [V37_all_update m c]

/-! ## The run -/

set_option backward.isDefEq.respectTransparency.types false in
/-- Every weakly fair execution of the program from memory m with zero counters terminates without a fault, and every
    final memory holds each unscoped buffer at the last valuation of the run. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V37 m (outsAll m) c b) :=
  run_cond m emb₁ () Variants.none (fun _ => ∅) (fun _ _ => 0) (fun _ _ => rfl) ρ (outsAll m) (allData m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE3 := fun c => by iintro ⟨-, H⟩; iexact H)
    (regionOne m) (fun c => .rfl) (fun c => .rfl)
    (regionTwo m) (enter_regionTwo m) (leave_regionTwo m)
    (regionHead m) (enter_regionHead m) (leave_regionHead m)

/-! ## Read at the arguments: the frame claim -/

/-- An unscoped reference of the core is among those the run's post speaks of. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates and leaves each of the nine argument arrays as launched: no host
    operation writes one and no region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (unscoped_mem main_arg0 (by decide))).trans (V37_main_arg0 m (outsAll m) c),
      (h c _ (unscoped_mem main_arg1 (by decide))).trans (V37_main_arg1 m (outsAll m) c),
      (h c _ (unscoped_mem main_arg2 (by decide))).trans (V37_main_arg2 m (outsAll m) c),
      (h c _ (unscoped_mem main_arg3 (by decide))).trans (V37_main_arg3 m (outsAll m) c),
      (h c _ (unscoped_mem main_arg4 (by decide))).trans (V37_main_arg4 m (outsAll m) c),
      (h c _ (unscoped_mem main_arg5 (by decide))).trans (V37_main_arg5 m (outsAll m) c),
      (h c _ (unscoped_mem main_arg6 (by decide))).trans (V37_main_arg6 m (outsAll m) c),
      (h c _ (unscoped_mem main_arg7 (by decide))).trans (V37_main_arg7 m (outsAll m) c),
      (h c _ (unscoped_mem main_arg8 (by decide))).trans (V37_main_arg8 m (outsAll m) c)⟩) (run_all m ρ)

/-! ## Read at the result arrays: what the program returns -/

/-- The last valuation at the second hidden layer's array: what region 1 left (region 2 does not write it). -/
theorem last_hiddenTwo (c : Dev nD) : V37 m (outsAll m) c (Proc.devRef .tc main_v261) = hiddenTwo m c :=
  (V37_of m (outsAll m) c main_v261 (by decide)).trans
    ((Function.update_self (f := V35 m (outsAll m) c) (Proc.devRef .tc main_v261) (outsAll m 36 main_v261 c)).trans
      (outsAll_hiddenTwo m 36 c))

/-- The last valuation at the output array: what region 2 left. -/
theorem last_output (c : Dev nD) : V37 m (outsAll m) c (Proc.devRef .tc main_v262) = outputArr m c :=
  (Function.update_self (f := V36 m (outsAll m) c) (Proc.devRef .tc main_v262) (outsAll m 37 main_v262 c)).trans
    (outsAll_output m 37 c)

/-- Every weakly fair execution terminates with the second hidden layer and the output in the two result arrays,
    and the nine arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v261) = hiddenTwo m c
      ∧ r.2.mem ((c.tc : Thread nD τ).loc main_v262) = outputArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (unscoped_mem main_v261 (by decide))).trans (last_hiddenTwo m c),
      (h c _ (unscoped_mem main_v262 (by decide))).trans (last_output m c),
      (h c _ (unscoped_mem main_arg0 (by decide))).trans (V37_main_arg0 m (outsAll m) c),
      (h c _ (unscoped_mem main_arg1 (by decide))).trans (V37_main_arg1 m (outsAll m) c),
      (h c _ (unscoped_mem main_arg2 (by decide))).trans (V37_main_arg2 m (outsAll m) c),
      (h c _ (unscoped_mem main_arg3 (by decide))).trans (V37_main_arg3 m (outsAll m) c),
      (h c _ (unscoped_mem main_arg4 (by decide))).trans (V37_main_arg4 m (outsAll m) c),
      (h c _ (unscoped_mem main_arg5 (by decide))).trans (V37_main_arg5 m (outsAll m) c),
      (h c _ (unscoped_mem main_arg6 (by decide))).trans (V37_main_arg6 m (outsAll m) c),
      (h c _ (unscoped_mem main_arg7 (by decide))).trans (V37_main_arg7 m (outsAll m) c),
      (h c _ (unscoped_mem main_arg8 (by decide))).trans (V37_main_arg8 m (outsAll m) c)⟩) (run_all m ρ)

end Cert.KernelIdeal.Hand

end
-- ==== Proof.LayerOnePieces.lean ====
/-
  What each kind of point leaves, as the body's arithmetic of its loads, and where a block's element sits in its array.

  The run of the body at a FIRST, MIDDLE or LAST point ends with the accumulator (and at a LAST point the output block)
  written by whole-buffer stores; read back, the accumulator is the body's accumulation step of the three loaded blocks
  and of what the accumulator held on entry — the cleared accumulator at a FIRST point —, and the output block is
  max(·, 0) of it. The windows' index maps, decided once over the grid: at point t the aggregate's block is
  (t % 4, t / 4, 0), the weight's and the bias's (t % 4, 0, 0), the output's (t / 4, 0); an element of a block sits in
  its array, on each axis, at the block index times the block's size plus its own coordinate.
-/
import proofs.«127058_j2791728742679_2_alg».proof.Proof.LayerOneData
import Idealize.ShloMosaic.Lib.Pipeline.Value

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces read back -/

theorem hz : (![0, 0] : Fin 2 → Nat) = fun _ => 0 := funext fun a => by fin_cases a <;> rfl
theorem hz3 : (![0, 0, 0] : Fin 3 → Nat) = fun _ => 0 := funext fun a => by fin_cases a <;> rfl

section Kinds
variable (c : Dev nD) (i : grid0.Coords) (a2 : Memref sig .tc .vmem S1x2000x128 .f32) (h2 : a2.IsWhole) (a3 : Memref sig .tc .vmem S1x128x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x128 .f32) (x1 : Vec F S1x128x256 .f32) (x2 : Vec F S1x1x256 .f32)

/-- A MIDDLE point leaves the accumulation step over the accumulator's contents on entry. -/
theorem accMiddle_eq (hf : ¬atFirst i) (hl : ¬atLast i) (acc : Vec F S2000x256 .f32) :
    accMiddle c i a2 h2 a3 h3 a4 h4 a5 h5 a6 h6 x0 x1 x2 hf hl acc = k0_pay2 x0 x1 acc x2 := by
  unfold accMiddle
  rw [View.read_writes_eq_canon _ _ _ (accMiddle_cover c i a2 h2 a3 h3 a4 h4 a5 h5 a6 h6 x0 x1 x2 hf hl acc)]
  unfold runMiddle
  dsimp only
  rw [View.canon_unit_zero hz]
  simp only [View.readAt_eq_ld, h2.read_unread, h3.read_unread, h4.read_unread, h6.read_unread,
    View.ld_unit_zero (S := S1x2000x128) hz3, View.ld_unit_zero (S := S1x128x256) hz3,
    View.ld_unit_zero (S := S1x1x256) hz3, View.ld_unit_zero (S := S2000x256) hz]

/-- A FIRST point leaves the accumulation step over the cleared accumulator. -/
theorem accFirst_eq (hf : atFirst i) (hl : ¬atLast i) :
    accFirst c i a2 h2 a3 h3 a4 h4 a5 h5 a6 h6 x0 x1 x2 hf hl = k0_pay2 x0 x1 k0_pay1 x2 := by
  unfold accFirst
  rw [View.read_writes_eq_canon _ _ _ (accFirst_cover c i a2 h2 a3 h3 a4 h4 a5 h5 a6 h6 x0 x1 x2 hf hl)]
  unfold runFirst
  dsimp only
  sl_unfold_words
  rw [View.canon_cons_unit_zero (S := S2000x256) hz, View.readCov_unit_zero (S := S2000x256) _ hz]
  simp only [View.readAt_eq_ld, h2.read_unread, h3.read_unread, h4.read_unread,
    View.ld_unit_zero (S := S1x2000x128) hz3, View.ld_unit_zero (S := S1x128x256) hz3,
    View.ld_unit_zero (S := S1x1x256) hz3]

/-- A LAST point leaves the same step in the accumulator … -/
theorem accLast_eq (hf : ¬atFirst i) (hl : atLast i) (acc : Vec F S2000x256 .f32) :
    accLast c i a2 h2 a3 h3 a4 h4 a5 h5 a6 h6 x0 x1 x2 hf hl acc = k0_pay2 x0 x1 acc x2 := by
  unfold accLast
  rw [View.read_writes_eq_canon _ _ _ (accLast_cover c i a2 h2 a3 h3 a4 h4 a5 h5 a6 h6 x0 x1 x2 hf hl acc)]
  unfold runLast
  dsimp only
  sl_unfold_words
  rw [View.canon_unit_zero hz]
  simp only [View.readAt_eq_ld, h2.read_unread, h3.read_unread, h4.read_unread, h6.read_unread,
    View.ld_unit_zero (S := S1x2000x128) hz3, View.ld_unit_zero (S := S1x128x256) hz3,
    View.ld_unit_zero (S := S1x1x256) hz3, View.ld_unit_zero (S := S2000x256) hz]

/-- … and max(·, 0) of it in the output block. -/
theorem outLast_eq (hf : ¬atFirst i) (hl : atLast i) (acc : Vec F S2000x256 .f32) :
    outLast c i a2 h2 a3 h3 a4 h4 a5 h5 a6 h6 x0 x1 x2 hf hl acc = k0_pay3 (k0_pay2 x0 x1 acc x2) := by
  unfold outLast
  rw [View.read_writes_eq_canon _ _ _ (outLast_cover c i a2 h2 a3 h3 a4 h4 a5 h5 a6 h6 x0 x1 x2 hf hl acc)]
  unfold runLast
  dsimp only
  sl_unfold_words
  rw [View.canon_unit_zero hz, View.readCov_unit_zero (S := S2000x256) _ hz]
  simp only [View.readAt_eq_ld, h2.read_unread, h3.read_unread, h4.read_unread, h6.read_unread,
    View.ld_unit_zero (S := S1x2000x128) hz3, View.ld_unit_zero (S := S1x128x256) hz3,
    View.ld_unit_zero (S := S1x1x256) hz3, View.ld_unit_zero (S := S2000x256) hz]
end Kinds

/-! ## Where a block's element sits in its array -/

variable (V : (c : Dev nD) → (b : Ref sig .tc) → Buf (Elt F) ((c : Thread nD τ).loc b))

theorem aggIndex : ∀ t : Fin cfg0.N, win0_0.index t 0 = t.val % 4 ∧ win0_0.index t 1 = t.val / 4 ∧ win0_0.index t 2 = 0 :=
  (by decide +kernel : ∀ t : Fin grid0.N, win0_0.index t 0 = t.val % 4 ∧ win0_0.index t 1 = t.val / 4 ∧ win0_0.index t 2 = 0)
theorem weightIndex : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem biasIndex : ∀ t : Fin cfg0.N, win0_2.index t 0 = t.val % 4 ∧ win0_2.index t 1 = 0 ∧ win0_2.index t 2 = 0 :=
  (by decide +kernel : ∀ t : Fin grid0.N, win0_2.index t 0 = t.val % 4 ∧ win0_2.index t 1 = 0 ∧ win0_2.index t 2 = 0)
theorem outIndex : ∀ t : Fin cfg0.N, win0_3.index t 0 = t.val / 4 ∧ win0_3.index t 1 = 0 :=
  (by decide +kernel : ∀ t : Fin grid0.N, win0_3.index t 0 = t.val / 4 ∧ win0_3.index t 1 = 0)

theorem aggBlock_apply (c : Dev nD) (t : Fin cfg0.N) (y : S1x2000x128.Idx) (k : S4x100000x128.Idx)
    (h0 : (k 0).val = t.val % 4) (h1 : (k 1).val = t.val / 4 * 2000 + (y 1).val) (h2 : (k 2).val = (y 2).val) :
    (blockAt V c 0 t : Vec F S1x2000x128 .f32) y = (V c main_v128 : S4x100000x128.Idx → Elt F .f32) k := by
  unfold blockAt
  rw [View.read_apply]
  show V c main_v128 _ = V c main_v128 _
  refine congrArg _ ?_
  funext a
  apply Fin.ext
  have hy0 : (y 0).val = 0 := by have : (y 0).val < 1 := (y 0).isLt; omega
  match a with
  | ⟨0, _⟩ => show win0_0.index t 0 * 1 + 1 * (y 0).val = (k 0).val; rw [(aggIndex t).1, h0, hy0]; omega
  | ⟨1, _⟩ => show win0_0.index t 1 * 2000 + 1 * (y 1).val = (k 1).val; rw [(aggIndex t).2.1, h1]; omega
  | ⟨2, _⟩ => show win0_0.index t 2 * 128 + 1 * (y 2).val = (k 2).val; rw [(aggIndex t).2.2, h2]; omega

theorem weightBlock_apply (c : Dev nD) (t : Fin cfg0.N) (y : S1x128x256.Idx) (k : S4x128x256.Idx)
    (h0 : (k 0).val = t.val % 4) (h1 : (k 1).val = (y 1).val) (h2 : (k 2).val = (y 2).val) :
    (blockAt V c 1 t : Vec F S1x128x256 .f32) y = (V c main_arg3 : S4x128x256.Idx → Elt F .f32) k := by
  unfold blockAt
  rw [View.read_apply]
  show V c main_arg3 _ = V c main_arg3 _
  refine congrArg _ ?_
  funext a
  apply Fin.ext
  have hy0 : (y 0).val = 0 := by have : (y 0).val < 1 := (y 0).isLt; omega
  match a with
  | ⟨0, _⟩ => show win0_1.index t 0 * 1 + 1 * (y 0).val = (k 0).val; rw [(weightIndex t).1, h0, hy0]; omega
  | ⟨1, _⟩ => show win0_1.index t 1 * 128 + 1 * (y 1).val = (k 1).val; rw [(weightIndex t).2.1, h1]; omega
  | ⟨2, _⟩ => show win0_1.index t 2 * 256 + 1 * (y 2).val = (k 2).val; rw [(weightIndex t).2.2, h2]; omega

theorem biasBlock_apply (c : Dev nD) (t : Fin cfg0.N) (y : S1x1x256.Idx) (k : S4x1x256.Idx)
    (h0 : (k 0).val = t.val % 4) (h1 : (k 1).val = (y 1).val) (h2 : (k 2).val = (y 2).val) :
    (blockAt V c 2 t : Vec F S1x1x256 .f32) y = (V c main_v129 : S4x1x256.Idx → Elt F .f32) k := by
  unfold blockAt
  rw [View.read_apply]
  show V c main_v129 _ = V c main_v129 _
  refine congrArg _ ?_
  funext a
  apply Fin.ext
  have hy0 : (y 0).val = 0 := by have : (y 0).val < 1 := (y 0).isLt; omega
  match a with
  | ⟨0, _⟩ => show win0_2.index t 0 * 1 + 1 * (y 0).val = (k 0).val; rw [(biasIndex t).1, h0, hy0]; omega
  | ⟨1, _⟩ => show win0_2.index t 1 * 1 + 1 * (y 1).val = (k 1).val; rw [(biasIndex t).2.1, h1]; omega
  | ⟨2, _⟩ => show win0_2.index t 2 * 256 + 1 * (y 2).val = (k 2).val; rw [(biasIndex t).2.2, h2]; omega

/-- The output window's block at point t, read off any contents of the output array. -/
theorem outBlock_apply (c : Dev nD) (G : Buf (Elt F) ((c : Thread nD τ).loc main_v130)) (t : Fin cfg0.N) (y : S2000x256.Idx)
    (k : S100000x256.Idx) (h0 : (k 0).val = t.val / 4 * 2000 + (y 0).val) (h1 : (k 1).val = (y 1).val) :
    (((cfg0.win 3).blk t).view.read (Elt F) G : Vec F S2000x256 .f32) y = (G : S100000x256.Idx → Elt F .f32) k := by
  rw [View.read_apply]
  show G _ = G _
  refine congrArg _ ?_
  funext a
  apply Fin.ext
  match a with
  | ⟨0, _⟩ => show win0_3.index t 0 * 2000 + 1 * (y 0).val = (k 0).val; rw [(outIndex t).1, h0]; omega
  | ⟨1, _⟩ => show win0_3.index t 1 * 256 + 1 * (y 1).val = (k 1).val; rw [(outIndex t).2, h1]; omega

end Cert.KernelIdeal.LayerOne

end
-- ==== Proof.BodyArithmetic.lean ====
/-
  The three kernel bodies' arithmetic, read at one element, over the extended reals.

  A relational-layer body holds a block of 2000 rows. Per grid point it either clears its accumulator to zero, or adds
  to it one relation's contribution — the block of aggregated features times that relation's weight matrix, plus the
  relation's bias row laid along every row —, or stores max(·, 0) of the accumulator. The dense head multiplies a block
  of 5000 rows by the head's matrix and adds its bias row. The matrix unit's product into a zero accumulator is the
  plain sum over the contracted axis; the narrowing of its operands to a shorter float format is the identity on
  extended reals; the leading unit axes of the loaded blocks are dropped by reshapes that read (0, i, j) at (i, j).
-/
import proofs.«127058_j2791728742679_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The matrix unit's product into zeros, at an element -/

/-- In the [2000, 128] · [128, 256] product the left operand is read in the result's row … -/
theorem product128_lhs_row (i : S2000x256.Idx) (c : dot_S2000x128_S128x256_S2000x256_1_0_0_1_n_n.contr.Idx) :
    (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- … and the right operand in the result's column. -/
theorem product128_rhs_col (i : S2000x256.Idx) (c : dot_S2000x128_S128x256_S2000x256_1_0_0_1_n_n.contr.Idx) :
    (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- A [2000, 128] block times a [128, 256] matrix into zeros: entry (p, q) is the sum over the 128 contracted
    positions. -/
theorem product128_apply (l : FVec Ideal S2000x128 .bf16) (r : FVec Ideal S128x256 .bf16) (p : Fin 2000) (q : Fin 256) :
    matmul (F := Ideal) dot_S2000x128_S128x256_S2000x256_1_0_0_1_n_n none l r (constant S2000x256 .f32 0x00000000#32) (ix2 p q)
      = ∑ k : Fin 128, l (ix2 p k) * r (ix2 k q) := by
  show FloatOps.matmul dot_S2000x128_S128x256_S2000x256_1_0_0_1_n_n none l r (constant S2000x256 .f32 0x00000000#32) (ix2 p q) = _
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q)
      ((contrEquiv1 dot_S2000x128_S128x256_S2000x256_1_0_0_1_n_n 128 rfl rfl).symm k) = ix2 p k :=
    funext fun a => Fin.ext (by
      match a with
      | ⟨0, _⟩ => exact product128_lhs_row _ _
      | ⟨1, _⟩ => exact (dot_S2000x128_S128x256_S2000x256_1_0_0_1_n_n.lhsIdx_val_of_single rfl _ _).trans hk)
  have er : dot_S2000x128_S128x256_S2000x256_1_0_0_1_n_n.rhsIdx (ix2 p q)
      ((contrEquiv1 dot_S2000x128_S128x256_S2000x256_1_0_0_1_n_n 128 rfl rfl).symm k) = ix2 k q :=
    funext fun a => Fin.ext (by
      match a with
      | ⟨0, _⟩ => exact (dot_S2000x128_S128x256_S2000x256_1_0_0_1_n_n.rhsIdx_val_of_single rfl _ _).trans hk
      | ⟨1, _⟩ => exact product128_rhs_col _ _)
  rw [el, er]

/-! ## The first relational layer's body -/

/-- The cleared accumulator is zero everywhere. -/
theorem cleared_apply (p : Fin 2000) (q : Fin 256) : k0_pay1 (F := Ideal) (ix2 p q) = 0 := by
  unfold k0_pay1
  refine (congrFun (shapeCast_self _ shapeCasts_S2000x256_S2000x256) (ix2 p q)).trans ?_
  show Ideal.ofBits .f32 0x00000000#32 = 0
  exact Ideal.ofBits_zero_f32

/-- One relation's step: the accumulator plus (block · matrix + bias row). -/
theorem accumulate_apply (x0 : Vec Ideal S1x2000x128 .f32) (x1 : Vec Ideal S1x128x256 .f32) (acc : Vec Ideal S2000x256 .f32)
    (x2 : Vec Ideal S1x1x256 .f32) (p : Fin 2000) (q : Fin 256) :
    k0_pay2 (F := Ideal) x0 x1 acc x2 (ix2 p q)
      = acc (ix2 p q) + ((∑ k : Fin 128, x0 (ix3 (0 : Fin 1) p k) * x1 (ix3 (0 : Fin 1) k q))
          + x2 (ix3 (0 : Fin 1) (0 : Fin 1) q)) := by
  unfold k0_pay2
  refine (congrFun (shapeCast_self _ shapeCasts_S2000x256_S2000x256) (ix2 p q)).trans ?_
  refine congrArg (acc (ix2 p q) + ·) ?_
  refine congrArg₂ (· + ·) ?_ ?_
  · refine (product128_apply _ _ p q).trans (Finset.sum_congr rfl fun k _ => ?_)
    exact congrArg₂ (· * ·) (shapeCast_1ab_ab_apply x0 shapeCasts_S1x2000x128_S2000x128 p k)
      (shapeCast_1ab_ab_apply x1 shapeCasts_S1x128x256_S128x256 k q)
  · exact (broadcastTo_1b_ab_apply _ broadcasts_S1x256_S2000x256 p q).trans
      (shapeCast_1ab_ab_apply x2 shapeCasts_S1x1x256_S1x256 (0 : Fin 1) q)

/-- The closing step: max(·, 0). -/
theorem rectify_apply (v : Vec Ideal S2000x256 .f32) (p : Fin 2000) (q : Fin 256) :
    k0_pay3 (F := Ideal) v (ix2 p q) = max (v (ix2 p q)) 0 := by
  unfold k0_pay3
  show max (v (ix2 p q)) (Ideal.ofBits .f32 0x00000000#32) = _
  rw [Ideal.ofBits_zero_f32]

/-! ## The second relational layer's body: the same over 256 input features -/

theorem product256_lhs_row (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem product256_rhs_col (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A [2000, 256] block times a [256, 256] matrix into zeros, at (p, q). -/
theorem product256_apply (l : FVec Ideal S2000x256 .bf16) (r : FVec Ideal S256x256 .bf16) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) := by
  show FloatOps.matmul dot_S2000x256_S256x256_S2000x256_1_0_0_1_n_n none l r (constant S2000x256 .f32 0x00000000#32) (ix2 p q) = _
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact product256_lhs_row _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => exact product256_rhs_col _ _)
  rw [el, er]

theorem cleared2_apply (p : Fin 2000) (q : Fin 256) : k1_pay1 (F := Ideal) (ix2 p q) = 0 := by
  unfold k1_pay1
  refine (congrFun (shapeCast_self _ shapeCasts_S2000x256_S2000x256) (ix2 p q)).trans ?_
  show Ideal.ofBits .f32 0x00000000#32 = 0
  exact Ideal.ofBits_zero_f32

theorem accumulate2_apply (x0 : Vec Ideal S1x2000x256 .f32) (x1 : Vec Ideal S1x256x256 .f32) (acc : Vec Ideal S2000x256 .f32)
    (x2 : Vec Ideal S1x1x256 .f32) (p : Fin 2000) (q : Fin 256) :
    k1_pay2 (F := Ideal) x0 x1 acc x2 (ix2 p q)
      = acc (ix2 p q) + ((∑ k : Fin 256, x0 (ix3 (0 : Fin 1) p k) * x1 (ix3 (0 : Fin 1) k q))
          + x2 (ix3 (0 : Fin 1) (0 : Fin 1) q)) := by
  unfold k1_pay2
  refine (congrFun (shapeCast_self _ shapeCasts_S2000x256_S2000x256) (ix2 p q)).trans ?_
  refine congrArg (acc (ix2 p q) + ·) ?_
  refine congrArg₂ (· + ·) ?_ ?_
  · refine (product256_apply _ _ p q).trans (Finset.sum_congr rfl fun k _ => ?_)
    exact congrArg₂ (· * ·) (shapeCast_1ab_ab_apply x0 shapeCasts_S1x2000x256_S2000x256 p k)
      (shapeCast_1ab_ab_apply x1 shapeCasts_S1x256x256_S256x256 k q)
  · exact (broadcastTo_1b_ab_apply _ broadcasts_S1x256_S2000x256 p q).trans
      (shapeCast_1ab_ab_apply x2 shapeCasts_S1x1x256_S1x256 (0 : Fin 1) q)

theorem rectify2_apply (v : Vec Ideal S2000x256 .f32) (p : Fin 2000) (q : Fin 256) :
    k1_pay3 (F := Ideal) v (ix2 p q) = max (v (ix2 p q)) 0 := by
  unfold k1_pay3
  show max (v (ix2 p q)) (Ideal.ofBits .f32 0x00000000#32) = _
  rw [Ideal.ofBits_zero_f32]

/-! ## The dense head's body -/

theorem productHead_lhs_row (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem productHead_rhs_col (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- A [5000, 256] block times the [256, 128] matrix into zeros, at (p, q). -/
theorem productHead_apply (l : FVec Ideal S5000x256 .bf16) (r : FVec Ideal S256x128 .bf16) (p : Fin 5000) (q : Fin 128) :
    matmul (F := Ideal) dot_S5000x256_S256x128_S5000x128_1_0_0_1_n_n none l r (constant S5000x128 .f32 0x00000000#32) (ix2 p q)
      = ∑ k : Fin 256, l (ix2 p k) * r (ix2 k q) := by
  show FloatOps.matmul dot_S5000x256_S256x128_S5000x128_1_0_0_1_n_n none l r (constant S5000x128 .f32 0x00000000#32) (ix2 p q) = _
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact productHead_lhs_row _ _
      | ⟨1, _⟩ => exact (dot_S5000x256_S256x128_S5000x128_1_0_0_1_n_n.lhsIdx_val_of_single rfl _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (dot_S5000x256_S256x128_S5000x128_1_0_0_1_n_n.rhsIdx_val_of_single rfl _ _).trans hk
      | ⟨1, _⟩ => exact productHead_rhs_col _ _)
  rw [el, er]

/-- The head's block: rows times the matrix, plus the bias vector laid along every row. -/
theorem head_apply (x : Vec Ideal S5000x256 .f32) (w : Vec Ideal S256x128 .f32) (b : Vec Ideal S128 .f32)
    (p : Fin 5000) (q : Fin 128) :
    k2_pay1 (F := Ideal) x w b (ix2 p q) = (∑ k : Fin 256, x (ix2 p k) * w (ix2 k q)) + b (ix1 q) := by
  unfold k2_pay1
  refine congrArg₂ (· + ·) ?_ ?_
  · refine (productHead_apply _ _ p q).trans (Finset.sum_congr rfl fun k _ => ?_)
    exact congrArg (· * w (ix2 k q)) (congrFun (shapeCast_self x shapeCasts_S5000x256_S5000x256) (ix2 p k))
  · exact (broadcastTo_1b_ab_apply _ broadcasts_S1x128_S5000x128 p q).trans
      (shapeCast_a_1a_apply b shapeCasts_S128_S1x128 (0 : Fin 1) q)

end Cert.KernelIdeal.BodyValue

end
-- ==== Proof.LayerOneValue.lean ====
/-
  The first relational layer's output array, as one function of the arrays the region finds.

  Row block ib of the output is produced by the four points 4·ib, …, 4·ib + 3, one per relation. By induction on the
  point, after point n the accumulator holds at (p, q) the terms of relations 0, …, n % 4 of row 2000·(n / 4) + p added in
  order onto zero, where relation r's term at node i and feature j is
      (Σ_k agg[r, i, k] · W[r, k, j]) + b[r, 0, j];
  a FIRST point starts the sum from the cleared accumulator, a MIDDLE or LAST point adds its term to what the point
  before left (the same row block, since the relation index is not 0). The LAST point stores max(·, 0) of the full sum
  into the output block, which is written back then and only then; the LAST points' blocks tile the array. So the array
  ends holding, at (i, j),  max(((((0 + T 0) + T 1) + T 2) + T 3), 0).
-/
import proofs.«127058_j2791728742679_2_alg».proof.Proof.LayerOnePieces
import proofs.«127058_j2791728742679_2_alg».proof.Proof.BodyArithmetic
import Idealize.ShloMosaic.Lib.Pipeline.Value
import Idealize.ShloMosaic.Lib.ValueIdx

set_option maxRecDepth 16384

noncomputable section

open scoped BigOperators

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The running sum over the relations -/

open Idealize.ShloMosaic.ValueIdx Cert.KernelIdeal.BodyValue

/-- The relation a point works on, -/
def relOf (n : ℕ) : Fin 4 := ⟨n % 4, Nat.mod_lt _ (by decide)⟩
/-- and the row of the array that row p of its block is. -/
def rowOf (n : ℕ) (hn : n < cfg0.N) (p : Fin 2000) : Fin 100000 :=
  ⟨n / 4 * 2000 + p.val, by have hN : cfg0.N = 200 := N_0; have := p.isLt; omega⟩

/-- Relation r's contribution at node i, feature j: row i of the relation's aggregate against column j of its weight
    matrix, plus the relation's bias at j. -/
def relTerm (A : S4x100000x128.Idx → EReal) (W : S4x128x256.Idx → EReal) (B : S4x1x256.Idx → EReal)
    (r : Fin 4) (i : Fin 100000) (j : Fin 256) : EReal :=
  (∑ k : Fin 128, A (ix3 r i k) * W (ix3 r k j)) + B (ix3 r (0 : Fin 1) j)

/-- Four terms added in order onto zero, stopped after term n. -/
def partialSum (T : Fin 4 → EReal) : ℕ → EReal
  | 0 => 0 + T 0
  | n + 1 => partialSum T n + T (relOf (n + 1))

theorem partialSum_three (T : Fin 4 → EReal) : partialSum T 3 = (((0 + T 0) + T 1) + T 2) + T 3 := rfl

section Invariant
variable (V : (c : Dev nD) → (b : Ref sig .tc) → Buf (Elt Ideal) ((c : Thread nD τ).loc b))

/-- One step of the body's sum at a point, with the three blocks read where they sit in their arrays. -/
theorem step_apply (c : Dev nD) (t : Fin cfg0.N) (acc : Vec Ideal S2000x256 .f32) (p : Fin 2000) (q : Fin 256) :
    k0_pay2 (F := Ideal) (blockAt V c 0 t) (blockAt V c 1 t) acc (blockAt V c 2 t) (ix2 p q)
      = acc (ix2 p q) + relTerm (V c main_v128) (V c main_arg3) (V c main_v129) (relOf t.val) (rowOf t.val t.isLt p) q := by
  rw [accumulate_apply]
  unfold relTerm
  refine congrArg (acc (ix2 p q) + ·) ?_
  refine congrArg₂ (· + ·) (Finset.sum_congr rfl fun k _ => congrArg₂ (· * ·) ?_ ?_) ?_
  · exact aggBlock_apply V c t (ix3 (0 : Fin 1) p k) (ix3 (relOf t.val) (rowOf t.val t.isLt p) k) rfl rfl rfl
  · exact weightBlock_apply V c t (ix3 (0 : Fin 1) k q) (ix3 (relOf t.val) k q) rfl rfl rfl
  · exact biasBlock_apply V c t (ix3 (0 : Fin 1) (0 : Fin 1) q) (ix3 (relOf t.val) (0 : Fin 1) q) rfl rfl rfl
end Invariant

section Invariant2
variable (V : (c : Dev nD) → (b : Ref sig .tc) → Buf (Elt Ideal) ((c : Thread nD τ).loc b))

/-- The four terms at one node and feature. -/
abbrev termsAt (c : Dev nD) (i : Fin 100000) (j : Fin 256) : Fin 4 → EReal :=
  fun r => relTerm (V c main_v128) (V c main_arg3) (V c main_v129) r i j

/-- After point n the accumulator holds, at row p of its block and feature q, the terms of relations 0 … n % 4 of
    that row added in order onto zero. -/
theorem acc_after (c : Dev nD) : ∀ (n : ℕ) (hn : n < cfg0.N) (p : Fin 2000) (q : Fin 256),
    (heldAfter V c n hn).2 (ix2 p q) = partialSum (termsAt V c (rowOf n hn p) q) (n % 4)
  | 0, hn, p, q => by
    rw [heldAfter_first V c ⟨0, hn⟩ (Nat.zero_mod 4)]
    dsimp only
    rw [accFirst_eq, step_apply, cleared_apply]
    rfl
  | n + 1, hn, p, q => by
    by_cases h0 : (n + 1) % 4 = 0
    · rw [heldAfter_first V c ⟨n + 1, hn⟩ h0]
      dsimp only
      rw [accFirst_eq, step_apply, cleared_apply, h0]
      have hr : relOf (n + 1) = 0 := Fin.ext h0
      show 0 + relTerm _ _ _ (relOf (n + 1)) _ _ = 0 + relTerm _ _ _ 0 _ _
      rw [hr]
    · have hrow : rowOf (n + 1) hn p = rowOf n (Nat.lt_of_succ_lt hn) p := Fin.ext (by
        show (n + 1) / 4 * 2000 + p.val = n / 4 * 2000 + p.val
        omega)
      have hmod : (n + 1) % 4 = n % 4 + 1 := by omega
      have ih := acc_after c n (Nat.lt_of_succ_lt hn) p q
      by_cases h1 : (n + 1) % 4 = 3
      · rw [heldAfter_last V c ⟨n + 1, hn⟩ h0 h1]
        dsimp only
        rw [accLast_eq, step_apply]
        show (heldAfter V c n _).2 (ix2 p q) + _ = _
        rw [ih, hrow, hmod]
        show _ = partialSum _ (n % 4) + termsAt V c _ q (relOf (n % 4 + 1))
        have hr : relOf (n % 4 + 1) = relOf (n + 1) := Fin.ext (by show (n % 4 + 1) % 4 = (n + 1) % 4; omega)
        rw [hr]
      · rw [heldAfter_middle V c ⟨n + 1, hn⟩ h0 h1]
        dsimp only
        rw [accMiddle_eq, step_apply]
        show (heldAfter V c n _).2 (ix2 p q) + _ = _
        rw [ih, hrow, hmod]
        show _ = partialSum _ (n % 4) + termsAt V c _ q (relOf (n % 4 + 1))
        have hr : relOf (n % 4 + 1) = relOf (n + 1) := Fin.ext (by show (n % 4 + 1) % 4 = (n + 1) % 4; omega)
        rw [hr]
end Invariant2

section Final
variable (V : (c : Dev nD) → (b : Ref sig .tc) → Buf (Elt Ideal) ((c : Thread nD τ).loc b))

/-- What the region leaves in the output array: at node i, feature j, max(·, 0) of the four relations' terms added in
    order onto zero. -/
def layerOneOutAt (c : Dev nD) : S100000x256.Idx → EReal :=
  fun idx => max (partialSum (termsAt V c (idx 0) (idx 1)) 3) 0

/-- The same as contents of the output array's buffer. -/
def layerOneOut (c : Dev nD) : Buf (Elt Ideal) ((c : Thread nD τ).loc main_v130) := layerOneOutAt V c

theorem layerOneOut_apply (c : Dev nD) (i : Fin 100000) (j : Fin 256) :
    (layerOneOut V c : S100000x256.Idx → EReal) (ix2 i j)
      = max (((((0 : EReal) + termsAt V c i j 0) + termsAt V c i j 1) + termsAt V c i j 2) + termsAt V c i j 3) 0 := rfl

/-- At a LAST point the block written back is the region's result read through the point's block. -/
theorem flushed_eq (c : Dev nD) (t : Fin cfg0.N) (hf : (cfg0.win 3).flush t = true) :
    (layerData V c).flushed 3 t = ((cfg0.win 3).blk t).view.read (Elt Ideal) (layerOneOut V c) := by
  have h3 : t.val % 4 = 3 := (flush0_3 t).mp hf
  have h0 : ¬t.val % 4 = 0 := by omega
  show (cfg0.win 3).cut (grid0.coords t) ((layerData V c).after 3 t) = _
  rw [after_out]
  funext y
  obtain ⟨p, q, rfl⟩ : ∃ (p : Fin 2000) (q : Fin 256), y = ix2 p q := ⟨y 0, y 1, eq_ix2 y⟩
  refine Eq.trans ?_ (outBlock_apply c (layerOneOut V c) t (ix2 p q) (ix2 (rowOf t.val t.isLt p) q) rfl rfl).symm
  show (heldAfter V c t.val t.isLt).1 (ix2 p q) = _
  rw [heldAfter_last V c t h0 h3]
  dsimp only
  rw [outLast_eq, rectify_apply, step_apply]
  obtain ⟨n, hn⟩ := t
  cases n with
  | zero => exact absurd rfl h0
  | succ n =>
    have hrow : rowOf (n + 1) hn p = rowOf n (Nat.lt_of_succ_lt hn) p := Fin.ext (by
      show (n + 1) / 4 * 2000 + p.val = n / 4 * 2000 + p.val
      have : (n + 1) % 4 = 3 := h3
      omega)
    have hmod : n % 4 = 2 := by have : (n + 1) % 4 = 3 := h3; omega
    show max ((heldAfter V c n _).2 (ix2 p q) + _) 0 = _
    rw [acc_after V c n (Nat.lt_of_succ_lt hn) p q, hmod, ← hrow]
    have hr : relOf (n + 1) = 3 := Fin.ext (by show (n + 1) % 4 = 3; exact h3)
    rw [hr]
    rfl

/-- Every row of the output array lies in the block of the LAST point of its row block. -/
theorem out_cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 200 := N_0
  have hi0 : (i 0 : Nat) < 100000 := (i 0).isLt
  have hi1 : (i 1 : Nat) < 256 := (i 1).isLt
  obtain ⟨T, hT⟩ : ∃ T : Fin cfg0.N, T.val = 4 * ((i 0 : Nat) / 2000) + 3 := ⟨⟨4 * ((i 0 : Nat) / 2000) + 3, by omega⟩, rfl⟩
  refine ⟨T, (flush0_3 T).mpr (by rw [hT]; omega), ?_⟩
  show i ∈ ((View.whole main_v130).slice (win0_3.rect T)).set
  rw [View.set_slice_whole, Rect.mem_set_unit]
  intro a
  match a with
  | ⟨0, _⟩ =>
    show win0_3.index T 0 * 2000 ≤ (i 0 : Nat) ∧ (i 0 : Nat) < win0_3.index T 0 * 2000 + 2000
    rw [(outIndex T).1, hT]
    omega
  | ⟨1, _⟩ =>
    show win0_3.index T 1 * 256 ≤ (i 1 : Nat) ∧ (i 1 : Nat) < win0_3.index T 1 * 256 + 256
    rw [(outIndex T).2]
    omega

/-- The output array after the region. -/
theorem layerOne_final (c : Dev nD) : (layerData V c).arrAt 3 cfg0.N = layerOneOut V c :=
  (layerData V c).arrAt_eq_of_cover 3 (layerOneOut V c) (flushed_eq V c) (out_cover c)
end Final

end Cert.KernelIdeal.LayerOne

end
-- ==== Proof.LayerTwoPieces.lean ====
/-
  What each kind of point leaves, as the body's arithmetic of its loads, and where a block's element sits in its array.

  The run of the body at a FIRST, MIDDLE or LAST point ends with the accumulator (and at a LAST point the output block)
  written by whole-buffer stores; read back, the accumulator is the body's accumulation step of the three loaded blocks
  and of what the accumulator held on entry — the cleared accumulator at a FIRST point —, and the output block is
  max(·, 0) of it. The windows' index maps, decided once over the grid: at point t the aggregate's block is
  (t % 4, t / 4, 0), the weight's and the bias's (t % 4, 0, 0), the output's (t / 4, 0); an element of a block sits in
  its array, on each axis, at the block index times the block's size plus its own coordinate.
-/
import proofs.«127058_j2791728742679_2_alg».proof.Proof.LayerTwoData
import Idealize.ShloMosaic.Lib.Pipeline.Value

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces read back -/

theorem hz : (![0, 0] : Fin 2 → Nat) = fun _ => 0 := funext fun a => by fin_cases a <;> rfl
theorem hz3 : (![0, 0, 0] : Fin 3 → Nat) = fun _ => 0 := funext fun a => by fin_cases a <;> rfl

section Kinds
variable (c : Dev nD) (i : grid1.Coords) (a2 : Memref sig .tc .vmem S1x2000x256 .f32) (h2 : a2.IsWhole) (a3 : Memref sig .tc .vmem S1x256x256 .f32) (h3 : a3.IsWhole) (a4 : Memref sig .tc .vmem S1x1x256 .f32) (h4 : a4.IsWhole) (a5 : Memref sig .tc .vmem S2000x256 .f32) (h5 : a5.IsWhole) (a6 : Memref sig .tc .vmem S2000x256 .f32) (h6 : a6.IsWhole) (x0 : Vec F S1x2000x256 .f32) (x1 : Vec F S1x256x256 .f32) (x2 : Vec F S1x1x256 .f32)

/-- A MIDDLE point leaves the accumulation step over the accumulator's contents on entry. -/
theorem accMiddle_eq (hf : ¬atFirst i) (hl : ¬atLast i) (acc : Vec F S2000x256 .f32) :
    accMiddle c i a2 h2 a3 h3 a4 h4 a5 h5 a6 h6 x0 x1 x2 hf hl acc = k1_pay2 x0 x1 acc x2 := by
  unfold accMiddle
  rw [View.read_writes_eq_canon _ _ _ (accMiddle_cover c i a2 h2 a3 h3 a4 h4 a5 h5 a6 h6 x0 x1 x2 hf hl acc)]
  unfold runMiddle
  dsimp only
  rw [View.canon_unit_zero hz]
  simp only [View.readAt_eq_ld, h2.read_unread, h3.read_unread, h4.read_unread, h6.read_unread,
    View.ld_unit_zero (S := S1x2000x256) hz3, View.ld_unit_zero (S := S1x256x256) hz3,
    View.ld_unit_zero (S := S1x1x256) hz3, View.ld_unit_zero (S := S2000x256) hz]

/-- A FIRST point leaves the accumulation step over the cleared accumulator. -/
theorem accFirst_eq (hf : atFirst i) (hl : ¬atLast i) :
    accFirst c i a2 h2 a3 h3 a4 h4 a5 h5 a6 h6 x0 x1 x2 hf hl = k1_pay2 x0 x1 k1_pay1 x2 := by
  unfold accFirst
  rw [View.read_writes_eq_canon _ _ _ (accFirst_cover c i a2 h2 a3 h3 a4 h4 a5 h5 a6 h6 x0 x1 x2 hf hl)]
  unfold runFirst
  dsimp only
  sl_unfold_words
  rw [View.canon_cons_unit_zero (S := S2000x256) hz, View.readCov_unit_zero (S := S2000x256) _ hz]
  simp only [View.readAt_eq_ld, h2.read_unread, h3.read_unread, h4.read_unread,
    View.ld_unit_zero (S := S1x2000x256) hz3, View.ld_unit_zero (S := S1x256x256) hz3,
    View.ld_unit_zero (S := S1x1x256) hz3]

/-- A LAST point leaves the same step in the accumulator … -/
theorem accLast_eq (hf : ¬atFirst i) (hl : atLast i) (acc : Vec F S2000x256 .f32) :
    accLast c i a2 h2 a3 h3 a4 h4 a5 h5 a6 h6 x0 x1 x2 hf hl acc = k1_pay2 x0 x1 acc x2 := by
  unfold accLast
  rw [View.read_writes_eq_canon _ _ _ (accLast_cover c i a2 h2 a3 h3 a4 h4 a5 h5 a6 h6 x0 x1 x2 hf hl acc)]
  unfold runLast
  dsimp only
  sl_unfold_words
  rw [View.canon_unit_zero hz]
  simp only [View.readAt_eq_ld, h2.read_unread, h3.read_unread, h4.read_unread, h6.read_unread,
    View.ld_unit_zero (S := S1x2000x256) hz3, View.ld_unit_zero (S := S1x256x256) hz3,
    View.ld_unit_zero (S := S1x1x256) hz3, View.ld_unit_zero (S := S2000x256) hz]

/-- … and max(·, 0) of it in the output block. -/
theorem outLast_eq (hf : ¬atFirst i) (hl : atLast i) (acc : Vec F S2000x256 .f32) :
    outLast c i a2 h2 a3 h3 a4 h4 a5 h5 a6 h6 x0 x1 x2 hf hl acc = k1_pay3 (k1_pay2 x0 x1 acc x2) := by
  unfold outLast
  rw [View.read_writes_eq_canon _ _ _ (outLast_cover c i a2 h2 a3 h3 a4 h4 a5 h5 a6 h6 x0 x1 x2 hf hl acc)]
  unfold runLast
  dsimp only
  sl_unfold_words
  rw [View.canon_unit_zero hz, View.readCov_unit_zero (S := S2000x256) _ hz]
  simp only [View.readAt_eq_ld, h2.read_unread, h3.read_unread, h4.read_unread, h6.read_unread,
    View.ld_unit_zero (S := S1x2000x256) hz3, View.ld_unit_zero (S := S1x256x256) hz3,
    View.ld_unit_zero (S := S1x1x256) hz3, View.ld_unit_zero (S := S2000x256) hz]
end Kinds

/-! ## Where a block's element sits in its array -/

variable (V : (c : Dev nD) → (b : Ref sig .tc) → Buf (Elt F) ((c : Thread nD τ).loc b))

theorem aggIndex : ∀ t : Fin cfg1.N, win1_0.index t 0 = t.val % 4 ∧ win1_0.index t 1 = t.val / 4 ∧ win1_0.index t 2 = 0 :=
  (by decide +kernel : ∀ t : Fin grid1.N, win1_0.index t 0 = t.val % 4 ∧ win1_0.index t 1 = t.val / 4 ∧ win1_0.index t 2 = 0)
theorem weightIndex : ∀ t : Fin cfg1.N, win1_1.index t 0 = t.val % 4 ∧ win1_1.index t 1 = 0 ∧ win1_1.index t 2 = 0 :=
  (by decide +kernel : ∀ t : Fin grid1.N, win1_1.index t 0 = t.val % 4 ∧ win1_1.index t 1 = 0 ∧ win1_1.index t 2 = 0)
theorem biasIndex : ∀ t : Fin cfg1.N, win1_2.index t 0 = t.val % 4 ∧ win1_2.index t 1 = 0 ∧ win1_2.index t 2 = 0 :=
  (by decide +kernel : ∀ t : Fin grid1.N, win1_2.index t 0 = t.val % 4 ∧ win1_2.index t 1 = 0 ∧ win1_2.index t 2 = 0)
theorem outIndex : ∀ t : Fin cfg1.N, win1_3.index t 0 = t.val / 4 ∧ win1_3.index t 1 = 0 :=
  (by decide +kernel : ∀ t : Fin grid1.N, win1_3.index t 0 = t.val / 4 ∧ win1_3.index t 1 = 0)

theorem aggBlock_apply (c : Dev nD) (t : Fin cfg1.N) (y : S1x2000x256.Idx) (k : S4x100000x256.Idx)
    (h0 : (k 0).val = t.val % 4) (h1 : (k 1).val = t.val / 4 * 2000 + (y 1).val) (h2 : (k 2).val = (y 2).val) :
    (blockAt V c 0 t : Vec F S1x2000x256 .f32) y = (V c main_v259 : S4x100000x256.Idx → Elt F .f32) k := by
  unfold blockAt
  rw [View.read_apply]
  show V c main_v259 _ = V c main_v259 _
  refine congrArg _ ?_
  funext a
  apply Fin.ext
  have hy0 : (y 0).val = 0 := by have : (y 0).val < 1 := (y 0).isLt; omega
  match a with
  | ⟨0, _⟩ => show win1_0.index t 0 * 1 + 1 * (y 0).val = (k 0).val; rw [(aggIndex t).1, h0, hy0]; omega
  | ⟨1, _⟩ => show win1_0.index t 1 * 2000 + 1 * (y 1).val = (k 1).val; rw [(aggIndex t).2.1, h1]; omega
  | ⟨2, _⟩ => show win1_0.index t 2 * 256 + 1 * (y 2).val = (k 2).val; rw [(aggIndex t).2.2, h2]; omega

theorem weightBlock_apply (c : Dev nD) (t : Fin cfg1.N) (y : S1x256x256.Idx) (k : S4x256x256.Idx)
    (h0 : (k 0).val = t.val % 4) (h1 : (k 1).val = (y 1).val) (h2 : (k 2).val = (y 2).val) :
    (blockAt V c 1 t : Vec F S1x256x256 .f32) y = (V c main_arg5 : S4x256x256.Idx → Elt F .f32) k := by
  unfold blockAt
  rw [View.read_apply]
  show V c main_arg5 _ = V c main_arg5 _
  refine congrArg _ ?_
  funext a
  apply Fin.ext
  have hy0 : (y 0).val = 0 := by have : (y 0).val < 1 := (y 0).isLt; omega
  match a with
  | ⟨0, _⟩ => show win1_1.index t 0 * 1 + 1 * (y 0).val = (k 0).val; rw [(weightIndex t).1, h0, hy0]; omega
  | ⟨1, _⟩ => show win1_1.index t 1 * 256 + 1 * (y 1).val = (k 1).val; rw [(weightIndex t).2.1, h1]; omega
  | ⟨2, _⟩ => show win1_1.index t 2 * 256 + 1 * (y 2).val = (k 2).val; rw [(weightIndex t).2.2, h2]; omega

theorem biasBlock_apply (c : Dev nD) (t : Fin cfg1.N) (y : S1x1x256.Idx) (k : S4x1x256.Idx)
    (h0 : (k 0).val = t.val % 4) (h1 : (k 1).val = (y 1).val) (h2 : (k 2).val = (y 2).val) :
    (blockAt V c 2 t : Vec F S1x1x256 .f32) y = (V c main_v260 : S4x1x256.Idx → Elt F .f32) k := by
  unfold blockAt
  rw [View.read_apply]
  show V c main_v260 _ = V c main_v260 _
  refine congrArg _ ?_
  funext a
  apply Fin.ext
  have hy0 : (y 0).val = 0 := by have : (y 0).val < 1 := (y 0).isLt; omega
  match a with
  | ⟨0, _⟩ => show win1_2.index t 0 * 1 + 1 * (y 0).val = (k 0).val; rw [(biasIndex t).1, h0, hy0]; omega
  | ⟨1, _⟩ => show win1_2.index t 1 * 1 + 1 * (y 1).val = (k 1).val; rw [(biasIndex t).2.1, h1]; omega
  | ⟨2, _⟩ => show win1_2.index t 2 * 256 + 1 * (y 2).val = (k 2).val; rw [(biasIndex t).2.2, h2]; omega

/-- The output window's block at point t, read off any contents of the output array. -/
theorem outBlock_apply (c : Dev nD) (G : Buf (Elt F) ((c : Thread nD τ).loc main_v261)) (t : Fin cfg1.N) (y : S2000x256.Idx)
    (k : S100000x256.Idx) (h0 : (k 0).val = t.val / 4 * 2000 + (y 0).val) (h1 : (k 1).val = (y 1).val) :
    (((cfg1.win 3).blk t).view.read (Elt F) G : Vec F S2000x256 .f32) y = (G : S100000x256.Idx → Elt F .f32) k := by
  rw [View.read_apply]
  show G _ = G _
  refine congrArg _ ?_
  funext a
  apply Fin.ext
  match a with
  | ⟨0, _⟩ => show win1_3.index t 0 * 2000 + 1 * (y 0).val = (k 0).val; rw [(outIndex t).1, h0]; omega
  | ⟨1, _⟩ => show win1_3.index t 1 * 256 + 1 * (y 1).val = (k 1).val; rw [(outIndex t).2, h1]; omega

end Cert.KernelIdeal.LayerTwo

end
-- ==== Proof.LayerTwoValue.lean ====
/-
  The second relational layer's output array, as one function of the arrays the region finds.

  Row block ib of the output is produced by the four points 4·ib, …, 4·ib + 3, one per relation. By induction on the
  point, after point n the accumulator holds at (p, q) the terms of relations 0, …, n % 4 of row 2000·(n / 4) + p added in
  order onto zero, where relation r's term at node i and feature j is
      (Σ_k agg[r, i, k] · W[r, k, j]) + b[r, 0, j];
  a FIRST point starts the sum from the cleared accumulator, a MIDDLE or LAST point adds its term to what the point
  before left (the same row block, since the relation index is not 0). The LAST point stores max(·, 0) of the full sum
  into the output block, which is written back then and only then; the LAST points' blocks tile the array. So the array
  ends holding, at (i, j),  max(((((0 + T 0) + T 1) + T 2) + T 3), 0).
-/
import proofs.«127058_j2791728742679_2_alg».proof.Proof.LayerTwoPieces
import proofs.«127058_j2791728742679_2_alg».proof.Proof.BodyArithmetic
import Idealize.ShloMosaic.Lib.Pipeline.Value
import Idealize.ShloMosaic.Lib.ValueIdx

set_option maxRecDepth 16384

noncomputable section

open scoped BigOperators

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The running sum over the relations -/

open Idealize.ShloMosaic.ValueIdx Cert.KernelIdeal.BodyValue

/-- The relation a point works on, -/
def relOf (n : ℕ) : Fin 4 := ⟨n % 4, Nat.mod_lt _ (by decide)⟩
/-- and the row of the array that row p of its block is. -/
def rowOf (n : ℕ) (hn : n < cfg1.N) (p : Fin 2000) : Fin 100000 :=
  ⟨n / 4 * 2000 + p.val, by have hN : cfg1.N = 200 := N_1; have := p.isLt; omega⟩

/-- Relation r's contribution at node i, feature j: row i of the relation's aggregate against column j of its weight
    matrix, plus the relation's bias at j. -/
def relTerm (A : S4x100000x256.Idx → EReal) (W : S4x256x256.Idx → EReal) (B : S4x1x256.Idx → EReal)
    (r : Fin 4) (i : Fin 100000) (j : Fin 256) : EReal :=
  (∑ k : Fin 256, A (ix3 r i k) * W (ix3 r k j)) + B (ix3 r (0 : Fin 1) j)

/-- Four terms added in order onto zero, stopped after term n. -/
def partialSum (T : Fin 4 → EReal) : ℕ → EReal
  | 0 => 0 + T 0
  | n + 1 => partialSum T n + T (relOf (n + 1))

theorem partialSum_three (T : Fin 4 → EReal) : partialSum T 3 = (((0 + T 0) + T 1) + T 2) + T 3 := rfl

section Invariant
variable (V : (c : Dev nD) → (b : Ref sig .tc) → Buf (Elt Ideal) ((c : Thread nD τ).loc b))

/-- One step of the body's sum at a point, with the three blocks read where they sit in their arrays. -/
theorem step_apply (c : Dev nD) (t : Fin cfg1.N) (acc : Vec Ideal S2000x256 .f32) (p : Fin 2000) (q : Fin 256) :
    k1_pay2 (F := Ideal) (blockAt V c 0 t) (blockAt V c 1 t) acc (blockAt V c 2 t) (ix2 p q)
      = acc (ix2 p q) + relTerm (V c main_v259) (V c main_arg5) (V c main_v260) (relOf t.val) (rowOf t.val t.isLt p) q := by
  rw [accumulate2_apply]
  unfold relTerm
  refine congrArg (acc (ix2 p q) + ·) ?_
  refine congrArg₂ (· + ·) (Finset.sum_congr rfl fun k _ => congrArg₂ (· * ·) ?_ ?_) ?_
  · exact aggBlock_apply V c t (ix3 (0 : Fin 1) p k) (ix3 (relOf t.val) (rowOf t.val t.isLt p) k) rfl rfl rfl
  · exact weightBlock_apply V c t (ix3 (0 : Fin 1) k q) (ix3 (relOf t.val) k q) rfl rfl rfl
  · exact biasBlock_apply V c t (ix3 (0 : Fin 1) (0 : Fin 1) q) (ix3 (relOf t.val) (0 : Fin 1) q) rfl rfl rfl
end Invariant

section Invariant2
variable (V : (c : Dev nD) → (b : Ref sig .tc) → Buf (Elt Ideal) ((c : Thread nD τ).loc b))

/-- The four terms at one node and feature. -/
abbrev termsAt (c : Dev nD) (i : Fin 100000) (j : Fin 256) : Fin 4 → EReal :=
  fun r => relTerm (V c main_v259) (V c main_arg5) (V c main_v260) r i j

/-- After point n the accumulator holds, at row p of its block and feature q, the terms of relations 0 … n % 4 of
    that row added in order onto zero. -/
theorem acc_after (c : Dev nD) : ∀ (n : ℕ) (hn : n < cfg1.N) (p : Fin 2000) (q : Fin 256),
    (heldAfter V c n hn).2 (ix2 p q) = partialSum (termsAt V c (rowOf n hn p) q) (n % 4)
  | 0, hn, p, q => by
    rw [heldAfter_first V c ⟨0, hn⟩ (Nat.zero_mod 4)]
    dsimp only
    rw [accFirst_eq, step_apply, cleared2_apply]
    rfl
  | n + 1, hn, p, q => by
    by_cases h0 : (n + 1) % 4 = 0
    · rw [heldAfter_first V c ⟨n + 1, hn⟩ h0]
      dsimp only
      rw [accFirst_eq, step_apply, cleared2_apply, h0]
      have hr : relOf (n + 1) = 0 := Fin.ext h0
      show 0 + relTerm _ _ _ (relOf (n + 1)) _ _ = 0 + relTerm _ _ _ 0 _ _
      rw [hr]
    · have hrow : rowOf (n + 1) hn p = rowOf n (Nat.lt_of_succ_lt hn) p := Fin.ext (by
        show (n + 1) / 4 * 2000 + p.val = n / 4 * 2000 + p.val
        omega)
      have hmod : (n + 1) % 4 = n % 4 + 1 := by omega
      have ih := acc_after c n (Nat.lt_of_succ_lt hn) p q
      by_cases h1 : (n + 1) % 4 = 3
      · rw [heldAfter_last V c ⟨n + 1, hn⟩ h0 h1]
        dsimp only
        rw [accLast_eq, step_apply]
        show (heldAfter V c n _).2 (ix2 p q) + _ = _
        rw [ih, hrow, hmod]
        show _ = partialSum _ (n % 4) + termsAt V c _ q (relOf (n % 4 + 1))
        have hr : relOf (n % 4 + 1) = relOf (n + 1) := Fin.ext (by show (n % 4 + 1) % 4 = (n + 1) % 4; omega)
        rw [hr]
      · rw [heldAfter_middle V c ⟨n + 1, hn⟩ h0 h1]
        dsimp only
        rw [accMiddle_eq, step_apply]
        show (heldAfter V c n _).2 (ix2 p q) + _ = _
        rw [ih, hrow, hmod]
        show _ = partialSum _ (n % 4) + termsAt V c _ q (relOf (n % 4 + 1))
        have hr : relOf (n % 4 + 1) = relOf (n + 1) := Fin.ext (by show (n % 4 + 1) % 4 = (n + 1) % 4; omega)
        rw [hr]
end Invariant2

section Final
variable (V : (c : Dev nD) → (b : Ref sig .tc) → Buf (Elt Ideal) ((c : Thread nD τ).loc b))

/-- What the region leaves in the output array: at node i, feature j, max(·, 0) of the four relations' terms added in
    order onto zero. -/
def layerTwoOutAt (c : Dev nD) : S100000x256.Idx → EReal :=
  fun idx => max (partialSum (termsAt V c (idx 0) (idx 1)) 3) 0

/-- The same as contents of the output array's buffer. -/
def layerTwoOut (c : Dev nD) : Buf (Elt Ideal) ((c : Thread nD τ).loc main_v261) := layerTwoOutAt V c

theorem layerTwoOut_apply (c : Dev nD) (i : Fin 100000) (j : Fin 256) :
    (layerTwoOut V c : S100000x256.Idx → EReal) (ix2 i j)
      = max (((((0 : EReal) + termsAt V c i j 0) + termsAt V c i j 1) + termsAt V c i j 2) + termsAt V c i j 3) 0 := rfl

/-- At a LAST point the block written back is the region's result read through the point's block. -/
theorem flushed_eq (c : Dev nD) (t : Fin cfg1.N) (hf : (cfg1.win 3).flush t = true) :
    (layerData V c).flushed 3 t = ((cfg1.win 3).blk t).view.read (Elt Ideal) (layerTwoOut V c) := by
  have h3 : t.val % 4 = 3 := (flush1_3 t).mp hf
  have h0 : ¬t.val % 4 = 0 := by omega
  show (cfg1.win 3).cut (grid1.coords t) ((layerData V c).after 3 t) = _
  rw [after_out]
  funext y
  obtain ⟨p, q, rfl⟩ : ∃ (p : Fin 2000) (q : Fin 256), y = ix2 p q := ⟨y 0, y 1, eq_ix2 y⟩
  refine Eq.trans ?_ (outBlock_apply c (layerTwoOut V c) t (ix2 p q) (ix2 (rowOf t.val t.isLt p) q) rfl rfl).symm
  show (heldAfter V c t.val t.isLt).1 (ix2 p q) = _
  rw [heldAfter_last V c t h0 h3]
  dsimp only
  rw [outLast_eq, rectify2_apply, step_apply]
  obtain ⟨n, hn⟩ := t
  cases n with
  | zero => exact absurd rfl h0
  | succ n =>
    have hrow : rowOf (n + 1) hn p = rowOf n (Nat.lt_of_succ_lt hn) p := Fin.ext (by
      show (n + 1) / 4 * 2000 + p.val = n / 4 * 2000 + p.val
      have : (n + 1) % 4 = 3 := h3
      omega)
    have hmod : n % 4 = 2 := by have : (n + 1) % 4 = 3 := h3; omega
    show max ((heldAfter V c n _).2 (ix2 p q) + _) 0 = _
    rw [acc_after V c n (Nat.lt_of_succ_lt hn) p q, hmod, ← hrow]
    have hr : relOf (n + 1) = 3 := Fin.ext (by show (n + 1) % 4 = 3; exact h3)
    rw [hr]
    rfl

/-- Every row of the output array lies in the block of the LAST point of its row block. -/
theorem out_cover (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 200 := N_1
  have hi0 : (i 0 : Nat) < 100000 := (i 0).isLt
  have hi1 : (i 1 : Nat) < 256 := (i 1).isLt
  obtain ⟨T, hT⟩ : ∃ T : Fin cfg1.N, T.val = 4 * ((i 0 : Nat) / 2000) + 3 := ⟨⟨4 * ((i 0 : Nat) / 2000) + 3, by omega⟩, rfl⟩
  refine ⟨T, (flush1_3 T).mpr (by rw [hT]; omega), ?_⟩
  show i ∈ ((View.whole main_v261).slice (win1_3.rect T)).set
  rw [View.set_slice_whole, Rect.mem_set_unit]
  intro a
  match a with
  | ⟨0, _⟩ =>
    show win1_3.index T 0 * 2000 ≤ (i 0 : Nat) ∧ (i 0 : Nat) < win1_3.index T 0 * 2000 + 2000
    rw [(outIndex T).1, hT]
    omega
  | ⟨1, _⟩ =>
    show win1_3.index T 1 * 256 ≤ (i 1 : Nat) ∧ (i 1 : Nat) < win1_3.index T 1 * 256 + 256
    rw [(outIndex T).2]
    omega

/-- The output array after the region. -/
theorem layerTwo_final (c : Dev nD) : (layerData V c).arrAt 3 cfg1.N = layerTwoOut V c :=
  (layerData V c).arrAt_eq_of_cover 3 (layerTwoOut V c) (flushed_eq V c) (out_cover c)
end Final

end Cert.KernelIdeal.LayerTwo

end
-- ==== Proof.HeadValue.lean ====
/-
  The dense head's output array, as one function of the arrays the region finds.

  The grid has 20 points; point t stages rows 5000·t, …, 5000·t + 4999 of the hidden features, the whole head matrix and
  the whole bias vector, and its body stores into the output block, in one whole-buffer store, the block's rows times
  the matrix plus the bias laid along every row. Every point writes its block back and the 20 blocks tile the output
  array, so the array ends holding, at node i and feature j,
      (Σ_k hidden[i, k] · Wl[k, j]) + bl[j].
-/
import proofs.«127058_j2791728742679_2_alg».proof.Proof.HeadRegionIdeal
import proofs.«127058_j2791728742679_2_alg».proof.Proof.BodyArithmetic
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.BodyValue

/-! ## The stored block is the body's arithmetic of the staged blocks -/

theorem hz2 : (![0, 0] : Fin 2 → Nat) = fun _ => 0 := funext fun a => by fin_cases a <;> rfl
theorem hz1 : (![0] : Fin 1 → Nat) = fun _ => 0 := funext fun a => by fin_cases a <;> rfl

theorem storedBlock_eq {F : FTy → Type} [FloatOps F] (x : Vec F S5000x256 .f32) (W : Vec F S256x128 .f32) (b : Vec F S128 .f32) :
    storedBlock x W b = k2_pay1 x W b := by
  unfold storedBlock
  rw [View.canon_unit_zero hz2]
  simp only [View.ld_unit_zero (S := S5000x256) hz2, View.ld_unit_zero (S := S256x128) hz2, View.ld_unit_zero (S := S128) hz1]

/-! ## Where a block's element sits in its array -/

section Blocks
variable {F : FTy → Type} [FloatOps F]
variable (V : (c : Dev nD) → (b : Ref sig .tc) → Buf (Elt F) ((c : Thread nD τ).loc b))

theorem featuresIndex : ∀ t : Fin cfg2.N, win2_0.index t 0 = t.val ∧ win2_0.index t 1 = 0 :=
  (by decide +kernel : ∀ t : Fin grid2.N, win2_0.index t 0 = t.val ∧ win2_0.index t 1 = 0)
theorem weightIndex : ∀ t : Fin cfg2.N, win2_1.index t 0 = 0 ∧ win2_1.index t 1 = 0 :=
  (by decide +kernel : ∀ t : Fin grid2.N, win2_1.index t 0 = 0 ∧ win2_1.index t 1 = 0)
theorem biasIndex : ∀ t : Fin cfg2.N, win2_2.index t 0 = 0 :=
  (by decide +kernel : ∀ t : Fin grid2.N, win2_2.index t 0 = 0)
theorem outIndex : ∀ t : Fin cfg2.N, win2_3.index t 0 = t.val ∧ win2_3.index t 1 = 0 :=
  (by decide +kernel : ∀ t : Fin grid2.N, win2_3.index t 0 = t.val ∧ win2_3.index t 1 = 0)

theorem featuresBlock_apply (c : Dev nD) (t : Fin cfg2.N) (y : S5000x256.Idx) (k : S100000x256.Idx)
    (h0 : (k 0).val = t.val * 5000 + (y 0).val) (h1 : (k 1).val = (y 1).val) :
    (blockAt V c 0 t : Vec F S5000x256 .f32) y = (V c main_v261 : S100000x256.Idx → Elt F .f32) k := by
  unfold blockAt
  rw [View.read_apply]
  show V c main_v261 _ = V c main_v261 _
  refine congrArg _ ?_
  funext a
  apply Fin.ext
  match a with
  | ⟨0, _⟩ => show win2_0.index t 0 * 5000 + 1 * (y 0).val = (k 0).val; rw [(featuresIndex t).1, h0]; omega
  | ⟨1, _⟩ => show win2_0.index t 1 * 256 + 1 * (y 1).val = (k 1).val; rw [(featuresIndex t).2, h1]; omega

theorem weightBlock_apply (c : Dev nD) (t : Fin cfg2.N) (y : S256x128.Idx) :
    (blockAt V c 1 t : Vec F S256x128 .f32) y = (V c main_arg7 : S256x128.Idx → Elt F .f32) y := by
  unfold blockAt
  rw [View.read_apply]
  show V c main_arg7 _ = V c main_arg7 _
  refine congrArg _ ?_
  funext a
  apply Fin.ext
  match a with
  | ⟨0, _⟩ => show win2_1.index t 0 * 256 + 1 * (y 0).val = (y 0).val; rw [(weightIndex t).1]; omega
  | ⟨1, _⟩ => show win2_1.index t 1 * 128 + 1 * (y 1).val = (y 1).val; rw [(weightIndex t).2]; omega

theorem biasBlock_apply (c : Dev nD) (t : Fin cfg2.N) (y : S128.Idx) :
    (blockAt V c 2 t : Vec F S128 .f32) y = (V c main_arg8 : S128.Idx → Elt F .f32) y := by
  unfold blockAt
  rw [View.read_apply]
  show V c main_arg8 _ = V c main_arg8 _
  refine congrArg _ ?_
  funext a
  apply Fin.ext
  match a with
  | ⟨0, _⟩ => show win2_2.index t 0 * 128 + 1 * (y 0).val = (y 0).val; rw [biasIndex t]; omega

theorem outBlock_apply (c : Dev nD) (G : Buf (Elt F) ((c : Thread nD τ).loc main_v262)) (t : Fin cfg2.N) (y : S5000x128.Idx)
    (k : S100000x128.Idx) (h0 : (k 0).val = t.val * 5000 + (y 0).val) (h1 : (k 1).val = (y 1).val) :
    (((cfg2.win 3).blk t).view.read (Elt F) G : Vec F S5000x128 .f32) y = (G : S100000x128.Idx → Elt F .f32) k := by
  rw [View.read_apply]
  show G _ = G _
  refine congrArg _ ?_
  funext a
  apply Fin.ext
  match a with
  | ⟨0, _⟩ => show win2_3.index t 0 * 5000 + 1 * (y 0).val = (k 0).val; rw [(outIndex t).1, h0]; omega
  | ⟨1, _⟩ => show win2_3.index t 1 * 128 + 1 * (y 1).val = (k 1).val; rw [(outIndex t).2, h1]; omega
end Blocks

/-! ## The output array -/

section Final
variable (V : (c : Dev nD) → (b : Ref sig .tc) → Buf (Elt Ideal) ((c : Thread nD τ).loc b))

/-- Row p of point t's block is row 5000·t + p of the array. -/
def rowOf (t : Fin cfg2.N) (p : Fin 5000) : Fin 100000 :=
  ⟨t.val * 5000 + p.val, by have hN : cfg2.N = 20 := N_2; have := t.isLt; have := p.isLt; omega⟩

/-- Row i of the features against column j of the matrix, plus the bias at j. -/
def headTerm (H : S100000x256.Idx → EReal) (W : S256x128.Idx → EReal) (b : S128.Idx → EReal) (i : Fin 100000) (j : Fin 128) : EReal :=
  (∑ k : Fin 256, H (ix2 i k) * W (ix2 k j)) + b (ix1 j)

/-- What the region leaves in the output array, at node i and feature j. -/
def headOutAt (c : Dev nD) : S100000x128.Idx → EReal :=
  fun idx => headTerm (V c main_v261) (V c main_arg7) (V c main_arg8) (idx 0) (idx 1)

/-- The same as contents of the output array's buffer. -/
def headOut (c : Dev nD) : Buf (Elt Ideal) ((c : Thread nD τ).loc main_v262) := headOutAt V c

theorem headOut_apply (c : Dev nD) (i : Fin 100000) (j : Fin 128) :
    (headOut V c : S100000x128.Idx → EReal) (ix2 i j) = headTerm (V c main_v261) (V c main_arg7) (V c main_arg8) i j := rfl

/-- Every point writes back the region's result read through the point's block. -/
theorem flushed_eq (c : Dev nD) (t : Fin cfg2.N) (hf : (cfg2.win 3).flush t = true) :
    (headDat V c).flushed 3 t = ((cfg2.win 3).blk t).view.read (Elt Ideal) (headOut V c) := by
  show (cfg2.win 3).cut (grid2.coords t) ((headDat V c).after 3 t) = _
  rw [headDat_after_out]
  funext y
  obtain ⟨p, q, rfl⟩ : ∃ (p : Fin 5000) (q : Fin 128), y = ix2 p q := ⟨y 0, y 1, eq_ix2 y⟩
  refine Eq.trans ?_ (outBlock_apply c (headOut V c) t (ix2 p q) (ix2 (rowOf t p) q) rfl rfl).symm
  show storedBlock (blockAt V c 0 t) (blockAt V c 1 t) (blockAt V c 2 t) (ix2 p q) = _
  rw [storedBlock_eq, head_apply]
  show _ = headTerm (V c main_v261) (V c main_arg7) (V c main_arg8) (rowOf t p) q
  unfold headTerm
  refine congrArg₂ (· + ·) (Finset.sum_congr rfl fun k _ => congrArg₂ (· * ·) ?_ ?_) ?_
  · exact featuresBlock_apply V c t (ix2 p k) (ix2 (rowOf t p) k) rfl rfl
  · exact weightBlock_apply V c t (ix2 k q)
  · exact biasBlock_apply V c t (ix1 q)

/-- Every row of the output array lies in the block of the point of its row block. -/
theorem out_cover (c : Dev nD) (i : ((cfg2.win 3).arr.view.loc (c.tc : Thread nD τ)).2.ty.Idx) :
    ∃ t : Fin cfg2.N, (cfg2.win 3).flush t = true ∧ i ∈ ((cfg2.win 3).blk t).view.set := by
  have hN : cfg2.N = 20 := N_2
  have hi0 : (i 0 : Nat) < 100000 := (i 0).isLt
  have hi1 : (i 1 : Nat) < 128 := (i 1).isLt
  obtain ⟨T, hT⟩ : ∃ T : Fin cfg2.N, T.val = (i 0 : Nat) / 5000 := ⟨⟨(i 0 : Nat) / 5000, by omega⟩, rfl⟩
  refine ⟨T, flush2_3 T, ?_⟩
  show i ∈ ((View.whole main_v262).slice (win2_3.rect T)).set
  rw [View.set_slice_whole, Rect.mem_set_unit]
  intro a
  match a with
  | ⟨0, _⟩ =>
    show win2_3.index T 0 * 5000 ≤ (i 0 : Nat) ∧ (i 0 : Nat) < win2_3.index T 0 * 5000 + 5000
    rw [(outIndex T).1, hT]
    omega
  | ⟨1, _⟩ =>
    show win2_3.index T 1 * 128 ≤ (i 1 : Nat) ∧ (i 1 : Nat) < win2_3.index T 1 * 128 + 128
    rw [(outIndex T).2]
    omega

/-- The output array after the region. -/
theorem head_final (c : Dev nD) : (headDat V c).arrAt 3 cfg2.N = headOut V c :=
  (headDat V c).arrAt_eq_of_cover 3 (headOut V c) (flushed_eq V c) (out_cover c)
end Final

end Cert.KernelIdeal.Head

end
-- ==== Proof.GraphConvSpec.lean ====
/-
  What both programs compute, stated once, at the extended reals.

  A graph with N = 100000 nodes and R = 4 relations, each relation with E = 400000 edges given as two index vectors
  (sources s, destinations d). For a node-feature array xx : [N, F] the AGGREGATION of one relation is

      agg(xx, s, d) = D_in^(-1/2) · A · D_out^(-1/2) · xx,

  spelt as the host operations that compute it: the out-degree of a node is the scatter-add of ones along s, the
  in-degree the scatter-add of ones along d, both clipped below at 1; the rows of xx are scaled by the reciprocal square
  root of the out-degree, the scaled rows are gathered along s (an index below zero counts from the end: N is
  added to it), scatter-added into the rows named by d, and the result's rows are scaled by the reciprocal square root of the
  in-degree. The chain is carried as ONE function of (xx, s, d): nothing below ever reads a gather or a scatter at an index.

  A layer sums, over the four relations in order, the aggregation times that relation's weight matrix plus its bias, and
  applies max(·, 0):

      L(xx, W, b)[i, j] = max( ((((0 + t_0) + t_1) + t_2) + t_3) , 0 ),
      t_r = (Σ_k agg(xx, src_r, dst_r)[i, k] · W[r, k, j]) + b[r, j].

  hidden = L(L(x, W1, b1), W2, b2) and output[i, j] = (Σ_k hidden[i, k] · Wl[k, j]) + bl[j].
  The order and grouping of every sum is the one written here.
-/
import Idealize.ShloMosaic.PureOps
import Idealize.ShloMosaic.PureOps.Ideal
import Idealize.ShloMosaic.Lib.ValueIdx

noncomputable section

open scoped BigOperators

namespace Cert.GraphConv

open Idealize.ShloMosaic Idealize.ShloMosaic.ValueIdx

/-! ## Shapes -/

/-- A scalar. -/
abbrev Sc : Shape := ⟨0, ![]⟩
/-- One value per node. -/
abbrev Nodes : Shape := ⟨1, ![100000]⟩
/-- One value per node, as a column. -/
abbrev NodesCol : Shape := ⟨2, ![100000, 1]⟩
/-- Node features of width 128 and 256. -/
abbrev Nodes128 : Shape := ⟨2, ![100000, 128]⟩
abbrev Nodes256 : Shape := ⟨2, ![100000, 256]⟩
/-- One value per edge of a relation, flat and as a column. -/
abbrev Edges : Shape := ⟨1, ![400000]⟩
abbrev EdgesCol : Shape := ⟨2, ![400000, 1]⟩
/-- Edge features (the gathered rows). -/
abbrev Edges128 : Shape := ⟨2, ![400000, 128]⟩
abbrev Edges256 : Shape := ⟨2, ![400000, 256]⟩
/-- The four relations' index vectors, and one of them as a row. -/
abbrev RelEdges : Shape := ⟨2, ![4, 400000]⟩
abbrev OneEdges : Shape := ⟨2, ![1, 400000]⟩
/-- The parameters. -/
abbrev W1Shape : Shape := ⟨3, ![4, 128, 256]⟩
abbrev W2Shape : Shape := ⟨3, ![4, 256, 256]⟩
abbrev BiasShape : Shape := ⟨2, ![4, 256]⟩
abbrev WlShape : Shape := ⟨2, ![256, 128]⟩
abbrev BlShape : Shape := ⟨1, ![128]⟩

/-! ## The shape relations the operations ask for -/

theorem bcast_Sc_Nodes : Sc.BroadcastsInDim Nodes (![] : Fin 0 → Fin Nodes.rank) := by decide
theorem bcast_Sc_Edges : Sc.BroadcastsInDim Edges (![] : Fin 0 → Fin Edges.rank) := by decide
theorem bcast_Sc_Nodes128 : Sc.BroadcastsInDim Nodes128 (![] : Fin 0 → Fin Nodes128.rank) := by decide
theorem bcast_Sc_Nodes256 : Sc.BroadcastsInDim Nodes256 (![] : Fin 0 → Fin Nodes256.rank) := by decide
theorem bcast_Edges_EdgesCol : Edges.BroadcastsInDim EdgesCol (![0] : Fin 1 → Fin EdgesCol.rank) := by decide
theorem bcast_Nodes_NodesCol : Nodes.BroadcastsInDim NodesCol (![0] : Fin 1 → Fin NodesCol.rank) := by decide
theorem bcast_NodesCol_Nodes128 : NodesCol.BroadcastsInDim Nodes128 (![0, 1] : Fin 2 → Fin Nodes128.rank) := by decide
theorem bcast_NodesCol_Nodes256 : NodesCol.BroadcastsInDim Nodes256 (![0, 1] : Fin 2 → Fin Nodes256.rank) := by decide
theorem shapeCasts_OneEdges_Edges : OneEdges.ShapeCasts Edges := by decide

/-- Row r of the [4, E] array is a [1, E] block of it. -/
theorem slices_row (r : Fin 4) : RelEdges.Slices ![r.val, 0] OneEdges :=
  ⟨rfl, fun a => match a with
    | ⟨0, _⟩ => by show r.val + 1 ≤ 4; omega
    | ⟨1, _⟩ => by show 0 + 400000 ≤ 400000; omega⟩

/-! ## The dimension numbers of the scatters and gathers -/

/-- Scatter one number per edge into one number per node: the edge's index names the node. -/
def scatterCount : ScatterDims Nodes EdgesCol Edges where
  updateWindowDims := []
  insertedWindowDims := [0]
  scatterDimsToOperandDims := [0]
  indexVectorDim := 1
  wf := by decide

/-- Gather whole rows of a [N, 128] array, one per edge. -/
def gatherRows128 : GatherDims Nodes128 EdgesCol Edges128 where
  offsetDims := [1]
  collapsedSliceDims := [0]
  operandBatchingDims := []
  startIndicesBatchingDims := []
  startIndexMap := [0]
  indexVectorDim := 1
  sliceSizes := ![1, 128]
  wf := by decide

/-- Scatter whole rows, one per edge, into a [N, 128] array. -/
def scatterRows128 : ScatterDims Nodes128 EdgesCol Edges128 where
  updateWindowDims := [1]
  insertedWindowDims := [0]
  scatterDimsToOperandDims := [0]
  indexVectorDim := 1
  wf := by decide

/-- Gather whole rows of a [N, 256] array, one per edge. -/
def gatherRows256 : GatherDims Nodes256 EdgesCol Edges256 where
  offsetDims := [1]
  collapsedSliceDims := [0]
  operandBatchingDims := []
  startIndicesBatchingDims := []
  startIndexMap := [0]
  indexVectorDim := 1
  sliceSizes := ![1, 256]
  wf := by decide

/-- Scatter whole rows, one per edge, into a [N, 256] array. -/
def scatterRows256 : ScatterDims Nodes256 EdgesCol Edges256 where
  updateWindowDims := [1]
  insertedWindowDims := [0]
  scatterDimsToOperandDims := [0]
  indexVectorDim := 1
  wf := by decide

/-! ## The aggregation of one relation -/

/-- Row r of a [4, E] index array, as a flat vector of E indices. -/
def relRow (r : Fin 4) (a : IVec RelEdges 32) : IVec Edges 32 :=
  shapeCast Edges (extractStridedSlice OneEdges ![r.val, 0] a (slices_row r)) shapeCasts_OneEdges_Edges

/-- rsqrt(max(1, deg)) per node, where deg counts the edges whose index in v is the node: the scatter-add of ones
    along v into zeros, clipped below at one. -/
def invSqrtDegree (v : IVec Edges 32) : FVec Ideal Nodes .f32 :=
  Host.rsqrt (F := Ideal)
    (maximumf (F := Ideal)
      (broadcastInDim Nodes ![] bcast_Sc_Nodes (id (constant (F := Ideal) Sc .f32 0x3F800000#32)))
      (Host.scatterAdd (F := Ideal) scatterCount
        (broadcastInDim Nodes ![] bcast_Sc_Nodes (constant (F := Ideal) Sc .f32 0x00000000#32))
        (broadcastInDim EdgesCol ![0] bcast_Edges_EdgesCol v)
        (broadcastInDim Edges ![] bcast_Sc_Edges (constant (F := Ideal) Sc .f32 0x3F800000#32))))

/-- The gather's start indices: an index below zero is taken from the end (plus N), as a column. -/
def wrapIndex (s : IVec Edges 32) : IVec EdgesCol 32 :=
  broadcastInDim EdgesCol ![0] bcast_Edges_EdgesCol
    (select (cmpi .slt s (broadcastInDim Edges ![] bcast_Sc_Edges (constantI Sc 32 0#32)))
      (addi s (broadcastInDim Edges ![] bcast_Sc_Edges (constantI Sc 32 100000#32)))
      s)

/-- The aggregation over features of width 128: scale rows by the out-degree factor, gather along s, scatter-add
    along d into zeros, scale rows by the in-degree factor. -/
def aggregate128 (xx : FVec Ideal Nodes128 .f32) (s d : IVec Edges 32) : FVec Ideal Nodes128 .f32 :=
  mulf (F := Ideal)
    (Host.scatterAdd (F := Ideal) scatterRows128
      (broadcastInDim Nodes128 ![] bcast_Sc_Nodes128 (constant (F := Ideal) Sc .f32 0x00000000#32))
      (broadcastInDim EdgesCol ![0] bcast_Edges_EdgesCol d)
      (Host.gather gatherRows128
        (mulf (F := Ideal) xx
          (broadcastInDim Nodes128 ![0, 1] bcast_NodesCol_Nodes128
            (broadcastInDim NodesCol ![0] bcast_Nodes_NodesCol (invSqrtDegree s))))
        (wrapIndex s)))
    (broadcastInDim Nodes128 ![0, 1] bcast_NodesCol_Nodes128
      (broadcastInDim NodesCol ![0] bcast_Nodes_NodesCol (invSqrtDegree d)))

/-- The same aggregation over features of width 256. -/
def aggregate256 (xx : FVec Ideal Nodes256 .f32) (s d : IVec Edges 32) : FVec Ideal Nodes256 .f32 :=
  mulf (F := Ideal)
    (Host.scatterAdd (F := Ideal) scatterRows256
      (broadcastInDim Nodes256 ![] bcast_Sc_Nodes256 (constant (F := Ideal) Sc .f32 0x00000000#32))
      (broadcastInDim EdgesCol ![0] bcast_Edges_EdgesCol d)
      (Host.gather gatherRows256
        (mulf (F := Ideal) xx
          (broadcastInDim Nodes256 ![0, 1] bcast_NodesCol_Nodes256
            (broadcastInDim NodesCol ![0] bcast_Nodes_NodesCol (invSqrtDegree s))))
        (wrapIndex s)))
    (broadcastInDim Nodes256 ![0, 1] bcast_NodesCol_Nodes256
      (broadcastInDim NodesCol ![0] bcast_Nodes_NodesCol (invSqrtDegree d)))

/-! ## The layers, element by element -/

/-- Relation r's contribution to the first layer at node i, output feature j. -/
def relTerm1 (xx : FVec Ideal Nodes128 .f32) (src dst : IVec RelEdges 32) (W : FVec Ideal W1Shape .f32)
    (b : FVec Ideal BiasShape .f32) (r : Fin 4) (i : Fin 100000) (j : Fin 256) : EReal :=
  (∑ k : Fin 128, aggregate128 xx (relRow r src) (relRow r dst) (ix2 i k) * W (ix3 r k j)) + b (ix2 r j)

/-- Relation r's contribution to the second layer at node i, output feature j. -/
def relTerm2 (xx : FVec Ideal Nodes256 .f32) (src dst : IVec RelEdges 32) (W : FVec Ideal W2Shape .f32)
    (b : FVec Ideal BiasShape .f32) (r : Fin 4) (i : Fin 100000) (j : Fin 256) : EReal :=
  (∑ k : Fin 256, aggregate256 xx (relRow r src) (relRow r dst) (ix2 i k) * W (ix3 r k j)) + b (ix2 r j)

/-- The first layer at (i, j): the four relations' contributions added in order onto zero, then max(·, 0). -/
def layer1At (xx : FVec Ideal Nodes128 .f32) (src dst : IVec RelEdges 32) (W : FVec Ideal W1Shape .f32)
    (b : FVec Ideal BiasShape .f32) (i : Fin 100000) (j : Fin 256) : EReal :=
  max (((((0 : EReal) + relTerm1 xx src dst W b 0 i j) + relTerm1 xx src dst W b 1 i j)
    + relTerm1 xx src dst W b 2 i j) + relTerm1 xx src dst W b 3 i j) 0

/-- The second layer at (i, j). -/
def layer2At (xx : FVec Ideal Nodes256 .f32) (src dst : IVec RelEdges 32) (W : FVec Ideal W2Shape .f32)
    (b : FVec Ideal BiasShape .f32) (i : Fin 100000) (j : Fin 256) : EReal :=
  max (((((0 : EReal) + relTerm2 xx src dst W b 0 i j) + relTerm2 xx src dst W b 1 i j)
    + relTerm2 xx src dst W b 2 i j) + relTerm2 xx src dst W b 3 i j) 0

/-- The linear head at (i, j). -/
def headAt (h : FVec Ideal Nodes256 .f32) (Wl : FVec Ideal WlShape .f32) (bl : FVec Ideal BlShape .f32)
    (i : Fin 100000) (j : Fin 128) : EReal :=
  (∑ k : Fin 256, h (ix2 i k) * Wl (ix2 k j)) + bl (ix1 j)

/-- The layers as arrays. -/
def layer1 (xx : FVec Ideal Nodes128 .f32) (src dst : IVec RelEdges 32) (W : FVec Ideal W1Shape .f32)
    (b : FVec Ideal BiasShape .f32) : FVec Ideal Nodes256 .f32 :=
  fun idx => layer1At xx src dst W b (idx 0) (idx 1)

def layer2 (xx : FVec Ideal Nodes256 .f32) (src dst : IVec RelEdges 32) (W : FVec Ideal W2Shape .f32)
    (b : FVec Ideal BiasShape .f32) : FVec Ideal Nodes256 .f32 :=
  fun idx => layer2At xx src dst W b (idx 0) (idx 1)

def head (h : FVec Ideal Nodes256 .f32) (Wl : FVec Ideal WlShape .f32) (bl : FVec Ideal BlShape .f32) :
    FVec Ideal Nodes128 .f32 :=
  fun idx => headAt h Wl bl (idx 0) (idx 1)

theorem layer1_ix2 (xx : FVec Ideal Nodes128 .f32) (src dst : IVec RelEdges 32) (W : FVec Ideal W1Shape .f32)
    (b : FVec Ideal BiasShape .f32) (i : Fin 100000) (j : Fin 256) :
    layer1 xx src dst W b (ix2 i j) = layer1At xx src dst W b i j := rfl

theorem layer2_ix2 (xx : FVec Ideal Nodes256 .f32) (src dst : IVec RelEdges 32) (W : FVec Ideal W2Shape .f32)
    (b : FVec Ideal BiasShape .f32) (i : Fin 100000) (j : Fin 256) :
    layer2 xx src dst W b (ix2 i j) = layer2At xx src dst W b i j := rfl

theorem head_ix2 (h : FVec Ideal Nodes256 .f32) (Wl : FVec Ideal WlShape .f32) (bl : FVec Ideal BlShape .f32)
    (i : Fin 100000) (j : Fin 128) :
    head h Wl bl (ix2 i j) = headAt h Wl bl i j := rfl

/-! ## The two results -/

/-- The hidden features: two layers. -/
def hiddenSpec (x : FVec Ideal Nodes128 .f32) (src dst : IVec RelEdges 32) (W1 : FVec Ideal W1Shape .f32)
    (b1 : FVec Ideal BiasShape .f32) (W2 : FVec Ideal W2Shape .f32) (b2 : FVec Ideal BiasShape .f32) :
    FVec Ideal Nodes256 .f32 :=
  layer2 (layer1 x src dst W1 b1) src dst W2 b2

/-- The output: the linear head of the hidden features. -/
def outputSpec (x : FVec Ideal Nodes128 .f32) (src dst : IVec RelEdges 32) (W1 : FVec Ideal W1Shape .f32)
    (b1 : FVec Ideal BiasShape .f32) (W2 : FVec Ideal W2Shape .f32) (b2 : FVec Ideal BiasShape .f32)
    (Wl : FVec Ideal WlShape .f32) (bl : FVec Ideal BlShape .f32) : FVec Ideal Nodes128 .f32 :=
  head (hiddenSpec x src dst W1 b1 W2 b2) Wl bl

end Cert.GraphConv

end
-- ==== Proof.KernelValue.lean ====
/-
  The kernel program computes the specification.

  The program is three kernel regions with host operations around them. Region 0 finds, in its three input arrays, the
  four relations' aggregations of the input stacked, the first layer's weights, and its biases (each as a row), and
  leaves the first hidden layer; the host then stacks the four aggregations of THAT array, and region 1, finding them with
  the second layer's weights and biases, leaves the second hidden layer; region 2 finds the second hidden layer with the
  head's matrix and bias and leaves the output. Given what the host operations put in the regions' input arrays
  (HostFacts, below), each region's result is the specification's layer of the array before it, and composing the three
  gives hiddenSpec and outputSpec of the nine arguments.
-/
import proofs.«127058_j2791728742679_2_alg».proof.Proof.RegionOutputsIdeal
import proofs.«127058_j2791728742679_2_alg».proof.Proof.LayerOneValue
import proofs.«127058_j2791728742679_2_alg».proof.Proof.LayerTwoValue
import proofs.«127058_j2791728742679_2_alg».proof.Proof.HeadValue
import proofs.«127058_j2791728742679_2_alg».proof.Proof.GraphConvSpec

set_option maxRecDepth 16384

noncomputable section

open scoped BigOperators

namespace Cert.KernelIdeal.KernelValue

open Cert.KernelIdeal Cert.KernelIdeal.Gen Cert.KernelIdeal.Hand
open Idealize.ShloMosaic Idealize.ShloMosaic.TcCoe Idealize.SL.Sem

/-! ## A region's result against the specification, over any entry contents -/

section LayerOneSpec
open Cert.GraphConv Idealize.ShloMosaic.ValueIdx
variable (V : (c : Dev nD) → (b : Ref sig .tc) → Buf (Elt Ideal) ((c : Thread nD τ).loc b)) (c : Dev nD)

/-- If the region finds the stacked aggregates of x, the stacked weights and the stacked biases in its three input
    arrays, it leaves the specification's first layer in its output array. -/
theorem layerOne_spec (x : FVec Ideal Nodes128 .f32) (src dst : IVec RelEdges 32) (W1 : FVec Ideal W1Shape .f32)
    (b1 : FVec Ideal BiasShape .f32)
    (hA : ∀ (r : Fin 4) (i : Fin 100000) (k : Fin 128),
      (V c main_v128 : S4x100000x128.Idx → EReal) (ix3 r i k) = aggregate128 x (relRow r src) (relRow r dst) (ix2 i k))
    (hW : (V c main_arg3 : S4x128x256.Idx → EReal) = W1)
    (hB : ∀ (r : Fin 4) (j : Fin 256), (V c main_v129 : S4x1x256.Idx → EReal) (ix3 r (0 : Fin 1) j) = b1 (ix2 r j)) :
    (LayerOne.layerData V c).arrAt 3 cfg0.N = (layer1 x src dst W1 b1 : S100000x256.Idx → EReal) := by
  rw [LayerOne.layerOne_final]
  funext idx
  obtain ⟨i, j, rfl⟩ : ∃ (i : Fin 100000) (j : Fin 256), idx = ix2 i j := ⟨idx 0, idx 1, eq_ix2 idx⟩
  rw [LayerOne.layerOneOut_apply, layer1_ix2]
  unfold layer1At relTerm1
  simp only [LayerOne.termsAt, LayerOne.relTerm, hA, hB, hW]
end LayerOneSpec

section LayerTwoSpec
open Cert.GraphConv Idealize.ShloMosaic.ValueIdx
variable (V : (c : Dev nD) → (b : Ref sig .tc) → Buf (Elt Ideal) ((c : Thread nD τ).loc b)) (c : Dev nD)

/-- If the region finds the stacked aggregates of x, the stacked weights and the stacked biases in its three input
    arrays, it leaves the specification's second layer in its output array. -/
theorem layerTwo_spec (x : FVec Ideal Nodes256 .f32) (src dst : IVec RelEdges 32) (W2 : FVec Ideal W2Shape .f32)
    (b2 : FVec Ideal BiasShape .f32)
    (hA : ∀ (r : Fin 4) (i : Fin 100000) (k : Fin 256),
      (V c main_v259 : S4x100000x256.Idx → EReal) (ix3 r i k) = aggregate256 x (relRow r src) (relRow r dst) (ix2 i k))
    (hW : (V c main_arg5 : S4x256x256.Idx → EReal) = W2)
    (hB : ∀ (r : Fin 4) (j : Fin 256), (V c main_v260 : S4x1x256.Idx → EReal) (ix3 r (0 : Fin 1) j) = b2 (ix2 r j)) :
    (LayerTwo.layerData V c).arrAt 3 cfg1.N = (layer2 x src dst W2 b2 : S100000x256.Idx → EReal) := by
  rw [LayerTwo.layerTwo_final]
  funext idx
  obtain ⟨i, j, rfl⟩ : ∃ (i : Fin 100000) (j : Fin 256), idx = ix2 i j := ⟨idx 0, idx 1, eq_ix2 idx⟩
  rw [LayerTwo.layerTwoOut_apply, layer2_ix2]
  unfold layer2At relTerm2
  simp only [LayerTwo.termsAt, LayerTwo.relTerm, hA, hB, hW]
end LayerTwoSpec

section HeadSpec
open Cert.GraphConv Idealize.ShloMosaic.ValueIdx
variable (V : (c : Dev nD) → (b : Ref sig .tc) → Buf (Elt Ideal) ((c : Thread nD τ).loc b)) (c : Dev nD)

/-- If the region finds the hidden features h, the head's matrix and its bias in its three input arrays, it leaves the
    specification's head of h in its output array. -/
theorem head_spec (h : FVec Ideal Nodes256 .f32) (Wl : FVec Ideal WlShape .f32) (bl : FVec Ideal BlShape .f32)
    (hH : (V c main_v261 : S100000x256.Idx → EReal) = h) (hW : (V c main_arg7 : S256x128.Idx → EReal) = Wl)
    (hb : (V c main_arg8 : S128.Idx → EReal) = bl) :
    (Head.headDat V c).arrAt 3 cfg2.N = (head h Wl bl : S100000x128.Idx → EReal) := by
  rw [Head.head_final]
  funext idx
  obtain ⟨i, j, rfl⟩ : ∃ (i : Fin 100000) (j : Fin 128), idx = ix2 i j := ⟨idx 0, idx 1, eq_ix2 idx⟩
  rw [Head.headOut_apply, head_ix2]
  unfold headAt Head.headTerm
  rw [hH, hW, hb]
end HeadSpec

/-! ## The three regions composed -/

section Composed
open Cert.GraphConv Idealize.ShloMosaic.ValueIdx
variable (m : (ℓ : Loc nD τ sig) → Buf (Elt Ideal) ℓ) (c : Dev nD)

/-- What the host operations put in the regions' input arrays, in terms of the launch contents of the nine arguments:
    before region 0 the stacked aggregations of the input, the first layer's weights untouched, its biases as rows;
    before region 1 the same of region 0's result with the second layer's parameters; before region 2 region 1's
    result in place and the head's parameters untouched. -/
structure HostFacts : Prop where
  agg1 : ∀ (r : Fin 4) (i : Fin 100000) (k : Fin 128),
    (V17 m c main_v128 : S4x100000x128.Idx → EReal) (ix3 r i k)
      = aggregate128 (m ((c : Thread nD τ).loc main_arg0)) (relRow r (m ((c : Thread nD τ).loc main_arg1)))
          (relRow r (m ((c : Thread nD τ).loc main_arg2))) (ix2 i k)
  weight1 : (V17 m c main_arg3 : S4x128x256.Idx → EReal) = m ((c : Thread nD τ).loc main_arg3)
  bias1 : ∀ (r : Fin 4) (j : Fin 256),
    (V17 m c main_v129 : S4x1x256.Idx → EReal) (ix3 r (0 : Fin 1) j) = (m ((c : Thread nD τ).loc main_arg4) : S4x256.Idx → EReal) (ix2 r j)
  agg2 : ∀ (outs : Outs (F := Ideal)) (r : Fin 4) (i : Fin 100000) (k : Fin 256),
    (V35 m outs c main_v259 : S4x100000x256.Idx → EReal) (ix3 r i k)
      = aggregate256 (outs 18 main_v130 c) (relRow r (m ((c : Thread nD τ).loc main_arg1)))
          (relRow r (m ((c : Thread nD τ).loc main_arg2))) (ix2 i k)
  weight2 : ∀ outs : Outs (F := Ideal), (V35 m outs c main_arg5 : S4x256x256.Idx → EReal) = m ((c : Thread nD τ).loc main_arg5)
  bias2 : ∀ (outs : Outs (F := Ideal)) (r : Fin 4) (j : Fin 256),
    (V35 m outs c main_v260 : S4x1x256.Idx → EReal) (ix3 r (0 : Fin 1) j) = (m ((c : Thread nD τ).loc main_arg6) : S4x256.Idx → EReal) (ix2 r j)
  hidden3 : ∀ outs : Outs (F := Ideal), (V36 m outs c main_v261 : S100000x256.Idx → EReal) = outs 36 main_v261 c
  weight3 : ∀ outs : Outs (F := Ideal), (V36 m outs c main_arg7 : S256x128.Idx → EReal) = m ((c : Thread nD τ).loc main_arg7)
  bias3 : ∀ outs : Outs (F := Ideal), (V36 m outs c main_arg8 : S128.Idx → EReal) = m ((c : Thread nD τ).loc main_arg8)

variable {m c}

/-- Region 0 leaves the specification's first layer of the input. -/
theorem hiddenOne_eq (H : HostFacts m c) :
    hiddenOne m c = (layer1 (m ((c : Thread nD τ).loc main_arg0)) (m ((c : Thread nD τ).loc main_arg1))
      (m ((c : Thread nD τ).loc main_arg2)) (m ((c : Thread nD τ).loc main_arg3)) (m ((c : Thread nD τ).loc main_arg4))
        : S100000x256.Idx → EReal) :=
  layerOne_spec (fun c b => V17 m c b) c _ _ _ _ _ H.agg1 H.weight1 H.bias1

/-- Region 1 leaves the specification's hidden features. -/
theorem hiddenTwo_eq (H : HostFacts m c) :
    hiddenTwo m c = (hiddenSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) : S100000x256.Idx → EReal) := by
  refine (layerTwo_spec (fun c b => V35 m (outsOne m) c b) c (outsOne m 18 main_v130 c) _ _ _ _
    (H.agg2 (outsOne m)) (H.weight2 (outsOne m)) (H.bias2 (outsOne m))).trans ?_
  rw [outsOne_hidden, hiddenOne_eq H]
  rfl

/-- Region 2 leaves the specification's output. -/
theorem outputArr_eq (H : HostFacts m c) :
    outputArr m c = (outputSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) : S100000x128.Idx → EReal) := by
  refine (head_spec (fun c b => V36 m (outsTwo m) c b) c (outsTwo m 36 main_v261 c) _ _
    (H.hidden3 (outsTwo m)) (H.weight3 (outsTwo m)) (H.bias3 (outsTwo m))).trans ?_
  rw [outsTwo_hiddenTwo, hiddenTwo_eq H]
  rfl
end Composed

end Cert.KernelIdeal.KernelValue

end
-- ==== Proof.LibConcatLeading.lean ====
/-
  Reading a stack of four arrays at an index.

  `jnp.stack([x0, x1, x2, x3], axis = 0)` of four [n, f] arrays prints as four `broadcast_in_dim` to [1, n, f]
  (operand axes 0, 1 to result axes 1, 2) laid end to end along axis 0 by one `concatenate`. Entry (r, i, k) of the
  result is entry (i, k) of piece r: the position r on the leading axis falls in the r-th unit piece at offset 0, and a
  broadcast to a new leading unit axis reads its operand at the remaining coordinates. Likewise a [4, f] array
  broadcast to [4, 1, f] (operand axes 0, 1 to result axes 0, 2) reads at (r, 0, j) its entry (r, j).
-/
import Idealize.ShloMosaic.PureOps
import Idealize.ShloMosaic.Lib.ValueIdx
import Idealize.ShloMosaic.Lib.Pipeline.Value

namespace Idealize.ShloMosaic.StackRead

open Idealize.ShloMosaic Idealize.ShloMosaic.ValueIdx

variable {α : Type}

/-- A [n, f] array broadcast to [1, n, f] along a new leading axis, read at (0, i, k): the array at (i, k). -/
theorem broadcast_lead_apply {n f : Nat} (x : (⟨2, ![n, f]⟩ : Shape).Idx → α)
    (hb : (⟨2, ![n, f]⟩ : Shape).BroadcastsInDim ⟨3, ![1, n, f]⟩ (![1, 2] : Fin 2 → Fin 3))
    (i : Fin n) (k : Fin f) :
    broadcastInDim (⟨3, ![1, n, f]⟩ : Shape) (![1, 2] : Fin 2 → Fin 3) hb x (ix3 (0 : Fin 1) i k) = x (ix2 i k) := by
  refine broadcastInDim_apply _ hb x _ (ix2 i k) fun a => ?_
  match a with
  | ⟨0, _⟩ =>
    show i.val = if n = 1 then 0 else i.val
    split
    · have := i.isLt; omega
    · rfl
  | ⟨1, _⟩ =>
    show k.val = if f = 1 then 0 else k.val
    split
    · have := k.isLt; omega
    · rfl

/-- Four [n, f] arrays `g 0 … g 3`, each broadcast to [1, n, f], concatenated along the leading axis into [4, n, f]:
    entry (r, i, k) is `g r` at (i, k). -/
theorem stack4_apply {n f : Nat} (g : Fin 4 → (⟨2, ![n, f]⟩ : Shape).Idx → α)
    (hb : (⟨2, ![n, f]⟩ : Shape).BroadcastsInDim ⟨3, ![1, n, f]⟩ (![1, 2] : Fin 2 → Fin 3))
    (hc : Shape.Concatenates [(⟨3, ![1, n, f]⟩ : Shape), ⟨3, ![1, n, f]⟩, ⟨3, ![1, n, f]⟩, ⟨3, ![1, n, f]⟩] ⟨3, ![4, n, f]⟩ 0)
    (r : Fin 4) (i : Fin n) (k : Fin f) :
    concatenate (⟨3, ![4, n, f]⟩ : Shape) 0
      [⟨(⟨3, ![1, n, f]⟩ : Shape), broadcastInDim (⟨3, ![1, n, f]⟩ : Shape) (![1, 2] : Fin 2 → Fin 3) hb (g 0)⟩,
       ⟨(⟨3, ![1, n, f]⟩ : Shape), broadcastInDim (⟨3, ![1, n, f]⟩ : Shape) (![1, 2] : Fin 2 → Fin 3) hb (g 1)⟩,
       ⟨(⟨3, ![1, n, f]⟩ : Shape), broadcastInDim (⟨3, ![1, n, f]⟩ : Shape) (![1, 2] : Fin 2 → Fin 3) hb (g 2)⟩,
       ⟨(⟨3, ![1, n, f]⟩ : Shape), broadcastInDim (⟨3, ![1, n, f]⟩ : Shape) (![1, 2] : Fin 2 → Fin 3) hb (g 3)⟩] hc
      (ix3 r i k) = g r (ix2 i k) := by
  have hi : ∀ (q : Fin 4) (b : Fin 3), b.cast (rfl : (3 : Nat) = 3) ≠ (0 : Fin 3) →
      ((ix3 (0 : Fin 1) i k : (⟨3, ![1, n, f]⟩ : Shape).Idx) b).val
        = ((ix3 q i k : (⟨3, ![4, n, f]⟩ : Shape).Idx) (b.cast (rfl : (3 : Nat) = 3))).val := by
    intro q b hb0
    match b with
    | ⟨0, _⟩ => exact absurd rfl hb0
    | ⟨1, _⟩ => rfl
    | ⟨2, _⟩ => rfl
  let xs : List ((s : Shape) × (s.Idx → α)) :=
    [⟨(⟨3, ![1, n, f]⟩ : Shape), broadcastInDim (⟨3, ![1, n, f]⟩ : Shape) (![1, 2] : Fin 2 → Fin 3) hb (g 0)⟩,
     ⟨(⟨3, ![1, n, f]⟩ : Shape), broadcastInDim (⟨3, ![1, n, f]⟩ : Shape) (![1, 2] : Fin 2 → Fin 3) hb (g 1)⟩,
     ⟨(⟨3, ![1, n, f]⟩ : Shape), broadcastInDim (⟨3, ![1, n, f]⟩ : Shape) (![1, 2] : Fin 2 → Fin 3) hb (g 2)⟩,
     ⟨(⟨3, ![1, n, f]⟩ : Shape), broadcastInDim (⟨3, ![1, n, f]⟩ : Shape) (![1, 2] : Fin 2 → Fin 3) hb (g 3)⟩]
  have hc' : Shape.Concatenates (xs.map (·.1)) (⟨3, ![4, n, f]⟩ : Shape) 0 := hc
  show concatenate (⟨3, ![4, n, f]⟩ : Shape) 0 xs hc' (ix3 r i k) = g r (ix2 i k)
  match r with
  | ⟨0, hq⟩ =>
    exact (concatenate_apply_piece (0 : Fin 3) xs hc' (ix3 (⟨0, hq⟩ : Fin 4) i k) 0 (Nat.zero_lt_succ 3) (⟨3, ![1, n, f]⟩ : Shape) _ rfl rfl 0 rfl
      (ix3 (0 : Fin 1) i k) (hi ⟨0, hq⟩) (by rfl)).trans (broadcast_lead_apply (g 0) hb i k)
  | ⟨1, hq⟩ =>
    exact (concatenate_apply_piece (0 : Fin 3) xs hc' (ix3 (⟨1, hq⟩ : Fin 4) i k) 1 (by show 1 < 4; omega) (⟨3, ![1, n, f]⟩ : Shape) _ rfl rfl 1 rfl
      (ix3 (0 : Fin 1) i k) (hi ⟨1, hq⟩) (by rfl)).trans (broadcast_lead_apply (g 1) hb i k)
  | ⟨2, hq⟩ =>
    exact (concatenate_apply_piece (0 : Fin 3) xs hc' (ix3 (⟨2, hq⟩ : Fin 4) i k) 2 (by show 2 < 4; omega) (⟨3, ![1, n, f]⟩ : Shape) _ rfl rfl 2 rfl
      (ix3 (0 : Fin 1) i k) (hi ⟨2, hq⟩) (by rfl)).trans (broadcast_lead_apply (g 2) hb i k)
  | ⟨3, hq⟩ =>
    exact (concatenate_apply_piece (0 : Fin 3) xs hc' (ix3 (⟨3, hq⟩ : Fin 4) i k) 3 (by show 3 < 4; omega) (⟨3, ![1, n, f]⟩ : Shape) _ rfl rfl 3 rfl
      (ix3 (0 : Fin 1) i k) (hi ⟨3, hq⟩) (by rfl)).trans (broadcast_lead_apply (g 3) hb i k)

/-- A [p, f] array broadcast to [p, 1, f] (a unit axis put in the middle), read at (r, 0, j): the array at (r, j). -/
theorem broadcast_mid_apply {p f : Nat} (b : (⟨2, ![p, f]⟩ : Shape).Idx → α)
    (hb : (⟨2, ![p, f]⟩ : Shape).BroadcastsInDim ⟨3, ![p, 1, f]⟩ (![0, 2] : Fin 2 → Fin 3))
    (r : Fin p) (j : Fin f) :
    broadcastInDim (⟨3, ![p, 1, f]⟩ : Shape) (![0, 2] : Fin 2 → Fin 3) hb b (ix3 r (0 : Fin 1) j) = b (ix2 r j) := by
  refine broadcastInDim_apply _ hb b _ (ix2 r j) fun a => ?_
  match a with
  | ⟨0, _⟩ =>
    show r.val = if p = 1 then 0 else r.val
    split
    · have := r.isLt; omega
    · rfl
  | ⟨1, _⟩ =>
    show j.val = if f = 1 then 0 else j.val
    split
    · have := j.isLt; omega
    · rfl

end Idealize.ShloMosaic.StackRead
-- ==== Proof.KernelHostValues.lean ====
/-
  What the host side of the kernel's program hands to the two relational layers' regions.

  Before a relational layer's region the program computes, for each of the four relations r in turn, the aggregation
  D_in^(-1/2) · A_r · D_out^(-1/2) · X of the layer's input X (the degree counts by scatter-add of ones, clipped below
  at one by an outlined function, their reciprocal square roots, the row scalings, the gather along the sources and the
  scatter-add along the destinations), stacks the four results along a new leading axis, and puts a unit axis in the
  middle of the layer's [4, 256] bias. The operations of one relation's chain are spread over five consecutive
  stretches of host operations (the outlined clip is a stretch of its own, twice per relation), the last of which
  already starts the next relation's chain.

  Each chain is read ONCE as a whole array: over any contents W of the buffers before its first stretch, the buffer
  holding relation r's result after its last stretch is the specification's aggregation of W's input array along row r
  of W's two index arrays. The chain is never opened: the composed operations are the specification's term. Every other
  stretch leaves that buffer alone, and no stretch writes an argument, so at the region's entry the four buffers hold the
  four aggregations of the arguments; the stack and the bias are then read at an index.

  The second layer is the same over whatever the first region left in its result array.
-/
import proofs.«127058_j2791728742679_2_alg».proof.Proof.RegionsIdealPatched
import proofs.«127058_j2791728742679_2_alg».proof.Proof.GraphConvSpec
import proofs.«127058_j2791728742679_2_alg».proof.Proof.LibConcatLeading
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.StableHlo Idealize.ShloMosaic.ValueIdx

/-! ## The outlined clip, call by call

Each call of the outlined `clip(x, 1)` is three operations on buffers of its own: the bound passed through, broadcast
over the nodes, and the maximum with the counts. Written over the buffers' stated types they are the plain operations
below; the equation is between two short lists and holds by unfolding. -/

section ClipCalls
variable {F : FTy → Type} [FloatOps F]

theorem clipCall0 : (hostOps0_1 : List (HloOp τ sig (Elt F))) =
    [ StableHlo.unary main_cst_1 main_call0_v0 (id : (⟨S_, .f32⟩ : BufTy).Contents (Elt F) → (⟨S_, .f32⟩ : BufTy).Contents (Elt F)),
      StableHlo.unary main_call0_v0 main_call0_v1 (broadcastInDim S100000 ![] bcast_S_S100000 : (⟨S_, .f32⟩ : BufTy).Contents (Elt F) → (⟨S100000, .f32⟩ : BufTy).Contents (Elt F)),
      StableHlo.binary main_call0_v1 main_v7 main_v8 (maximumf : (⟨S100000, .f32⟩ : BufTy).Contents (Elt F) → (⟨S100000, .f32⟩ : BufTy).Contents (Elt F) → (⟨S100000, .f32⟩ : BufTy).Contents (Elt F)) ] := rfl
theorem clipCall1 : (hostOps0_3 : List (HloOp τ sig (Elt F))) =
    [ StableHlo.unary main_cst_3 main_call1_v0 (id : (⟨S_, .f32⟩ : BufTy).Contents (Elt F) → (⟨S_, .f32⟩ : BufTy).Contents (Elt F)),
      StableHlo.unary main_call1_v0 main_call1_v1 (broadcastInDim S100000 ![] bcast_S_S100000 : (⟨S_, .f32⟩ : BufTy).Contents (Elt F) → (⟨S100000, .f32⟩ : BufTy).Contents (Elt F)),
      StableHlo.binary main_call1_v1 main_v11 main_v12 (maximumf : (⟨S100000, .f32⟩ : BufTy).Contents (Elt F) → (⟨S100000, .f32⟩ : BufTy).Contents (Elt F) → (⟨S100000, .f32⟩ : BufTy).Contents (Elt F)) ] := rfl
theorem clipCall2 : (hostOps0_5 : List (HloOp τ sig (Elt F))) =
    [ StableHlo.unary main_cst_8 main_call2_v0 (id : (⟨S_, .f32⟩ : BufTy).Contents (Elt F) → (⟨S_, .f32⟩ : BufTy).Contents (Elt F)),
      StableHlo.unary main_call2_v0 main_call2_v1 (broadcastInDim S100000 ![] bcast_S_S100000 : (⟨S_, .f32⟩ : BufTy).Contents (Elt F) → (⟨S100000, .f32⟩ : BufTy).Contents (Elt F)),
      StableHlo.binary main_call2_v1 main_v38 main_v39 (maximumf : (⟨S100000, .f32⟩ : BufTy).Contents (Elt F) → (⟨S100000, .f32⟩ : BufTy).Contents (Elt F) → (⟨S100000, .f32⟩ : BufTy).Contents (Elt F)) ] := rfl
theorem clipCall3 : (hostOps0_7 : List (HloOp τ sig (Elt F))) =
    [ StableHlo.unary main_cst_10 main_call3_v0 (id : (⟨S_, .f32⟩ : BufTy).Contents (Elt F) → (⟨S_, .f32⟩ : BufTy).Contents (Elt F)),
      StableHlo.unary main_call3_v0 main_call3_v1 (broadcastInDim S100000 ![] bcast_S_S100000 : (⟨S_, .f32⟩ : BufTy).Contents (Elt F) → (⟨S100000, .f32⟩ : BufTy).Contents (Elt F)),
      StableHlo.binary main_call3_v1 main_v42 main_v43 (maximumf : (⟨S100000, .f32⟩ : BufTy).Contents (Elt F) → (⟨S100000, .f32⟩ : BufTy).Contents (Elt F) → (⟨S100000, .f32⟩ : BufTy).Contents (Elt F)) ] := rfl
theorem clipCall4 : (hostOps0_9 : List (HloOp τ sig (Elt F))) =
    [ StableHlo.unary main_cst_16 main_call4_v0 (id : (⟨S_, .f32⟩ : BufTy).Contents (Elt F) → (⟨S_, .f32⟩ : BufTy).Contents (Elt F)),
      StableHlo.unary main_call4_v0 main_call4_v1 (broadcastInDim S100000 ![] bcast_S_S100000 : (⟨S_, .f32⟩ : BufTy).Contents (Elt F) → (⟨S100000, .f32⟩ : BufTy).Contents (Elt F)),
      StableHlo.binary main_call4_v1 main_v69 main_v70 (maximumf : (⟨S100000, .f32⟩ : BufTy).Contents (Elt F) → (⟨S100000, .f32⟩ : BufTy).Contents (Elt F) → (⟨S100000, .f32⟩ : BufTy).Contents (Elt F)) ] := rfl
theorem clipCall5 : (hostOps0_11 : List (HloOp τ sig (Elt F))) =
    [ StableHlo.unary main_cst_18 main_call5_v0 (id : (⟨S_, .f32⟩ : BufTy).Contents (Elt F) → (⟨S_, .f32⟩ : BufTy).Contents (Elt F)),
      StableHlo.unary main_call5_v0 main_call5_v1 (broadcastInDim S100000 ![] bcast_S_S100000 : (⟨S_, .f32⟩ : BufTy).Contents (Elt F) → (⟨S100000, .f32⟩ : BufTy).Contents (Elt F)),
      StableHlo.binary main_call5_v1 main_v73 main_v74 (maximumf : (⟨S100000, .f32⟩ : BufTy).Contents (Elt F) → (⟨S100000, .f32⟩ : BufTy).Contents (Elt F) → (⟨S100000, .f32⟩ : BufTy).Contents (Elt F)) ] := rfl
theorem clipCall6 : (hostOps0_13 : List (HloOp τ sig (Elt F))) =
    [ StableHlo.unary main_cst_24 main_call6_v0 (id : (⟨S_, .f32⟩ : BufTy).Contents (Elt F) → (⟨S_, .f32⟩ : BufTy).Contents (Elt F)),
      StableHlo.unary main_call6_v0 main_call6_v1 (broadcastInDim S100000 ![] bcast_S_S100000 : (⟨S_, .f32⟩ : BufTy).Contents (Elt F) → (⟨S100000, .f32⟩ : BufTy).Contents (Elt F)),
      StableHlo.binary main_call6_v1 main_v100 main_v101 (maximumf : (⟨S100000, .f32⟩ : BufTy).Contents (Elt F) → (⟨S100000, .f32⟩ : BufTy).Contents (Elt F) → (⟨S100000, .f32⟩ : BufTy).Contents (Elt F)) ] := rfl
theorem clipCall7 : (hostOps0_15 : List (HloOp τ sig (Elt F))) =
    [ StableHlo.unary main_cst_26 main_call7_v0 (id : (⟨S_, .f32⟩ : BufTy).Contents (Elt F) → (⟨S_, .f32⟩ : BufTy).Contents (Elt F)),
      StableHlo.unary main_call7_v0 main_call7_v1 (broadcastInDim S100000 ![] bcast_S_S100000 : (⟨S_, .f32⟩ : BufTy).Contents (Elt F) → (⟨S100000, .f32⟩ : BufTy).Contents (Elt F)),
      StableHlo.binary main_call7_v1 main_v104 main_v105 (maximumf : (⟨S100000, .f32⟩ : BufTy).Contents (Elt F) → (⟨S100000, .f32⟩ : BufTy).Contents (Elt F) → (⟨S100000, .f32⟩ : BufTy).Contents (Elt F)) ] := rfl

theorem clipCall8 : (hostOps1_1 : List (HloOp τ sig (Elt F))) =
    [ StableHlo.unary main_cst_32 main_call8_v0 (id : (⟨S_, .f32⟩ : BufTy).Contents (Elt F) → (⟨S_, .f32⟩ : BufTy).Contents (Elt F)),
      StableHlo.unary main_call8_v0 main_call8_v1 (broadcastInDim S100000 ![] bcast_S_S100000 : (⟨S_, .f32⟩ : BufTy).Contents (Elt F) → (⟨S100000, .f32⟩ : BufTy).Contents (Elt F)),
      StableHlo.binary main_call8_v1 main_v138 main_v139 (maximumf : (⟨S100000, .f32⟩ : BufTy).Contents (Elt F) → (⟨S100000, .f32⟩ : BufTy).Contents (Elt F) → (⟨S100000, .f32⟩ : BufTy).Contents (Elt F)) ] := rfl
theorem clipCall9 : (hostOps1_3 : List (HloOp τ sig (Elt F))) =
    [ StableHlo.unary main_cst_34 main_call9_v0 (id : (⟨S_, .f32⟩ : BufTy).Contents (Elt F) → (⟨S_, .f32⟩ : BufTy).Contents (Elt F)),
      StableHlo.unary main_call9_v0 main_call9_v1 (broadcastInDim S100000 ![] bcast_S_S100000 : (⟨S_, .f32⟩ : BufTy).Contents (Elt F) → (⟨S100000, .f32⟩ : BufTy).Contents (Elt F)),
      StableHlo.binary main_call9_v1 main_v142 main_v143 (maximumf : (⟨S100000, .f32⟩ : BufTy).Contents (Elt F) → (⟨S100000, .f32⟩ : BufTy).Contents (Elt F) → (⟨S100000, .f32⟩ : BufTy).Contents (Elt F)) ] := rfl
theorem clipCall10 : (hostOps1_5 : List (HloOp τ sig (Elt F))) =
    [ StableHlo.unary main_cst_40 main_call10_v0 (id : (⟨S_, .f32⟩ : BufTy).Contents (Elt F) → (⟨S_, .f32⟩ : BufTy).Contents (Elt F)),
      StableHlo.unary main_call10_v0 main_call10_v1 (broadcastInDim S100000 ![] bcast_S_S100000 : (⟨S_, .f32⟩ : BufTy).Contents (Elt F) → (⟨S100000, .f32⟩ : BufTy).Contents (Elt F)),
      StableHlo.binary main_call10_v1 main_v169 main_v170 (maximumf : (⟨S100000, .f32⟩ : BufTy).Contents (Elt F) → (⟨S100000, .f32⟩ : BufTy).Contents (Elt F) → (⟨S100000, .f32⟩ : BufTy).Contents (Elt F)) ] := rfl
theorem clipCall11 : (hostOps1_7 : List (HloOp τ sig (Elt F))) =
    [ StableHlo.unary main_cst_42 main_call11_v0 (id : (⟨S_, .f32⟩ : BufTy).Contents (Elt F) → (⟨S_, .f32⟩ : BufTy).Contents (Elt F)),
      StableHlo.unary main_call11_v0 main_call11_v1 (broadcastInDim S100000 ![] bcast_S_S100000 : (⟨S_, .f32⟩ : BufTy).Contents (Elt F) → (⟨S100000, .f32⟩ : BufTy).Contents (Elt F)),
      StableHlo.binary main_call11_v1 main_v173 main_v174 (maximumf : (⟨S100000, .f32⟩ : BufTy).Contents (Elt F) → (⟨S100000, .f32⟩ : BufTy).Contents (Elt F) → (⟨S100000, .f32⟩ : BufTy).Contents (Elt F)) ] := rfl
theorem clipCall12 : (hostOps1_9 : List (HloOp τ sig (Elt F))) =
    [ StableHlo.unary main_cst_48 main_call12_v0 (id : (⟨S_, .f32⟩ : BufTy).Contents (Elt F) → (⟨S_, .f32⟩ : BufTy).Contents (Elt F)),
      StableHlo.unary main_call12_v0 main_call12_v1 (broadcastInDim S100000 ![] bcast_S_S100000 : (⟨S_, .f32⟩ : BufTy).Contents (Elt F) → (⟨S100000, .f32⟩ : BufTy).Contents (Elt F)),
      StableHlo.binary main_call12_v1 main_v200 main_v201 (maximumf : (⟨S100000, .f32⟩ : BufTy).Contents (Elt F) → (⟨S100000, .f32⟩ : BufTy).Contents (Elt F) → (⟨S100000, .f32⟩ : BufTy).Contents (Elt F)) ] := rfl
theorem clipCall13 : (hostOps1_11 : List (HloOp τ sig (Elt F))) =
    [ StableHlo.unary main_cst_50 main_call13_v0 (id : (⟨S_, .f32⟩ : BufTy).Contents (Elt F) → (⟨S_, .f32⟩ : BufTy).Contents (Elt F)),
      StableHlo.unary main_call13_v0 main_call13_v1 (broadcastInDim S100000 ![] bcast_S_S100000 : (⟨S_, .f32⟩ : BufTy).Contents (Elt F) → (⟨S100000, .f32⟩ : BufTy).Contents (Elt F)),
      StableHlo.binary main_call13_v1 main_v204 main_v205 (maximumf : (⟨S100000, .f32⟩ : BufTy).Contents (Elt F) → (⟨S100000, .f32⟩ : BufTy).Contents (Elt F) → (⟨S100000, .f32⟩ : BufTy).Contents (Elt F)) ] := rfl
theorem clipCall14 : (hostOps1_13 : List (HloOp τ sig (Elt F))) =
    [ StableHlo.unary main_cst_56 main_call14_v0 (id : (⟨S_, .f32⟩ : BufTy).Contents (Elt F) → (⟨S_, .f32⟩ : BufTy).Contents (Elt F)),
      StableHlo.unary main_call14_v0 main_call14_v1 (broadcastInDim S100000 ![] bcast_S_S100000 : (⟨S_, .f32⟩ : BufTy).Contents (Elt F) → (⟨S100000, .f32⟩ : BufTy).Contents (Elt F)),
      StableHlo.binary main_call14_v1 main_v231 main_v232 (maximumf : (⟨S100000, .f32⟩ : BufTy).Contents (Elt F) → (⟨S100000, .f32⟩ : BufTy).Contents (Elt F) → (⟨S100000, .f32⟩ : BufTy).Contents (Elt F)) ] := rfl
theorem clipCall15 : (hostOps1_15 : List (HloOp τ sig (Elt F))) =
    [ StableHlo.unary main_cst_58 main_call15_v0 (id : (⟨S_, .f32⟩ : BufTy).Contents (Elt F) → (⟨S_, .f32⟩ : BufTy).Contents (Elt F)),
      StableHlo.unary main_call15_v0 main_call15_v1 (broadcastInDim S100000 ![] bcast_S_S100000 : (⟨S_, .f32⟩ : BufTy).Contents (Elt F) → (⟨S100000, .f32⟩ : BufTy).Contents (Elt F)),
      StableHlo.binary main_call15_v1 main_v235 main_v236 (maximumf : (⟨S100000, .f32⟩ : BufTy).Contents (Elt F) → (⟨S100000, .f32⟩ : BufTy).Contents (Elt F) → (⟨S100000, .f32⟩ : BufTy).Contents (Elt F)) ] := rfl

end ClipCalls

/-! ## One relation's chain as a whole array

`W` is any contents of the buffers before the chain's first stretch. -/

section Windows
variable (W : Valuation τ sig (Elt Ideal))

theorem aggOne0 : (after hostOps0_4 (after hostOps0_3 (after hostOps0_2 (after hostOps0_1 (after hostOps0 W)))) main_v30 : FVec Ideal S100000x128 .f32) =
    Cert.GraphConv.aggregate128 (W main_arg0) (Cert.GraphConv.relRow 0 (W main_arg1)) (Cert.GraphConv.relRow 0 (W main_arg2)) := by
  rw [clipCall0, clipCall1]
  dsimp only [hostOps0, hostOps0_2, hostOps0_4]
  after_results_simp
  rfl

theorem aggOne1 : (after hostOps0_8 (after hostOps0_7 (after hostOps0_6 (after hostOps0_5 (after hostOps0_4 W)))) main_v61 : FVec Ideal S100000x128 .f32) =
    Cert.GraphConv.aggregate128 (W main_arg0) (Cert.GraphConv.relRow 1 (W main_arg1)) (Cert.GraphConv.relRow 1 (W main_arg2)) := by
  rw [clipCall2, clipCall3]
  dsimp only [hostOps0_4, hostOps0_6, hostOps0_8]
  after_results_simp
  rfl

theorem aggOne2 : (after hostOps0_12 (after hostOps0_11 (after hostOps0_10 (after hostOps0_9 (after hostOps0_8 W)))) main_v92 : FVec Ideal S100000x128 .f32) =
    Cert.GraphConv.aggregate128 (W main_arg0) (Cert.GraphConv.relRow 2 (W main_arg1)) (Cert.GraphConv.relRow 2 (W main_arg2)) := by
  rw [clipCall4, clipCall5]
  dsimp only [hostOps0_8, hostOps0_10, hostOps0_12]
  after_results_simp
  rfl

theorem aggOne3 : (after hostOps0_16 (after hostOps0_15 (after hostOps0_14 (after hostOps0_13 (after hostOps0_12 W)))) main_v123 : FVec Ideal S100000x128 .f32) =
    Cert.GraphConv.aggregate128 (W main_arg0) (Cert.GraphConv.relRow 3 (W main_arg1)) (Cert.GraphConv.relRow 3 (W main_arg2)) := by
  rw [clipCall6, clipCall7]
  dsimp only [hostOps0_12, hostOps0_14, hostOps0_16]
  after_results_simp
  rfl

theorem stackOne_last : (after hostOps0_16 W main_v128 : FVec Ideal S4x100000x128 .f32) =
    concatenate S4x100000x128 0
      [⟨S1x100000x128, broadcastInDim S1x100000x128 ![1, 2] bcast_S100000x128_S1x100000x128_1_2 (W main_v30 : FVec Ideal S100000x128 .f32)⟩,
       ⟨S1x100000x128, broadcastInDim S1x100000x128 ![1, 2] bcast_S100000x128_S1x100000x128_1_2 (W main_v61 : FVec Ideal S100000x128 .f32)⟩,
       ⟨S1x100000x128, broadcastInDim S1x100000x128 ![1, 2] bcast_S100000x128_S1x100000x128_1_2 (W main_v92 : FVec Ideal S100000x128 .f32)⟩,
       ⟨S1x100000x128, broadcastInDim S1x100000x128 ![1, 2] bcast_S100000x128_S1x100000x128_1_2 (after hostOps0_16 W main_v123 : FVec Ideal S100000x128 .f32)⟩]
      concatenates_S1x100000x128_S1x100000x128_S1x100000x128_S1x100000x128_S4x100000x128_d0 := by
  dsimp only [hostOps0_16]
  after_results_simp
  first | done | rfl

theorem biasOne_last : (after hostOps0_16 W main_v129 : FVec Ideal S4x1x256 .f32) =
    broadcastInDim S4x1x256 ![0, 2] bcast_S4x256_S4x1x256_0_2 (W main_arg4 : FVec Ideal S4x256 .f32) := by
  dsimp only [hostOps0_16]
  after_results_simp
  first | done | rfl

end Windows

/-! ## The same chains over the first layer's result -/

section WindowsTwo
variable (W : Valuation τ sig (Elt Ideal))

theorem aggTwo0 : (after hostOps1_4 (after hostOps1_3 (after hostOps1_2 (after hostOps1_1 (after hostOps1 W)))) main_v161 : FVec Ideal S100000x256 .f32) =
    Cert.GraphConv.aggregate256 (W main_v130) (Cert.GraphConv.relRow 0 (W main_arg1)) (Cert.GraphConv.relRow 0 (W main_arg2)) := by
  rw [clipCall8, clipCall9]
  dsimp only [hostOps1, hostOps1_2, hostOps1_4]
  after_results_simp
  rfl

theorem aggTwo1 : (after hostOps1_8 (after hostOps1_7 (after hostOps1_6 (after hostOps1_5 (after hostOps1_4 W)))) main_v192 : FVec Ideal S100000x256 .f32) =
    Cert.GraphConv.aggregate256 (W main_v130) (Cert.GraphConv.relRow 1 (W main_arg1)) (Cert.GraphConv.relRow 1 (W main_arg2)) := by
  rw [clipCall10, clipCall11]
  dsimp only [hostOps1_4, hostOps1_6, hostOps1_8]
  after_results_simp
  rfl

theorem aggTwo2 : (after hostOps1_12 (after hostOps1_11 (after hostOps1_10 (after hostOps1_9 (after hostOps1_8 W)))) main_v223 : FVec Ideal S100000x256 .f32) =
    Cert.GraphConv.aggregate256 (W main_v130) (Cert.GraphConv.relRow 2 (W main_arg1)) (Cert.GraphConv.relRow 2 (W main_arg2)) := by
  rw [clipCall12, clipCall13]
  dsimp only [hostOps1_8, hostOps1_10, hostOps1_12]
  after_results_simp
  rfl

theorem aggTwo3 : (after hostOps1_16 (after hostOps1_15 (after hostOps1_14 (after hostOps1_13 (after hostOps1_12 W)))) main_v254 : FVec Ideal S100000x256 .f32) =
    Cert.GraphConv.aggregate256 (W main_v130) (Cert.GraphConv.relRow 3 (W main_arg1)) (Cert.GraphConv.relRow 3 (W main_arg2)) := by
  rw [clipCall14, clipCall15]
  dsimp only [hostOps1_12, hostOps1_14, hostOps1_16]
  after_results_simp
  rfl

theorem stackTwo_last : (after hostOps1_16 W main_v259 : FVec Ideal S4x100000x256 .f32) =
    concatenate S4x100000x256 0
      [⟨S1x100000x256, broadcastInDim S1x100000x256 ![1, 2] bcast_S100000x256_S1x100000x256_1_2 (W main_v161 : FVec Ideal S100000x256 .f32)⟩,
       ⟨S1x100000x256, broadcastInDim S1x100000x256 ![1, 2] bcast_S100000x256_S1x100000x256_1_2 (W main_v192 : FVec Ideal S100000x256 .f32)⟩,
       ⟨S1x100000x256, broadcastInDim S1x100000x256 ![1, 2] bcast_S100000x256_S1x100000x256_1_2 (W main_v223 : FVec Ideal S100000x256 .f32)⟩,
       ⟨S1x100000x256, broadcastInDim S1x100000x256 ![1, 2] bcast_S100000x256_S1x100000x256_1_2 (after hostOps1_16 W main_v254 : FVec Ideal S100000x256 .f32)⟩]
      concatenates_S1x100000x256_S1x100000x256_S1x100000x256_S1x100000x256_S4x100000x256_d0 := by
  dsimp only [hostOps1_16]
  after_results_simp
  first | done | rfl

theorem biasTwo_last : (after hostOps1_16 W main_v260 : FVec Ideal S4x1x256 .f32) =
    broadcastInDim S4x1x256 ![0, 2] bcast_S4x256_S4x1x256_0_2 (W main_arg6 : FVec Ideal S4x256 .f32) := by
  dsimp only [hostOps1_16]
  after_results_simp
  first | done | rfl

end WindowsTwo

/-! ## At the regions' entries -/

/-- Read a buffer back through every host stretch that does not write it. -/
macro "skip_stretches" : tactic =>
  `(tactic| repeat (first
      | (rw [V35_of]; rotate_left; decide) | (rw [V34_of]; rotate_left; decide) | (rw [V33_of]; rotate_left; decide)
      | (rw [V32_of]; rotate_left; decide) | (rw [V31_of]; rotate_left; decide) | (rw [V30_of]; rotate_left; decide)
      | (rw [V29_of]; rotate_left; decide) | (rw [V28_of]; rotate_left; decide) | (rw [V27_of]; rotate_left; decide)
      | (rw [V26_of]; rotate_left; decide) | (rw [V25_of]; rotate_left; decide) | (rw [V24_of]; rotate_left; decide)
      | (rw [V23_of]; rotate_left; decide) | (rw [V22_of]; rotate_left; decide) | (rw [V21_of]; rotate_left; decide)
      | (rw [V20_of]; rotate_left; decide) | (rw [V19_of]; rotate_left; decide) | (rw [V18_of]; rotate_left; decide)
      | (rw [V17_of]; rotate_left; decide) | (rw [V16_of]; rotate_left; decide) | (rw [V15_of]; rotate_left; decide)
      | (rw [V14_of]; rotate_left; decide) | (rw [V13_of]; rotate_left; decide) | (rw [V12_of]; rotate_left; decide)
      | (rw [V11_of]; rotate_left; decide) | (rw [V10_of]; rotate_left; decide) | (rw [V9_of]; rotate_left; decide)
      | (rw [V8_of]; rotate_left; decide) | (rw [V7_of]; rotate_left; decide) | (rw [V6_of]; rotate_left; decide)
      | (rw [V5_of]; rotate_left; decide) | (rw [V4_of]; rotate_left; decide) | (rw [V3_of]; rotate_left; decide)
      | (rw [V2_of]; rotate_left; decide) | (rw [V1_of]; rotate_left; decide)))

section EntryOne
variable (m : (ℓ : Loc nD τ sig) → Buf (Elt Ideal) ℓ) (c : Dev nD)

/-- The aggregation of relation `r` over the input features, as the first region finds the graph. -/
abbrev aggIn (r : Fin 4) : FVec Ideal S100000x128 .f32 :=
  Cert.GraphConv.aggregate128 (m (c, main_arg0)) (Cert.GraphConv.relRow r (m (c, main_arg1))) (Cert.GraphConv.relRow r (m (c, main_arg2)))

theorem aggOne_held0 : (V16 m c main_v30 : FVec Ideal S100000x128 .f32) = aggIn m c 0 := by
  skip_stretches
  exact aggOne0 (V0 m c)

theorem aggOne_held1 : (V16 m c main_v61 : FVec Ideal S100000x128 .f32) = aggIn m c 1 := by
  skip_stretches
  refine (aggOne1 (V4 m c)).trans ?_
  skip_stretches

theorem aggOne_held2 : (V16 m c main_v92 : FVec Ideal S100000x128 .f32) = aggIn m c 2 := by
  skip_stretches
  refine (aggOne2 (V8 m c)).trans ?_
  skip_stretches

theorem aggOne_held3 : (V17 m c main_v123 : FVec Ideal S100000x128 .f32) = aggIn m c 3 := by
  refine (aggOne3 (V12 m c)).trans ?_
  skip_stretches

/-- The stacked aggregations the first region reads, entry by entry. -/
theorem stack_one (r : Fin 4) (i : Fin 100000) (k : Fin 128) :
    (V17 m c main_v128 : FVec Ideal S4x100000x128 .f32) (ix3 r i k) =
      Cert.GraphConv.aggregate128 (m (c, main_arg0)) (Cert.GraphConv.relRow r (m (c, main_arg1)))
        (Cert.GraphConv.relRow r (m (c, main_arg2))) (ix2 i k) := by
  have e : (V17 m c main_v128 : FVec Ideal S4x100000x128 .f32) =
      concatenate S4x100000x128 0
        [⟨S1x100000x128, broadcastInDim S1x100000x128 ![1, 2] bcast_S100000x128_S1x100000x128_1_2 (V16 m c main_v30 : FVec Ideal S100000x128 .f32)⟩,
         ⟨S1x100000x128, broadcastInDim S1x100000x128 ![1, 2] bcast_S100000x128_S1x100000x128_1_2 (V16 m c main_v61 : FVec Ideal S100000x128 .f32)⟩,
         ⟨S1x100000x128, broadcastInDim S1x100000x128 ![1, 2] bcast_S100000x128_S1x100000x128_1_2 (V16 m c main_v92 : FVec Ideal S100000x128 .f32)⟩,
         ⟨S1x100000x128, broadcastInDim S1x100000x128 ![1, 2] bcast_S100000x128_S1x100000x128_1_2 (V17 m c main_v123 : FVec Ideal S100000x128 .f32)⟩]
        concatenates_S1x100000x128_S1x100000x128_S1x100000x128_S1x100000x128_S4x100000x128_d0 :=
    stackOne_last (V16 m c)
  rw [aggOne_held0, aggOne_held1, aggOne_held2, aggOne_held3] at e
  rw [e]
  exact StackRead.stack4_apply (aggIn m c) bcast_S100000x128_S1x100000x128_1_2
    concatenates_S1x100000x128_S1x100000x128_S1x100000x128_S1x100000x128_S4x100000x128_d0 r i k

/-- The first layer's bias as the first region reads it: row r of the [4, 256] bias, under a unit middle axis. -/
theorem bias_one (r : Fin 4) (j : Fin 256) :
    (V17 m c main_v129 : FVec Ideal S4x1x256 .f32) (ix3 r (0 : Fin 1) j) = (m (c, main_arg4) : FVec Ideal S4x256 .f32) (ix2 r j) := by
  have e : (V17 m c main_v129 : FVec Ideal S4x1x256 .f32) =
      broadcastInDim S4x1x256 ![0, 2] bcast_S4x256_S4x1x256_0_2 (V16 m c main_arg4 : FVec Ideal S4x256 .f32) := biasOne_last (V16 m c)
  rw [e]
  skip_stretches
  exact StackRead.broadcast_mid_apply _ bcast_S4x256_S4x1x256_0_2 r j

/-- No host operation before the first region writes an argument. -/
theorem entryOne_arg0 : V17 m c main_arg0 = m (c, main_arg0) := by skip_stretches
theorem entryOne_arg1 : V17 m c main_arg1 = m (c, main_arg1) := by skip_stretches
theorem entryOne_arg2 : V17 m c main_arg2 = m (c, main_arg2) := by skip_stretches
theorem entryOne_arg3 : V17 m c main_arg3 = m (c, main_arg3) := by skip_stretches
theorem entryOne_arg4 : V17 m c main_arg4 = m (c, main_arg4) := by skip_stretches
theorem entryOne_arg5 : V17 m c main_arg5 = m (c, main_arg5) := by skip_stretches
theorem entryOne_arg6 : V17 m c main_arg6 = m (c, main_arg6) := by skip_stretches
theorem entryOne_arg7 : V17 m c main_arg7 = m (c, main_arg7) := by skip_stretches
theorem entryOne_arg8 : V17 m c main_arg8 = m (c, main_arg8) := by skip_stretches

end EntryOne

section EntryTwo
variable (m : (ℓ : Loc nD τ sig) → Buf (Elt Ideal) ℓ) (outs : Outs (F := Ideal)) (c : Dev nD)

/-- What the first region left in its result array is what every later stretch finds there: no host operation
    writes it. -/
theorem hidden_at18 : V18 m outs c main_v130 = outs 18 main_v130 c := by
  simp only [V18, Function.update_self]
theorem hidden_at22 : V22 m outs c main_v130 = outs 18 main_v130 c := by
  skip_stretches
  exact hidden_at18 m outs c
theorem hidden_at26 : V26 m outs c main_v130 = outs 18 main_v130 c := by
  skip_stretches
  exact hidden_at18 m outs c
theorem hidden_at30 : V30 m outs c main_v130 = outs 18 main_v130 c := by
  skip_stretches
  exact hidden_at18 m outs c

/-- The aggregation of relation `r` over the first layer's result, as the second region finds the graph. -/
abbrev aggMid (r : Fin 4) : FVec Ideal S100000x256 .f32 :=
  Cert.GraphConv.aggregate256 (outs 18 main_v130 c) (Cert.GraphConv.relRow r (m (c, main_arg1))) (Cert.GraphConv.relRow r (m (c, main_arg2)))

theorem aggTwo_held0 : (V34 m outs c main_v161 : FVec Ideal S100000x256 .f32) = aggMid m outs c 0 := by
  skip_stretches
  refine (aggTwo0 (V18 m outs c)).trans ?_
  rw [hidden_at18]
  skip_stretches

theorem aggTwo_held1 : (V34 m outs c main_v192 : FVec Ideal S100000x256 .f32) = aggMid m outs c 1 := by
  skip_stretches
  refine (aggTwo1 (V22 m outs c)).trans ?_
  rw [hidden_at22]
  skip_stretches

theorem aggTwo_held2 : (V34 m outs c main_v223 : FVec Ideal S100000x256 .f32) = aggMid m outs c 2 := by
  skip_stretches
  refine (aggTwo2 (V26 m outs c)).trans ?_
  rw [hidden_at26]
  skip_stretches

theorem aggTwo_held3 : (V35 m outs c main_v254 : FVec Ideal S100000x256 .f32) = aggMid m outs c 3 := by
  refine (aggTwo3 (V30 m outs c)).trans ?_
  rw [hidden_at30]
  skip_stretches

/-- The stacked aggregations the second region reads, entry by entry, over whatever the first region left. -/
theorem stack_two (r : Fin 4) (i : Fin 100000) (k : Fin 256) :
    (V35 m outs c main_v259 : FVec Ideal S4x100000x256 .f32) (ix3 r i k) =
      Cert.GraphConv.aggregate256 (outs 18 main_v130 c) (Cert.GraphConv.relRow r (m (c, main_arg1)))
        (Cert.GraphConv.relRow r (m (c, main_arg2))) (ix2 i k) := by
  have e : (V35 m outs c main_v259 : FVec Ideal S4x100000x256 .f32) =
      concatenate S4x100000x256 0
        [⟨S1x100000x256, broadcastInDim S1x100000x256 ![1, 2] bcast_S100000x256_S1x100000x256_1_2 (V34 m outs c main_v161 : FVec Ideal S100000x256 .f32)⟩,
         ⟨S1x100000x256, broadcastInDim S1x100000x256 ![1, 2] bcast_S100000x256_S1x100000x256_1_2 (V34 m outs c main_v192 : FVec Ideal S100000x256 .f32)⟩,
         ⟨S1x100000x256, broadcastInDim S1x100000x256 ![1, 2] bcast_S100000x256_S1x100000x256_1_2 (V34 m outs c main_v223 : FVec Ideal S100000x256 .f32)⟩,
         ⟨S1x100000x256, broadcastInDim S1x100000x256 ![1, 2] bcast_S100000x256_S1x100000x256_1_2 (V35 m outs c main_v254 : FVec Ideal S100000x256 .f32)⟩]
        concatenates_S1x100000x256_S1x100000x256_S1x100000x256_S1x100000x256_S4x100000x256_d0 :=
    stackTwo_last (V34 m outs c)
  rw [aggTwo_held0, aggTwo_held1, aggTwo_held2, aggTwo_held3] at e
  rw [e]
  exact StackRead.stack4_apply (aggMid m outs c) bcast_S100000x256_S1x100000x256_1_2
    concatenates_S1x100000x256_S1x100000x256_S1x100000x256_S1x100000x256_S4x100000x256_d0 r i k

/-- The second layer's bias as the second region reads it. -/
theorem bias_two (r : Fin 4) (j : Fin 256) :
    (V35 m outs c main_v260 : FVec Ideal S4x1x256 .f32) (ix3 r (0 : Fin 1) j) = (m (c, main_arg6) : FVec Ideal S4x256 .f32) (ix2 r j) := by
  have e : (V35 m outs c main_v260 : FVec Ideal S4x1x256 .f32) =
      broadcastInDim S4x1x256 ![0, 2] bcast_S4x256_S4x1x256_0_2 (V34 m outs c main_arg6 : FVec Ideal S4x256 .f32) := biasTwo_last (V34 m outs c)
  rw [e]
  skip_stretches
  exact StackRead.broadcast_mid_apply _ bcast_S4x256_S4x1x256_0_2 r j

/-- No host operation before the second region writes an argument, nor the first region's result. -/
theorem entryTwo_arg0 : V35 m outs c main_arg0 = m (c, main_arg0) := by skip_stretches
theorem entryTwo_arg1 : V35 m outs c main_arg1 = m (c, main_arg1) := by skip_stretches
theorem entryTwo_arg2 : V35 m outs c main_arg2 = m (c, main_arg2) := by skip_stretches
theorem entryTwo_arg3 : V35 m outs c main_arg3 = m (c, main_arg3) := by skip_stretches
theorem entryTwo_arg4 : V35 m outs c main_arg4 = m (c, main_arg4) := by skip_stretches
theorem entryTwo_arg5 : V35 m outs c main_arg5 = m (c, main_arg5) := by skip_stretches
theorem entryTwo_arg6 : V35 m outs c main_arg6 = m (c, main_arg6) := by skip_stretches
theorem entryTwo_arg7 : V35 m outs c main_arg7 = m (c, main_arg7) := by skip_stretches
theorem entryTwo_arg8 : V35 m outs c main_arg8 = m (c, main_arg8) := by skip_stretches
theorem entryTwo_hidden : V35 m outs c main_v130 = outs 18 main_v130 c := by
  skip_stretches
  exact hidden_at18 m outs c

end EntryTwo

/-! ## The facts the three regions' value proofs consume

What each region finds in its input arrays, in the form the value of the whole program is composed from: the
arguments named by core `c`'s locations in the launch memory, the regions' results by the unknowns `outs`. -/

section HostFacts
open Cert.GraphConv
variable (m : (ℓ : Loc nD τ sig) → Buf (Elt Ideal) ℓ) (c : Dev nD)

theorem agg1 : ∀ (r : Fin 4) (i : Fin 100000) (k : Fin 128),
    (V17 m c main_v128 : S4x100000x128.Idx → EReal) (ix3 r i k)
      = aggregate128 (m ((c : Thread nD τ).loc main_arg0)) (relRow r (m ((c : Thread nD τ).loc main_arg1)))
          (relRow r (m ((c : Thread nD τ).loc main_arg2))) (ix2 i k) :=
  fun r i k => stack_one m c r i k

theorem weight1 : (V17 m c main_arg3 : S4x128x256.Idx → EReal) = m ((c : Thread nD τ).loc main_arg3) :=
  entryOne_arg3 m c

theorem bias1 : ∀ (r : Fin 4) (j : Fin 256),
    (V17 m c main_v129 : S4x1x256.Idx → EReal) (ix3 r (0 : Fin 1) j) = (m ((c : Thread nD τ).loc main_arg4) : S4x256.Idx → EReal) (ix2 r j) :=
  fun r j => bias_one m c r j

theorem agg2 : ∀ (outs : Outs (F := Ideal)) (r : Fin 4) (i : Fin 100000) (k : Fin 256),
    (V35 m outs c main_v259 : S4x100000x256.Idx → EReal) (ix3 r i k)
      = aggregate256 (outs 18 main_v130 c) (relRow r (m ((c : Thread nD τ).loc main_arg1)))
          (relRow r (m ((c : Thread nD τ).loc main_arg2))) (ix2 i k) :=
  fun outs r i k => stack_two m outs c r i k

theorem weight2 : ∀ outs : Outs (F := Ideal), (V35 m outs c main_arg5 : S4x256x256.Idx → EReal) = m ((c : Thread nD τ).loc main_arg5) :=
  fun outs => entryTwo_arg5 m outs c

theorem bias2 : ∀ (outs : Outs (F := Ideal)) (r : Fin 4) (j : Fin 256),
    (V35 m outs c main_v260 : S4x1x256.Idx → EReal) (ix3 r (0 : Fin 1) j) = (m ((c : Thread nD τ).loc main_arg6) : S4x256.Idx → EReal) (ix2 r j) :=
  fun outs r j => bias_two m outs c r j

/-- The head's region finds the second region's result where that region left it, and its weight and bias arguments. -/
theorem hidden3 : ∀ outs : Outs (F := Ideal), (V36 m outs c main_v261 : S100000x256.Idx → EReal) = outs 36 main_v261 c := by
  intro outs
  simp only [V36, Function.update_self]

theorem weight3 : ∀ outs : Outs (F := Ideal), (V36 m outs c main_arg7 : S256x128.Idx → EReal) = m ((c : Thread nD τ).loc main_arg7) := by
  intro outs
  rw [V36_of m outs c main_arg7 (by decide)]
  exact entryTwo_arg7 m outs c

theorem bias3 : ∀ outs : Outs (F := Ideal), (V36 m outs c main_arg8 : S128.Idx → EReal) = m ((c : Thread nD τ).loc main_arg8) := by
  intro outs
  rw [V36_of m outs c main_arg8 (by decide)]
  exact entryTwo_arg8 m outs c

end HostFacts

end Cert.KernelIdeal.HostValue
-- ==== Proof.KernelHostFacts.lean ====
/-
  The host side's facts put together, and the kernel program's two results against the specification.

  What the third region finds: the second region's result in place (it is the array that region writes), and the head's
  matrix and bias as launched (no host operation and no region writes an argument). With the two relational layers'
  entry facts this is everything the three regions' value lemmas ask of the host operations, so the second hidden layer and
  the output are the specification's of the nine arguments.
-/
import proofs.«127058_j2791728742679_2_alg».proof.Proof.KernelValue
import proofs.«127058_j2791728742679_2_alg».proof.Proof.KernelHostValues

set_option maxRecDepth 16384

noncomputable section

namespace Cert.KernelIdeal.HostValue

open Cert.KernelIdeal Cert.KernelIdeal.Gen
open Idealize.ShloMosaic Idealize.ShloMosaic.TcCoe Idealize.ShloMosaic.StableHlo Idealize.ShloMosaic.ValueIdx

section EntryThree
variable (m : (ℓ : Loc nD τ sig) → Buf (Elt Ideal) ℓ) (outs : Outs (F := Ideal)) (c : Dev nD)

/-- The third region finds the second region's result in the array that region writes. -/
theorem entryThree_hidden : V36 m outs c main_v261 = outs 36 main_v261 c := by
  simp only [V36, Function.update_self]

/-- It finds the head's matrix and bias as launched. -/
theorem entryThree_arg7 : V36 m outs c main_arg7 = m (c, main_arg7) :=
  (V36_of m outs c main_arg7 (by decide)).trans (entryTwo_arg7 m outs c)
theorem entryThree_arg8 : V36 m outs c main_arg8 = m (c, main_arg8) :=
  (V36_of m outs c main_arg8 (by decide)).trans (entryTwo_arg8 m outs c)

end EntryThree

/-- Everything the regions' value lemmas ask of the host operations. -/
theorem hostFacts (m : (ℓ : Loc nD τ sig) → Buf (Elt Ideal) ℓ) (c : Dev nD) : KernelValue.HostFacts m c where
  agg1 := stack_one m c
  weight1 := entryOne_arg3 m c
  bias1 := bias_one m c
  agg2 := fun outs => stack_two m outs c
  weight2 := fun outs => entryTwo_arg5 m outs c
  bias2 := fun outs => bias_two m outs c
  hidden3 := fun outs => entryThree_hidden m outs c
  weight3 := fun outs => entryThree_arg7 m outs c
  bias3 := fun outs => entryThree_arg8 m outs c

end Cert.KernelIdeal.HostValue

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The second region leaves the specification's hidden features of the arguments. -/
theorem hiddenTwo_spec :
    hiddenTwo m c = (Cert.GraphConv.hiddenSpec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) : S100000x256.Idx → EReal) :=
  KernelValue.hiddenTwo_eq (HostValue.hostFacts m c)

/-- The third region leaves the specification's output of the arguments. -/
theorem outputArr_spec :
    outputArr m c = (Cert.GraphConv.outputSpec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) : S100000x128.Idx → EReal) :=
  KernelValue.outputArr_eq (HostValue.hostFacts m c)

end Cert.KernelIdeal.Hand

end
-- ==== Proof.ReferenceValue.lean ====
/-
  The reference program computes the specification.

  The reference's two results are read here against Cert.GraphConv: the hidden features are two graph-convolution
  layers of the input, the output is their linear head. The program is a straight line of whole-array operations; each
  relation's block of it is (a) the aggregation chain — degree counts, clipping, reciprocal square roots, the gather
  along the sources and the scatter-add along the destinations — which is, operation for operation, the specification's
  aggregate128 / aggregate256 of the block's three inputs and is carried as that one function, never read at an index;
  (b) a product with the relation's weight matrix, read at an index as the sum over the contracted axis; (c) the
  relation's bias row broadcast over the nodes; (d) the addition onto the running sum. The running sum starts at zero,
  takes the four relations in order, and ends in max(·, 0). So at node i and feature j the program's value is literally
  the specification's layer1At / layer2At, and the head is one more product and bias.

  The only index arithmetic is that of the slices and reshapes that cut relation r's matrix and bias row out of the
  stacked parameters: entry (k, j) of the r-th [K, 256] matrix is entry (r, k, j) of the stack, since
  (k·256 + j) / 256 mod K = k and (k·256 + j) mod 256 = j for j < 256.
-/
import proofs.«127058_j2791728742679_2_alg».proof.Proof.ReferenceReadPatched
import proofs.«127058_j2791728742679_2_alg».proof.Proof.GraphConvSpec

noncomputable section

open scoped BigOperators

namespace Cert.ReferenceIdeal.RefValue

open Cert.ReferenceIdeal Cert.ReferenceIdeal.Gen Cert.ReferenceIdeal.Read Cert.GraphConv
open Idealize.ShloMosaic Idealize.ShloMosaic.ValueIdx Idealize.ShloMosaic.TcCoe Idealize.SL.Sem

variable (x0 : (⟨S100000x128, .f32⟩ : BufTy).Contents (Elt Ideal)) (x1 x2 : (⟨S4x400000, .i32⟩ : BufTy).Contents (Elt Ideal))
  (x3 : (⟨S4x128x256, .f32⟩ : BufTy).Contents (Elt Ideal)) (x4 : (⟨S4x256, .f32⟩ : BufTy).Contents (Elt Ideal))
  (x5 : (⟨S4x256x256, .f32⟩ : BufTy).Contents (Elt Ideal)) (x6 : (⟨S4x256, .f32⟩ : BufTy).Contents (Elt Ideal))
  (x7 : (⟨S256x128, .f32⟩ : BufTy).Contents (Elt Ideal)) (x8 : (⟨S128, .f32⟩ : BufTy).Contents (Elt Ideal))

/-! ## The aggregation chains are the specification's, as whole arrays -/

theorem agg1_0 : val_main_v35 (F := Ideal) x0 x1 x2 = aggregate128 x0 (relRow 0 x1) (relRow 0 x2) := rfl
theorem agg1_1 : val_main_v75 (F := Ideal) x0 x1 x2 = aggregate128 x0 (relRow 1 x1) (relRow 1 x2) := rfl
theorem agg1_2 : val_main_v115 (F := Ideal) x0 x1 x2 = aggregate128 x0 (relRow 2 x1) (relRow 2 x2) := rfl
theorem agg1_3 : val_main_v155 (F := Ideal) x0 x1 x2 = aggregate128 x0 (relRow 3 x1) (relRow 3 x2) := rfl

/-- In the second layer the aggregated array is the first layer's result, kept as the stage that computes it. -/
theorem agg2_0 : val_main_v197 (F := Ideal) x0 x1 x2 x3 x4
    = aggregate256 (val_main_v161 (F := Ideal) x0 x1 x2 x3 x4) (relRow 0 x1) (relRow 0 x2) := rfl
theorem agg2_1 : val_main_v237 (F := Ideal) x0 x1 x2 x3 x4
    = aggregate256 (val_main_v161 (F := Ideal) x0 x1 x2 x3 x4) (relRow 1 x1) (relRow 1 x2) := rfl
theorem agg2_2 : val_main_v277 (F := Ideal) x0 x1 x2 x3 x4
    = aggregate256 (val_main_v161 (F := Ideal) x0 x1 x2 x3 x4) (relRow 2 x1) (relRow 2 x2) := rfl
theorem agg2_3 : val_main_v317 (F := Ideal) x0 x1 x2 x3 x4
    = aggregate256 (val_main_v161 (F := Ideal) x0 x1 x2 x3 x4) (relRow 3 x1) (relRow 3 x2) := rfl

/-! ## One relation's contribution to the first layer, at an index

The product reads row i of the aggregation against column j of the relation's matrix; the matrix is a slice of the
stack reshaped, the bias a slice of the stacked biases reshaped and broadcast over the nodes. -/

theorem term1_0 (i : Fin 100000) (j : Fin 256) :
    val_main_v39 (F := Ideal) x0 x1 x2 x3 x4 (ix2 i j) = relTerm1 x0 x1 x2 x3 x4 0 i j := by
  have el : ∀ k : Fin 128, lidx_main_v36 (ix2 i j) k = ix2 i k := fun k =>
    funext fun a => Fin.ext (by match a with | ⟨0, _⟩ => rfl | ⟨1, _⟩ => rfl)
  have er : ∀ k : Fin 128, idx_main_v5 (idx_main_v6 (ridx_main_v36 (ix2 i j) k)) = ix3 (0 : Fin 4) k j := fun k =>
    funext fun a => Fin.ext (by
      have hk := k.isLt; have hj := j.isLt
      match a with
      | ⟨0, _⟩ => rfl
      | ⟨1, _⟩ => show (k.val * 256 + j.val) / 256 % 128 = k.val; omega
      | ⟨2, _⟩ => show (k.val * 256 + j.val) % 256 = j.val; omega)
  have eb : idx_main_v7 (idx_main_v8 (idx_main_v37 (idx_main_v38 (ix2 i j)))) = ix2 (0 : Fin 4) j :=
    funext fun a => Fin.ext (by
      have hj := j.isLt
      match a with
      | ⟨0, _⟩ => rfl
      | ⟨1, _⟩ => show j.val % 256 = j.val; omega)
  unfold relTerm1
  rw [val_main_v39_apply, val_main_v36_apply, val_main_v38_apply, val_main_v37_apply, val_main_v8_apply,
    val_main_v7_apply, eb]
  simp only [val_main_v6_apply, val_main_v5_apply, el, er, agg1_0, Ideal.addf_def]

theorem term1_1 (i : Fin 100000) (j : Fin 256) :
    val_main_v79 (F := Ideal) x0 x1 x2 x3 x4 (ix2 i j) = relTerm1 x0 x1 x2 x3 x4 1 i j := by
  have el : ∀ k : Fin 128, lidx_main_v76 (ix2 i j) k = ix2 i k := fun k =>
    funext fun a => Fin.ext (by match a with | ⟨0, _⟩ => rfl | ⟨1, _⟩ => rfl)
  have er : ∀ k : Fin 128, idx_main_v45 (idx_main_v46 (ridx_main_v76 (ix2 i j) k)) = ix3 (1 : Fin 4) k j := fun k =>
    funext fun a => Fin.ext (by
      have hk := k.isLt; have hj := j.isLt
      match a with
      | ⟨0, _⟩ => rfl
      | ⟨1, _⟩ => show (k.val * 256 + j.val) / 256 % 128 = k.val; omega
      | ⟨2, _⟩ => show (k.val * 256 + j.val) % 256 = j.val; omega)
  have eb : idx_main_v47 (idx_main_v48 (idx_main_v77 (idx_main_v78 (ix2 i j)))) = ix2 (1 : Fin 4) j :=
    funext fun a => Fin.ext (by
      have hj := j.isLt
      match a with
      | ⟨0, _⟩ => rfl
      | ⟨1, _⟩ => show j.val % 256 = j.val; omega)
  unfold relTerm1
  rw [val_main_v79_apply, val_main_v76_apply, val_main_v78_apply, val_main_v77_apply, val_main_v48_apply,
    val_main_v47_apply, eb]
  simp only [val_main_v46_apply, val_main_v45_apply, el, er, agg1_1, Ideal.addf_def]

theorem term1_2 (i : Fin 100000) (j : Fin 256) :
    val_main_v119 (F := Ideal) x0 x1 x2 x3 x4 (ix2 i j) = relTerm1 x0 x1 x2 x3 x4 2 i j := by
  have el : ∀ k : Fin 128, lidx_main_v116 (ix2 i j) k = ix2 i k := fun k =>
    funext fun a => Fin.ext (by match a with | ⟨0, _⟩ => rfl | ⟨1, _⟩ => rfl)
  have er : ∀ k : Fin 128, idx_main_v85 (idx_main_v86 (ridx_main_v116 (ix2 i j) k)) = ix3 (2 : Fin 4) k j := fun k =>
    funext fun a => Fin.ext (by
      have hk := k.isLt; have hj := j.isLt
      match a with
      | ⟨0, _⟩ => rfl
      | ⟨1, _⟩ => show (k.val * 256 + j.val) / 256 % 128 = k.val; omega
      | ⟨2, _⟩ => show (k.val * 256 + j.val) % 256 = j.val; omega)
  have eb : idx_main_v87 (idx_main_v88 (idx_main_v117 (idx_main_v118 (ix2 i j)))) = ix2 (2 : Fin 4) j :=
    funext fun a => Fin.ext (by
      have hj := j.isLt
      match a with
      | ⟨0, _⟩ => rfl
      | ⟨1, _⟩ => show j.val % 256 = j.val; omega)
  unfold relTerm1
  rw [val_main_v119_apply, val_main_v116_apply, val_main_v118_apply, val_main_v117_apply, val_main_v88_apply,
    val_main_v87_apply, eb]
  simp only [val_main_v86_apply, val_main_v85_apply, el, er, agg1_2, Ideal.addf_def]

theorem term1_3 (i : Fin 100000) (j : Fin 256) :
    val_main_v159 (F := Ideal) x0 x1 x2 x3 x4 (ix2 i j) = relTerm1 x0 x1 x2 x3 x4 3 i j := by
  have el : ∀ k : Fin 128, lidx_main_v156 (ix2 i j) k = ix2 i k := fun k =>
    funext fun a => Fin.ext (by match a with | ⟨0, _⟩ => rfl | ⟨1, _⟩ => rfl)
  have er : ∀ k : Fin 128, idx_main_v125 (idx_main_v126 (ridx_main_v156 (ix2 i j) k)) = ix3 (3 : Fin 4) k j := fun k =>
    funext fun a => Fin.ext (by
      have hk := k.isLt; have hj := j.isLt
      match a with
      | ⟨0, _⟩ => rfl
      | ⟨1, _⟩ => show (k.val * 256 + j.val) / 256 % 128 = k.val; omega
      | ⟨2, _⟩ => show (k.val * 256 + j.val) % 256 = j.val; omega)
  have eb : idx_main_v127 (idx_main_v128 (idx_main_v157 (idx_main_v158 (ix2 i j)))) = ix2 (3 : Fin 4) j :=
    funext fun a => Fin.ext (by
      have hj := j.isLt
      match a with
      | ⟨0, _⟩ => rfl
      | ⟨1, _⟩ => show j.val % 256 = j.val; omega)
  unfold relTerm1
  rw [val_main_v159_apply, val_main_v156_apply, val_main_v158_apply, val_main_v157_apply, val_main_v128_apply,
    val_main_v127_apply, eb]
  simp only [val_main_v126_apply, val_main_v125_apply, el, er, agg1_3, Ideal.addf_def]

/-! ## The first layer

The running sum starts at the zero array, takes the four contributions in order, and ends in max(·, 0) against the
zero array; the zero word is the real number zero. -/

theorem layer1_val : val_main_v161 (F := Ideal) x0 x1 x2 x3 x4 = layer1 x0 x1 x2 x3 x4 := by
  funext idx
  obtain ⟨i, j, rfl⟩ : ∃ (i : Fin 100000) (j : Fin 256), idx = ix2 i j := ⟨idx 0, idx 1, eq_ix2 idx⟩
  rw [layer1_ix2]
  unfold layer1At
  rw [val_main_v161_apply, val_main_v160_apply, val_main_v120_apply, val_main_v80_apply, val_main_v40_apply,
    term1_0, term1_1, term1_2, term1_3, val_main_v0_apply, val_main_cst_apply, val_main_call8_v0_apply,
    val_main_call8_cst_apply]
  simp only [Ideal.addf_def, Ideal.maximumf_def, Ideal.ofBits_def, Ideal.ofBits_zero_f32]

/-! ## One relation's contribution to the second layer, at an index -/

theorem term2_0 (i : Fin 100000) (j : Fin 256) :
    val_main_v201 (F := Ideal) x0 x1 x2 x3 x4 x5 x6 (ix2 i j)
      = relTerm2 (val_main_v161 (F := Ideal) x0 x1 x2 x3 x4) x1 x2 x5 x6 0 i j := by
  have el : ∀ k : Fin 256, lidx_main_v198 (ix2 i j) k = ix2 i k := fun k =>
    funext fun a => Fin.ext (by match a with | ⟨0, _⟩ => rfl | ⟨1, _⟩ => rfl)
  have er : ∀ k : Fin 256, idx_main_v167 (idx_main_v168 (ridx_main_v198 (ix2 i j) k)) = ix3 (0 : Fin 4) k j := fun k =>
    funext fun a => Fin.ext (by
      have hk := k.isLt; have hj := j.isLt
      match a with
      | ⟨0, _⟩ => rfl
      | ⟨1, _⟩ => show (k.val * 256 + j.val) / 256 % 256 = k.val; omega
      | ⟨2, _⟩ => show (k.val * 256 + j.val) % 256 = j.val; omega)
  have eb : idx_main_v169 (idx_main_v170 (idx_main_v199 (idx_main_v200 (ix2 i j)))) = ix2 (0 : Fin 4) j :=
    funext fun a => Fin.ext (by
      have hj := j.isLt
      match a with
      | ⟨0, _⟩ => rfl
      | ⟨1, _⟩ => show j.val % 256 = j.val; omega)
  unfold relTerm2
  rw [val_main_v201_apply, val_main_v198_apply, val_main_v200_apply, val_main_v199_apply, val_main_v170_apply,
    val_main_v169_apply, eb]
  simp only [val_main_v168_apply, val_main_v167_apply, el, er, agg2_0, Ideal.addf_def]

theorem term2_1 (i : Fin 100000) (j : Fin 256) :
    val_main_v241 (F := Ideal) x0 x1 x2 x3 x4 x5 x6 (ix2 i j)
      = relTerm2 (val_main_v161 (F := Ideal) x0 x1 x2 x3 x4) x1 x2 x5 x6 1 i j := by
  have el : ∀ k : Fin 256, lidx_main_v238 (ix2 i j) k = ix2 i k := fun k =>
    funext fun a => Fin.ext (by match a with | ⟨0, _⟩ => rfl | ⟨1, _⟩ => rfl)
  have er : ∀ k : Fin 256, idx_main_v207 (idx_main_v208 (ridx_main_v238 (ix2 i j) k)) = ix3 (1 : Fin 4) k j := fun k =>
    funext fun a => Fin.ext (by
      have hk := k.isLt; have hj := j.isLt
      match a with
      | ⟨0, _⟩ => rfl
      | ⟨1, _⟩ => show (k.val * 256 + j.val) / 256 % 256 = k.val; omega
      | ⟨2, _⟩ => show (k.val * 256 + j.val) % 256 = j.val; omega)
  have eb : idx_main_v209 (idx_main_v210 (idx_main_v239 (idx_main_v240 (ix2 i j)))) = ix2 (1 : Fin 4) j :=
    funext fun a => Fin.ext (by
      have hj := j.isLt
      match a with
      | ⟨0, _⟩ => rfl
      | ⟨1, _⟩ => show j.val % 256 = j.val; omega)
  unfold relTerm2
  rw [val_main_v241_apply, val_main_v238_apply, val_main_v240_apply, val_main_v239_apply, val_main_v210_apply,
    val_main_v209_apply, eb]
  simp only [val_main_v208_apply, val_main_v207_apply, el, er, agg2_1, Ideal.addf_def]

theorem term2_2 (i : Fin 100000) (j : Fin 256) :
    val_main_v281 (F := Ideal) x0 x1 x2 x3 x4 x5 x6 (ix2 i j)
      = relTerm2 (val_main_v161 (F := Ideal) x0 x1 x2 x3 x4) x1 x2 x5 x6 2 i j := by
  have el : ∀ k : Fin 256, lidx_main_v278 (ix2 i j) k = ix2 i k := fun k =>
    funext fun a => Fin.ext (by match a with | ⟨0, _⟩ => rfl | ⟨1, _⟩ => rfl)
  have er : ∀ k : Fin 256, idx_main_v247 (idx_main_v248 (ridx_main_v278 (ix2 i j) k)) = ix3 (2 : Fin 4) k j := fun k =>
    funext fun a => Fin.ext (by
      have hk := k.isLt; have hj := j.isLt
      match a with
      | ⟨0, _⟩ => rfl
      | ⟨1, _⟩ => show (k.val * 256 + j.val) / 256 % 256 = k.val; omega
      | ⟨2, _⟩ => show (k.val * 256 + j.val) % 256 = j.val; omega)
  have eb : idx_main_v249 (idx_main_v250 (idx_main_v279 (idx_main_v280 (ix2 i j)))) = ix2 (2 : Fin 4) j :=
    funext fun a => Fin.ext (by
      have hj := j.isLt
      match a with
      | ⟨0, _⟩ => rfl
      | ⟨1, _⟩ => show j.val % 256 = j.val; omega)
  unfold relTerm2
  rw [val_main_v281_apply, val_main_v278_apply, val_main_v280_apply, val_main_v279_apply, val_main_v250_apply,
    val_main_v249_apply, eb]
  simp only [val_main_v248_apply, val_main_v247_apply, el, er, agg2_2, Ideal.addf_def]

theorem term2_3 (i : Fin 100000) (j : Fin 256) :
    val_main_v321 (F := Ideal) x0 x1 x2 x3 x4 x5 x6 (ix2 i j)
      = relTerm2 (val_main_v161 (F := Ideal) x0 x1 x2 x3 x4) x1 x2 x5 x6 3 i j := by
  have el : ∀ k : Fin 256, lidx_main_v318 (ix2 i j) k = ix2 i k := fun k =>
    funext fun a => Fin.ext (by match a with | ⟨0, _⟩ => rfl | ⟨1, _⟩ => rfl)
  have er : ∀ k : Fin 256, idx_main_v287 (idx_main_v288 (ridx_main_v318 (ix2 i j) k)) = ix3 (3 : Fin 4) k j := fun k =>
    funext fun a => Fin.ext (by
      have hk := k.isLt; have hj := j.isLt
      match a with
      | ⟨0, _⟩ => rfl
      | ⟨1, _⟩ => show (k.val * 256 + j.val) / 256 % 256 = k.val; omega
      | ⟨2, _⟩ => show (k.val * 256 + j.val) % 256 = j.val; omega)
  have eb : idx_main_v289 (idx_main_v290 (idx_main_v319 (idx_main_v320 (ix2 i j)))) = ix2 (3 : Fin 4) j :=
    funext fun a => Fin.ext (by
      have hj := j.isLt
      match a with
      | ⟨0, _⟩ => rfl
      | ⟨1, _⟩ => show j.val % 256 = j.val; omega)
  unfold relTerm2
  rw [val_main_v321_apply, val_main_v318_apply, val_main_v320_apply, val_main_v319_apply, val_main_v290_apply,
    val_main_v289_apply, eb]
  simp only [val_main_v288_apply, val_main_v287_apply, el, er, agg2_3, Ideal.addf_def]

/-! ## The second layer, over the first layer's result -/

theorem layer2_val : val_main_v323 (F := Ideal) x0 x1 x2 x3 x4 x5 x6
    = layer2 (val_main_v161 (F := Ideal) x0 x1 x2 x3 x4) x1 x2 x5 x6 := by
  funext idx
  obtain ⟨i, j, rfl⟩ : ∃ (i : Fin 100000) (j : Fin 256), idx = ix2 i j := ⟨idx 0, idx 1, eq_ix2 idx⟩
  rw [layer2_ix2]
  unfold layer2At
  rw [val_main_v323_apply, val_main_v322_apply, val_main_v282_apply, val_main_v242_apply, val_main_v202_apply,
    term2_0, term2_1, term2_2, term2_3, val_main_v162_apply, val_main_cst_31_apply, val_main_call17_v0_apply,
    val_main_call17_cst_apply]
  simp only [Ideal.addf_def, Ideal.maximumf_def, Ideal.ofBits_def, Ideal.ofBits_zero_f32]

/-- The hidden features are the specification's. -/
theorem hidden_val : val_main_v323 (F := Ideal) x0 x1 x2 x3 x4 x5 x6 = hiddenSpec x0 x1 x2 x3 x4 x5 x6 := by
  rw [layer2_val, layer1_val]
  rfl

/-! ## The head -/

theorem head_val : val_main_v327 (F := Ideal) x0 x1 x2 x3 x4 x5 x6 x7 x8
    = head (val_main_v323 (F := Ideal) x0 x1 x2 x3 x4 x5 x6) x7 x8 := by
  funext idx
  obtain ⟨i, j, rfl⟩ : ∃ (i : Fin 100000) (j : Fin 128), idx = ix2 i j := ⟨idx 0, idx 1, eq_ix2 idx⟩
  have el : ∀ k : Fin 256, lidx_main_v324 (ix2 i j) k = ix2 i k := fun k =>
    funext fun a => Fin.ext (by match a with | ⟨0, _⟩ => rfl | ⟨1, _⟩ => rfl)
  have er : ∀ k : Fin 256, ridx_main_v324 (ix2 i j) k = ix2 k j := fun k =>
    funext fun a => Fin.ext (by match a with | ⟨0, _⟩ => rfl | ⟨1, _⟩ => rfl)
  have eb : idx_main_v325 (idx_main_v326 (ix2 i j)) = ix1 j :=
    funext fun a => Fin.ext (by match a with | ⟨0, _⟩ => rfl)
  rw [head_ix2]
  unfold headAt
  rw [val_main_v327_apply, val_main_v324_apply, val_main_v326_apply, val_main_v325_apply, eb]
  simp only [el, er, Ideal.addf_def]

/-- The output is the specification's. -/
theorem output_val : val_main_v327 (F := Ideal) x0 x1 x2 x3 x4 x5 x6 x7 x8
    = outputSpec x0 x1 x2 x3 x4 x5 x6 x7 x8 := by
  rw [head_val, hidden_val]
  rfl

/-! ## The run's two results, and the run stated against the specification -/

/-- The run's first result is the specification's hidden features of the argument arrays. -/
theorem hidden_eq (m : (ℓ : Loc nD τ sig) → Buf (Elt Ideal) ℓ) (c : Dev nD) :
    Cert.ReferenceIdeal.Value.res_out0 (F := Ideal) m c
      = hiddenSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v323_eq m c).trans (hidden_val _ _ _ _ _ _ _)

/-- The run's second result is the specification's output of the argument arrays. -/
theorem output_eq (m : (ℓ : Loc nD τ sig) → Buf (Elt Ideal) ℓ) (c : Dev nD) :
    Cert.ReferenceIdeal.Value.res_out1 (F := Ideal) m c
      = outputSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v327_eq m c).trans (output_val _ _ _ _ _ _ _ _ _)

/-- Every weakly fair execution of the reference ends with the two results at the specification of the launch
    contents of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v323)
        = hiddenSpec (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_v327)
        = outputSpec (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans (hidden_eq m c), (h c).2.1.trans (output_eq m c), (h c).2.2⟩)
    (Cert.ReferenceIdeal.Value.run (F := Ideal) m ρ)

end Cert.ReferenceIdeal.RefValue

end
-- ==== Proof.lean ====
/-
  The certificate of the two-layer relational graph convolution with a linear head: the kernel program (three
  kernel regions among host operations) against its reference, at the ideal instance, and the frames of all three programs.

  Both programs aggregate the node features per relation on the host by the same chain of operations
  (degree normalisation, gather along the edges' sources, scatter-add into their targets), so that chain rides through
  the proof as one function of the features and one relation's edge lists. A layer is then, row i and column j,
      max( ((((0 + t_0) + t_1) + t_2) + t_3) , 0 ),    t_r = Σ_k agg_r[i,k] · W[r,k,j] + b[r,j],
  which the reference computes as four matrix products added in that order, and the kernel as an accumulator over
  the relation axis of its grid — cleared at the first relation, increased by t_r at each, and stored through the
  maximum with 0 at the last —, block of 2000 rows by block. The head is one more matrix product and a bias. The two
  sides meet at that one specification, index by index; no law of the extended reals is needed beyond reading each
  operation at an index, because the order and grouping of every sum is the same on both sides.

  The kernel program's run is assembled from one segment record per kernel region (the accumulator's contents
  named point by point in the region's invariant) over the conditional frame of its host side; the word-level
  program's frame is the same text at the other instance; the reference's frame is its run with the results dropped;
  the idealization rewrote nothing.
-/
import proofs.«127058_j2791728742679_2_alg».proof.Defs
import proofs.«127058_j2791728742679_2_alg».proof.Proof.Gen.Kernel
import proofs.«127058_j2791728742679_2_alg».proof.Proof.Gen.KernelIdeal
import proofs.«127058_j2791728742679_2_alg».proof.Proof.Gen.ReferenceIdeal
import proofs.«127058_j2791728742679_2_alg».proof.Proof.Gen.Pre_finite_inputs
import proofs.«127058_j2791728742679_2_alg».proof.Proof.KernelRunBits
import proofs.«127058_j2791728742679_2_alg».proof.Proof.KernelRunIdeal
import proofs.«127058_j2791728742679_2_alg».proof.Proof.KernelHostFacts
import proofs.«127058_j2791728742679_2_alg».proof.Proof.ReferenceValue
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Hand.frame m ρ
theorem frame_kernelIdeal : Cert.frame_KernelIdeal := fun m ρ _ => Cert.KernelIdeal.Hand.frame m ρ
/-- The reference's frame: its run to the specification, the two results dropped. -/
theorem frame_reference : Cert.frame_ReferenceIdeal := fun m ρ _ =>
  (θ_run Cert.ReferenceIdeal.defs _ _).mono (fun _ h c => (h c).2.2) (Cert.ReferenceIdeal.RefValue.run_spec m ρ)

/-- The ideal pass rewrote no operation. -/
theorem preserves : Cert.preserves_Kernel_KernelIdeal := trivial

/-- Both programs end with the specification's two arrays of the (agreeing) argument arrays. -/
theorem algebraic : Cert.algebraic_KernelIdeal_ReferenceIdeal := by
  intro m ρ m' ρ' _ hagree
  refine ⟨fun c => Cert.GraphConv.hiddenSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.GraphConv.outputSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.hiddenTwo_spec m c),
        (h c).2.1.trans (Cert.KernelIdeal.Hand.outputArr_spec m c), (h c).2.2⟩)
      (Cert.KernelIdeal.Hand.run_results (F := Ideal) m ρ)
  · refine (θ_run Cert.ReferenceIdeal.defs _ _).mono (fun _ h c => ?_) (Cert.ReferenceIdeal.RefValue.run_spec m' ρ')
    obtain ⟨a0, a1, a2, a3, a4, a5, a6, a7, a8⟩ := hagree c
    refine ⟨?_, ?_, (h c).2.2⟩
    · rw [(h c).1, a0, a1, a2, a3, a4, a5, a6]
    · rw [(h c).2.1, a0, a1, a2, a3, a4, a5, a6, a7, a8]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
